-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v114_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  main_v53

def fn_part2 {F : FTy → Type} [FloatOps F] (main_arg8 : FVec F S3x128x128 .f32) (main_arg9 : FVec F S3x128 .f32) (main_arg10 : FVec F S3x128 .f32) (main_arg11 : FVec F S3x128 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg11
  let main_cst_18 : FVec F S_ .f32 := constant S_ .f32 0x7F800000#32
  let main_v50 : FVec F S3x128 .f32 := broadcastInDim S3x128 ![] bcast_S_S3x128 main_cst_18
  fn_part3 (F := F) main_v48 main_v49 main_v50

def fn_part1 {F : FTy → Type} [FloatOps F] (main_arg5 : FVec F S128 .f32) (main_arg6 : FVec F S128 .f32) (main_arg7 : FVec F S3x128x128 .f32) (main_arg8 : FVec F S3x128x128 .f32) (main_arg9 : FVec F S3x128 .f32) (main_arg10 : FVec F S3x128 .f32) (main_arg11 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128 .f32) (main_arg6 : FVec F S128 .f32) (main_arg7 : FVec F S3x128x128 .f32) (main_arg8 : FVec F S3x128x128 .f32) (main_arg9 : FVec F S3x128 .f32) (main_arg10 : FVec F S3x128 .f32) (main_arg11 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x128x128 : Shape := ⟨3, ![1, 128, 128]⟩

abbrev nBuf : Space → Nat
  | .hbm => 244
  | .vmem => 84
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128, .f32⟩
  | 6 => ⟨S128, .f32⟩
  | 7 => ⟨S3x128x128, .f32⟩
  | 8 => ⟨S3x128x128, .f32⟩
  | 9 => ⟨S3x128, .f32⟩
  | 10 => ⟨S3x128, .f32⟩
  | 11 => ⟨S3x128, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S100000x128, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S1x128, .f32⟩
  | 32 => ⟨S100000x128, .f32⟩
  | 33 => ⟨S_, .f32⟩
  | 34 => ⟨S128, .f32⟩
  | 35 => ⟨S1x128, .f32⟩
  | 36 => ⟨S_, .f32⟩
  | 37 => ⟨S1x128, .f32⟩
  | 38 => ⟨S1x128, .f32⟩
  | 39 => ⟨S_, .i32⟩
  | 40 => ⟨S_, .f32⟩
  | 41 => ⟨S128, .f32⟩
  | 42 => ⟨S1x128, .f32⟩
  | 43 => ⟨S_, .f32⟩
  | 44 => ⟨S1x128, .f32⟩
  | 45 => ⟨S1x128, .f32⟩
  | 46 => ⟨S100000x128, .f32⟩
  | 47 => ⟨S100000x128, .f32⟩
  | 48 => ⟨S100000x128, .f32⟩
  | 49 => ⟨S_, .f32⟩
  | 50 => ⟨S_, .f32⟩
  | 51 => ⟨S_, .f32⟩
  | 52 => ⟨S_, .f32⟩
  | 53 => ⟨S128, .f32⟩
  | 54 => ⟨S1x128, .f32⟩
  | 55 => ⟨S1x128, .f32⟩
  | 56 => ⟨S1x128, .f32⟩
  | 57 => ⟨S_, .f32⟩
  | 58 => ⟨S_, .i1⟩
  | 59 => ⟨S_, .f32⟩
  | 60 => ⟨S_, .f32⟩
  | 61 => ⟨S1x128, .f32⟩
  | 62 => ⟨S1x128, .f32⟩
  | 63 => ⟨S1x128, .f32⟩
  | 64 => ⟨S1x128, .f32⟩
  | 65 => ⟨S100000x128, .f32⟩
  | 66 => ⟨S100000x128, .f32⟩
  | 67 => ⟨S1x128x128, .f32⟩
  | 68 => ⟨S128x128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S1x128, .f32⟩
  | 91 => ⟨S100000x128, .f32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S100000x128, .f32⟩
  | 106 => ⟨S100000x128, .f32⟩
  | 107 => ⟨S100000x128, .f32⟩
  | 108 => ⟨S_, .f32⟩
  | 109 => ⟨S_, .f32⟩
  | 110 => ⟨S_, .f32⟩
  | 111 => ⟨S_, .f32⟩
  | 112 => ⟨S128, .f32⟩
  | 113 => ⟨S1x128, .f32⟩
  | 114 => ⟨S1x128, .f32⟩
  | 115 => ⟨S1x128, .f32⟩
  | 116 => ⟨S_, .f32⟩
  | 117 => ⟨S_, .i1⟩
  | 118 => ⟨S_, .f32⟩
  | 119 => ⟨S_, .f32⟩
  | 120 => ⟨S1x128, .f32⟩
  | 121 => ⟨S1x128, .f32⟩
  | 122 => ⟨S1x128, .f32⟩
  | 123 => ⟨S1x128, .f32⟩
  | 124 => ⟨S100000x128, .f32⟩
  | 125 => ⟨S100000x128, .f32⟩
  | 126 => ⟨S1x128x128, .f32⟩
  | 127 => ⟨S128x128, .f32⟩
  | _ => ⟨S100000x128, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x128, .f32⟩
  | 17 => ⟨S_, .f32⟩
  | 18 => ⟨S100000x128, .f32⟩
  | 19 => ⟨S1600000x1, .i32⟩
  | 20 => ⟨S100000x128, .f32⟩
  | 21 => ⟨S1x128, .f32⟩
  | 22 => ⟨S100000x128, .f32⟩
  | 23 => ⟨S_, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S_, .i32⟩
  | 30 => ⟨S_, .f32⟩
  | 31 => ⟨S128, .f32⟩
  | 32 => ⟨S1x128, .f32⟩
  | 33 => ⟨S_, .f32⟩
  | 34 => ⟨S1x128, .f32⟩
  | 35 => ⟨S1x128, .f32⟩
  | 36 => ⟨S100000x128, .f32⟩
  | 37 => ⟨S100000x128, .f32⟩
  | 38 => ⟨S100000x128, .f32⟩
  | 39 => ⟨S_, .f32⟩
  | 40 => ⟨S_, .f32⟩
  | 41 => ⟨S_, .f32⟩
  | 42 => ⟨S_, .f32⟩
  | 43 => ⟨S128, .f32⟩
  | 44 => ⟨S1x128, .f32⟩
  | 45 => ⟨S1x128, .f32⟩
  | 46 => ⟨S1x128, .f32⟩
  | 47 => ⟨S_, .f32⟩
  | 48 => ⟨S_, .i1⟩
  | 49 => ⟨S_, .f32⟩
  | 50 => ⟨S_, .f32⟩
  | 51 => ⟨S1x128, .f32⟩
  | 52 => ⟨S1x128, .f32⟩
  | 53 => ⟨S1x128, .f32⟩
  | 54 => ⟨S1x128, .f32⟩
  | 55 => ⟨S100000x128, .f32⟩
  | 56 => ⟨S100000x128, .f32⟩
  | 57 => ⟨S1x128x128, .f32⟩
  | 58 => ⟨S128x128, .f32⟩
  | 59 => ⟨S1x128x128, .f32⟩
  | 60 => ⟨S128x128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S1x128, .f32⟩
  | 81 => ⟨S100000x128, .f32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S100000x128, .f32⟩
  | 96 => ⟨S100000x128, .f32⟩
  | 97 => ⟨S100000x128, .f32⟩
  | 98 => ⟨S_, .f32⟩
  | 99 => ⟨S_, .f32⟩
  | 100 => ⟨S_, .f32⟩
  | 101 => ⟨S_, .f32⟩
  | 102 => ⟨S128, .f32⟩
  | 103 => ⟨S1x128, .f32⟩
  | 104 => ⟨S1x128, .f32⟩
  | 105 => ⟨S1x128, .f32⟩
  | 106 => ⟨S_, .f32⟩
  | 107 => ⟨S_, .i1⟩
  | 108 => ⟨S_, .f32⟩
  | 109 => ⟨S_, .f32⟩
  | 110 => ⟨S1x128, .f32⟩
  | 111 => ⟨S1x128, .f32⟩
  | 112 => ⟨S1x128, .f32⟩
  | 113 => ⟨S1x128, .f32⟩
  | 114 => ⟨S100000x128, .f32⟩
  | 115 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S128x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S128x128, .f32⟩
  | .local _ .vmem, ⟨68, _⟩ => ⟨S128x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_cst_3 : Ref sig .tc := ⟨.hbm, 57, rfl⟩
abbrev main_call0_v13 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24_0 : Ref sig .tc := ⟨.hbm, 65, rfl⟩
abbrev main_v24_1 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_c_5 : Ref sig .tc := ⟨.hbm, 77, rfl⟩
abbrev main_v35 : Ref sig .tc := ⟨.hbm, 78, rfl⟩
abbrev main_v36 : Ref sig .tc := ⟨.hbm, 79, rfl⟩
abbrev main_c_6 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_7 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_8 : Ref sig .tc := ⟨.hbm, 92, rfl⟩
abbrev main_v47 : Ref sig .tc := ⟨.hbm, 93, rfl⟩
abbrev main_v48 : Ref sig .tc := ⟨.hbm, 94, rfl⟩
abbrev main_cst_9 : Ref sig .tc := ⟨.hbm, 95, rfl⟩
abbrev main_v49 : Ref sig .tc := ⟨.hbm, 96, rfl⟩
abbrev main_v50 : Ref sig .tc := ⟨.hbm, 97, rfl⟩
abbrev main_c_10 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_cst_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_cst_1 : Ref sig .tc := ⟨.hbm, 109, rfl⟩
abbrev main_call1_v8 : Ref sig .tc := ⟨.hbm, 110, rfl⟩
abbrev main_call1_cst_2 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_v12 : Ref sig .tc := ⟨.hbm, 115, rfl⟩
abbrev main_call1_cst_3 : Ref sig .tc := ⟨.hbm, 116, rfl⟩
abbrev main_call1_v13 : Ref sig .tc := ⟨.hbm, 117, rfl⟩
abbrev main_call1_cst_4 : Ref sig .tc := ⟨.hbm, 118, rfl⟩
abbrev main_call1_call0_v0 : Ref sig .tc := ⟨.hbm, 119, rfl⟩
abbrev main_call1_call0_v1 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54_0 : Ref sig .tc := ⟨.hbm, 124, rfl⟩
abbrev main_v54_1 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_c_11 : Ref sig .tc := ⟨.hbm, 136, rfl⟩
abbrev main_v65 : Ref sig .tc := ⟨.hbm, 137, rfl⟩
abbrev main_v66 : Ref sig .tc := ⟨.hbm, 138, rfl⟩
abbrev main_c_12 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_cst_13 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_cst_14 : Ref sig .tc := ⟨.hbm, 151, rfl⟩
abbrev main_v77 : Ref sig .tc := ⟨.hbm, 152, rfl⟩
abbrev main_v78 : Ref sig .tc := ⟨.hbm, 153, rfl⟩
abbrev main_cst_15 : Ref sig .tc := ⟨.hbm, 154, rfl⟩
abbrev main_v79 : Ref sig .tc := ⟨.hbm, 155, rfl⟩
abbrev main_v80 : Ref sig .tc := ⟨.hbm, 156, rfl⟩
abbrev main_c_16 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_cst_0 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_v6 : Ref sig .tc := ⟨.hbm, 166, rfl⟩
abbrev main_call2_v7 : Ref sig .tc := ⟨.hbm, 167, rfl⟩
abbrev main_call2_cst_1 : Ref sig .tc := ⟨.hbm, 168, rfl⟩
abbrev main_call2_v8 : Ref sig .tc := ⟨.hbm, 169, rfl⟩
abbrev main_call2_cst_2 : Ref sig .tc := ⟨.hbm, 170, rfl⟩
abbrev main_call2_v9 : Ref sig .tc := ⟨.hbm, 171, rfl⟩
abbrev main_call2_v10 : Ref sig .tc := ⟨.hbm, 172, rfl⟩
abbrev main_call2_v11 : Ref sig .tc := ⟨.hbm, 173, rfl⟩
abbrev main_call2_v12 : Ref sig .tc := ⟨.hbm, 174, rfl⟩
abbrev main_call2_cst_3 : Ref sig .tc := ⟨.hbm, 175, rfl⟩
abbrev main_call2_v13 : Ref sig .tc := ⟨.hbm, 176, rfl⟩
abbrev main_call2_cst_4 : Ref sig .tc := ⟨.hbm, 177, rfl⟩
abbrev main_call2_call0_v0 : Ref sig .tc := ⟨.hbm, 178, rfl⟩
abbrev main_call2_call0_v1 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_v84_0 : Ref sig .tc := ⟨.hbm, 183, rfl⟩
abbrev main_v84_1 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_c_17 : Ref sig .tc := ⟨.hbm, 195, rfl⟩
abbrev main_v95 : Ref sig .tc := ⟨.hbm, 196, rfl⟩
abbrev main_v96 : Ref sig .tc := ⟨.hbm, 197, rfl⟩
abbrev main_c_18 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_cst_19 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_cst_20 : Ref sig .tc := ⟨.hbm, 210, rfl⟩
abbrev main_v107 : Ref sig .tc := ⟨.hbm, 211, rfl⟩
abbrev main_v108 : Ref sig .tc := ⟨.hbm, 212, rfl⟩
abbrev main_cst_21 : Ref sig .tc := ⟨.hbm, 213, rfl⟩
abbrev main_v109 : Ref sig .tc := ⟨.hbm, 214, rfl⟩
abbrev main_v110 : Ref sig .tc := ⟨.hbm, 215, rfl⟩
abbrev main_c_22 : Ref sig .tc := ⟨.hbm, 216, rfl⟩
abbrev main_call3_cst : Ref sig .tc := ⟨.hbm, 217, rfl⟩
abbrev main_call3_v0 : Ref sig .tc := ⟨.hbm, 218, rfl⟩
abbrev main_call3_v1 : Ref sig .tc := ⟨.hbm, 219, rfl⟩
abbrev main_call3_cst_0 : Ref sig .tc := ⟨.hbm, 220, rfl⟩
abbrev main_call3_v2 : Ref sig .tc := ⟨.hbm, 221, rfl⟩
abbrev main_call3_v3 : Ref sig .tc := ⟨.hbm, 222, rfl⟩
abbrev main_call3_v4 : Ref sig .tc := ⟨.hbm, 223, rfl⟩
abbrev main_call3_v5 : Ref sig .tc := ⟨.hbm, 224, rfl⟩
abbrev main_call3_v6 : Ref sig .tc := ⟨.hbm, 225, rfl⟩
abbrev main_call3_v7 : Ref sig .tc := ⟨.hbm, 226, rfl⟩
abbrev main_call3_cst_1 : Ref sig .tc := ⟨.hbm, 227, rfl⟩
abbrev main_call3_v8 : Ref sig .tc := ⟨.hbm, 228, rfl⟩
abbrev main_call3_cst_2 : Ref sig .tc := ⟨.hbm, 229, rfl⟩
abbrev main_call3_v9 : Ref sig .tc := ⟨.hbm, 230, rfl⟩
abbrev main_call3_v10 : Ref sig .tc := ⟨.hbm, 231, rfl⟩
abbrev main_call3_v11 : Ref sig .tc := ⟨.hbm, 232, rfl⟩
abbrev main_call3_v12 : Ref sig .tc := ⟨.hbm, 233, rfl⟩
abbrev main_call3_cst_3 : Ref sig .tc := ⟨.hbm, 234, rfl⟩
abbrev main_call3_v13 : Ref sig .tc := ⟨.hbm, 235, rfl⟩
abbrev main_call3_cst_4 : Ref sig .tc := ⟨.hbm, 236, rfl⟩
abbrev main_call3_call0_v0 : Ref sig .tc := ⟨.hbm, 237, rfl⟩
abbrev main_call3_call0_v1 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_v114_0 : Ref sig .tc := ⟨.hbm, 242, rfl⟩
abbrev main_v114_1 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg5_1 : Ref sig .tc := ⟨.vmem, 58, rfl⟩
abbrev cc5_stg6_0 : Ref sig .tc := ⟨.vmem, 59, rfl⟩
abbrev cc5_stg6_1 : Ref sig .tc := ⟨.vmem, 60, rfl⟩
abbrev cc5_stg7_0 : Ref sig .tc := ⟨.vmem, 61, rfl⟩
abbrev cc5_stg7_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg1_1 : Ref sig .tc := ⟨.vmem, 66, rfl⟩
abbrev cc6_stg2_0 : Ref sig .tc := ⟨.vmem, 67, rfl⟩
abbrev cc6_stg3_0 : Ref sig .tc := ⟨.vmem, 68, rfl⟩
abbrev cc6_stg4_0 : Ref sig .tc := ⟨.vmem, 69, rfl⟩
abbrev cc6_stg5_0 : Ref sig .tc := ⟨.vmem, 70, rfl⟩
abbrev cc6_stg5_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc7_stg6_0 : Ref sig .tc := ⟨.vmem, 80, rfl⟩
abbrev cc7_stg6_1 : Ref sig .tc := ⟨.vmem, 81, rfl⟩
abbrev cc7_stg7_0 : Ref sig .tc := ⟨.vmem, 82, rfl⟩
abbrev cc7_stg7_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem6_1 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem5_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem5_1 : DmaSem sig := 58
abbrev cc5_sem6_0 : DmaSem sig := 59
abbrev cc5_sem6_1 : DmaSem sig := 60
abbrev cc5_sem7_0 : DmaSem sig := 61
abbrev cc5_sem7_1 : DmaSem sig := 62
abbrev cc6_sem0_0 : DmaSem sig := 63
abbrev cc6_sem0_1 : DmaSem sig := 64
abbrev cc6_sem1_0 : DmaSem sig := 65
abbrev cc6_sem1_1 : DmaSem sig := 66
abbrev cc6_sem2_0 : DmaSem sig := 67
abbrev cc6_sem3_0 : DmaSem sig := 68
abbrev cc6_sem4_0 : DmaSem sig := 69
abbrev cc6_sem5_0 : DmaSem sig := 70
abbrev cc6_sem5_1 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79
abbrev cc7_sem6_0 : DmaSem sig := 80
abbrev cc7_sem6_1 : DmaSem sig := 81
abbrev cc7_sem7_0 : DmaSem sig := 82
abbrev cc7_sem7_1 : DmaSem sig := 83

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S100000x128.size a
  hwx5_7 : ∀ i : grid5.Coords, EltTy.bits .f32 = 32 ∨ (Rect.block (s := S100000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S100000x128.size a
  hwx7_6 : ∀ i : grid7.Coords, EltTy.bits .f32 = 32 ∨ (Rect.block (s := S100000x128) S5000x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S100000x128.size a
  hwx7_7 : ∀ i : grid7.Coords, EltTy.bits .f32 = 32 ∨ (Rect.block (s := S100000x128) S5000x128.size (cc7_transform_7 i) (hinb7_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S5000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v24_1) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v24_1) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v54_0) S5000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v54_1) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v74) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v54_1) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v84_0) S5000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v84_1) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v104) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84_0) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v86) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v105) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v106) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v106) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v111) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v112) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v113) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v84_1) S5000x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v114_0) S5000x128.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v114_1) S5000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x128x128 : Shape := ⟨3, ![1, 128, 128]⟩

abbrev nBuf : Space → Nat
  | .hbm => 313
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128, .f32⟩
  | 6 => ⟨S128, .f32⟩
  | 7 => ⟨S3x128x128, .f32⟩
  | 8 => ⟨S3x128x128, .f32⟩
  | 9 => ⟨S3x128, .f32⟩
  | 10 => ⟨S3x128, .f32⟩
  | 11 => ⟨S3x128, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S100000x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S128, .f32⟩
  | 37 => ⟨S_, .f32⟩
  | 38 => ⟨S128, .f32⟩
  | 39 => ⟨S128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S100000x128, .f32⟩
  | 48 => ⟨S100000x128, .f32⟩
  | 49 => ⟨S100000x128, .f32⟩
  | 50 => ⟨S_, .f32⟩
  | 51 => ⟨S_, .f32⟩
  | 52 => ⟨S_, .f32⟩
  | 53 => ⟨S_, .f32⟩
  | 54 => ⟨S128, .f32⟩
  | 55 => ⟨S128, .f32⟩
  | 56 => ⟨S128, .f32⟩
  | 57 => ⟨S_, .f32⟩
  | 58 => ⟨S_, .i1⟩
  | 59 => ⟨S_, .f32⟩
  | 60 => ⟨S_, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x128x128, .f32⟩
  | 83 => ⟨S128x128, .f32⟩
  | 84 => ⟨S1x128x128, .f32⟩
  | 85 => ⟨S128x128, .f32⟩
  | 86 => ⟨S1x128, .f32⟩
  | 87 => ⟨S128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x128, .f32⟩
  | 108 => ⟨S128, .f32⟩
  | 109 => ⟨S1x128, .f32⟩
  | 110 => ⟨S128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S128, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S1x128x128, .f32⟩
  | 32 => ⟨S128x128, .f32⟩
  | 33 => ⟨S1x128x128, .f32⟩
  | 34 => ⟨S128x128, .f32⟩
  | 35 => ⟨S1x128, .f32⟩
  | 36 => ⟨S128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S1x128, .f32⟩
  | 59 => ⟨S128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S128, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S1x128x128, .f32⟩
  | 109 => ⟨S128x128, .f32⟩
  | 110 => ⟨S1x128x128, .f32⟩
  | 111 => ⟨S128x128, .f32⟩
  | 112 => ⟨S1x128, .f32⟩
  | 113 => ⟨S128, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S100000x128, .f32⟩
  | _ => ⟨S100000x128, .f32⟩

abbrev hbmTy0_2 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S1x128, .f32⟩
  | 6 => ⟨S128, .f32⟩
  | 7 => ⟨S1x128, .f32⟩
  | 8 => ⟨S128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S100000x128, .f32⟩
  | 22 => ⟨S100000x128, .f32⟩
  | 23 => ⟨S100000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_4 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_call1_cst : Ref sig .tc := ⟨.hbm, 79, rfl⟩
abbrev main_call1_v0 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_5 : Ref sig .tc := ⟨.hbm, 88, rfl⟩
abbrev main_v46 : Ref sig .tc := ⟨.hbm, 89, rfl⟩
abbrev main_v47 : Ref sig .tc := ⟨.hbm, 90, rfl⟩
abbrev main_c_6 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_7 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_8 : Ref sig .tc := ⟨.hbm, 111, rfl⟩
abbrev main_v66 : Ref sig .tc := ⟨.hbm, 112, rfl⟩
abbrev main_cst_9 : Ref sig .tc := ⟨.hbm, 113, rfl⟩
abbrev main_v67 : Ref sig .tc := ⟨.hbm, 114, rfl⟩
abbrev main_v68 : Ref sig .tc := ⟨.hbm, 115, rfl⟩
abbrev main_c_10 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_cst_3 : Ref sig .tc := ⟨.hbm, 133, rfl⟩
abbrev main_call2_v12 : Ref sig .tc := ⟨.hbm, 134, rfl⟩
abbrev main_call2_cst_4 : Ref sig .tc := ⟨.hbm, 135, rfl⟩
abbrev main_call2_call0_v0 : Ref sig .tc := ⟨.hbm, 136, rfl⟩
abbrev main_call2_call0_v1 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_cst_11 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_call3_cst : Ref sig .tc := ⟨.hbm, 155, rfl⟩
abbrev main_call3_v0 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_c_12 : Ref sig .tc := ⟨.hbm, 165, rfl⟩
abbrev main_v93 : Ref sig .tc := ⟨.hbm, 166, rfl⟩
abbrev main_v94 : Ref sig .tc := ⟨.hbm, 167, rfl⟩
abbrev main_c_13 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_cst_14 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_cst_15 : Ref sig .tc := ⟨.hbm, 188, rfl⟩
abbrev main_v113 : Ref sig .tc := ⟨.hbm, 189, rfl⟩
abbrev main_cst_16 : Ref sig .tc := ⟨.hbm, 190, rfl⟩
abbrev main_v114 : Ref sig .tc := ⟨.hbm, 191, rfl⟩
abbrev main_v115 : Ref sig .tc := ⟨.hbm, 192, rfl⟩
abbrev main_c_17 : Ref sig .tc := ⟨.hbm, 193, rfl⟩
abbrev main_call4_cst : Ref sig .tc := ⟨.hbm, 194, rfl⟩
abbrev main_call4_v0 : Ref sig .tc := ⟨.hbm, 195, rfl⟩
abbrev main_call4_v1 : Ref sig .tc := ⟨.hbm, 196, rfl⟩
abbrev main_call4_cst_0 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_call4_v5 : Ref sig .tc := ⟨.hbm, 201, rfl⟩
abbrev main_call4_v6 : Ref sig .tc := ⟨.hbm, 202, rfl⟩
abbrev main_call4_v7 : Ref sig .tc := ⟨.hbm, 203, rfl⟩
abbrev main_call4_cst_1 : Ref sig .tc := ⟨.hbm, 204, rfl⟩
abbrev main_call4_v8 : Ref sig .tc := ⟨.hbm, 205, rfl⟩
abbrev main_call4_cst_2 : Ref sig .tc := ⟨.hbm, 206, rfl⟩
abbrev main_call4_v9 : Ref sig .tc := ⟨.hbm, 207, rfl⟩
abbrev main_call4_v10 : Ref sig .tc := ⟨.hbm, 208, rfl⟩
abbrev main_call4_v11 : Ref sig .tc := ⟨.hbm, 209, rfl⟩
abbrev main_call4_cst_3 : Ref sig .tc := ⟨.hbm, 210, rfl⟩
abbrev main_call4_v12 : Ref sig .tc := ⟨.hbm, 211, rfl⟩
abbrev main_call4_cst_4 : Ref sig .tc := ⟨.hbm, 212, rfl⟩
abbrev main_call4_call0_v0 : Ref sig .tc := ⟨.hbm, 213, rfl⟩
abbrev main_call4_call0_v1 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_cst_18 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_call5_cst : Ref sig .tc := ⟨.hbm, 232, rfl⟩
abbrev main_call5_v0 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_c_19 : Ref sig .tc := ⟨.hbm, 242, rfl⟩
abbrev main_v140 : Ref sig .tc := ⟨.hbm, 243, rfl⟩
abbrev main_v141 : Ref sig .tc := ⟨.hbm, 244, rfl⟩
abbrev main_c_20 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_cst_21 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_cst_22 : Ref sig .tc := ⟨.hbm, 265, rfl⟩
abbrev main_v160 : Ref sig .tc := ⟨.hbm, 266, rfl⟩
abbrev main_cst_23 : Ref sig .tc := ⟨.hbm, 267, rfl⟩
abbrev main_v161 : Ref sig .tc := ⟨.hbm, 268, rfl⟩
abbrev main_v162 : Ref sig .tc := ⟨.hbm, 269, rfl⟩
abbrev main_c_24 : Ref sig .tc := ⟨.hbm, 270, rfl⟩
abbrev main_call6_cst : Ref sig .tc := ⟨.hbm, 271, rfl⟩
abbrev main_call6_v0 : Ref sig .tc := ⟨.hbm, 272, rfl⟩
abbrev main_call6_v1 : Ref sig .tc := ⟨.hbm, 273, rfl⟩
abbrev main_call6_cst_0 : Ref sig .tc := ⟨.hbm, 274, rfl⟩
abbrev main_call6_v2 : Ref sig .tc := ⟨.hbm, 275, rfl⟩
abbrev main_call6_v3 : Ref sig .tc := ⟨.hbm, 276, rfl⟩
abbrev main_call6_v4 : Ref sig .tc := ⟨.hbm, 277, rfl⟩
abbrev main_call6_v5 : Ref sig .tc := ⟨.hbm, 278, rfl⟩
abbrev main_call6_v6 : Ref sig .tc := ⟨.hbm, 279, rfl⟩
abbrev main_call6_v7 : Ref sig .tc := ⟨.hbm, 280, rfl⟩
abbrev main_call6_cst_1 : Ref sig .tc := ⟨.hbm, 281, rfl⟩
abbrev main_call6_v8 : Ref sig .tc := ⟨.hbm, 282, rfl⟩
abbrev main_call6_cst_2 : Ref sig .tc := ⟨.hbm, 283, rfl⟩
abbrev main_call6_v9 : Ref sig .tc := ⟨.hbm, 284, rfl⟩
abbrev main_call6_v10 : Ref sig .tc := ⟨.hbm, 285, rfl⟩
abbrev main_call6_v11 : Ref sig .tc := ⟨.hbm, 286, rfl⟩
abbrev main_call6_cst_3 : Ref sig .tc := ⟨.hbm, 287, rfl⟩
abbrev main_call6_v12 : Ref sig .tc := ⟨.hbm, 288, rfl⟩
abbrev main_call6_cst_4 : Ref sig .tc := ⟨.hbm, 289, rfl⟩
abbrev main_call6_call0_v0 : Ref sig .tc := ⟨.hbm, 290, rfl⟩
abbrev main_call6_call0_v1 : Ref sig .tc := ⟨.hbm, 291, rfl⟩
abbrev main_v163 : Ref sig .tc := ⟨.hbm, 292, rfl⟩
abbrev main_v164 : Ref sig .tc := ⟨.hbm, 293, rfl⟩
abbrev main_v165 : Ref sig .tc := ⟨.hbm, 294, rfl⟩
abbrev main_v166 : Ref sig .tc := ⟨.hbm, 295, rfl⟩
abbrev main_v167 : Ref sig .tc := ⟨.hbm, 296, rfl⟩
abbrev main_v168 : Ref sig .tc := ⟨.hbm, 297, rfl⟩
abbrev main_v169 : Ref sig .tc := ⟨.hbm, 298, rfl⟩
abbrev main_cst_25 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_v177 : Ref sig .tc := ⟨.hbm, 307, rfl⟩
abbrev main_v178 : Ref sig .tc := ⟨.hbm, 308, rfl⟩
abbrev main_call7_cst : Ref sig .tc := ⟨.hbm, 309, rfl⟩
abbrev main_call7_v0 : Ref sig .tc := ⟨.hbm, 310, rfl⟩
abbrev main_v179 : Ref sig .tc := ⟨.hbm, 311, rfl⟩
abbrev main_v180 : Ref sig .tc := ⟨.hbm, 312, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run with its result named: every weakly fair execution of @main terminates, nothing
  faulting, the argument arrays end as launched, and the result buffer ends at the last boundary's contents
  (the fold of the host operations and of what each region's write-backs leave, from the launch memory).
  The thread state the segments' chain ends in holds EVERY unscoped buffer at those contents; the frame reads
  the twelve arguments off it, and here the result buffer is read off it as well.
-/
import proofs.«145014_j19963007992111_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer named: the launch over the segments, the last thread state read against the
    final state, the result buffer and each argument read off it. -/
theorem run_named : θ_run defs (onTc (τ := τ) (main (F := F))) ⟨m, fun _ => 0, ρ⟩ (fun r => ∀ c : Dev nD,
      r.2.mem ((c.tc : Thread nD τ).loc main_v114_1) = W24 m ρ c (Proc.devRef .tc main_v114_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v114_1 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c)⟩)

end Cert.KernelIdeal.KRun

end
-- ==== Proof.Spec.lean ====
/-
  The network both programs compute, as pure functions on extended-real arrays (every float an extended real,
  every operation exact), written in the host operations' own vocabulary.

  One layer maps node features h : [N, D] (N = 100000 nodes, D = 128 features) to
      relu (γ · (y − mean y) · (var y + ε)^(-1/2) + β),   y = agg · W_rel + h · W_root + b,
  where agg_i = Σ_{edges e with dst e = i} h_{src e} is the neighbour sum over the edge list (a row gather
  followed by a row scatter-add into zeros), and mean / var are the column statistics over all N rows.
  The result of the whole network is the sum of the four layers' outputs.
-/
import proofs.«145014_j19963007992111_1_alg».proof.Proof.Gen.ReferenceIdeal
import Idealize.ShloMosaic.PureOps.Ideal

noncomputable section

namespace Cert.Spec

open Idealize.ShloMosaic Cert.ReferenceIdeal Cert.ReferenceIdeal.Facts₀

/-- Node features, a weight matrix, a feature vector, the same as a one-row matrix, an edge-index vector. -/
abbrev Node := FVec Ideal S100000x128 .f32
abbrev Mat := FVec Ideal S128x128 .f32
abbrev Lane := FVec Ideal S128 .f32
abbrev Row := FVec Ideal S1x128 .f32
abbrev Edge := IVec S1600000 32

/-- The all-zero node array. -/
def zeros : Node := broadcastInDim S100000x128 ![] bcast_S_S100000x128 (constant (F := Ideal) S_ .f32 0x00000000#32)

/-- A feature vector as a one-row matrix, and a one-row matrix repeated down all N rows. -/
def row (v : Lane) : Row := broadcastInDim S1x128 ![1] bcast_S128_S1x128_1 v
def rep (r : Row) : Node := broadcastInDim S100000x128 ![0, 1] bcast_S1x128_S100000x128_0_1 r

/-- Row k of the edge list (k = 0: sources, k = 1: destinations), as a vector. -/
def src (e : IVec S2x1600000 32) : Edge :=
  shapeCast S1600000 (extractStridedSlice S1x1600000 ![0, 0] e slices_S2x1600000_S1x1600000_0_0) shapeCasts_S1x1600000_S1600000
def dst (e : IVec S2x1600000 32) : Edge :=
  shapeCast S1600000 (extractStridedSlice S1x1600000 ![1, 0] e slices_S2x1600000_S1x1600000_1_0) shapeCasts_S1x1600000_S1600000

/-- A negative index counts from the end: i < 0 ↦ i + N. -/
def nrm (s : Edge) : Edge :=
  select (cmpi .slt s (broadcastInDim S1600000 ![] bcast_S_S1600000 (constantI S_ 32 0#32)))
    (addi s (broadcastInDim S1600000 ![] bcast_S_S1600000 (constantI S_ 32 100000#32))) s

/-- An index vector as a one-column table. -/
def col (s : Edge) : IVec S1600000x1 32 := broadcastInDim S1600000x1 ![0] bcast_S1600000_S1600000x1_0 s

/-- The neighbour sum: gather the source rows, add each into its destination row of a zero array. -/
def agg (h : Node) (s d : Edge) : Node :=
  Host.scatterAdd scatter_S100000x128_S1600000x1_S1600000x128_1_0_0_1 zeros (col d)
    (Host.gather gather_S100000x128_S1600000x1_S1600000x128_1_0_n_n_0_1_1128 h (col (nrm s)))

/-- The affine part: a · W_rel + h · W_root + b, the bias a one-row matrix. -/
def lin (a h : Node) (wr wo : Mat) (b2 : Row) : Node :=
  addf (addf (Host.dotGeneral dot_S100000x128_S128x128_S100000x128_1_0_0_1_n_n none a wr)
             (Host.dotGeneral dot_S100000x128_S128x128_S100000x128_1_0_0_1_n_n none h wo)) (rep b2)

/-- The column sums of a node array, from zero. -/
def colsum (x : Node) : Lane :=
  Host.reduceAdd x (constant (F := Ideal) S_ .f32 0x00000000#32) reducesTo_S100000x128_S128_d0 h_S_

/-- The column means: the column sums over N. -/
def mean (x : Node) : Lane :=
  Host.divf (colsum x) (broadcastInDim S128 ![] bcast_S_S128 (constant (F := Ideal) S_ .f32 0x47C35000#32))

/-- The centred squares (x − mean x)², the mean taken through a one-row matrix as the variance routine does. -/
def csq (x : Node) : Node :=
  (fun d : Node => mulf d d)
    (subf x (rep (Host.divf (row (colsum x)) (broadcastInDim S1x128 ![] bcast_S_S1x128 (constant (F := Ideal) S_ .f32 0x47C35000#32)))))

/-- The divisor N − ddof of the variance routine (ddof = 0 here), and its guard N − ddof > 0. -/
def dof : FVec Ideal S_ .f32 :=
  subf (constant (F := Ideal) S_ .f32 0x47C35000#32) (sitofp .f32 (constantI S_ 32 0#32 : IVec S_ 32))
def dofPos : IVec S_ 1 := cmpf .ogt dof (constant (F := Ideal) S_ .f32 0x00000000#32)

/-- The column variances: the column sums of the centred squares over N − ddof, guarded as the routine guards it
    (where the divisor is not positive the routine returns its not-a-number word). -/
def var (x : Node) : Lane :=
  select (broadcastInDim S128 ![] bcast_S_S128 dofPos)
    (Host.divf (colsum (csq x)) (broadcastInDim S128 ![] bcast_S_S128 dof))
    (broadcastInDim S128 ![] bcast_S_S128 ((id : FVec Ideal S_ .f32 → FVec Ideal S_ .f32) (constant (F := Ideal) S_ .f32 0x7FC00000#32)))

/-- Normalise, scale, shift and rectify with the statistics given as one-row matrices:
    relu (g · (x − m) · (v + ε)^(-1/2) + b). -/
def bnR (x : Node) (m2 v2 g2 b2 : Row) : Node :=
  maximumf
    (addf (mulf (mulf (rep g2) (subf x (rep m2)))
                (rep (Host.rsqrt (addf v2 (broadcastInDim S1x128 ![] bcast_S_S1x128 (constant (F := Ideal) S_ .f32 0x3727C5AC#32))))))
          (rep b2))
    zeros

/-- The same with the statistics computed from x and everything a feature vector, as the reference spells it. -/
def bnRef (x : Node) (g be : Lane) : Node :=
  maximumf
    (addf (mulf (mulf (rep (row g)) (subf x (rep (row (mean x)))))
                (rep (row (Host.rsqrt (addf (var x) (broadcastInDim S128 ![] bcast_S_S128 (constant (F := Ideal) S_ .f32 0x3727C5AC#32)))))))
          (rep (row be)))
    zeros

/-- One layer. -/
def layer (h : Node) (s d : Edge) (wr wo : Mat) (b g be : Lane) : Node :=
  bnRef (lin (agg h s d) h wr wo (row b)) g be

/-- Matrix k of a stack of three, and vector k of a stack of three. -/
def mat3 (off : Fin 3 → Nat) (hs : S3x128x128.Slices off S1x128x128) (w : FVec Ideal S3x128x128 .f32) : Mat :=
  shapeCast S128x128 (extractStridedSlice S1x128x128 off w hs) shapeCasts_S1x128x128_S128x128
def vec3 (off : Fin 2 → Nat) (hs : S3x128.Slices off S1x128) (w : FVec Ideal S3x128 .f32) : Lane :=
  shapeCast S128 (extractStridedSlice S1x128 off w hs) shapeCasts_S1x128_S128

/-! ## The same statistics kept as one-row matrices, as the kernel's host side computes them -/

/-- A feature vector recast as a one-row matrix. -/
def rs (v : Lane) : Row := shapeCast S1x128 v (by decide)

/-- The column means as a one-row matrix: the column sums, as a row, over N. -/
def mean2 (x : Node) : Row :=
  Host.divf (row (colsum x)) (broadcastInDim S1x128 ![] bcast_S_S1x128 (constant (F := Ideal) S_ .f32 0x47C35000#32))

/-- The column variances as a one-row matrix, with the same guard. -/
def var2 (x : Node) : Row :=
  select (broadcastInDim S1x128 ![] bcast_S_S1x128 dofPos)
    (Host.divf (row (colsum (csq x))) (broadcastInDim S1x128 ![] bcast_S_S1x128 dof))
    (broadcastInDim S1x128 ![] bcast_S_S1x128 ((id : FVec Ideal S_ .f32 → FVec Ideal S_ .f32) (constant (F := Ideal) S_ .f32 0x7FC00000#32)))

/-- One layer as the kernel's program computes it: the affine part with the bias recast as a row, the statistics
    kept as one-row matrices, the scale and shift recast as rows. -/
def klayer (h : Node) (s d : Edge) (wr wo : Mat) (b g be : Lane) : Node :=
  (fun y : Node => bnR y (mean2 y) (var2 y) (rs g) (rs be)) (lin (agg h s d) h wr wo (rs b))

end Cert.Spec

end
-- ==== Proof.KHost0.lean ====
/-
  The kernel program's host operations of the first layer, read as values. Before the first region: the edge
  list's two rows, the neighbour sum of the input features, the bias as a row, the zero array the running total
  starts from. Between the first layer's two regions: the column statistics of the affine part kept as one-row
  matrices, and scale and shift recast as rows. Each is stated for an arbitrary starting valuation.
-/
import proofs.«145014_j19963007992111_1_alg».proof.Proof.Gen.KernelIdeal.Launch
import proofs.«145014_j19963007992111_1_alg».proof.Proof.Spec
import Idealize.ShloMosaic.Lib.StableHlo.Run
import Idealize.ShloMosaic.Lib.Pipeline.Frame

set_option maxRecDepth 16384

noncomputable section

namespace Cert.KernelIdeal.KHost

open Idealize.ShloMosaic Idealize.ShloMosaic.TcCoe Idealize.ShloMosaic.StableHlo Idealize.SL.Sem
open Cert.KernelIdeal Cert.KernelIdeal.Gen Cert.Spec

/-- A buffer that no operation of a literal list writes keeps its contents: the list's written buffers are read off
    the operations one by one and each is a different reference. -/
macro "host_keep0" : tactic => `(tactic|
  exact StableHlo.after_of_forall_not_mem _ _ (List.forall_iff_forall_mem.mp (by
    simp only [hostOps0, hostOps1, hostOps1_1, hostOps1_2, hostOps2, hostOps3, hostOps3_1, hostOps3_2, hostOps4, hostOps5,
      hostOps5_1, hostOps5_2, hostOps6, hostOps7, hostOps7_1, hostOps7_2, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))))

attribute [local irreducible] Host.gather Host.scatterAdd Host.reduceAdd

variable (V : Valuation τ sig (Elt Ideal))

set_option maxHeartbeats 2000000 in
theorem A0_agg : (after (hostOps0 (F := Ideal)) V (Proc.devRef .tc main_v14) : Node)
    = agg (V (Proc.devRef .tc main_arg0)) (src (V (Proc.devRef .tc main_arg1))) (dst (V (Proc.devRef .tc main_arg1))) := by
  after_results_simp; rfl
set_option maxHeartbeats 2000000 in
theorem A0_bias : (after (hostOps0 (F := Ideal)) V (Proc.devRef .tc main_v15) : Row)
    = rs (V (Proc.devRef .tc main_arg4)) := by
  after_results_simp; rfl
set_option maxHeartbeats 2000000 in
theorem A0_zeros : (after (hostOps0 (F := Ideal)) V (Proc.devRef .tc main_v4) : Node)
    = zeros := by
  after_results_simp; rfl
set_option maxHeartbeats 2000000 in
theorem A0_src : (after (hostOps0 (F := Ideal)) V (Proc.devRef .tc main_v1) : Edge)
    = src (V (Proc.devRef .tc main_arg1)) := by
  after_results_simp; rfl
set_option maxHeartbeats 2000000 in
theorem A0_dst : (after (hostOps0 (F := Ideal)) V (Proc.devRef .tc main_v3) : Edge)
    = dst (V (Proc.devRef .tc main_arg1)) := by
  after_results_simp; rfl
theorem A0_keep_main_arg0 : after (hostOps0 (F := Ideal)) V (Proc.devRef .tc main_arg0) = V (Proc.devRef .tc main_arg0) := by host_keep0
theorem A0_keep_main_arg2 : after (hostOps0 (F := Ideal)) V (Proc.devRef .tc main_arg2) = V (Proc.devRef .tc main_arg2) := by host_keep0
theorem A0_keep_main_arg3 : after (hostOps0 (F := Ideal)) V (Proc.devRef .tc main_arg3) = V (Proc.devRef .tc main_arg3) := by host_keep0
theorem A0_keep_main_arg5 : after (hostOps0 (F := Ideal)) V (Proc.devRef .tc main_arg5) = V (Proc.devRef .tc main_arg5) := by host_keep0
theorem A0_keep_main_arg6 : after (hostOps0 (F := Ideal)) V (Proc.devRef .tc main_arg6) = V (Proc.devRef .tc main_arg6) := by host_keep0
theorem A0_keep_main_arg7 : after (hostOps0 (F := Ideal)) V (Proc.devRef .tc main_arg7) = V (Proc.devRef .tc main_arg7) := by host_keep0
theorem A0_keep_main_arg8 : after (hostOps0 (F := Ideal)) V (Proc.devRef .tc main_arg8) = V (Proc.devRef .tc main_arg8) := by host_keep0
theorem A0_keep_main_arg9 : after (hostOps0 (F := Ideal)) V (Proc.devRef .tc main_arg9) = V (Proc.devRef .tc main_arg9) := by host_keep0
theorem A0_keep_main_arg10 : after (hostOps0 (F := Ideal)) V (Proc.devRef .tc main_arg10) = V (Proc.devRef .tc main_arg10) := by host_keep0
theorem A0_keep_main_arg11 : after (hostOps0 (F := Ideal)) V (Proc.devRef .tc main_arg11) = V (Proc.devRef .tc main_arg11) := by host_keep0

set_option maxHeartbeats 2000000 in
theorem B0_mean : (after (hostOps1_2 (F := Ideal)) (after (hostOps1_1 (F := Ideal)) (after (hostOps1 (F := Ideal)) V)) (Proc.devRef .tc main_v20) : Row)
    = mean2 (V (Proc.devRef .tc main_v16)) := by
  after_results_simp; rfl
set_option maxHeartbeats 2000000 in
theorem B0_var : (after (hostOps1_2 (F := Ideal)) (after (hostOps1_1 (F := Ideal)) (after (hostOps1 (F := Ideal)) V)) (Proc.devRef .tc main_v21) : Row)
    = var2 (V (Proc.devRef .tc main_v16)) := by
  after_results_simp; rfl
set_option maxHeartbeats 2000000 in
theorem B0_gamma : (after (hostOps1_2 (F := Ideal)) (after (hostOps1_1 (F := Ideal)) (after (hostOps1 (F := Ideal)) V)) (Proc.devRef .tc main_v22) : Row)
    = rs (V (Proc.devRef .tc main_arg5)) := by
  after_results_simp; rfl
set_option maxHeartbeats 2000000 in
theorem B0_beta : (after (hostOps1_2 (F := Ideal)) (after (hostOps1_1 (F := Ideal)) (after (hostOps1 (F := Ideal)) V)) (Proc.devRef .tc main_v23) : Row)
    = rs (V (Proc.devRef .tc main_arg6)) := by
  after_results_simp; rfl
theorem B0_keep_main_v16 : after (hostOps1_2 (F := Ideal)) (after (hostOps1_1 (F := Ideal)) (after (hostOps1 (F := Ideal)) V)) (Proc.devRef .tc main_v16) = V (Proc.devRef .tc main_v16) :=
  (by host_keep0 : after (hostOps1_2 (F := Ideal)) (after (hostOps1_1 (F := Ideal)) (after (hostOps1 (F := Ideal)) V)) (Proc.devRef .tc main_v16) = after (hostOps1_1 (F := Ideal)) (after (hostOps1 (F := Ideal)) V) (Proc.devRef .tc main_v16)).trans
    ((by host_keep0 : after (hostOps1_1 (F := Ideal)) (after (hostOps1 (F := Ideal)) V) (Proc.devRef .tc main_v16) = after (hostOps1 (F := Ideal)) V (Proc.devRef .tc main_v16)).trans (by host_keep0))
theorem B0_keep_main_v4 : after (hostOps1_2 (F := Ideal)) (after (hostOps1_1 (F := Ideal)) (after (hostOps1 (F := Ideal)) V)) (Proc.devRef .tc main_v4) = V (Proc.devRef .tc main_v4) :=
  (by host_keep0 : after (hostOps1_2 (F := Ideal)) (after (hostOps1_1 (F := Ideal)) (after (hostOps1 (F := Ideal)) V)) (Proc.devRef .tc main_v4) = after (hostOps1_1 (F := Ideal)) (after (hostOps1 (F := Ideal)) V) (Proc.devRef .tc main_v4)).trans
    ((by host_keep0 : after (hostOps1_1 (F := Ideal)) (after (hostOps1 (F := Ideal)) V) (Proc.devRef .tc main_v4) = after (hostOps1 (F := Ideal)) V (Proc.devRef .tc main_v4)).trans (by host_keep0))
theorem B0_keep_main_v1 : after (hostOps1_2 (F := Ideal)) (after (hostOps1_1 (F := Ideal)) (after (hostOps1 (F := Ideal)) V)) (Proc.devRef .tc main_v1) = V (Proc.devRef .tc main_v1) :=
  (by host_keep0 : after (hostOps1_2 (F := Ideal)) (after (hostOps1_1 (F := Ideal)) (after (hostOps1 (F := Ideal)) V)) (Proc.devRef .tc main_v1) = after (hostOps1_1 (F := Ideal)) (after (hostOps1 (F := Ideal)) V) (Proc.devRef .tc main_v1)).trans
    ((by host_keep0 : after (hostOps1_1 (F := Ideal)) (after (hostOps1 (F := Ideal)) V) (Proc.devRef .tc main_v1) = after (hostOps1 (F := Ideal)) V (Proc.devRef .tc main_v1)).trans (by host_keep0))
theorem B0_keep_main_v3 : after (hostOps1_2 (F := Ideal)) (after (hostOps1_1 (F := Ideal)) (after (hostOps1 (F := Ideal)) V)) (Proc.devRef .tc main_v3) = V (Proc.devRef .tc main_v3) :=
  (by host_keep0 : after (hostOps1_2 (F := Ideal)) (after (hostOps1_1 (F := Ideal)) (after (hostOps1 (F := Ideal)) V)) (Proc.devRef .tc main_v3) = after (hostOps1_1 (F := Ideal)) (after (hostOps1 (F := Ideal)) V) (Proc.devRef .tc main_v3)).trans
    ((by host_keep0 : after (hostOps1_1 (F := Ideal)) (after (hostOps1 (F := Ideal)) V) (Proc.devRef .tc main_v3) = after (hostOps1 (F := Ideal)) V (Proc.devRef .tc main_v3)).trans (by host_keep0))
theorem B0_keep_main_arg7 : after (hostOps1_2 (F := Ideal)) (after (hostOps1_1 (F := Ideal)) (after (hostOps1 (F := Ideal)) V)) (Proc.devRef .tc main_arg7) = V (Proc.devRef .tc main_arg7) :=
  (by host_keep0 : after (hostOps1_2 (F := Ideal)) (after (hostOps1_1 (F := Ideal)) (after (hostOps1 (F := Ideal)) V)) (Proc.devRef .tc main_arg7) = after (hostOps1_1 (F := Ideal)) (after (hostOps1 (F := Ideal)) V) (Proc.devRef .tc main_arg7)).trans
    ((by host_keep0 : after (hostOps1_1 (F := Ideal)) (after (hostOps1 (F := Ideal)) V) (Proc.devRef .tc main_arg7) = after (hostOps1 (F := Ideal)) V (Proc.devRef .tc main_arg7)).trans (by host_keep0))
theorem B0_keep_main_arg8 : after (hostOps1_2 (F := Ideal)) (after (hostOps1_1 (F := Ideal)) (after (hostOps1 (F := Ideal)) V)) (Proc.devRef .tc main_arg8) = V (Proc.devRef .tc main_arg8) :=
  (by host_keep0 : after (hostOps1_2 (F := Ideal)) (after (hostOps1_1 (F := Ideal)) (after (hostOps1 (F := Ideal)) V)) (Proc.devRef .tc main_arg8) = after (hostOps1_1 (F := Ideal)) (after (hostOps1 (F := Ideal)) V) (Proc.devRef .tc main_arg8)).trans
    ((by host_keep0 : after (hostOps1_1 (F := Ideal)) (after (hostOps1 (F := Ideal)) V) (Proc.devRef .tc main_arg8) = after (hostOps1 (F := Ideal)) V (Proc.devRef .tc main_arg8)).trans (by host_keep0))
theorem B0_keep_main_arg9 : after (hostOps1_2 (F := Ideal)) (after (hostOps1_1 (F := Ideal)) (after (hostOps1 (F := Ideal)) V)) (Proc.devRef .tc main_arg9) = V (Proc.devRef .tc main_arg9) :=
  (by host_keep0 : after (hostOps1_2 (F := Ideal)) (after (hostOps1_1 (F := Ideal)) (after (hostOps1 (F := Ideal)) V)) (Proc.devRef .tc main_arg9) = after (hostOps1_1 (F := Ideal)) (after (hostOps1 (F := Ideal)) V) (Proc.devRef .tc main_arg9)).trans
    ((by host_keep0 : after (hostOps1_1 (F := Ideal)) (after (hostOps1 (F := Ideal)) V) (Proc.devRef .tc main_arg9) = after (hostOps1 (F := Ideal)) V (Proc.devRef .tc main_arg9)).trans (by host_keep0))
theorem B0_keep_main_arg10 : after (hostOps1_2 (F := Ideal)) (after (hostOps1_1 (F := Ideal)) (after (hostOps1 (F := Ideal)) V)) (Proc.devRef .tc main_arg10) = V (Proc.devRef .tc main_arg10) :=
  (by host_keep0 : after (hostOps1_2 (F := Ideal)) (after (hostOps1_1 (F := Ideal)) (after (hostOps1 (F := Ideal)) V)) (Proc.devRef .tc main_arg10) = after (hostOps1_1 (F := Ideal)) (after (hostOps1 (F := Ideal)) V) (Proc.devRef .tc main_arg10)).trans
    ((by host_keep0 : after (hostOps1_1 (F := Ideal)) (after (hostOps1 (F := Ideal)) V) (Proc.devRef .tc main_arg10) = after (hostOps1 (F := Ideal)) V (Proc.devRef .tc main_arg10)).trans (by host_keep0))
theorem B0_keep_main_arg11 : after (hostOps1_2 (F := Ideal)) (after (hostOps1_1 (F := Ideal)) (after (hostOps1 (F := Ideal)) V)) (Proc.devRef .tc main_arg11) = V (Proc.devRef .tc main_arg11) :=
  (by host_keep0 : after (hostOps1_2 (F := Ideal)) (after (hostOps1_1 (F := Ideal)) (after (hostOps1 (F := Ideal)) V)) (Proc.devRef .tc main_arg11) = after (hostOps1_1 (F := Ideal)) (after (hostOps1 (F := Ideal)) V) (Proc.devRef .tc main_arg11)).trans
    ((by host_keep0 : after (hostOps1_1 (F := Ideal)) (after (hostOps1 (F := Ideal)) V) (Proc.devRef .tc main_arg11) = after (hostOps1 (F := Ideal)) V (Proc.devRef .tc main_arg11)).trans (by host_keep0))

end Cert.KernelIdeal.KHost

end
-- ==== Proof.LinAt.lean ====
/-
  The affine part of a layer, a · W_rel + h · W_root + b, read at one entry on both sides.

  Entry (r, q) of the specification's lin a h W_rel W_root b is
      (Σ_k a(r,k) · W_rel(k,q)) + (Σ_k h(r,k) · W_root(k,q)) + b(0,q),
  the two host products read as sums over the contracted coordinate and the one-row bias read in row 0.
  Entry (p, q) of what a grid point's body stores is the same expression of the point's five loaded blocks:
  the two block products accumulate into zero, so each is its sum over the contracted coordinate; the
  narrowing of the operands before the products is the identity on extended reals, as are the casts of a block
  to its own shape; the one-row bias block is laid along every row. So when the blocks are the matching rows of
  the arrays (rows of a and h, all of W_rel, W_root and b), the stored entry is the specification's entry.
-/
import proofs.«145014_j19963007992111_1_alg».proof.Proof.Spec
import proofs.«145014_j19963007992111_1_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.LinValue

open Idealize.ShloMosaic Idealize.ShloMosaic.ValueIdx

/-- The offsets of a store or load of a whole staging buffer, as the zero function. -/
theorem zeroOff : (![0, 0] : Fin 2 → Nat) = fun _ => 0 := funext fun a => by fin_cases a <;> rfl

/-! ## The specification at an entry -/

section Host
open Cert.ReferenceIdeal

/-- The host's product of an [N,128] by a [128,128] matrix at entry (r, q): the sum over the contracted coordinate. -/
theorem hostDot_at (a : FVec Ideal S100000x128 .f32) (w : FVec Ideal S128x128 .f32) (r : Fin 100000) (q : Fin 128) :
    Host.dotGeneral dot_S100000x128_S128x128_S100000x128_1_0_0_1_n_n none a w (ix2 r q)
      = ∑ k : Fin 128, a (ix2 r k) * w (ix2 k q) := by
  show FloatOps.dotGeneral _ none _ a w (ix2 r q) = _
  rw [Ideal.dotGeneral_apply, ← Equiv.sum_comp (contrEquiv1 dot_S100000x128_S128x128_S100000x128_1_0_0_1_n_n 128 rfl rfl).symm]
  refine Finset.sum_congr rfl fun k _ => ?_
  have c := contrEquiv1_symm_val dot_S100000x128_S128x128_S100000x128_1_0_0_1_n_n 128 rfl rfl k
  have hl : dot_S100000x128_S128x128_S100000x128_1_0_0_1_n_n.lhsIdx (ix2 r q) ((contrEquiv1 _ 128 rfl rfl).symm k) = ix2 r k := by
    funext ax; apply Fin.ext
    match ax with
    | ⟨0, _⟩ => rfl
    | ⟨1, _⟩ => exact (DotDims.lhsIdx_val_of_single _ rfl _ _).trans c
  have hr : dot_S100000x128_S128x128_S100000x128_1_0_0_1_n_n.rhsIdx (ix2 r q) ((contrEquiv1 _ 128 rfl rfl).symm k) = ix2 k q := by
    funext ax; apply Fin.ext
    match ax with
    | ⟨0, _⟩ => exact (DotDims.rhsIdx_val_of_single _ rfl _ _).trans c
    | ⟨1, _⟩ => rfl
  rw [hl, hr]

/-- The specification's affine part at entry (r, q). -/
theorem lin_at (a h : Cert.Spec.Node) (wr wo : Cert.Spec.Mat) (b2 : Cert.Spec.Row) (r : Fin 100000) (q : Fin 128) :
    Cert.Spec.lin a h wr wo b2 (ix2 r q)
      = (∑ k : Fin 128, a (ix2 r k) * wr (ix2 k q)) + (∑ k : Fin 128, h (ix2 r k) * wo (ix2 k q)) + b2 (ix2 (0 : Fin 1) q) := by
  unfold Cert.Spec.lin Cert.Spec.rep
  rw [addf_apply, addf_apply, hostDot_at, hostDot_at, broadcastInDim_oneRow_apply]

end Host

/-! ## A grid point's stored block at an entry -/

section Body
open Cert.KernelIdeal Cert.KernelIdeal.Gen

/-- A block product accumulated into zero, at entry (p, q): the sum over the contracted coordinate. -/
theorem blockDot_at (l : FVec Ideal S5000x128 .bf16) (w : FVec Ideal S128x128 .bf16) (p : Fin 5000) (q : Fin 128) :
    matmul dot_S5000x128_S128x128_S5000x128_1_0_0_1_n_n none l w (constant S5000x128 .f32 0x00000000#32) (ix2 p q)
      = ∑ k : Fin 128, l (ix2 p k) * w (ix2 k q) := by
  show FloatOps.matmul _ none l w (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have c := contrEquiv1_symm_val dot_S5000x128_S128x128_S5000x128_1_0_0_1_n_n 128 rfl rfl k
  have hl : dot_S5000x128_S128x128_S5000x128_1_0_0_1_n_n.lhsIdx (ix2 p q) ((contrEquiv1 _ 128 rfl rfl).symm k) = ix2 p k := by
    funext ax; apply Fin.ext
    match ax with
    | ⟨0, _⟩ => rfl
    | ⟨1, _⟩ => exact (DotDims.lhsIdx_val_of_single _ rfl _ _).trans c
  have hr : dot_S5000x128_S128x128_S5000x128_1_0_0_1_n_n.rhsIdx (ix2 p q) ((contrEquiv1 _ 128 rfl rfl).symm k) = ix2 k q := by
    funext ax; apply Fin.ext
    match ax with
    | ⟨0, _⟩ => exact (DotDims.rhsIdx_val_of_single _ rfl _ _).trans c
    | ⟨1, _⟩ => rfl
  rw [hl, hr]

/-- The stored block, once the casts of a block to its own shape are gone, at entry (p, q). -/
theorem body_at (x0 x1 : FVec Ideal S5000x128 .f32) (x2 x3 : FVec Ideal S128x128 .f32) (x4 : FVec Ideal S1x128 .f32)
    (p : Fin 5000) (q : Fin 128) :
    addf (addf (matmul dot_S5000x128_S128x128_S5000x128_1_0_0_1_n_n none (truncf .bf16 x0 bitsLt_bf16_f32) (truncf .bf16 x2 bitsLt_bf16_f32) (constant S5000x128 .f32 0x00000000#32))
               (matmul dot_S5000x128_S128x128_S5000x128_1_0_0_1_n_n none (truncf .bf16 x1 bitsLt_bf16_f32) (truncf .bf16 x3 bitsLt_bf16_f32) (constant S5000x128 .f32 0x00000000#32)))
         (broadcastTo S5000x128 x4 broadcasts_S1x128_S5000x128) (ix2 p q)
      = (∑ k : Fin 128, x0 (ix2 p k) * x2 (ix2 k q)) + (∑ k : Fin 128, x1 (ix2 p k) * x3 (ix2 k q)) + x4 (ix2 (0 : Fin 1) q) := by
  rw [addf_apply, addf_apply, blockDot_at, blockDot_at, broadcastTo_1b_ab_apply]
  rfl

/-- The first layer's stored block at entry (p, q). -/
theorem pay0_at (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k0_pay1
  simp only [shapeCast_self]
  exact body_at x0 x1 x2 x3 x4 p q

/-- The second layer's. -/
theorem pay2_at (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k2_pay1
  simp only [shapeCast_self]
  exact body_at x0 x1 x2 x3 x4 p q

/-- The third layer's. -/
theorem pay4_at (x0 x1 : Vec Ideal S5000x128 .f32) (x2 x3 : Vec Ideal S128x128 .f32) (x4 : Vec Ideal S1x128 .f32)
    (p : Fin 5000) (q : Fin 128) :
    k4_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k4_pay1
  simp only [shapeCast_self]
  exact body_at x0 x1 x2 x3 x4 p q

/-- The fourth layer's. -/
theorem pay6_at (x0 x1 : Vec Ideal S5000x128 .f32) (x2 x3 : Vec Ideal S128x128 .f32) (x4 : Vec Ideal S1x128 .f32)
    (p : Fin 5000) (q : Fin 128) :
    k6_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k6_pay1
  simp only [shapeCast_self]
  exact body_at x0 x1 x2 x3 x4 p q

end Body

/-! ## The two meet -/

/-- The common right-hand side meets the specification's entry when the blocks are the arrays' matching rows:
    rows of the two node arrays, the whole of both weight matrices and of the bias row. -/
theorem sums_eq_lin (x0 x1 : Vec Ideal Cert.KernelIdeal.S5000x128 .f32) (x2 x3 : Vec Ideal Cert.KernelIdeal.S128x128 .f32)
    (x4 : Vec Ideal Cert.KernelIdeal.S1x128 .f32)
    (a h : Cert.Spec.Node) (wr wo : Cert.Spec.Mat) (b2 : Cert.Spec.Row) (p : Fin 5000) (q : Fin 128) (r : Fin 100000)
    (h0 : ∀ k : Fin 128, x0 (ix2 p k) = a (ix2 r k)) (h1 : ∀ k : Fin 128, x1 (ix2 p k) = h (ix2 r k))
    (h2 : ∀ k : Fin 128, x2 (ix2 k q) = wr (ix2 k q)) (h3 : ∀ k : Fin 128, x3 (ix2 k q) = wo (ix2 k q))
    (h4 : x4 (ix2 (0 : Fin 1) q) = b2 (ix2 (0 : Fin 1) q)) :
    (∑ k : Fin 128, x0 (ix2 p k) * x2 (ix2 k q)) + (∑ k : Fin 128, x1 (ix2 p k) * x3 (ix2 k q)) + x4 (ix2 (0 : Fin 1) q)
      = Cert.Spec.lin a h wr wo b2 (ix2 r q) := by
  rw [lin_at, h4]
  refine congrArg₂ (· + ·) (congrArg₂ (· + ·) ?_ ?_) rfl
  · exact Finset.sum_congr rfl fun k _ => by rw [h0 k, h2 k]
  · exact Finset.sum_congr rfl fun k _ => by rw [h1 k, h3 k]

end Cert.KernelIdeal.LinValue

end
-- ==== Proof.LinFinal0.lean ====
/-
  The first layer's affine part as the whole array the region leaves.

  The region's grid has 20 points; point t holds rows 5000·t … 5000·t + 4999 of the two node arrays and of the
  output, and the whole of both weight matrices and of the bias row. What point t writes back is therefore
  rows 5000·t … of the specification's lin of the five arrays as the region finds them, entry by entry; the 20
  row blocks tile the array (row r lies in block r / 5000), so the array ends holding lin of the five arrays.
-/
import proofs.«145014_j19963007992111_1_alg».proof.Proof.LinAt
import proofs.«145014_j19963007992111_1_alg».proof.Proof.Gen.KernelIdeal.Frame
import Idealize.ShloMosaic.Lib.Pipeline.Value
import Idealize.ShloMosaic.Lib.Tactic

noncomputable section

namespace Cert.KernelIdeal.LinValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The block each window holds at point t: row block t of the node arrays and of the output, block (0, 0) of the rest. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the first node array's block at point t is row 5000·t + p of the array. -/
theorem rd0_0 (c : Dev nD) (t : Fin cfg0.N) (p : Fin 5000) (k : Fin 128) (r : Fin 100000) (hr : r.val = t.val * 5000 + p.val) :
    (iblk0 V c 0 t : Vec Ideal S5000x128 .f32) (ix2 p k) = (V c (Pipeline.arrRef spec0 0) : S100000x128.Idx → EReal) (ix2 r k) := by
  obtain ⟨e0, e1, -⟩ := idx0 t
  unfold iblk0
  rw [View.read_apply]
  have h : ((cfg0.win 0).blk t).view.emb (ix2 p k) = ix2 r k := by
    funext a; apply Fin.ext
    match a with
    | ⟨0, _⟩ => show win0_0.index t (0 : Fin 2) * 5000 + 1 * p.val = r.val; omega
    | ⟨1, _⟩ => show win0_0.index t (1 : Fin 2) * 128 + 1 * k.val = k.val; omega
  rw [h]
  rfl

/-- Row p of the second node array's block at point t is row 5000·t + p of the array. -/
theorem rd0_1 (c : Dev nD) (t : Fin cfg0.N) (p : Fin 5000) (k : Fin 128) (r : Fin 100000) (hr : r.val = t.val * 5000 + p.val) :
    (iblk0 V c 1 t : Vec Ideal S5000x128 .f32) (ix2 p k) = (V c (Pipeline.arrRef spec0 1) : S100000x128.Idx → EReal) (ix2 r k) := by
  obtain ⟨-, -, e0, e1, -⟩ := idx0 t
  unfold iblk0
  rw [View.read_apply]
  have h : ((cfg0.win 1).blk t).view.emb (ix2 p k) = ix2 r k := by
    funext a; apply Fin.ext
    match a with
    | ⟨0, _⟩ => show win0_1.index t (0 : Fin 2) * 5000 + 1 * p.val = r.val; omega
    | ⟨1, _⟩ => show win0_1.index t (1 : Fin 2) * 128 + 1 * k.val = k.val; omega
  rw [h]
  rfl

/-- The first weight matrix's block at every point is the matrix. -/
theorem rd0_2 (c : Dev nD) (t : Fin cfg0.N) (k q : Fin 128) :
    (iblk0 V c 2 t : Vec Ideal S128x128 .f32) (ix2 k q) = (V c (Pipeline.arrRef spec0 2) : S128x128.Idx → EReal) (ix2 k q) := by
  obtain ⟨-, -, -, -, e0, e1, -⟩ := idx0 t
  unfold iblk0
  rw [View.read_apply]
  have h : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  rw [h]
  rfl

/-- The second weight matrix's block at every point is the matrix. -/
theorem rd0_3 (c : Dev nD) (t : Fin cfg0.N) (k q : Fin 128) :
    (iblk0 V c 3 t : Vec Ideal S128x128 .f32) (ix2 k q) = (V c (Pipeline.arrRef spec0 3) : S128x128.Idx → EReal) (ix2 k q) := by
  obtain ⟨-, -, -, -, -, -, e0, e1, -⟩ := idx0 t
  unfold iblk0
  rw [View.read_apply]
  have h : ((cfg0.win 3).blk t).view.emb (ix2 k q) = ix2 k q := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  rw [h]
  rfl

/-- The bias row's block at every point is the row. -/
theorem rd0_4 (c : Dev nD) (t : Fin cfg0.N) (q : Fin 128) :
    (iblk0 V c 4 t : Vec Ideal S1x128 .f32) (ix2 (0 : Fin 1) q) = (V c (Pipeline.arrRef spec0 4) : S1x128.Idx → EReal) (ix2 (0 : Fin 1) q) := by
  obtain ⟨-, -, -, -, -, -, -, -, e0, e1, -⟩ := idx0 t
  unfold iblk0
  rw [View.read_apply]
  have h : ((cfg0.win 4).blk t).view.emb (ix2 (0 : Fin 1) q) = ix2 (0 : Fin 1) q := by
    funext a; apply Fin.ext
    match a with
    | ⟨0, _⟩ => show win0_4.index t (0 : Fin 2) * 1 + 1 * (0 : Fin 1).val = (0 : Fin 1).val; omega
    | ⟨1, _⟩ => show win0_4.index t (1 : Fin 2) * 128 + 1 * q.val = q.val; omega
  rw [h]
  rfl

/-- Entry (p, q) of the output's block at point t is entry (5000·t + p, q) of the output array. -/
theorem emb0 (t : Fin cfg0.N) (p : Fin 5000) (q : Fin 128) (r : Fin 100000) (hr : r.val = t.val * 5000 + p.val) :
    ((cfg0.win 5).blk t).view.emb (ix2 p q) = ix2 r q := by
  obtain ⟨-, -, -, -, -, -, -, -, -, -, e0, e1⟩ := idx0 t
  funext a; apply Fin.ext
  match a with
  | ⟨0, _⟩ => show win0_5.index t (0 : Fin 2) * 5000 + 1 * p.val = r.val; omega
  | ⟨1, _⟩ => show win0_5.index t (1 : Fin 2) * 128 + 1 * q.val = q.val; omega

/-- Entry (p, q) of what point t's body stores is entry (5000·t + p, q) of lin of the five arrays as the region finds them. -/
theorem entry0 (c : Dev nD) (t : Fin cfg0.N) (p : Fin 5000) (q : Fin 128) (r : Fin 100000) (hr : r.val = t.val * 5000 + p.val) :
    k0_pay1 (F := Ideal) (iblk0 V c 0 t) (iblk0 V c 1 t) (iblk0 V c 2 t) (iblk0 V c 3 t) (iblk0 V c 4 t) (ix2 p q)
      = Cert.Spec.lin (V c (Pipeline.arrRef spec0 0)) (V c (Pipeline.arrRef spec0 1)) (V c (Pipeline.arrRef spec0 2))
          (V c (Pipeline.arrRef spec0 3)) (V c (Pipeline.arrRef spec0 4)) (ix2 r q) :=
  (pay0_at (iblk0 V c 0 t) (iblk0 V c 1 t) (iblk0 V c 2 t) (iblk0 V c 3 t) (iblk0 V c 4 t) p q).trans
    (sums_eq_lin (iblk0 V c 0 t) (iblk0 V c 1 t) (iblk0 V c 2 t) (iblk0 V c 3 t) (iblk0 V c 4 t)
      (V c (Pipeline.arrRef spec0 0)) (V c (Pipeline.arrRef spec0 1)) (V c (Pipeline.arrRef spec0 2))
      (V c (Pipeline.arrRef spec0 3)) (V c (Pipeline.arrRef spec0 4)) p q r
      (fun k => rd0_0 V c t p k r hr) (fun k => rd0_1 V c t p k r hr) (fun k => rd0_2 V c t k q) (fun k => rd0_3 V c t k q)
      (rd0_4 V c t q))

/-- What point t writes back is row block t of lin of the five arrays as the region finds them. -/
theorem flushed0 (c : Dev nD) (t : Fin cfg0.N) :
    (dat0 V c).flushed 5 t = ((cfg0.win 5).blk t).view.read (Elt Ideal)
      (Cert.Spec.lin (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero zeroOff]
  simp only [View.ld_unit_zero (S := S5000x128) zeroOff, View.ld_unit_zero (S := S128x128) zeroOff, View.ld_unit_zero (S := S1x128) zeroOff]
  have hN : cfg0.N = 20 := N_0
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  rw [View.read_apply, emb0 t p q ⟨t.val * 5000 + p.val, by omega⟩ rfl]
  exact entry0 V c t p q ⟨t.val * 5000 + p.val, by omega⟩ rfl

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v16).slice (win0_5.rect t)).set ↔ _
  rw [View.set_slice_whole, Rect.mem_set_unit]
  exact Iff.rfl

/-- Row r of the output lies in the block of point r / 5000. -/
theorem cover0 (i : S100000x128.Idx) : ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  have hlt : (i 0).val / 5000 < cfg0.N := by rw [hN]; omega
  obtain ⟨-, -, -, -, -, -, -, -, -, -, e0, e1⟩ := idx0 ⟨(i 0).val / 5000, hlt⟩
  refine ⟨⟨(i 0).val / 5000, hlt⟩, flush0_5 _, ?_⟩
  rw [mem_blk0]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]; omega

/-- THE ARRAY the region leaves: lin of the five arrays as the region finds them. -/
theorem final0 (c : Dev nD) :
    ((dat0 (F := Ideal) V c).arrAt 5 cfg0.N : Cert.Spec.Node) =
      Cert.Spec.lin (V c (Pipeline.arrRef spec0 0)) (V c (Pipeline.arrRef spec0 1)) (V c (Pipeline.arrRef spec0 2))
        (V c (Pipeline.arrRef spec0 3)) (V c (Pipeline.arrRef spec0 4)) :=
  (dat0 V c).arrAt_eq_of_cover 5 _ (fun t _ => flushed0 V c t) (cover0 ·)

end Cert.KernelIdeal.LinValue

end
-- ==== Proof.BnAt.lean ====
/-
  The batch-normalisation regions, entry by entry.

  Each of these regions reads a block of 5000 rows of the affine layer's output x, the four one-row statistics
  (mean m, variance v, scale g, shift b) and the same block of the running total, and stores
      relu (g · (x − m) · (v + ε)^(-1/2) + b)        and        total + that.
  Everything is pointwise: entry (i, j) of a stored block depends on entry (i, j) of x (and of the total) and on
  entry (0, j) of each statistic. The specification's `bnR` reads the same way through its row broadcast, so
  both sides meet at one scalar function `bnAt`; ε and 0 are the same literal words on both sides and are never
  evaluated. From this, a block of the stored value is the corresponding block of `bnR` of the whole arrays
  whenever the loaded block is that block of x and the statistics are loaded whole.
-/
import proofs.«145014_j19963007992111_1_alg».proof.Proof.Spec
import proofs.«145014_j19963007992111_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BnValue

open Idealize.ShloMosaic Idealize.ShloMosaic.ValueIdx Cert.KernelIdeal Cert.KernelIdeal.Gen

/-- One entry of the normalised, scaled, shifted and rectified array:
    max (g · (x − m) · (v + ε)^(-1/2) + b) 0, with ε and 0 the two literal words. -/
def bnAt (x m v g b : EReal) : EReal :=
  max (g * (x - m) * Ideal.rsqrt (v + Ideal.ofBits .f32 0x3727C5AC#32) + b) (Ideal.ofBits .f32 0x00000000#32)

/-- The zero offsets of a whole-buffer access, as the constant function. -/
theorem hz : (![0, 0] : Fin 2 → Nat) = fun _ => 0 := funext fun a => by fin_cases a <;> rfl

/-! ## The stored values at an entry -/

/-- The first stored value at row p, column q of a block: `bnAt` of the block's entry and of the four
    statistics at column q. -/
theorem pay1_apply (x0 : Vec Ideal S5000x128 .f32) (m v g b : Vec Ideal S1x128 .f32) (p : Fin 5000) (q : Fin 128) :
    k1_pay1 (F := Ideal) x0 m v g b (ix2 p q)
      = bnAt (x0 (ix2 p q)) (m (ix2 (0 : Fin 1) q)) (v (ix2 (0 : Fin 1) q)) (g (ix2 (0 : Fin 1) q)) (b (ix2 (0 : Fin 1) q)) := by
  unfold k1_pay1 bnAt
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- The second stored value at the same entry: the running total's entry plus the first stored value's. -/
theorem pay2_apply (x0 : Vec Ideal S5000x128 .f32) (m v g b : Vec Ideal S1x128 .f32) (x5 : Vec Ideal S5000x128 .f32)
    (p : Fin 5000) (q : Fin 128) :
    k1_pay2 (F := Ideal) x0 m v g b x5 (ix2 p q)
      = x5 (ix2 p q) + bnAt (x0 (ix2 p q)) (m (ix2 (0 : Fin 1) q)) (v (ix2 (0 : Fin 1) q)) (g (ix2 (0 : Fin 1) q)) (b (ix2 (0 : Fin 1) q)) := by
  unfold k1_pay2
  simp only [shapeCast_self]
  rw [addf_apply, pay1_apply]

/-- The four regions of this kind run the same body: their stored values are the same functions. -/
theorem pay1_3 : @k3_pay1 = @k1_pay1 := rfl
theorem pay2_3 : @k3_pay2 = @k1_pay2 := rfl
theorem pay1_5 : @k5_pay1 = @k1_pay1 := rfl
theorem pay2_5 : @k5_pay2 = @k1_pay2 := rfl
theorem pay1_7 : @k7_pay1 = @k1_pay1 := rfl
theorem pay2_7 : @k7_pay2 = @k1_pay2 := rfl

/-! ## The specification at an entry -/

/-- A one-row matrix repeated down the rows reads, at (p, q), its entry at column q. -/
theorem rep_apply (r2 : Cert.Spec.Row) (p : Fin 100000) (q : Fin 128) :
    Cert.Spec.rep r2 (ix2 p q) = r2 (ix2 (0 : Fin 1) q) := by
  unfold Cert.Spec.rep
  refine broadcastInDim_apply _ _ r2 (ix2 p q) (ix2 (0 : Fin 1) q) fun a => ?_
  match a with
  | ⟨0, _⟩ => rfl
  | ⟨1, _⟩ => rfl

/-- The specification at (p, q) is `bnAt` of x's entry and of the statistics at column q. -/
theorem bnR_apply (x : Cert.Spec.Node) (m2 v2 g2 b2 : Cert.Spec.Row) (p : Fin 100000) (q : Fin 128) :
    Cert.Spec.bnR x m2 v2 g2 b2 (ix2 p q)
      = bnAt (x (ix2 p q)) (m2 (ix2 (0 : Fin 1) q)) (v2 (ix2 (0 : Fin 1) q)) (g2 (ix2 (0 : Fin 1) q)) (b2 (ix2 (0 : Fin 1) q)) := by
  unfold Cert.Spec.bnR bnAt
  rw [maximumf_apply, addf_apply, mulf_apply, mulf_apply, subf_apply, rep_apply, rep_apply, rep_apply, rep_apply]
  rfl

/-! ## A stored block is a block of the specification

  `e` places a block's entries in the whole array keeping the column; the loaded block `x0` is x read through
  `e`, and the statistics are loaded whole. -/

/-- The first stored value, read at any entry of the block, is the specification at the entry's place. -/
theorem pay1_block (X : Cert.Spec.Node) (M Vr G B : Cert.Spec.Row)
    (x0 : Vec Ideal S5000x128 .f32) (m v g b : Vec Ideal S1x128 .f32) (e : S5000x128.Idx → S100000x128.Idx)
    (he : ∀ (p : Fin 5000) (q : Fin 128), ∃ r : Fin 100000, e (ix2 p q) = ix2 r q)
    (hx : ∀ y, x0 y = X (e y)) (hm : ∀ z, m z = M z) (hv : ∀ z, v z = Vr z) (hg : ∀ z, g z = G z) (hb : ∀ z, b z = B z)
    (y : S5000x128.Idx) :
    k1_pay1 (F := Ideal) x0 m v g b y = Cert.Spec.bnR X M Vr G B (e y) := by
  obtain ⟨p, q, rfl⟩ : ∃ (p : Fin 5000) (q : Fin 128), y = ix2 p q := ⟨y 0, y 1, eq_ix2 y⟩
  obtain ⟨r, hr⟩ := he p q
  rw [pay1_apply, hx, hm, hv, hg, hb, hr, bnR_apply]

/-- The second stored value likewise: the total's entry plus the specification's. -/
theorem pay2_block (X T : Cert.Spec.Node) (M Vr G B : Cert.Spec.Row)
    (x0 : Vec Ideal S5000x128 .f32) (m v g b : Vec Ideal S1x128 .f32) (x5 : Vec Ideal S5000x128 .f32)
    (e : S5000x128.Idx → S100000x128.Idx)
    (he : ∀ (p : Fin 5000) (q : Fin 128), ∃ r : Fin 100000, e (ix2 p q) = ix2 r q)
    (hx : ∀ y, x0 y = X (e y)) (hm : ∀ z, m z = M z) (hv : ∀ z, v z = Vr z) (hg : ∀ z, g z = G z) (hb : ∀ z, b z = B z)
    (ht : ∀ y, x5 y = T (e y)) (y : S5000x128.Idx) :
    k1_pay2 (F := Ideal) x0 m v g b x5 y = addf T (Cert.Spec.bnR X M Vr G B) (e y) := by
  obtain ⟨p, q, rfl⟩ : ∃ (p : Fin 5000) (q : Fin 128), y = ix2 p q := ⟨y 0, y 1, eq_ix2 y⟩
  obtain ⟨r, hr⟩ := he p q
  rw [pay2_apply, hx, hm, hv, hg, hb, ht, hr, addf_apply, bnR_apply]

end Cert.KernelIdeal.BnValue

end
-- ==== Proof.BnFinal1.lean ====
/-
  The batch-normalisation region 1, as whole arrays.

  The grid has 20 points; point t handles rows 5000·t … 5000·t + 4999 of the three row-blocked arrays (the affine
  layer's output, the running total, and the two results) and reads the four one-row statistics whole. So what
  point t writes back to each result is block t of one function of the arrays as the region finds them — the
  specification's `bnR`, and the total plus it — and the 20 blocks cover all 100000 rows.
-/
import proofs.«145014_j19963007992111_1_alg».proof.Proof.BnAt

noncomputable section

namespace Cert.KernelIdeal.BnValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index maps over the grid: the three row-blocked inputs and outputs sit at block (t, 0), the four
    statistics at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Where point t's block of a row-blocked window places entry (p, q): row 5000·t + p, column q. -/
theorem emb6_1 (t : Fin cfg1.N) (p : Fin 5000) (q : Fin 128) :
    ∃ r : Fin 100000, (((cfg1.win 6).blk t).view.emb (ix2 p q) : S100000x128.Idx) = ix2 r q := by
  obtain ⟨-, -, -, -, -, -, -, -, -, -, -, -, e0, e1, -, -⟩ := idx_facts1 t
  have hN : grid1.N = 20 := N_1
  have ht : t.val < 20 := Nat.lt_of_lt_of_eq (show t.val < grid1.N from t.isLt) hN
  refine ⟨⟨t.val * 5000 + p.val, by have := p.isLt; omega⟩, ?_⟩
  funext a
  apply Fin.ext
  match a with
  | ⟨0, _⟩ => show win1_6.index t (0 : Fin 2) * 5000 + 1 * p.val = t.val * 5000 + p.val; rw [e0]; omega
  | ⟨1, _⟩ => show win1_6.index t (1 : Fin 2) * 128 + 1 * q.val = q.val; rw [e1]; omega

theorem emb7_1 (t : Fin cfg1.N) (p : Fin 5000) (q : Fin 128) :
    ∃ r : Fin 100000, (((cfg1.win 7).blk t).view.emb (ix2 p q) : S100000x128.Idx) = ix2 r q := by
  obtain ⟨-, -, -, -, -, -, -, -, -, -, -, -, -, -, e0, e1⟩ := idx_facts1 t
  have hN : grid1.N = 20 := N_1
  have ht : t.val < 20 := Nat.lt_of_lt_of_eq (show t.val < grid1.N from t.isLt) hN
  refine ⟨⟨t.val * 5000 + p.val, by have := p.isLt; omega⟩, ?_⟩
  funext a
  apply Fin.ext
  match a with
  | ⟨0, _⟩ => show win1_7.index t (0 : Fin 2) * 5000 + 1 * p.val = t.val * 5000 + p.val; rw [e0]; omega
  | ⟨1, _⟩ => show win1_7.index t (1 : Fin 2) * 128 + 1 * q.val = q.val; rw [e1]; omega

/-! ## The input blocks, read off the arrays -/

/-- The block of the affine layer's output at point t is that array read where either result's block sits. -/
theorem blk0_6_1 (c : Dev nD) (t : Fin cfg1.N) (y : S5000x128.Idx) :
    iblk1 V c 0 t y = V c (Pipeline.arrRef spec1 0) (((cfg1.win 6).blk t).view.emb y) := by
  obtain ⟨a0, a1, -, -, -, -, -, -, -, -, -, -, e0, e1, -, -⟩ := idx_facts1 t
  unfold iblk1
  rw [View.read_apply]
  refine congrArg (V c (Pipeline.arrRef spec1 0)) (funext fun a => Fin.ext ?_)
  match a with
  | ⟨0, _⟩ => show win1_0.index t (0 : Fin 2) * 5000 + 1 * (y 0).val = win1_6.index t (0 : Fin 2) * 5000 + 1 * (y 0).val; rw [a0, e0]
  | ⟨1, _⟩ => show win1_0.index t (1 : Fin 2) * 128 + 1 * (y 1).val = win1_6.index t (1 : Fin 2) * 128 + 1 * (y 1).val; rw [a1, e1]

theorem blk0_7_1 (c : Dev nD) (t : Fin cfg1.N) (y : S5000x128.Idx) :
    iblk1 V c 0 t y = V c (Pipeline.arrRef spec1 0) (((cfg1.win 7).blk t).view.emb y) := by
  obtain ⟨a0, a1, -, -, -, -, -, -, -, -, -, -, -, -, e0, e1⟩ := idx_facts1 t
  unfold iblk1
  rw [View.read_apply]
  refine congrArg (V c (Pipeline.arrRef spec1 0)) (funext fun a => Fin.ext ?_)
  match a with
  | ⟨0, _⟩ => show win1_0.index t (0 : Fin 2) * 5000 + 1 * (y 0).val = win1_7.index t (0 : Fin 2) * 5000 + 1 * (y 0).val; rw [a0, e0]
  | ⟨1, _⟩ => show win1_0.index t (1 : Fin 2) * 128 + 1 * (y 1).val = win1_7.index t (1 : Fin 2) * 128 + 1 * (y 1).val; rw [a1, e1]

/-- The block of the running total at point t is that array read where the second result's block sits. -/
theorem blk5_7_1 (c : Dev nD) (t : Fin cfg1.N) (y : S5000x128.Idx) :
    iblk1 V c 5 t y = V c (Pipeline.arrRef spec1 5) (((cfg1.win 7).blk t).view.emb y) := by
  obtain ⟨-, -, -, -, -, -, -, -, -, -, a0, a1, -, -, e0, e1⟩ := idx_facts1 t
  unfold iblk1
  rw [View.read_apply]
  refine congrArg (V c (Pipeline.arrRef spec1 5)) (funext fun a => Fin.ext ?_)
  match a with
  | ⟨0, _⟩ => show win1_5.index t (0 : Fin 2) * 5000 + 1 * (y 0).val = win1_7.index t (0 : Fin 2) * 5000 + 1 * (y 0).val; rw [a0, e0]
  | ⟨1, _⟩ => show win1_5.index t (1 : Fin 2) * 128 + 1 * (y 1).val = win1_7.index t (1 : Fin 2) * 128 + 1 * (y 1).val; rw [a1, e1]

/-- Each statistic's block at any point is the whole one-row array. -/
theorem blk1_1 (c : Dev nD) (t : Fin cfg1.N) (z : S1x128.Idx) :
    iblk1 V c 1 t z = V c (Pipeline.arrRef spec1 1) z := by
  obtain ⟨-, -, a0, a1, -, -, -, -, -, -, -, -, -, -, -, -⟩ := idx_facts1 t
  unfold iblk1
  rw [View.read_apply]
  refine congrArg (V c (Pipeline.arrRef spec1 1)) (funext fun a => Fin.ext ?_)
  match a with
  | ⟨0, _⟩ => show win1_1.index t (0 : Fin 2) * 1 + 1 * (z 0).val = (z 0).val; rw [a0]; omega
  | ⟨1, _⟩ => show win1_1.index t (1 : Fin 2) * 128 + 1 * (z 1).val = (z 1).val; rw [a1]; omega

theorem blk2_1 (c : Dev nD) (t : Fin cfg1.N) (z : S1x128.Idx) :
    iblk1 V c 2 t z = V c (Pipeline.arrRef spec1 2) z := by
  obtain ⟨-, -, -, -, a0, a1, -, -, -, -, -, -, -, -, -, -⟩ := idx_facts1 t
  unfold iblk1
  rw [View.read_apply]
  refine congrArg (V c (Pipeline.arrRef spec1 2)) (funext fun a => Fin.ext ?_)
  match a with
  | ⟨0, _⟩ => show win1_2.index t (0 : Fin 2) * 1 + 1 * (z 0).val = (z 0).val; rw [a0]; omega
  | ⟨1, _⟩ => show win1_2.index t (1 : Fin 2) * 128 + 1 * (z 1).val = (z 1).val; rw [a1]; omega

theorem blk3_1 (c : Dev nD) (t : Fin cfg1.N) (z : S1x128.Idx) :
    iblk1 V c 3 t z = V c (Pipeline.arrRef spec1 3) z := by
  obtain ⟨-, -, -, -, -, -, a0, a1, -, -, -, -, -, -, -, -⟩ := idx_facts1 t
  unfold iblk1
  rw [View.read_apply]
  refine congrArg (V c (Pipeline.arrRef spec1 3)) (funext fun a => Fin.ext ?_)
  match a with
  | ⟨0, _⟩ => show win1_3.index t (0 : Fin 2) * 1 + 1 * (z 0).val = (z 0).val; rw [a0]; omega
  | ⟨1, _⟩ => show win1_3.index t (1 : Fin 2) * 128 + 1 * (z 1).val = (z 1).val; rw [a1]; omega

theorem blk4_1 (c : Dev nD) (t : Fin cfg1.N) (z : S1x128.Idx) :
    iblk1 V c 4 t z = V c (Pipeline.arrRef spec1 4) z := by
  obtain ⟨-, -, -, -, -, -, -, -, a0, a1, -, -, -, -, -, -⟩ := idx_facts1 t
  unfold iblk1
  rw [View.read_apply]
  refine congrArg (V c (Pipeline.arrRef spec1 4)) (funext fun a => Fin.ext ?_)
  match a with
  | ⟨0, _⟩ => show win1_4.index t (0 : Fin 2) * 1 + 1 * (z 0).val = (z 0).val; rw [a0]; omega
  | ⟨1, _⟩ => show win1_4.index t (1 : Fin 2) * 128 + 1 * (z 1).val = (z 1).val; rw [a1]; omega

/-! ## What each point writes back -/

/-- A result's staging buffer is written back whole (no block overhangs the array), and a block of an array is the
    array read where the block sits. -/
theorem cut6_1 (t : Fin cfg1.N) (X : Vec Ideal S5000x128 .f32) (y : S5000x128.Idx) :
    (cfg1.win 6).cut (grid1.coords t) X y = X y := rfl
theorem read6_1 (t : Fin cfg1.N) (G : Cert.Spec.Node) (y : S5000x128.Idx) :
    ((cfg1.win 6).blk t).view.read (Elt Ideal) G y = G (((cfg1.win 6).blk t).view.emb y) := rfl
theorem cut7_1 (t : Fin cfg1.N) (X : Vec Ideal S5000x128 .f32) (y : S5000x128.Idx) :
    (cfg1.win 7).cut (grid1.coords t) X y = X y := rfl
theorem read7_1 (t : Fin cfg1.N) (G : Cert.Spec.Node) (y : S5000x128.Idx) :
    ((cfg1.win 7).blk t).view.read (Elt Ideal) G y = G (((cfg1.win 7).blk t).view.emb y) := rfl

/-- Point t writes back, to the first result, block t of the specification of the arrays at entry. -/
theorem flushed6_1 (c : Dev nD) (t : Fin cfg1.N) :
    (dat1 (F := Ideal) V c).flushed 6 t = ((cfg1.win 6).blk t).view.read (Elt Ideal)
      (Cert.Spec.bnR (V c (Pipeline.arrRef spec1 0)) (V c (Pipeline.arrRef spec1 1)) (V c (Pipeline.arrRef spec1 2))
        (V c (Pipeline.arrRef spec1 3)) (V c (Pipeline.arrRef spec1 4))) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S1x128) hz]
  funext y
  rw [cut6_1, read6_1]
  exact pay1_block _ _ _ _ _ _ _ _ _ _ _ (emb6_1 t) (blk0_6_1 V c t) (blk1_1 V c t) (blk2_1 V c t) (blk3_1 V c t) (blk4_1 V c t) y

/-- Point t writes back, to the second result, block t of the total plus the specification. -/
theorem flushed7_1 (c : Dev nD) (t : Fin cfg1.N) :
    (dat1 (F := Ideal) V c).flushed 7 t = ((cfg1.win 7).blk t).view.read (Elt Ideal)
      (addf (V c (Pipeline.arrRef spec1 5) : Cert.Spec.Node)
        (Cert.Spec.bnR (V c (Pipeline.arrRef spec1 0)) (V c (Pipeline.arrRef spec1 1)) (V c (Pipeline.arrRef spec1 2))
          (V c (Pipeline.arrRef spec1 3)) (V c (Pipeline.arrRef spec1 4)))) := by
  show (cfg1.win 7).cut (grid1.coords t) ((dat1 (F := Ideal) V c).after 7 t) = _
  rw [after1_7]
  unfold out1_7
  rw [View.canon_unit_zero hz]
  simp only [View.ld_unit_zero (S := S5000x128) hz, View.ld_unit_zero (S := S1x128) hz]
  funext y
  rw [cut7_1, read7_1]
  exact pay2_block _ _ _ _ _ _ _ _ _ _ _ _ _ (emb7_1 t) (blk0_7_1 V c t) (blk1_1 V c t) (blk2_1 V c t) (blk3_1 V c t) (blk4_1 V c t) (blk5_7_1 V c t) y

/-! ## The blocks cover the arrays -/

/-- An entry is in point t's block of a result iff its row and column are in the block's ranges. -/
theorem mem_blk6_1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v24_0).slice (win1_6.rect t)).set ↔ _
  rw [View.set_slice_whole, Rect.mem_set_unit]
  exact Iff.rfl

theorem mem_blk7_1 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v24_1).slice (win1_7.rect t)).set ↔ _
  rw [View.set_slice_whole, Rect.mem_set_unit]
  exact Iff.rfl

/-- Row r lies in the block of point r / 5000. -/
theorem cover6_1 (i : S100000x128.Idx) :
    ∃ t : Fin cfg1.N, (cfg1.win 6).flush t = true ∧ i ∈ ((cfg1.win 6).blk t).view.set := by
  have hN : grid1.N = 20 := N_1
  have hi0 : (i 0).val < 100000 := (i 0).isLt
  have hi1 : (i 1).val < 128 := (i 1).isLt
  have ht : (i 0).val / 5000 < cfg1.N := by show _ < grid1.N; rw [hN]; omega
  obtain ⟨-, -, -, -, -, -, -, -, -, -, -, -, e0, e1, -, -⟩ := idx_facts1 ⟨(i 0).val / 5000, ht⟩
  refine ⟨⟨(i 0).val / 5000, ht⟩, flush1_6 _, ?_⟩
  rw [mem_blk6_1]
  intro a
  match a with
  | ⟨0, _⟩ => show win1_6.index ⟨(i 0).val / 5000, ht⟩ (0 : Fin 2) * 5000 ≤ (i 0).val ∧ (i 0).val < win1_6.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win1_6.index ⟨(i 0).val / 5000, ht⟩ (1 : Fin 2) * 128 ≤ (i 1).val ∧ (i 1).val < win1_6.index ⟨(i 0).val / 5000, ht⟩ (1 : Fin 2) * 128 + 128; rw [e1]; omega

theorem cover7_1 (i : S100000x128.Idx) :
    ∃ t : Fin cfg1.N, (cfg1.win 7).flush t = true ∧ i ∈ ((cfg1.win 7).blk t).view.set := by
  have hN : grid1.N = 20 := N_1
  have hi0 : (i 0).val < 100000 := (i 0).isLt
  have hi1 : (i 1).val < 128 := (i 1).isLt
  have ht : (i 0).val / 5000 < cfg1.N := by show _ < grid1.N; rw [hN]; omega
  obtain ⟨-, -, -, -, -, -, -, -, -, -, -, -, -, -, e0, e1⟩ := idx_facts1 ⟨(i 0).val / 5000, ht⟩
  refine ⟨⟨(i 0).val / 5000, ht⟩, flush1_7 _, ?_⟩
  rw [mem_blk7_1]
  intro a
  match a with
  | ⟨0, _⟩ => show win1_7.index ⟨(i 0).val / 5000, ht⟩ (0 : Fin 2) * 5000 ≤ (i 0).val ∧ (i 0).val < win1_7.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win1_7.index ⟨(i 0).val / 5000, ht⟩ (1 : Fin 2) * 128 ≤ (i 1).val ∧ (i 1).val < win1_7.index ⟨(i 0).val / 5000, ht⟩ (1 : Fin 2) * 128 + 128; rw [e1]; omega

/-! ## The arrays the region leaves -/

/-- The first result: the normalised, scaled, shifted and rectified array. -/
theorem final1_h (c : Dev nD) :
    ((dat1 (F := Ideal) V c).arrAt 6 cfg1.N : Cert.Spec.Node) =
      Cert.Spec.bnR (V c (Pipeline.arrRef spec1 0)) (V c (Pipeline.arrRef spec1 1)) (V c (Pipeline.arrRef spec1 2))
        (V c (Pipeline.arrRef spec1 3)) (V c (Pipeline.arrRef spec1 4)) :=
  (dat1 (F := Ideal) V c).arrAt_eq_of_cover 6 _ (fun t _ => flushed6_1 V c t) cover6_1

/-- The second result: the running total plus the first. -/
theorem final1_tot (c : Dev nD) :
    ((dat1 (F := Ideal) V c).arrAt 7 cfg1.N : Cert.Spec.Node) =
      addf (V c (Pipeline.arrRef spec1 5) : Cert.Spec.Node)
        (Cert.Spec.bnR (V c (Pipeline.arrRef spec1 0)) (V c (Pipeline.arrRef spec1 1)) (V c (Pipeline.arrRef spec1 2))
          (V c (Pipeline.arrRef spec1 3)) (V c (Pipeline.arrRef spec1 4))) :=
  (dat1 (F := Ideal) V c).arrAt_eq_of_cover 7 _ (fun t _ => flushed7_1 V c t) cover7_1

end Cert.KernelIdeal.BnValue

end
-- ==== Proof.KLayer0.lean ====
/-
  The first layer of the kernel's program, boundary by boundary: what the buffers hold when the second region
  (normalise, rectify, accumulate) has finished, as functions of the launch contents. The neighbour sum, bias row
  and zero total come from the host operations before the first region; the first region's output array is the
  affine part; the statistics and the scale and shift rows come from the host operations after it; the second
  region's two output arrays are the layer's output and the running total 0 + output.
-/
import proofs.«145014_j19963007992111_1_alg».proof.Proof.Gen.KernelIdeal.Frame
import proofs.«145014_j19963007992111_1_alg».proof.Proof.KHost0
import proofs.«145014_j19963007992111_1_alg».proof.Proof.LinFinal0
import proofs.«145014_j19963007992111_1_alg».proof.Proof.BnFinal1

set_option maxRecDepth 16384

noncomputable section

namespace Cert.KernelIdeal.KChain

open Idealize.ShloMosaic Idealize.ShloMosaic.TcCoe Idealize.ShloMosaic.StableHlo Idealize.SL.Sem
open Cert.KernelIdeal Cert.KernelIdeal.Gen Cert.Spec Cert.KernelIdeal.KHost

variable (m : (ℓ : Loc nD τ sig) → Buf (Elt Ideal) ℓ) (ρ : Dev nD → PrngReg) (c : Dev nD)

set_option maxHeartbeats 2000000 in
/-- The affine part of the first layer: the first region's output array. -/
theorem L0_y : (W2 m ρ c (Proc.devRef .tc main_v16) : Node)
    = lin (agg (W0 m ρ c (Proc.devRef .tc main_arg0)) (src (W0 m ρ c (Proc.devRef .tc main_arg1))) (dst (W0 m ρ c (Proc.devRef .tc main_arg1)))) (W0 m ρ c (Proc.devRef .tc main_arg0)) (W0 m ρ c (Proc.devRef .tc main_arg2)) (W0 m ρ c (Proc.devRef .tc main_arg3)) (rs (W0 m ρ c (Proc.devRef .tc main_arg4))) := by
  have h := (W2_arr m ρ c 5).trans (LinValue.final0 (V1 m ρ) c)
  rw [show (V1 m ρ c (Pipeline.arrRef spec0 0) : Node) = _ from A0_agg (W0 m ρ c),
      show (V1 m ρ c (Pipeline.arrRef spec0 1) : Node) = _ from A0_keep_main_arg0 (W0 m ρ c),
      show (V1 m ρ c (Pipeline.arrRef spec0 2) : Mat) = _ from A0_keep_main_arg2 (W0 m ρ c),
      show (V1 m ρ c (Pipeline.arrRef spec0 3) : Mat) = _ from A0_keep_main_arg3 (W0 m ρ c),
      show (V1 m ρ c (Pipeline.arrRef spec0 4) : Row) = _ from A0_bias (W0 m ρ c)] at h
  exact h

set_option maxHeartbeats 2000000 in
/-- The first layer's output: the second region's first output array. -/
theorem L0_h : (W6 m ρ c (Proc.devRef .tc main_v24_0) : Node) = klayer (W0 m ρ c (Proc.devRef .tc main_arg0)) (src (W0 m ρ c (Proc.devRef .tc main_arg1))) (dst (W0 m ρ c (Proc.devRef .tc main_arg1))) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) := by
  have h := (W6_arr m ρ c 6).trans (BnValue.final1_h (V5 m ρ) c)
  rw [show (V5 m ρ c (Pipeline.arrRef spec1 0) : Node) = _ from B0_keep_main_v16 (W2 m ρ c),
      show (V5 m ρ c (Pipeline.arrRef spec1 1) : Row) = _ from B0_mean (W2 m ρ c),
      show (V5 m ρ c (Pipeline.arrRef spec1 2) : Row) = _ from B0_var (W2 m ρ c),
      show (V5 m ρ c (Pipeline.arrRef spec1 3) : Row) = _ from B0_gamma (W2 m ρ c),
      show (V5 m ρ c (Pipeline.arrRef spec1 4) : Row) = _ from B0_beta (W2 m ρ c)] at h
  rw [L0_y m ρ c,
      show (W2 m ρ c (Proc.devRef .tc main_arg5) : Lane) = _ from (W2_of_ne m ρ c main_arg5 (by decide)).trans (A0_keep_main_arg5 (W0 m ρ c)),
      show (W2 m ρ c (Proc.devRef .tc main_arg6) : Lane) = _ from (W2_of_ne m ρ c main_arg6 (by decide)).trans (A0_keep_main_arg6 (W0 m ρ c))] at h
  exact h

set_option maxHeartbeats 2000000 in
/-- The running total after the first layer: the second region's second output array, the zero array plus the output. -/
theorem L0_tot : (W6 m ρ c (Proc.devRef .tc main_v24_1) : Node) = addf zeros (klayer (W0 m ρ c (Proc.devRef .tc main_arg0)) (src (W0 m ρ c (Proc.devRef .tc main_arg1))) (dst (W0 m ρ c (Proc.devRef .tc main_arg1))) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6))) := by
  have h := (W6_arr m ρ c 7).trans (BnValue.final1_tot (V5 m ρ) c)
  rw [show (V5 m ρ c (Pipeline.arrRef spec1 5) : Node) = _ from (B0_keep_main_v4 (W2 m ρ c)).trans ((W2_of_ne m ρ c main_v4 (by decide)).trans (A0_zeros (W0 m ρ c)))] at h
  rw [show (V5 m ρ c (Pipeline.arrRef spec1 0) : Node) = _ from B0_keep_main_v16 (W2 m ρ c),
      show (V5 m ρ c (Pipeline.arrRef spec1 1) : Row) = _ from B0_mean (W2 m ρ c),
      show (V5 m ρ c (Pipeline.arrRef spec1 2) : Row) = _ from B0_var (W2 m ρ c),
      show (V5 m ρ c (Pipeline.arrRef spec1 3) : Row) = _ from B0_gamma (W2 m ρ c),
      show (V5 m ρ c (Pipeline.arrRef spec1 4) : Row) = _ from B0_beta (W2 m ρ c)] at h
  rw [L0_y m ρ c,
      show (W2 m ρ c (Proc.devRef .tc main_arg5) : Lane) = _ from (W2_of_ne m ρ c main_arg5 (by decide)).trans (A0_keep_main_arg5 (W0 m ρ c)),
      show (W2 m ρ c (Proc.devRef .tc main_arg6) : Lane) = _ from (W2_of_ne m ρ c main_arg6 (by decide)).trans (A0_keep_main_arg6 (W0 m ρ c))] at h
  exact h

/-- What is carried past the first layer: the edge list's two rows and the stacked parameters. -/
theorem L0_src : (W6 m ρ c (Proc.devRef .tc main_v1) : Edge) = src (W0 m ρ c (Proc.devRef .tc main_arg1)) :=
  (W6_of_ne m ρ c main_v1 (by decide)).trans ((B0_keep_main_v1 (W2 m ρ c)).trans ((W2_of_ne m ρ c main_v1 (by decide)).trans (A0_src (W0 m ρ c))))
theorem L0_dst : (W6 m ρ c (Proc.devRef .tc main_v3) : Edge) = dst (W0 m ρ c (Proc.devRef .tc main_arg1)) :=
  (W6_of_ne m ρ c main_v3 (by decide)).trans ((B0_keep_main_v3 (W2 m ρ c)).trans ((W2_of_ne m ρ c main_v3 (by decide)).trans (A0_dst (W0 m ρ c))))
theorem L0_arg7 : W6 m ρ c (Proc.devRef .tc main_arg7) = W0 m ρ c (Proc.devRef .tc main_arg7) :=
  (W6_of_ne m ρ c main_arg7 (by decide)).trans ((B0_keep_main_arg7 (W2 m ρ c)).trans ((W2_of_ne m ρ c main_arg7 (by decide)).trans (A0_keep_main_arg7 (W0 m ρ c))))
theorem L0_arg8 : W6 m ρ c (Proc.devRef .tc main_arg8) = W0 m ρ c (Proc.devRef .tc main_arg8) :=
  (W6_of_ne m ρ c main_arg8 (by decide)).trans ((B0_keep_main_arg8 (W2 m ρ c)).trans ((W2_of_ne m ρ c main_arg8 (by decide)).trans (A0_keep_main_arg8 (W0 m ρ c))))
theorem L0_arg9 : W6 m ρ c (Proc.devRef .tc main_arg9) = W0 m ρ c (Proc.devRef .tc main_arg9) :=
  (W6_of_ne m ρ c main_arg9 (by decide)).trans ((B0_keep_main_arg9 (W2 m ρ c)).trans ((W2_of_ne m ρ c main_arg9 (by decide)).trans (A0_keep_main_arg9 (W0 m ρ c))))
theorem L0_arg10 : W6 m ρ c (Proc.devRef .tc main_arg10) = W0 m ρ c (Proc.devRef .tc main_arg10) :=
  (W6_of_ne m ρ c main_arg10 (by decide)).trans ((B0_keep_main_arg10 (W2 m ρ c)).trans ((W2_of_ne m ρ c main_arg10 (by decide)).trans (A0_keep_main_arg10 (W0 m ρ c))))
theorem L0_arg11 : W6 m ρ c (Proc.devRef .tc main_arg11) = W0 m ρ c (Proc.devRef .tc main_arg11) :=
  (W6_of_ne m ρ c main_arg11 (by decide)).trans ((B0_keep_main_arg11 (W2 m ρ c)).trans ((W2_of_ne m ρ c main_arg11 (by decide)).trans (A0_keep_main_arg11 (W0 m ρ c))))

end Cert.KernelIdeal.KChain

end
-- ==== Proof.KHost1.lean ====
/-
  The kernel program's host operations of layer 2, read as values. Before the layer's first region: slice 0
  of each stacked parameter, the neighbour sum of the previous layer's output, the bias as a row. Between its two
  regions: the column statistics of the affine part kept as one-row matrices, and scale and shift recast as rows.
  Each is stated for an arbitrary starting valuation.
-/
import proofs.«145014_j19963007992111_1_alg».proof.Proof.Gen.KernelIdeal.Launch
import proofs.«145014_j19963007992111_1_alg».proof.Proof.Spec
import Idealize.ShloMosaic.Lib.StableHlo.Run
import Idealize.ShloMosaic.Lib.Pipeline.Frame

set_option maxRecDepth 16384

noncomputable section

namespace Cert.KernelIdeal.KHost

open Idealize.ShloMosaic Idealize.ShloMosaic.TcCoe Idealize.ShloMosaic.StableHlo Idealize.SL.Sem
open Cert.KernelIdeal Cert.KernelIdeal.Gen Cert.Spec

/-- A buffer that no operation of a literal list writes keeps its contents: the list's written buffers are read off
    the operations one by one and each is a different reference. -/
macro "host_keep1" : tactic => `(tactic|
  exact StableHlo.after_of_forall_not_mem _ _ (List.forall_iff_forall_mem.mp (by
    simp only [hostOps0, hostOps1, hostOps1_1, hostOps1_2, hostOps2, hostOps3, hostOps3_1, hostOps3_2, hostOps4, hostOps5,
      hostOps5_1, hostOps5_2, hostOps6, hostOps7, hostOps7_1, hostOps7_2, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))))

attribute [local irreducible] Host.gather Host.scatterAdd Host.reduceAdd

variable (V : Valuation τ sig (Elt Ideal))

set_option maxHeartbeats 2000000 in
theorem A1_agg : (after (hostOps2 (F := Ideal)) V (Proc.devRef .tc main_v44) : Node)
    = agg (V (Proc.devRef .tc main_v24_0)) (V (Proc.devRef .tc main_v1)) (V (Proc.devRef .tc main_v3)) := by
  after_results_simp; rfl
set_option maxHeartbeats 2000000 in
theorem A1_wrel : (after (hostOps2 (F := Ideal)) V (Proc.devRef .tc main_v26) : Mat)
    = mat3 ![0, 0, 0] (by decide) (V (Proc.devRef .tc main_arg7)) := by
  after_results_simp; rfl
set_option maxHeartbeats 2000000 in
theorem A1_wroot : (after (hostOps2 (F := Ideal)) V (Proc.devRef .tc main_v28) : Mat)
    = mat3 ![0, 0, 0] (by decide) (V (Proc.devRef .tc main_arg8)) := by
  after_results_simp; rfl
set_option maxHeartbeats 2000000 in
theorem A1_bias : (after (hostOps2 (F := Ideal)) V (Proc.devRef .tc main_v45) : Row)
    = rs (vec3 ![0, 0] (by decide) (V (Proc.devRef .tc main_arg9))) := by
  after_results_simp; rfl
set_option maxHeartbeats 2000000 in
theorem A1_gamma : (after (hostOps2 (F := Ideal)) V (Proc.devRef .tc main_v32) : Lane)
    = vec3 ![0, 0] (by decide) (V (Proc.devRef .tc main_arg10)) := by
  after_results_simp; rfl
set_option maxHeartbeats 2000000 in
theorem A1_beta : (after (hostOps2 (F := Ideal)) V (Proc.devRef .tc main_v34) : Lane)
    = vec3 ![0, 0] (by decide) (V (Proc.devRef .tc main_arg11)) := by
  after_results_simp; rfl
theorem A1_keep_main_v24_0 : after (hostOps2 (F := Ideal)) V (Proc.devRef .tc main_v24_0) = V (Proc.devRef .tc main_v24_0) := by host_keep1
theorem A1_keep_main_v24_1 : after (hostOps2 (F := Ideal)) V (Proc.devRef .tc main_v24_1) = V (Proc.devRef .tc main_v24_1) := by host_keep1
theorem A1_keep_main_v1 : after (hostOps2 (F := Ideal)) V (Proc.devRef .tc main_v1) = V (Proc.devRef .tc main_v1) := by host_keep1
theorem A1_keep_main_v3 : after (hostOps2 (F := Ideal)) V (Proc.devRef .tc main_v3) = V (Proc.devRef .tc main_v3) := by host_keep1
theorem A1_keep_main_arg7 : after (hostOps2 (F := Ideal)) V (Proc.devRef .tc main_arg7) = V (Proc.devRef .tc main_arg7) := by host_keep1
theorem A1_keep_main_arg8 : after (hostOps2 (F := Ideal)) V (Proc.devRef .tc main_arg8) = V (Proc.devRef .tc main_arg8) := by host_keep1
theorem A1_keep_main_arg9 : after (hostOps2 (F := Ideal)) V (Proc.devRef .tc main_arg9) = V (Proc.devRef .tc main_arg9) := by host_keep1
theorem A1_keep_main_arg10 : after (hostOps2 (F := Ideal)) V (Proc.devRef .tc main_arg10) = V (Proc.devRef .tc main_arg10) := by host_keep1
theorem A1_keep_main_arg11 : after (hostOps2 (F := Ideal)) V (Proc.devRef .tc main_arg11) = V (Proc.devRef .tc main_arg11) := by host_keep1

set_option maxHeartbeats 2000000 in
theorem B1_mean : (after (hostOps3_2 (F := Ideal)) (after (hostOps3_1 (F := Ideal)) (after (hostOps3 (F := Ideal)) V)) (Proc.devRef .tc main_v50) : Row)
    = mean2 (V (Proc.devRef .tc main_v46)) := by
  after_results_simp; rfl
set_option maxHeartbeats 2000000 in
theorem B1_var : (after (hostOps3_2 (F := Ideal)) (after (hostOps3_1 (F := Ideal)) (after (hostOps3 (F := Ideal)) V)) (Proc.devRef .tc main_v51) : Row)
    = var2 (V (Proc.devRef .tc main_v46)) := by
  after_results_simp; rfl
set_option maxHeartbeats 2000000 in
theorem B1_gamma : (after (hostOps3_2 (F := Ideal)) (after (hostOps3_1 (F := Ideal)) (after (hostOps3 (F := Ideal)) V)) (Proc.devRef .tc main_v52) : Row)
    = rs (V (Proc.devRef .tc main_v32)) := by
  after_results_simp; rfl
set_option maxHeartbeats 2000000 in
theorem B1_beta : (after (hostOps3_2 (F := Ideal)) (after (hostOps3_1 (F := Ideal)) (after (hostOps3 (F := Ideal)) V)) (Proc.devRef .tc main_v53) : Row)
    = rs (V (Proc.devRef .tc main_v34)) := by
  after_results_simp; rfl
theorem B1_keep_main_v46 : after (hostOps3_2 (F := Ideal)) (after (hostOps3_1 (F := Ideal)) (after (hostOps3 (F := Ideal)) V)) (Proc.devRef .tc main_v46) = V (Proc.devRef .tc main_v46) :=
  (by host_keep1 : after (hostOps3_2 (F := Ideal)) (after (hostOps3_1 (F := Ideal)) (after (hostOps3 (F := Ideal)) V)) (Proc.devRef .tc main_v46) = after (hostOps3_1 (F := Ideal)) (after (hostOps3 (F := Ideal)) V) (Proc.devRef .tc main_v46)).trans
    ((by host_keep1 : after (hostOps3_1 (F := Ideal)) (after (hostOps3 (F := Ideal)) V) (Proc.devRef .tc main_v46) = after (hostOps3 (F := Ideal)) V (Proc.devRef .tc main_v46)).trans (by host_keep1))
theorem B1_keep_main_v24_1 : after (hostOps3_2 (F := Ideal)) (after (hostOps3_1 (F := Ideal)) (after (hostOps3 (F := Ideal)) V)) (Proc.devRef .tc main_v24_1) = V (Proc.devRef .tc main_v24_1) :=
  (by host_keep1 : after (hostOps3_2 (F := Ideal)) (after (hostOps3_1 (F := Ideal)) (after (hostOps3 (F := Ideal)) V)) (Proc.devRef .tc main_v24_1) = after (hostOps3_1 (F := Ideal)) (after (hostOps3 (F := Ideal)) V) (Proc.devRef .tc main_v24_1)).trans
    ((by host_keep1 : after (hostOps3_1 (F := Ideal)) (after (hostOps3 (F := Ideal)) V) (Proc.devRef .tc main_v24_1) = after (hostOps3 (F := Ideal)) V (Proc.devRef .tc main_v24_1)).trans (by host_keep1))
theorem B1_keep_main_v1 : after (hostOps3_2 (F := Ideal)) (after (hostOps3_1 (F := Ideal)) (after (hostOps3 (F := Ideal)) V)) (Proc.devRef .tc main_v1) = V (Proc.devRef .tc main_v1) :=
  (by host_keep1 : after (hostOps3_2 (F := Ideal)) (after (hostOps3_1 (F := Ideal)) (after (hostOps3 (F := Ideal)) V)) (Proc.devRef .tc main_v1) = after (hostOps3_1 (F := Ideal)) (after (hostOps3 (F := Ideal)) V) (Proc.devRef .tc main_v1)).trans
    ((by host_keep1 : after (hostOps3_1 (F := Ideal)) (after (hostOps3 (F := Ideal)) V) (Proc.devRef .tc main_v1) = after (hostOps3 (F := Ideal)) V (Proc.devRef .tc main_v1)).trans (by host_keep1))
theorem B1_keep_main_v3 : after (hostOps3_2 (F := Ideal)) (after (hostOps3_1 (F := Ideal)) (after (hostOps3 (F := Ideal)) V)) (Proc.devRef .tc main_v3) = V (Proc.devRef .tc main_v3) :=
  (by host_keep1 : after (hostOps3_2 (F := Ideal)) (after (hostOps3_1 (F := Ideal)) (after (hostOps3 (F := Ideal)) V)) (Proc.devRef .tc main_v3) = after (hostOps3_1 (F := Ideal)) (after (hostOps3 (F := Ideal)) V) (Proc.devRef .tc main_v3)).trans
    ((by host_keep1 : after (hostOps3_1 (F := Ideal)) (after (hostOps3 (F := Ideal)) V) (Proc.devRef .tc main_v3) = after (hostOps3 (F := Ideal)) V (Proc.devRef .tc main_v3)).trans (by host_keep1))
theorem B1_keep_main_arg7 : after (hostOps3_2 (F := Ideal)) (after (hostOps3_1 (F := Ideal)) (after (hostOps3 (F := Ideal)) V)) (Proc.devRef .tc main_arg7) = V (Proc.devRef .tc main_arg7) :=
  (by host_keep1 : after (hostOps3_2 (F := Ideal)) (after (hostOps3_1 (F := Ideal)) (after (hostOps3 (F := Ideal)) V)) (Proc.devRef .tc main_arg7) = after (hostOps3_1 (F := Ideal)) (after (hostOps3 (F := Ideal)) V) (Proc.devRef .tc main_arg7)).trans
    ((by host_keep1 : after (hostOps3_1 (F := Ideal)) (after (hostOps3 (F := Ideal)) V) (Proc.devRef .tc main_arg7) = after (hostOps3 (F := Ideal)) V (Proc.devRef .tc main_arg7)).trans (by host_keep1))
theorem B1_keep_main_arg8 : after (hostOps3_2 (F := Ideal)) (after (hostOps3_1 (F := Ideal)) (after (hostOps3 (F := Ideal)) V)) (Proc.devRef .tc main_arg8) = V (Proc.devRef .tc main_arg8) :=
  (by host_keep1 : after (hostOps3_2 (F := Ideal)) (after (hostOps3_1 (F := Ideal)) (after (hostOps3 (F := Ideal)) V)) (Proc.devRef .tc main_arg8) = after (hostOps3_1 (F := Ideal)) (after (hostOps3 (F := Ideal)) V) (Proc.devRef .tc main_arg8)).trans
    ((by host_keep1 : after (hostOps3_1 (F := Ideal)) (after (hostOps3 (F := Ideal)) V) (Proc.devRef .tc main_arg8) = after (hostOps3 (F := Ideal)) V (Proc.devRef .tc main_arg8)).trans (by host_keep1))
theorem B1_keep_main_arg9 : after (hostOps3_2 (F := Ideal)) (after (hostOps3_1 (F := Ideal)) (after (hostOps3 (F := Ideal)) V)) (Proc.devRef .tc main_arg9) = V (Proc.devRef .tc main_arg9) :=
  (by host_keep1 : after (hostOps3_2 (F := Ideal)) (after (hostOps3_1 (F := Ideal)) (after (hostOps3 (F := Ideal)) V)) (Proc.devRef .tc main_arg9) = after (hostOps3_1 (F := Ideal)) (after (hostOps3 (F := Ideal)) V) (Proc.devRef .tc main_arg9)).trans
    ((by host_keep1 : after (hostOps3_1 (F := Ideal)) (after (hostOps3 (F := Ideal)) V) (Proc.devRef .tc main_arg9) = after (hostOps3 (F := Ideal)) V (Proc.devRef .tc main_arg9)).trans (by host_keep1))
theorem B1_keep_main_arg10 : after (hostOps3_2 (F := Ideal)) (after (hostOps3_1 (F := Ideal)) (after (hostOps3 (F := Ideal)) V)) (Proc.devRef .tc main_arg10) = V (Proc.devRef .tc main_arg10) :=
  (by host_keep1 : after (hostOps3_2 (F := Ideal)) (after (hostOps3_1 (F := Ideal)) (after (hostOps3 (F := Ideal)) V)) (Proc.devRef .tc main_arg10) = after (hostOps3_1 (F := Ideal)) (after (hostOps3 (F := Ideal)) V) (Proc.devRef .tc main_arg10)).trans
    ((by host_keep1 : after (hostOps3_1 (F := Ideal)) (after (hostOps3 (F := Ideal)) V) (Proc.devRef .tc main_arg10) = after (hostOps3 (F := Ideal)) V (Proc.devRef .tc main_arg10)).trans (by host_keep1))
theorem B1_keep_main_arg11 : after (hostOps3_2 (F := Ideal)) (after (hostOps3_1 (F := Ideal)) (after (hostOps3 (F := Ideal)) V)) (Proc.devRef .tc main_arg11) = V (Proc.devRef .tc main_arg11) :=
  (by host_keep1 : after (hostOps3_2 (F := Ideal)) (after (hostOps3_1 (F := Ideal)) (after (hostOps3 (F := Ideal)) V)) (Proc.devRef .tc main_arg11) = after (hostOps3_1 (F := Ideal)) (after (hostOps3 (F := Ideal)) V) (Proc.devRef .tc main_arg11)).trans
    ((by host_keep1 : after (hostOps3_1 (F := Ideal)) (after (hostOps3 (F := Ideal)) V) (Proc.devRef .tc main_arg11) = after (hostOps3 (F := Ideal)) V (Proc.devRef .tc main_arg11)).trans (by host_keep1))

end Cert.KernelIdeal.KHost

end
-- ==== Proof.LinFinal2.lean ====
/-
  The second layer's affine part as the whole array the region leaves.

  The region's grid has 20 points; point t holds rows 5000·t … 5000·t + 4999 of the two node arrays and of the
  output, and the whole of both weight matrices and of the bias row. What point t writes back is therefore
  rows 5000·t … of the specification's lin of the five arrays as the region finds them, entry by entry; the 20
  row blocks tile the array (row r lies in block r / 5000), so the array ends holding lin of the five arrays.
-/
import proofs.«145014_j19963007992111_1_alg».proof.Proof.LinAt
import proofs.«145014_j19963007992111_1_alg».proof.Proof.Gen.KernelIdeal.Frame
import Idealize.ShloMosaic.Lib.Pipeline.Value
import Idealize.ShloMosaic.Lib.Tactic

noncomputable section

namespace Cert.KernelIdeal.LinValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The block each window holds at point t: row block t of the node arrays and of the output, block (0, 0) of the rest. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the first node array's block at point t is row 5000·t + p of the array. -/
theorem rd2_0 (c : Dev nD) (t : Fin cfg2.N) (p : Fin 5000) (k : Fin 128) (r : Fin 100000) (hr : r.val = t.val * 5000 + p.val) :
    (iblk2 V c 0 t : Vec Ideal S5000x128 .f32) (ix2 p k) = (V c (Pipeline.arrRef spec2 0) : S100000x128.Idx → EReal) (ix2 r k) := by
  obtain ⟨e0, e1, -⟩ := idx2 t
  unfold iblk2
  rw [View.read_apply]
  have h : ((cfg2.win 0).blk t).view.emb (ix2 p k) = ix2 r k := by
    funext a; apply Fin.ext
    match a with
    | ⟨0, _⟩ => show win2_0.index t (0 : Fin 2) * 5000 + 1 * p.val = r.val; omega
    | ⟨1, _⟩ => show win2_0.index t (1 : Fin 2) * 128 + 1 * k.val = k.val; omega
  rw [h]
  rfl

/-- Row p of the second node array's block at point t is row 5000·t + p of the array. -/
theorem rd2_1 (c : Dev nD) (t : Fin cfg2.N) (p : Fin 5000) (k : Fin 128) (r : Fin 100000) (hr : r.val = t.val * 5000 + p.val) :
    (iblk2 V c 1 t : Vec Ideal S5000x128 .f32) (ix2 p k) = (V c (Pipeline.arrRef spec2 1) : S100000x128.Idx → EReal) (ix2 r k) := by
  obtain ⟨-, -, e0, e1, -⟩ := idx2 t
  unfold iblk2
  rw [View.read_apply]
  have h : ((cfg2.win 1).blk t).view.emb (ix2 p k) = ix2 r k := by
    funext a; apply Fin.ext
    match a with
    | ⟨0, _⟩ => show win2_1.index t (0 : Fin 2) * 5000 + 1 * p.val = r.val; omega
    | ⟨1, _⟩ => show win2_1.index t (1 : Fin 2) * 128 + 1 * k.val = k.val; omega
  rw [h]
  rfl

/-- The first weight matrix's block at every point is the matrix. -/
theorem rd2_2 (c : Dev nD) (t : Fin cfg2.N) (k q : Fin 128) :
    (iblk2 V c 2 t : Vec Ideal S128x128 .f32) (ix2 k q) = (V c (Pipeline.arrRef spec2 2) : S128x128.Idx → EReal) (ix2 k q) := by
  obtain ⟨-, -, -, -, e0, e1, -⟩ := idx2 t
  unfold iblk2
  rw [View.read_apply]
  have h : ((cfg2.win 2).blk t).view.emb (ix2 k q) = ix2 k q := by
    funext a; apply Fin.ext
    match a with
    | ⟨0, _⟩ => show win2_2.index t (0 : Fin 2) * 128 + 1 * k.val = k.val; omega
    | ⟨1, _⟩ => show win2_2.index t (1 : Fin 2) * 128 + 1 * q.val = q.val; omega
  rw [h]
  rfl

/-- The second weight matrix's block at every point is the matrix. -/
theorem rd2_3 (c : Dev nD) (t : Fin cfg2.N) (k q : Fin 128) :
    (iblk2 V c 3 t : Vec Ideal S128x128 .f32) (ix2 k q) = (V c (Pipeline.arrRef spec2 3) : S128x128.Idx → EReal) (ix2 k q) := by
  obtain ⟨-, -, -, -, -, -, e0, e1, -⟩ := idx2 t
  unfold iblk2
  rw [View.read_apply]
  have h : ((cfg2.win 3).blk t).view.emb (ix2 k q) = ix2 k q := by
    funext a; apply Fin.ext
    match a with
    | ⟨0, _⟩ => show win2_3.index t (0 : Fin 2) * 128 + 1 * k.val = k.val; omega
    | ⟨1, _⟩ => show win2_3.index t (1 : Fin 2) * 128 + 1 * q.val = q.val; omega
  rw [h]
  rfl

/-- The bias row's block at every point is the row. -/
theorem rd2_4 (c : Dev nD) (t : Fin cfg2.N) (q : Fin 128) :
    (iblk2 V c 4 t : Vec Ideal S1x128 .f32) (ix2 (0 : Fin 1) q) = (V c (Pipeline.arrRef spec2 4) : S1x128.Idx → EReal) (ix2 (0 : Fin 1) q) := by
  obtain ⟨-, -, -, -, -, -, -, -, e0, e1, -⟩ := idx2 t
  unfold iblk2
  rw [View.read_apply]
  have h : ((cfg2.win 4).blk t).view.emb (ix2 (0 : Fin 1) q) = ix2 (0 : Fin 1) q := by
    funext a; apply Fin.ext
    match a with
    | ⟨0, _⟩ => show win2_4.index t (0 : Fin 2) * 1 + 1 * (0 : Fin 1).val = (0 : Fin 1).val; omega
    | ⟨1, _⟩ => show win2_4.index t (1 : Fin 2) * 128 + 1 * q.val = q.val; omega
  rw [h]
  rfl

/-- Entry (p, q) of the output's block at point t is entry (5000·t + p, q) of the output array. -/
theorem emb2 (t : Fin cfg2.N) (p : Fin 5000) (q : Fin 128) (r : Fin 100000) (hr : r.val = t.val * 5000 + p.val) :
    ((cfg2.win 5).blk t).view.emb (ix2 p q) = ix2 r q := by
  obtain ⟨-, -, -, -, -, -, -, -, -, -, e0, e1⟩ := idx2 t
  funext a; apply Fin.ext
  match a with
  | ⟨0, _⟩ => show win2_5.index t (0 : Fin 2) * 5000 + 1 * p.val = r.val; omega
  | ⟨1, _⟩ => show win2_5.index t (1 : Fin 2) * 128 + 1 * q.val = q.val; omega

/-- Entry (p, q) of what point t's body stores is entry (5000·t + p, q) of lin of the five arrays as the region finds them. -/
theorem entry2 (c : Dev nD) (t : Fin cfg2.N) (p : Fin 5000) (q : Fin 128) (r : Fin 100000) (hr : r.val = t.val * 5000 + p.val) :
    k2_pay1 (F := Ideal) (iblk2 V c 0 t) (iblk2 V c 1 t) (iblk2 V c 2 t) (iblk2 V c 3 t) (iblk2 V c 4 t) (ix2 p q)
      = Cert.Spec.lin (V c (Pipeline.arrRef spec2 0)) (V c (Pipeline.arrRef spec2 1)) (V c (Pipeline.arrRef spec2 2))
          (V c (Pipeline.arrRef spec2 3)) (V c (Pipeline.arrRef spec2 4)) (ix2 r q) :=
  (pay2_at (iblk2 V c 0 t) (iblk2 V c 1 t) (iblk2 V c 2 t) (iblk2 V c 3 t) (iblk2 V c 4 t) p q).trans
    (sums_eq_lin (iblk2 V c 0 t) (iblk2 V c 1 t) (iblk2 V c 2 t) (iblk2 V c 3 t) (iblk2 V c 4 t)
      (V c (Pipeline.arrRef spec2 0)) (V c (Pipeline.arrRef spec2 1)) (V c (Pipeline.arrRef spec2 2))
      (V c (Pipeline.arrRef spec2 3)) (V c (Pipeline.arrRef spec2 4)) p q r
      (fun k => rd2_0 V c t p k r hr) (fun k => rd2_1 V c t p k r hr) (fun k => rd2_2 V c t k q) (fun k => rd2_3 V c t k q)
      (rd2_4 V c t q))

/-- What point t writes back is row block t of lin of the five arrays as the region finds them. -/
theorem flushed2 (c : Dev nD) (t : Fin cfg2.N) :
    (dat2 V c).flushed 5 t = ((cfg2.win 5).blk t).view.read (Elt Ideal)
      (Cert.Spec.lin (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero zeroOff]
  simp only [View.ld_unit_zero (S := S5000x128) zeroOff, View.ld_unit_zero (S := S128x128) zeroOff, View.ld_unit_zero (S := S1x128) zeroOff]
  have hN : cfg2.N = 20 := N_2
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  rw [View.read_apply, emb2 t p q ⟨t.val * 5000 + p.val, by omega⟩ rfl]
  exact entry2 V c t p q ⟨t.val * 5000 + p.val, by omega⟩ rfl

/-- An index of the output array is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v46).slice (win2_5.rect t)).set ↔ _
  rw [View.set_slice_whole, Rect.mem_set_unit]
  exact Iff.rfl

/-- Row r of the output lies in the block of point r / 5000. -/
theorem cover2 (i : S100000x128.Idx) : ∃ t : Fin cfg2.N, (cfg2.win 5).flush t = true ∧ i ∈ ((cfg2.win 5).blk t).view.set := by
  have hN : cfg2.N = 20 := N_2
  have hi0 : (i 0).val < 100000 := (i 0).isLt
  have hi1 : (i 1).val < 128 := (i 1).isLt
  have hlt : (i 0).val / 5000 < cfg2.N := by rw [hN]; omega
  obtain ⟨-, -, -, -, -, -, -, -, -, -, e0, e1⟩ := idx2 ⟨(i 0).val / 5000, hlt⟩
  refine ⟨⟨(i 0).val / 5000, hlt⟩, flush2_5 _, ?_⟩
  rw [mem_blk2]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    rw [e1]; omega

/-- THE ARRAY the region leaves: lin of the five arrays as the region finds them. -/
theorem final2 (c : Dev nD) :
    ((dat2 (F := Ideal) V c).arrAt 5 cfg2.N : Cert.Spec.Node) =
      Cert.Spec.lin (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed2 V c t) (cover2 ·)

end Cert.KernelIdeal.LinValue

end
-- ==== Proof.BnFinal3.lean ====
/-
  The batch-normalisation region 3, as whole arrays.

  The grid has 20 points; point t handles rows 5000·t … 5000·t + 4999 of the three row-blocked arrays (the affine
  layer's output, the running total, and the two results) and reads the four one-row statistics whole. So what
  point t writes back to each result is block t of one function of the arrays as the region finds them — the
  specification's `bnR`, and the total plus it — and the 20 blocks cover all 100000 rows.
-/
import proofs.«145014_j19963007992111_1_alg».proof.Proof.BnAt

noncomputable section

namespace Cert.KernelIdeal.BnValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index maps over the grid: the three row-blocked inputs and outputs sit at block (t, 0), the four
    statistics at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-- Where point t's block of a row-blocked window places entry (p, q): row 5000·t + p, column q. -/
theorem emb6_3 (t : Fin cfg3.N) (p : Fin 5000) (q : Fin 128) :
    ∃ r : Fin 100000, (((cfg3.win 6).blk t).view.emb (ix2 p q) : S100000x128.Idx) = ix2 r q := by
  obtain ⟨-, -, -, -, -, -, -, -, -, -, -, -, e0, e1, -, -⟩ := idx_facts3 t
  have hN : grid3.N = 20 := N_3
  have ht : t.val < 20 := Nat.lt_of_lt_of_eq (show t.val < grid3.N from t.isLt) hN
  refine ⟨⟨t.val * 5000 + p.val, by have := p.isLt; omega⟩, ?_⟩
  funext a
  apply Fin.ext
  match a with
  | ⟨0, _⟩ => show win3_6.index t (0 : Fin 2) * 5000 + 1 * p.val = t.val * 5000 + p.val; rw [e0]; omega
  | ⟨1, _⟩ => show win3_6.index t (1 : Fin 2) * 128 + 1 * q.val = q.val; rw [e1]; omega

theorem emb7_3 (t : Fin cfg3.N) (p : Fin 5000) (q : Fin 128) :
    ∃ r : Fin 100000, (((cfg3.win 7).blk t).view.emb (ix2 p q) : S100000x128.Idx) = ix2 r q := by
  obtain ⟨-, -, -, -, -, -, -, -, -, -, -, -, -, -, e0, e1⟩ := idx_facts3 t
  have hN : grid3.N = 20 := N_3
  have ht : t.val < 20 := Nat.lt_of_lt_of_eq (show t.val < grid3.N from t.isLt) hN
  refine ⟨⟨t.val * 5000 + p.val, by have := p.isLt; omega⟩, ?_⟩
  funext a
  apply Fin.ext
  match a with
  | ⟨0, _⟩ => show win3_7.index t (0 : Fin 2) * 5000 + 1 * p.val = t.val * 5000 + p.val; rw [e0]; omega
  | ⟨1, _⟩ => show win3_7.index t (1 : Fin 2) * 128 + 1 * q.val = q.val; rw [e1]; omega

/-! ## The input blocks, read off the arrays -/

/-- The block of the affine layer's output at point t is that array read where either result's block sits. -/
theorem blk0_6_3 (c : Dev nD) (t : Fin cfg3.N) (y : S5000x128.Idx) :
    iblk3 V c 0 t y = V c (Pipeline.arrRef spec3 0) (((cfg3.win 6).blk t).view.emb y) := by
  obtain ⟨a0, a1, -, -, -, -, -, -, -, -, -, -, e0, e1, -, -⟩ := idx_facts3 t
  unfold iblk3
  rw [View.read_apply]
  refine congrArg (V c (Pipeline.arrRef spec3 0)) (funext fun a => Fin.ext ?_)
  match a with
  | ⟨0, _⟩ => show win3_0.index t (0 : Fin 2) * 5000 + 1 * (y 0).val = win3_6.index t (0 : Fin 2) * 5000 + 1 * (y 0).val; rw [a0, e0]
  | ⟨1, _⟩ => show win3_0.index t (1 : Fin 2) * 128 + 1 * (y 1).val = win3_6.index t (1 : Fin 2) * 128 + 1 * (y 1).val; rw [a1, e1]

theorem blk0_7_3 (c : Dev nD) (t : Fin cfg3.N) (y : S5000x128.Idx) :
    iblk3 V c 0 t y = V c (Pipeline.arrRef spec3 0) (((cfg3.win 7).blk t).view.emb y) := by
  obtain ⟨a0, a1, -, -, -, -, -, -, -, -, -, -, -, -, e0, e1⟩ := idx_facts3 t
  unfold iblk3
  rw [View.read_apply]
  refine congrArg (V c (Pipeline.arrRef spec3 0)) (funext fun a => Fin.ext ?_)
  match a with
  | ⟨0, _⟩ => show win3_0.index t (0 : Fin 2) * 5000 + 1 * (y 0).val = win3_7.index t (0 : Fin 2) * 5000 + 1 * (y 0).val; rw [a0, e0]
  | ⟨1, _⟩ => show win3_0.index t (1 : Fin 2) * 128 + 1 * (y 1).val = win3_7.index t (1 : Fin 2) * 128 + 1 * (y 1).val; rw [a1, e1]

/-- The block of the running total at point t is that array read where the second result's block sits. -/
theorem blk5_7_3 (c : Dev nD) (t : Fin cfg3.N) (y : S5000x128.Idx) :
    iblk3 V c 5 t y = V c (Pipeline.arrRef spec3 5) (((cfg3.win 7).blk t).view.emb y) := by
  obtain ⟨-, -, -, -, -, -, -, -, -, -, a0, a1, -, -, e0, e1⟩ := idx_facts3 t
  unfold iblk3
  rw [View.read_apply]
  refine congrArg (V c (Pipeline.arrRef spec3 5)) (funext fun a => Fin.ext ?_)
  match a with
  | ⟨0, _⟩ => show win3_5.index t (0 : Fin 2) * 5000 + 1 * (y 0).val = win3_7.index t (0 : Fin 2) * 5000 + 1 * (y 0).val; rw [a0, e0]
  | ⟨1, _⟩ => show win3_5.index t (1 : Fin 2) * 128 + 1 * (y 1).val = win3_7.index t (1 : Fin 2) * 128 + 1 * (y 1).val; rw [a1, e1]

/-- Each statistic's block at any point is the whole one-row array. -/
theorem blk1_3 (c : Dev nD) (t : Fin cfg3.N) (z : S1x128.Idx) :
    iblk3 V c 1 t z = V c (Pipeline.arrRef spec3 1) z := by
  obtain ⟨-, -, a0, a1, -, -, -, -, -, -, -, -, -, -, -, -⟩ := idx_facts3 t
  unfold iblk3
  rw [View.read_apply]
  refine congrArg (V c (Pipeline.arrRef spec3 1)) (funext fun a => Fin.ext ?_)
  match a with
  | ⟨0, _⟩ => show win3_1.index t (0 : Fin 2) * 1 + 1 * (z 0).val = (z 0).val; rw [a0]; omega
  | ⟨1, _⟩ => show win3_1.index t (1 : Fin 2) * 128 + 1 * (z 1).val = (z 1).val; rw [a1]; omega

theorem blk2_3 (c : Dev nD) (t : Fin cfg3.N) (z : S1x128.Idx) :
    iblk3 V c 2 t z = V c (Pipeline.arrRef spec3 2) z := by
  obtain ⟨-, -, -, -, a0, a1, -, -, -, -, -, -, -, -, -, -⟩ := idx_facts3 t
  unfold iblk3
  rw [View.read_apply]
  refine congrArg (V c (Pipeline.arrRef spec3 2)) (funext fun a => Fin.ext ?_)
  match a with
  | ⟨0, _⟩ => show win3_2.index t (0 : Fin 2) * 1 + 1 * (z 0).val = (z 0).val; rw [a0]; omega
  | ⟨1, _⟩ => show win3_2.index t (1 : Fin 2) * 128 + 1 * (z 1).val = (z 1).val; rw [a1]; omega

theorem blk3_3 (c : Dev nD) (t : Fin cfg3.N) (z : S1x128.Idx) :
    iblk3 V c 3 t z = V c (Pipeline.arrRef spec3 3) z := by
  obtain ⟨-, -, -, -, -, -, a0, a1, -, -, -, -, -, -, -, -⟩ := idx_facts3 t
  unfold iblk3
  rw [View.read_apply]
  refine congrArg (V c (Pipeline.arrRef spec3 3)) (funext fun a => Fin.ext ?_)
  match a with
  | ⟨0, _⟩ => show win3_3.index t (0 : Fin 2) * 1 + 1 * (z 0).val = (z 0).val; rw [a0]; omega
  | ⟨1, _⟩ => show win3_3.index t (1 : Fin 2) * 128 + 1 * (z 1).val = (z 1).val; rw [a1]; omega

theorem blk4_3 (c : Dev nD) (t : Fin cfg3.N) (z : S1x128.Idx) :
    iblk3 V c 4 t z = V c (Pipeline.arrRef spec3 4) z := by
  obtain ⟨-, -, -, -, -, -, -, -, a0, a1, -, -, -, -, -, -⟩ := idx_facts3 t
  unfold iblk3
  rw [View.read_apply]
  refine congrArg (V c (Pipeline.arrRef spec3 4)) (funext fun a => Fin.ext ?_)
  match a with
  | ⟨0, _⟩ => show win3_4.index t (0 : Fin 2) * 1 + 1 * (z 0).val = (z 0).val; rw [a0]; omega
  | ⟨1, _⟩ => show win3_4.index t (1 : Fin 2) * 128 + 1 * (z 1).val = (z 1).val; rw [a1]; omega

/-! ## What each point writes back -/

/-- A result's staging buffer is written back whole (no block overhangs the array), and a block of an array is the
    array read where the block sits. -/
theorem cut6_3 (t : Fin cfg3.N) (X : Vec Ideal S5000x128 .f32) (y : S5000x128.Idx) :
    (cfg3.win 6).cut (grid3.coords t) X y = X y := rfl
theorem read6_3 (t : Fin cfg3.N) (G : Cert.Spec.Node) (y : S5000x128.Idx) :
    ((cfg3.win 6).blk t).view.read (Elt Ideal) G y = G (((cfg3.win 6).blk t).view.emb y) := rfl
theorem cut7_3 (t : Fin cfg3.N) (X : Vec Ideal S5000x128 .f32) (y : S5000x128.Idx) :
    (cfg3.win 7).cut (grid3.coords t) X y = X y := rfl
theorem read7_3 (t : Fin cfg3.N) (G : Cert.Spec.Node) (y : S5000x128.Idx) :
    ((cfg3.win 7).blk t).view.read (Elt Ideal) G y = G (((cfg3.win 7).blk t).view.emb y) := rfl

/-- Point t writes back, to the first result, block t of the specification of the arrays at entry. -/
theorem flushed6_3 (c : Dev nD) (t : Fin cfg3.N) :
    (dat3 (F := Ideal) V c).flushed 6 t = ((cfg3.win 6).blk t).view.read (Elt Ideal)
      (Cert.Spec.bnR (V c (Pipeline.arrRef spec3 0)) (V c (Pipeline.arrRef spec3 1)) (V c (Pipeline.arrRef spec3 2))
        (V c (Pipeline.arrRef spec3 3)) (V c (Pipeline.arrRef spec3 4))) := by
  show (cfg3.win 6).cut (grid3.coords t) ((dat3 (F := Ideal) V c).after 6 t) = _
  rw [after3_6]
  unfold out3_6
  rw [pay1_3]
  rw [View.canon_unit_zero hz]
  simp only [View.ld_unit_zero (S := S5000x128) hz, View.ld_unit_zero (S := S1x128) hz]
  funext y
  rw [cut6_3, read6_3]
  exact pay1_block _ _ _ _ _ _ _ _ _ _ _ (emb6_3 t) (blk0_6_3 V c t) (blk1_3 V c t) (blk2_3 V c t) (blk3_3 V c t) (blk4_3 V c t) y

/-- Point t writes back, to the second result, block t of the total plus the specification. -/
theorem flushed7_3 (c : Dev nD) (t : Fin cfg3.N) :
    (dat3 (F := Ideal) V c).flushed 7 t = ((cfg3.win 7).blk t).view.read (Elt Ideal)
      (addf (V c (Pipeline.arrRef spec3 5) : Cert.Spec.Node)
        (Cert.Spec.bnR (V c (Pipeline.arrRef spec3 0)) (V c (Pipeline.arrRef spec3 1)) (V c (Pipeline.arrRef spec3 2))
          (V c (Pipeline.arrRef spec3 3)) (V c (Pipeline.arrRef spec3 4)))) := by
  show (cfg3.win 7).cut (grid3.coords t) ((dat3 (F := Ideal) V c).after 7 t) = _
  rw [after3_7]
  unfold out3_7
  rw [pay2_3]
  rw [View.canon_unit_zero hz]
  simp only [View.ld_unit_zero (S := S5000x128) hz, View.ld_unit_zero (S := S1x128) hz]
  funext y
  rw [cut7_3, read7_3]
  exact pay2_block _ _ _ _ _ _ _ _ _ _ _ _ _ (emb7_3 t) (blk0_7_3 V c t) (blk1_3 V c t) (blk2_3 V c t) (blk3_3 V c t) (blk4_3 V c t) (blk5_7_3 V c t) y

/-! ## The blocks cover the arrays -/

/-- An entry is in point t's block of a result iff its row and column are in the block's ranges. -/
theorem mem_blk6_3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v54_0).slice (win3_6.rect t)).set ↔ _
  rw [View.set_slice_whole, Rect.mem_set_unit]
  exact Iff.rfl

theorem mem_blk7_3 (t : Fin cfg3.N) (i : S100000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v54_1).slice (win3_7.rect t)).set ↔ _
  rw [View.set_slice_whole, Rect.mem_set_unit]
  exact Iff.rfl

/-- Row r lies in the block of point r / 5000. -/
theorem cover6_3 (i : S100000x128.Idx) :
    ∃ t : Fin cfg3.N, (cfg3.win 6).flush t = true ∧ i ∈ ((cfg3.win 6).blk t).view.set := by
  have hN : grid3.N = 20 := N_3
  have hi0 : (i 0).val < 100000 := (i 0).isLt
  have hi1 : (i 1).val < 128 := (i 1).isLt
  have ht : (i 0).val / 5000 < cfg3.N := by show _ < grid3.N; rw [hN]; omega
  obtain ⟨-, -, -, -, -, -, -, -, -, -, -, -, e0, e1, -, -⟩ := idx_facts3 ⟨(i 0).val / 5000, ht⟩
  refine ⟨⟨(i 0).val / 5000, ht⟩, flush3_6 _, ?_⟩
  rw [mem_blk6_3]
  intro a
  match a with
  | ⟨0, _⟩ => show win3_6.index ⟨(i 0).val / 5000, ht⟩ (0 : Fin 2) * 5000 ≤ (i 0).val ∧ (i 0).val < win3_6.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win3_6.index ⟨(i 0).val / 5000, ht⟩ (1 : Fin 2) * 128 ≤ (i 1).val ∧ (i 1).val < win3_6.index ⟨(i 0).val / 5000, ht⟩ (1 : Fin 2) * 128 + 128; rw [e1]; omega

theorem cover7_3 (i : S100000x128.Idx) :
    ∃ t : Fin cfg3.N, (cfg3.win 7).flush t = true ∧ i ∈ ((cfg3.win 7).blk t).view.set := by
  have hN : grid3.N = 20 := N_3
  have hi0 : (i 0).val < 100000 := (i 0).isLt
  have hi1 : (i 1).val < 128 := (i 1).isLt
  have ht : (i 0).val / 5000 < cfg3.N := by show _ < grid3.N; rw [hN]; omega
  obtain ⟨-, -, -, -, -, -, -, -, -, -, -, -, -, -, e0, e1⟩ := idx_facts3 ⟨(i 0).val / 5000, ht⟩
  refine ⟨⟨(i 0).val / 5000, ht⟩, flush3_7 _, ?_⟩
  rw [mem_blk7_3]
  intro a
  match a with
  | ⟨0, _⟩ => show win3_7.index ⟨(i 0).val / 5000, ht⟩ (0 : Fin 2) * 5000 ≤ (i 0).val ∧ (i 0).val < win3_7.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win3_7.index ⟨(i 0).val / 5000, ht⟩ (1 : Fin 2) * 128 ≤ (i 1).val ∧ (i 1).val < win3_7.index ⟨(i 0).val / 5000, ht⟩ (1 : Fin 2) * 128 + 128; rw [e1]; omega

/-! ## The arrays the region leaves -/

/-- The first result: the normalised, scaled, shifted and rectified array. -/
theorem final3_h (c : Dev nD) :
    ((dat3 (F := Ideal) V c).arrAt 6 cfg3.N : Cert.Spec.Node) =
      Cert.Spec.bnR (V c (Pipeline.arrRef spec3 0)) (V c (Pipeline.arrRef spec3 1)) (V c (Pipeline.arrRef spec3 2))
        (V c (Pipeline.arrRef spec3 3)) (V c (Pipeline.arrRef spec3 4)) :=
  (dat3 (F := Ideal) V c).arrAt_eq_of_cover 6 _ (fun t _ => flushed6_3 V c t) cover6_3

/-- The second result: the running total plus the first. -/
theorem final3_tot (c : Dev nD) :
    ((dat3 (F := Ideal) V c).arrAt 7 cfg3.N : Cert.Spec.Node) =
      addf (V c (Pipeline.arrRef spec3 5) : Cert.Spec.Node)
        (Cert.Spec.bnR (V c (Pipeline.arrRef spec3 0)) (V c (Pipeline.arrRef spec3 1)) (V c (Pipeline.arrRef spec3 2))
          (V c (Pipeline.arrRef spec3 3)) (V c (Pipeline.arrRef spec3 4))) :=
  (dat3 (F := Ideal) V c).arrAt_eq_of_cover 7 _ (fun t _ => flushed7_3 V c t) cover7_3

end Cert.KernelIdeal.BnValue

end
-- ==== Proof.KLayer1.lean ====
/-
  Layer 2 of the kernel's program, boundary by boundary: what the buffers hold when the layer's second region
  has finished, as functions of what they held when the layer was entered. The parameter slices, the neighbour
  sum of the previous output and the bias row come from the host operations before the layer's first region; that
  region's output array is the affine part; the statistics and the scale and shift rows come from the host
  operations after it; the second region's two output arrays are the layer's output and the running total plus it.
-/
import proofs.«145014_j19963007992111_1_alg».proof.Proof.Gen.KernelIdeal.Frame
import proofs.«145014_j19963007992111_1_alg».proof.Proof.KHost1
import proofs.«145014_j19963007992111_1_alg».proof.Proof.LinFinal2
import proofs.«145014_j19963007992111_1_alg».proof.Proof.BnFinal3

set_option maxRecDepth 16384

noncomputable section

namespace Cert.KernelIdeal.KChain

open Idealize.ShloMosaic Idealize.ShloMosaic.TcCoe Idealize.ShloMosaic.StableHlo Idealize.SL.Sem
open Cert.KernelIdeal Cert.KernelIdeal.Gen Cert.Spec Cert.KernelIdeal.KHost

variable (m : (ℓ : Loc nD τ sig) → Buf (Elt Ideal) ℓ) (ρ : Dev nD → PrngReg) (c : Dev nD)

set_option maxHeartbeats 2000000 in
/-- The affine part: the layer's first region's output array. -/
theorem L1_y : (W8 m ρ c (Proc.devRef .tc main_v46) : Node)
    = lin (agg (W6 m ρ c (Proc.devRef .tc main_v24_0)) (W6 m ρ c (Proc.devRef .tc main_v1)) (W6 m ρ c (Proc.devRef .tc main_v3))) (W6 m ρ c (Proc.devRef .tc main_v24_0)) (mat3 ![0, 0, 0] (by decide) (W6 m ρ c (Proc.devRef .tc main_arg7))) (mat3 ![0, 0, 0] (by decide) (W6 m ρ c (Proc.devRef .tc main_arg8))) (rs (vec3 ![0, 0] (by decide) (W6 m ρ c (Proc.devRef .tc main_arg9)))) := by
  have h := (W8_arr m ρ c 5).trans (LinValue.final2 (V7 m ρ) c)
  rw [show (V7 m ρ c (Pipeline.arrRef spec2 0) : Node) = _ from A1_agg (W6 m ρ c),
      show (V7 m ρ c (Pipeline.arrRef spec2 1) : Node) = _ from A1_keep_main_v24_0 (W6 m ρ c),
      show (V7 m ρ c (Pipeline.arrRef spec2 2) : Mat) = _ from A1_wrel (W6 m ρ c),
      show (V7 m ρ c (Pipeline.arrRef spec2 3) : Mat) = _ from A1_wroot (W6 m ρ c),
      show (V7 m ρ c (Pipeline.arrRef spec2 4) : Row) = _ from A1_bias (W6 m ρ c)] at h
  exact h

set_option maxHeartbeats 2000000 in
/-- The layer's output: the second region's first output array. -/
theorem L1_h : (W12 m ρ c (Proc.devRef .tc main_v54_0) : Node) = klayer (W6 m ρ c (Proc.devRef .tc main_v24_0)) (W6 m ρ c (Proc.devRef .tc main_v1)) (W6 m ρ c (Proc.devRef .tc main_v3)) (mat3 ![0, 0, 0] (by decide) (W6 m ρ c (Proc.devRef .tc main_arg7))) (mat3 ![0, 0, 0] (by decide) (W6 m ρ c (Proc.devRef .tc main_arg8))) (vec3 ![0, 0] (by decide) (W6 m ρ c (Proc.devRef .tc main_arg9))) (vec3 ![0, 0] (by decide) (W6 m ρ c (Proc.devRef .tc main_arg10))) (vec3 ![0, 0] (by decide) (W6 m ρ c (Proc.devRef .tc main_arg11))) := by
  have h := (W12_arr m ρ c 6).trans (BnValue.final3_h (V11 m ρ) c)
  rw [show (V11 m ρ c (Pipeline.arrRef spec3 0) : Node) = _ from B1_keep_main_v46 (W8 m ρ c),
      show (V11 m ρ c (Pipeline.arrRef spec3 1) : Row) = _ from B1_mean (W8 m ρ c),
      show (V11 m ρ c (Pipeline.arrRef spec3 2) : Row) = _ from B1_var (W8 m ρ c),
      show (V11 m ρ c (Pipeline.arrRef spec3 3) : Row) = _ from B1_gamma (W8 m ρ c),
      show (V11 m ρ c (Pipeline.arrRef spec3 4) : Row) = _ from B1_beta (W8 m ρ c)] at h
  rw [L1_y m ρ c,
      show (W8 m ρ c (Proc.devRef .tc main_v32) : Lane) = _ from (W8_of_ne m ρ c main_v32 (by decide)).trans (A1_gamma (W6 m ρ c)),
      show (W8 m ρ c (Proc.devRef .tc main_v34) : Lane) = _ from (W8_of_ne m ρ c main_v34 (by decide)).trans (A1_beta (W6 m ρ c))] at h
  exact h

set_option maxHeartbeats 2000000 in
/-- The running total after the layer: the second region's second output array, the total so far plus the output. -/
theorem L1_tot : (W12 m ρ c (Proc.devRef .tc main_v54_1) : Node) = addf (W6 m ρ c (Proc.devRef .tc main_v24_1)) (klayer (W6 m ρ c (Proc.devRef .tc main_v24_0)) (W6 m ρ c (Proc.devRef .tc main_v1)) (W6 m ρ c (Proc.devRef .tc main_v3)) (mat3 ![0, 0, 0] (by decide) (W6 m ρ c (Proc.devRef .tc main_arg7))) (mat3 ![0, 0, 0] (by decide) (W6 m ρ c (Proc.devRef .tc main_arg8))) (vec3 ![0, 0] (by decide) (W6 m ρ c (Proc.devRef .tc main_arg9))) (vec3 ![0, 0] (by decide) (W6 m ρ c (Proc.devRef .tc main_arg10))) (vec3 ![0, 0] (by decide) (W6 m ρ c (Proc.devRef .tc main_arg11)))) := by
  have h := (W12_arr m ρ c 7).trans (BnValue.final3_tot (V11 m ρ) c)
  rw [show (V11 m ρ c (Pipeline.arrRef spec3 5) : Node) = _ from (B1_keep_main_v24_1 (W8 m ρ c)).trans ((W8_of_ne m ρ c main_v24_1 (by decide)).trans (A1_keep_main_v24_1 (W6 m ρ c)))] at h
  rw [show (V11 m ρ c (Pipeline.arrRef spec3 0) : Node) = _ from B1_keep_main_v46 (W8 m ρ c),
      show (V11 m ρ c (Pipeline.arrRef spec3 1) : Row) = _ from B1_mean (W8 m ρ c),
      show (V11 m ρ c (Pipeline.arrRef spec3 2) : Row) = _ from B1_var (W8 m ρ c),
      show (V11 m ρ c (Pipeline.arrRef spec3 3) : Row) = _ from B1_gamma (W8 m ρ c),
      show (V11 m ρ c (Pipeline.arrRef spec3 4) : Row) = _ from B1_beta (W8 m ρ c)] at h
  rw [L1_y m ρ c,
      show (W8 m ρ c (Proc.devRef .tc main_v32) : Lane) = _ from (W8_of_ne m ρ c main_v32 (by decide)).trans (A1_gamma (W6 m ρ c)),
      show (W8 m ρ c (Proc.devRef .tc main_v34) : Lane) = _ from (W8_of_ne m ρ c main_v34 (by decide)).trans (A1_beta (W6 m ρ c))] at h
  exact h

/-- What is carried past the layer: the edge list's two rows and the stacked parameters. -/
theorem L1_src : W12 m ρ c (Proc.devRef .tc main_v1) = W6 m ρ c (Proc.devRef .tc main_v1) :=
  (W12_of_ne m ρ c main_v1 (by decide)).trans ((B1_keep_main_v1 (W8 m ρ c)).trans ((W8_of_ne m ρ c main_v1 (by decide)).trans (A1_keep_main_v1 (W6 m ρ c))))
theorem L1_dst : W12 m ρ c (Proc.devRef .tc main_v3) = W6 m ρ c (Proc.devRef .tc main_v3) :=
  (W12_of_ne m ρ c main_v3 (by decide)).trans ((B1_keep_main_v3 (W8 m ρ c)).trans ((W8_of_ne m ρ c main_v3 (by decide)).trans (A1_keep_main_v3 (W6 m ρ c))))
theorem L1_arg7 : W12 m ρ c (Proc.devRef .tc main_arg7) = W6 m ρ c (Proc.devRef .tc main_arg7) :=
  (W12_of_ne m ρ c main_arg7 (by decide)).trans ((B1_keep_main_arg7 (W8 m ρ c)).trans ((W8_of_ne m ρ c main_arg7 (by decide)).trans (A1_keep_main_arg7 (W6 m ρ c))))
theorem L1_arg8 : W12 m ρ c (Proc.devRef .tc main_arg8) = W6 m ρ c (Proc.devRef .tc main_arg8) :=
  (W12_of_ne m ρ c main_arg8 (by decide)).trans ((B1_keep_main_arg8 (W8 m ρ c)).trans ((W8_of_ne m ρ c main_arg8 (by decide)).trans (A1_keep_main_arg8 (W6 m ρ c))))
theorem L1_arg9 : W12 m ρ c (Proc.devRef .tc main_arg9) = W6 m ρ c (Proc.devRef .tc main_arg9) :=
  (W12_of_ne m ρ c main_arg9 (by decide)).trans ((B1_keep_main_arg9 (W8 m ρ c)).trans ((W8_of_ne m ρ c main_arg9 (by decide)).trans (A1_keep_main_arg9 (W6 m ρ c))))
theorem L1_arg10 : W12 m ρ c (Proc.devRef .tc main_arg10) = W6 m ρ c (Proc.devRef .tc main_arg10) :=
  (W12_of_ne m ρ c main_arg10 (by decide)).trans ((B1_keep_main_arg10 (W8 m ρ c)).trans ((W8_of_ne m ρ c main_arg10 (by decide)).trans (A1_keep_main_arg10 (W6 m ρ c))))
theorem L1_arg11 : W12 m ρ c (Proc.devRef .tc main_arg11) = W6 m ρ c (Proc.devRef .tc main_arg11) :=
  (W12_of_ne m ρ c main_arg11 (by decide)).trans ((B1_keep_main_arg11 (W8 m ρ c)).trans ((W8_of_ne m ρ c main_arg11 (by decide)).trans (A1_keep_main_arg11 (W6 m ρ c))))

end Cert.KernelIdeal.KChain

end
-- ==== Proof.KHost2.lean ====
/-
  The kernel program's host operations of layer 3, read as values. Before the layer's first region: slice 1
  of each stacked parameter, the neighbour sum of the previous layer's output, the bias as a row. Between its two
  regions: the column statistics of the affine part kept as one-row matrices, and scale and shift recast as rows.
  Each is stated for an arbitrary starting valuation.
-/
import proofs.«145014_j19963007992111_1_alg».proof.Proof.Gen.KernelIdeal.Launch
import proofs.«145014_j19963007992111_1_alg».proof.Proof.Spec
import Idealize.ShloMosaic.Lib.StableHlo.Run
import Idealize.ShloMosaic.Lib.Pipeline.Frame

set_option maxRecDepth 16384

noncomputable section

namespace Cert.KernelIdeal.KHost

open Idealize.ShloMosaic Idealize.ShloMosaic.TcCoe Idealize.ShloMosaic.StableHlo Idealize.SL.Sem
open Cert.KernelIdeal Cert.KernelIdeal.Gen Cert.Spec

/-- A buffer that no operation of a literal list writes keeps its contents: the list's written buffers are read off
    the operations one by one and each is a different reference. -/
macro "host_keep2" : tactic => `(tactic|
  exact StableHlo.after_of_forall_not_mem _ _ (List.forall_iff_forall_mem.mp (by
    simp only [hostOps0, hostOps1, hostOps1_1, hostOps1_2, hostOps2, hostOps3, hostOps3_1, hostOps3_2, hostOps4, hostOps5,
      hostOps5_1, hostOps5_2, hostOps6, hostOps7, hostOps7_1, hostOps7_2, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))))

attribute [local irreducible] Host.gather Host.scatterAdd Host.reduceAdd

variable (V : Valuation τ sig (Elt Ideal))

set_option maxHeartbeats 2000000 in
theorem A2_agg : (after (hostOps4 (F := Ideal)) V (Proc.devRef .tc main_v74) : Node)
    = agg (V (Proc.devRef .tc main_v54_0)) (V (Proc.devRef .tc main_v1)) (V (Proc.devRef .tc main_v3)) := by
  after_results_simp; rfl
set_option maxHeartbeats 2000000 in
theorem A2_wrel : (after (hostOps4 (F := Ideal)) V (Proc.devRef .tc main_v56) : Mat)
    = mat3 ![1, 0, 0] (by decide) (V (Proc.devRef .tc main_arg7)) := by
  after_results_simp; rfl
set_option maxHeartbeats 2000000 in
theorem A2_wroot : (after (hostOps4 (F := Ideal)) V (Proc.devRef .tc main_v58) : Mat)
    = mat3 ![1, 0, 0] (by decide) (V (Proc.devRef .tc main_arg8)) := by
  after_results_simp; rfl
set_option maxHeartbeats 2000000 in
theorem A2_bias : (after (hostOps4 (F := Ideal)) V (Proc.devRef .tc main_v75) : Row)
    = rs (vec3 ![1, 0] (by decide) (V (Proc.devRef .tc main_arg9))) := by
  after_results_simp; rfl
set_option maxHeartbeats 2000000 in
theorem A2_gamma : (after (hostOps4 (F := Ideal)) V (Proc.devRef .tc main_v62) : Lane)
    = vec3 ![1, 0] (by decide) (V (Proc.devRef .tc main_arg10)) := by
  after_results_simp; rfl
set_option maxHeartbeats 2000000 in
theorem A2_beta : (after (hostOps4 (F := Ideal)) V (Proc.devRef .tc main_v64) : Lane)
    = vec3 ![1, 0] (by decide) (V (Proc.devRef .tc main_arg11)) := by
  after_results_simp; rfl
theorem A2_keep_main_v54_0 : after (hostOps4 (F := Ideal)) V (Proc.devRef .tc main_v54_0) = V (Proc.devRef .tc main_v54_0) := by host_keep2
theorem A2_keep_main_v54_1 : after (hostOps4 (F := Ideal)) V (Proc.devRef .tc main_v54_1) = V (Proc.devRef .tc main_v54_1) := by host_keep2
theorem A2_keep_main_v1 : after (hostOps4 (F := Ideal)) V (Proc.devRef .tc main_v1) = V (Proc.devRef .tc main_v1) := by host_keep2
theorem A2_keep_main_v3 : after (hostOps4 (F := Ideal)) V (Proc.devRef .tc main_v3) = V (Proc.devRef .tc main_v3) := by host_keep2
theorem A2_keep_main_arg7 : after (hostOps4 (F := Ideal)) V (Proc.devRef .tc main_arg7) = V (Proc.devRef .tc main_arg7) := by host_keep2
theorem A2_keep_main_arg8 : after (hostOps4 (F := Ideal)) V (Proc.devRef .tc main_arg8) = V (Proc.devRef .tc main_arg8) := by host_keep2
theorem A2_keep_main_arg9 : after (hostOps4 (F := Ideal)) V (Proc.devRef .tc main_arg9) = V (Proc.devRef .tc main_arg9) := by host_keep2
theorem A2_keep_main_arg10 : after (hostOps4 (F := Ideal)) V (Proc.devRef .tc main_arg10) = V (Proc.devRef .tc main_arg10) := by host_keep2
theorem A2_keep_main_arg11 : after (hostOps4 (F := Ideal)) V (Proc.devRef .tc main_arg11) = V (Proc.devRef .tc main_arg11) := by host_keep2

set_option maxHeartbeats 2000000 in
theorem B2_mean : (after (hostOps5_2 (F := Ideal)) (after (hostOps5_1 (F := Ideal)) (after (hostOps5 (F := Ideal)) V)) (Proc.devRef .tc main_v80) : Row)
    = mean2 (V (Proc.devRef .tc main_v76)) := by
  after_results_simp; rfl
set_option maxHeartbeats 2000000 in
theorem B2_var : (after (hostOps5_2 (F := Ideal)) (after (hostOps5_1 (F := Ideal)) (after (hostOps5 (F := Ideal)) V)) (Proc.devRef .tc main_v81) : Row)
    = var2 (V (Proc.devRef .tc main_v76)) := by
  after_results_simp; rfl
set_option maxHeartbeats 2000000 in
theorem B2_gamma : (after (hostOps5_2 (F := Ideal)) (after (hostOps5_1 (F := Ideal)) (after (hostOps5 (F := Ideal)) V)) (Proc.devRef .tc main_v82) : Row)
    = rs (V (Proc.devRef .tc main_v62)) := by
  after_results_simp; rfl
set_option maxHeartbeats 2000000 in
theorem B2_beta : (after (hostOps5_2 (F := Ideal)) (after (hostOps5_1 (F := Ideal)) (after (hostOps5 (F := Ideal)) V)) (Proc.devRef .tc main_v83) : Row)
    = rs (V (Proc.devRef .tc main_v64)) := by
  after_results_simp; rfl
theorem B2_keep_main_v76 : after (hostOps5_2 (F := Ideal)) (after (hostOps5_1 (F := Ideal)) (after (hostOps5 (F := Ideal)) V)) (Proc.devRef .tc main_v76) = V (Proc.devRef .tc main_v76) :=
  (by host_keep2 : after (hostOps5_2 (F := Ideal)) (after (hostOps5_1 (F := Ideal)) (after (hostOps5 (F := Ideal)) V)) (Proc.devRef .tc main_v76) = after (hostOps5_1 (F := Ideal)) (after (hostOps5 (F := Ideal)) V) (Proc.devRef .tc main_v76)).trans
    ((by host_keep2 : after (hostOps5_1 (F := Ideal)) (after (hostOps5 (F := Ideal)) V) (Proc.devRef .tc main_v76) = after (hostOps5 (F := Ideal)) V (Proc.devRef .tc main_v76)).trans (by host_keep2))
theorem B2_keep_main_v54_1 : after (hostOps5_2 (F := Ideal)) (after (hostOps5_1 (F := Ideal)) (after (hostOps5 (F := Ideal)) V)) (Proc.devRef .tc main_v54_1) = V (Proc.devRef .tc main_v54_1) :=
  (by host_keep2 : after (hostOps5_2 (F := Ideal)) (after (hostOps5_1 (F := Ideal)) (after (hostOps5 (F := Ideal)) V)) (Proc.devRef .tc main_v54_1) = after (hostOps5_1 (F := Ideal)) (after (hostOps5 (F := Ideal)) V) (Proc.devRef .tc main_v54_1)).trans
    ((by host_keep2 : after (hostOps5_1 (F := Ideal)) (after (hostOps5 (F := Ideal)) V) (Proc.devRef .tc main_v54_1) = after (hostOps5 (F := Ideal)) V (Proc.devRef .tc main_v54_1)).trans (by host_keep2))
theorem B2_keep_main_v1 : after (hostOps5_2 (F := Ideal)) (after (hostOps5_1 (F := Ideal)) (after (hostOps5 (F := Ideal)) V)) (Proc.devRef .tc main_v1) = V (Proc.devRef .tc main_v1) :=
  (by host_keep2 : after (hostOps5_2 (F := Ideal)) (after (hostOps5_1 (F := Ideal)) (after (hostOps5 (F := Ideal)) V)) (Proc.devRef .tc main_v1) = after (hostOps5_1 (F := Ideal)) (after (hostOps5 (F := Ideal)) V) (Proc.devRef .tc main_v1)).trans
    ((by host_keep2 : after (hostOps5_1 (F := Ideal)) (after (hostOps5 (F := Ideal)) V) (Proc.devRef .tc main_v1) = after (hostOps5 (F := Ideal)) V (Proc.devRef .tc main_v1)).trans (by host_keep2))
theorem B2_keep_main_v3 : after (hostOps5_2 (F := Ideal)) (after (hostOps5_1 (F := Ideal)) (after (hostOps5 (F := Ideal)) V)) (Proc.devRef .tc main_v3) = V (Proc.devRef .tc main_v3) :=
  (by host_keep2 : after (hostOps5_2 (F := Ideal)) (after (hostOps5_1 (F := Ideal)) (after (hostOps5 (F := Ideal)) V)) (Proc.devRef .tc main_v3) = after (hostOps5_1 (F := Ideal)) (after (hostOps5 (F := Ideal)) V) (Proc.devRef .tc main_v3)).trans
    ((by host_keep2 : after (hostOps5_1 (F := Ideal)) (after (hostOps5 (F := Ideal)) V) (Proc.devRef .tc main_v3) = after (hostOps5 (F := Ideal)) V (Proc.devRef .tc main_v3)).trans (by host_keep2))
theorem B2_keep_main_arg7 : after (hostOps5_2 (F := Ideal)) (after (hostOps5_1 (F := Ideal)) (after (hostOps5 (F := Ideal)) V)) (Proc.devRef .tc main_arg7) = V (Proc.devRef .tc main_arg7) :=
  (by host_keep2 : after (hostOps5_2 (F := Ideal)) (after (hostOps5_1 (F := Ideal)) (after (hostOps5 (F := Ideal)) V)) (Proc.devRef .tc main_arg7) = after (hostOps5_1 (F := Ideal)) (after (hostOps5 (F := Ideal)) V) (Proc.devRef .tc main_arg7)).trans
    ((by host_keep2 : after (hostOps5_1 (F := Ideal)) (after (hostOps5 (F := Ideal)) V) (Proc.devRef .tc main_arg7) = after (hostOps5 (F := Ideal)) V (Proc.devRef .tc main_arg7)).trans (by host_keep2))
theorem B2_keep_main_arg8 : after (hostOps5_2 (F := Ideal)) (after (hostOps5_1 (F := Ideal)) (after (hostOps5 (F := Ideal)) V)) (Proc.devRef .tc main_arg8) = V (Proc.devRef .tc main_arg8) :=
  (by host_keep2 : after (hostOps5_2 (F := Ideal)) (after (hostOps5_1 (F := Ideal)) (after (hostOps5 (F := Ideal)) V)) (Proc.devRef .tc main_arg8) = after (hostOps5_1 (F := Ideal)) (after (hostOps5 (F := Ideal)) V) (Proc.devRef .tc main_arg8)).trans
    ((by host_keep2 : after (hostOps5_1 (F := Ideal)) (after (hostOps5 (F := Ideal)) V) (Proc.devRef .tc main_arg8) = after (hostOps5 (F := Ideal)) V (Proc.devRef .tc main_arg8)).trans (by host_keep2))
theorem B2_keep_main_arg9 : after (hostOps5_2 (F := Ideal)) (after (hostOps5_1 (F := Ideal)) (after (hostOps5 (F := Ideal)) V)) (Proc.devRef .tc main_arg9) = V (Proc.devRef .tc main_arg9) :=
  (by host_keep2 : after (hostOps5_2 (F := Ideal)) (after (hostOps5_1 (F := Ideal)) (after (hostOps5 (F := Ideal)) V)) (Proc.devRef .tc main_arg9) = after (hostOps5_1 (F := Ideal)) (after (hostOps5 (F := Ideal)) V) (Proc.devRef .tc main_arg9)).trans
    ((by host_keep2 : after (hostOps5_1 (F := Ideal)) (after (hostOps5 (F := Ideal)) V) (Proc.devRef .tc main_arg9) = after (hostOps5 (F := Ideal)) V (Proc.devRef .tc main_arg9)).trans (by host_keep2))
theorem B2_keep_main_arg10 : after (hostOps5_2 (F := Ideal)) (after (hostOps5_1 (F := Ideal)) (after (hostOps5 (F := Ideal)) V)) (Proc.devRef .tc main_arg10) = V (Proc.devRef .tc main_arg10) :=
  (by host_keep2 : after (hostOps5_2 (F := Ideal)) (after (hostOps5_1 (F := Ideal)) (after (hostOps5 (F := Ideal)) V)) (Proc.devRef .tc main_arg10) = after (hostOps5_1 (F := Ideal)) (after (hostOps5 (F := Ideal)) V) (Proc.devRef .tc main_arg10)).trans
    ((by host_keep2 : after (hostOps5_1 (F := Ideal)) (after (hostOps5 (F := Ideal)) V) (Proc.devRef .tc main_arg10) = after (hostOps5 (F := Ideal)) V (Proc.devRef .tc main_arg10)).trans (by host_keep2))
theorem B2_keep_main_arg11 : after (hostOps5_2 (F := Ideal)) (after (hostOps5_1 (F := Ideal)) (after (hostOps5 (F := Ideal)) V)) (Proc.devRef .tc main_arg11) = V (Proc.devRef .tc main_arg11) :=
  (by host_keep2 : after (hostOps5_2 (F := Ideal)) (after (hostOps5_1 (F := Ideal)) (after (hostOps5 (F := Ideal)) V)) (Proc.devRef .tc main_arg11) = after (hostOps5_1 (F := Ideal)) (after (hostOps5 (F := Ideal)) V) (Proc.devRef .tc main_arg11)).trans
    ((by host_keep2 : after (hostOps5_1 (F := Ideal)) (after (hostOps5 (F := Ideal)) V) (Proc.devRef .tc main_arg11) = after (hostOps5 (F := Ideal)) V (Proc.devRef .tc main_arg11)).trans (by host_keep2))

end Cert.KernelIdeal.KHost

end
-- ==== Proof.LinFinal4.lean ====
/-
  The third layer's affine part as the whole array the region leaves.

  The region's grid has 20 points; point t holds rows 5000·t … 5000·t + 4999 of the two node arrays and of the
  output, and the whole of both weight matrices and of the bias row. What point t writes back is therefore
  rows 5000·t … of the specification's lin of the five arrays as the region finds them, entry by entry; the 20
  row blocks tile the array (row r lies in block r / 5000), so the array ends holding lin of the five arrays.
-/
import proofs.«145014_j19963007992111_1_alg».proof.Proof.LinAt
import proofs.«145014_j19963007992111_1_alg».proof.Proof.Gen.KernelIdeal.Frame
import Idealize.ShloMosaic.Lib.Pipeline.Value
import Idealize.ShloMosaic.Lib.Tactic

noncomputable section

namespace Cert.KernelIdeal.LinValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The block each window holds at point t: row block t of the node arrays and of the output, block (0, 0) of the rest. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of the first node array's block at point t is row 5000·t + p of the array. -/
theorem rd4_0 (c : Dev nD) (t : Fin cfg4.N) (p : Fin 5000) (k : Fin 128) (r : Fin 100000) (hr : r.val = t.val * 5000 + p.val) :
    (iblk4 V c 0 t : Vec Ideal S5000x128 .f32) (ix2 p k) = (V c (Pipeline.arrRef spec4 0) : S100000x128.Idx → EReal) (ix2 r k) := by
  obtain ⟨e0, e1, -⟩ := idx4 t
  unfold iblk4
  rw [View.read_apply]
  have h : ((cfg4.win 0).blk t).view.emb (ix2 p k) = ix2 r k := by
    funext a; apply Fin.ext
    match a with
    | ⟨0, _⟩ => show win4_0.index t (0 : Fin 2) * 5000 + 1 * p.val = r.val; omega
    | ⟨1, _⟩ => show win4_0.index t (1 : Fin 2) * 128 + 1 * k.val = k.val; omega
  rw [h]
  rfl

/-- Row p of the second node array's block at point t is row 5000·t + p of the array. -/
theorem rd4_1 (c : Dev nD) (t : Fin cfg4.N) (p : Fin 5000) (k : Fin 128) (r : Fin 100000) (hr : r.val = t.val * 5000 + p.val) :
    (iblk4 V c 1 t : Vec Ideal S5000x128 .f32) (ix2 p k) = (V c (Pipeline.arrRef spec4 1) : S100000x128.Idx → EReal) (ix2 r k) := by
  obtain ⟨-, -, e0, e1, -⟩ := idx4 t
  unfold iblk4
  rw [View.read_apply]
  have h : ((cfg4.win 1).blk t).view.emb (ix2 p k) = ix2 r k := by
    funext a; apply Fin.ext
    match a with
    | ⟨0, _⟩ => show win4_1.index t (0 : Fin 2) * 5000 + 1 * p.val = r.val; omega
    | ⟨1, _⟩ => show win4_1.index t (1 : Fin 2) * 128 + 1 * k.val = k.val; omega
  rw [h]
  rfl

/-- The first weight matrix's block at every point is the matrix. -/
theorem rd4_2 (c : Dev nD) (t : Fin cfg4.N) (k q : Fin 128) :
    (iblk4 V c 2 t : Vec Ideal S128x128 .f32) (ix2 k q) = (V c (Pipeline.arrRef spec4 2) : S128x128.Idx → EReal) (ix2 k q) := by
  obtain ⟨-, -, -, -, e0, e1, -⟩ := idx4 t
  unfold iblk4
  rw [View.read_apply]
  have h : ((cfg4.win 2).blk t).view.emb (ix2 k q) = ix2 k q := by
    funext a; apply Fin.ext
    match a with
    | ⟨0, _⟩ => show win4_2.index t (0 : Fin 2) * 128 + 1 * k.val = k.val; omega
    | ⟨1, _⟩ => show win4_2.index t (1 : Fin 2) * 128 + 1 * q.val = q.val; omega
  rw [h]
  rfl

/-- The second weight matrix's block at every point is the matrix. -/
theorem rd4_3 (c : Dev nD) (t : Fin cfg4.N) (k q : Fin 128) :
    (iblk4 V c 3 t : Vec Ideal S128x128 .f32) (ix2 k q) = (V c (Pipeline.arrRef spec4 3) : S128x128.Idx → EReal) (ix2 k q) := by
  obtain ⟨-, -, -, -, -, -, e0, e1, -⟩ := idx4 t
  unfold iblk4
  rw [View.read_apply]
  have h : ((cfg4.win 3).blk t).view.emb (ix2 k q) = ix2 k q := by
    funext a; apply Fin.ext
    match a with
    | ⟨0, _⟩ => show win4_3.index t (0 : Fin 2) * 128 + 1 * k.val = k.val; omega
    | ⟨1, _⟩ => show win4_3.index t (1 : Fin 2) * 128 + 1 * q.val = q.val; omega
  rw [h]
  rfl

/-- The bias row's block at every point is the row. -/
theorem rd4_4 (c : Dev nD) (t : Fin cfg4.N) (q : Fin 128) :
    (iblk4 V c 4 t : Vec Ideal S1x128 .f32) (ix2 (0 : Fin 1) q) = (V c (Pipeline.arrRef spec4 4) : S1x128.Idx → EReal) (ix2 (0 : Fin 1) q) := by
  obtain ⟨-, -, -, -, -, -, -, -, e0, e1, -⟩ := idx4 t
  unfold iblk4
  rw [View.read_apply]
  have h : ((cfg4.win 4).blk t).view.emb (ix2 (0 : Fin 1) q) = ix2 (0 : Fin 1) q := by
    funext a; apply Fin.ext
    match a with
    | ⟨0, _⟩ => show win4_4.index t (0 : Fin 2) * 1 + 1 * (0 : Fin 1).val = (0 : Fin 1).val; omega
    | ⟨1, _⟩ => show win4_4.index t (1 : Fin 2) * 128 + 1 * q.val = q.val; omega
  rw [h]
  rfl

/-- Entry (p, q) of the output's block at point t is entry (5000·t + p, q) of the output array. -/
theorem emb4 (t : Fin cfg4.N) (p : Fin 5000) (q : Fin 128) (r : Fin 100000) (hr : r.val = t.val * 5000 + p.val) :
    ((cfg4.win 5).blk t).view.emb (ix2 p q) = ix2 r q := by
  obtain ⟨-, -, -, -, -, -, -, -, -, -, e0, e1⟩ := idx4 t
  funext a; apply Fin.ext
  match a with
  | ⟨0, _⟩ => show win4_5.index t (0 : Fin 2) * 5000 + 1 * p.val = r.val; omega
  | ⟨1, _⟩ => show win4_5.index t (1 : Fin 2) * 128 + 1 * q.val = q.val; omega

/-- Entry (p, q) of what point t's body stores is entry (5000·t + p, q) of lin of the five arrays as the region finds them. -/
theorem entry4 (c : Dev nD) (t : Fin cfg4.N) (p : Fin 5000) (q : Fin 128) (r : Fin 100000) (hr : r.val = t.val * 5000 + p.val) :
    k4_pay1 (F := Ideal) (iblk4 V c 0 t) (iblk4 V c 1 t) (iblk4 V c 2 t) (iblk4 V c 3 t) (iblk4 V c 4 t) (ix2 p q)
      = Cert.Spec.lin (V c (Pipeline.arrRef spec4 0)) (V c (Pipeline.arrRef spec4 1)) (V c (Pipeline.arrRef spec4 2))
          (V c (Pipeline.arrRef spec4 3)) (V c (Pipeline.arrRef spec4 4)) (ix2 r q) :=
  (pay4_at (iblk4 V c 0 t) (iblk4 V c 1 t) (iblk4 V c 2 t) (iblk4 V c 3 t) (iblk4 V c 4 t) p q).trans
    (sums_eq_lin (iblk4 V c 0 t) (iblk4 V c 1 t) (iblk4 V c 2 t) (iblk4 V c 3 t) (iblk4 V c 4 t)
      (V c (Pipeline.arrRef spec4 0)) (V c (Pipeline.arrRef spec4 1)) (V c (Pipeline.arrRef spec4 2))
      (V c (Pipeline.arrRef spec4 3)) (V c (Pipeline.arrRef spec4 4)) p q r
      (fun k => rd4_0 V c t p k r hr) (fun k => rd4_1 V c t p k r hr) (fun k => rd4_2 V c t k q) (fun k => rd4_3 V c t k q)
      (rd4_4 V c t q))

/-- What point t writes back is row block t of lin of the five arrays as the region finds them. -/
theorem flushed4 (c : Dev nD) (t : Fin cfg4.N) :
    (dat4 V c).flushed 5 t = ((cfg4.win 5).blk t).view.read (Elt Ideal)
      (Cert.Spec.lin (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero zeroOff]
  simp only [View.ld_unit_zero (S := S5000x128) zeroOff, View.ld_unit_zero (S := S128x128) zeroOff, View.ld_unit_zero (S := S1x128) zeroOff]
  have hN : cfg4.N = 20 := N_4
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  rw [View.read_apply, emb4 t p q ⟨t.val * 5000 + p.val, by omega⟩ rfl]
  exact entry4 V c t p q ⟨t.val * 5000 + p.val, by omega⟩ rfl

/-- An index of the output array is in point t's block iff each coordinate is in the block's range on its axis. -/
theorem mem_blk4 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v76).slice (win4_5.rect t)).set ↔ _
  rw [View.set_slice_whole, Rect.mem_set_unit]
  exact Iff.rfl

/-- Row r of the output lies in the block of point r / 5000. -/
theorem cover4 (i : S100000x128.Idx) : ∃ t : Fin cfg4.N, (cfg4.win 5).flush t = true ∧ i ∈ ((cfg4.win 5).blk t).view.set := by
  have hN : cfg4.N = 20 := N_4
  have hi0 : (i 0).val < 100000 := (i 0).isLt
  have hi1 : (i 1).val < 128 := (i 1).isLt
  have hlt : (i 0).val / 5000 < cfg4.N := by rw [hN]; omega
  obtain ⟨-, -, -, -, -, -, -, -, -, -, e0, e1⟩ := idx4 ⟨(i 0).val / 5000, hlt⟩
  refine ⟨⟨(i 0).val / 5000, hlt⟩, flush4_5 _, ?_⟩
  rw [mem_blk4]
  intro a
  match a with
  | ⟨0, _⟩ =>
    show win4_5.index ⟨(i 0).val / 5000, hlt⟩ (0 : Fin 2) * 5000 ≤ (i 0).val ∧ (i 0).val < win4_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_5.index ⟨(i 0).val / 5000, hlt⟩ (1 : Fin 2) * 128 ≤ (i 1).val ∧ (i 1).val < win4_5.index ⟨(i 0).val / 5000, hlt⟩ (1 : Fin 2) * 128 + 128
    rw [e1]; omega

/-- THE ARRAY the region leaves: lin of the five arrays as the region finds them. -/
theorem final4 (c : Dev nD) :
    ((dat4 (F := Ideal) V c).arrAt 5 cfg4.N : Cert.Spec.Node) =
      Cert.Spec.lin (V c (Pipeline.arrRef spec4 0)) (V c (Pipeline.arrRef spec4 1)) (V c (Pipeline.arrRef spec4 2))
        (V c (Pipeline.arrRef spec4 3)) (V c (Pipeline.arrRef spec4 4)) :=
  (dat4 V c).arrAt_eq_of_cover 5 _ (fun t _ => flushed4 V c t) (cover4 ·)

end Cert.KernelIdeal.LinValue

end
-- ==== Proof.BnFinal5.lean ====
/-
  The batch-normalisation region 5, as whole arrays.

  The grid has 20 points; point t handles rows 5000·t … 5000·t + 4999 of the three row-blocked arrays (the affine
  layer's output, the running total, and the two results) and reads the four one-row statistics whole. So what
  point t writes back to each result is block t of one function of the arrays as the region finds them — the
  specification's `bnR`, and the total plus it — and the 20 blocks cover all 100000 rows.
-/
import proofs.«145014_j19963007992111_1_alg».proof.Proof.BnAt

noncomputable section

namespace Cert.KernelIdeal.BnValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index maps over the grid: the three row-blocked inputs and outputs sit at block (t, 0), the four
    statistics at block (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0 :=
  (by decide +kernel : ∀ t : Fin grid5.N, _)

/-- Where point t's block of a row-blocked window places entry (p, q): row 5000·t + p, column q. -/
theorem emb6_5 (t : Fin cfg5.N) (p : Fin 5000) (q : Fin 128) :
    ∃ r : Fin 100000, (((cfg5.win 6).blk t).view.emb (ix2 p q) : S100000x128.Idx) = ix2 r q := by
  obtain ⟨-, -, -, -, -, -, -, -, -, -, -, -, e0, e1, -, -⟩ := idx_facts5 t
  have hN : grid5.N = 20 := N_5
  have ht : t.val < 20 := Nat.lt_of_lt_of_eq (show t.val < grid5.N from t.isLt) hN
  refine ⟨⟨t.val * 5000 + p.val, by have := p.isLt; omega⟩, ?_⟩
  funext a
  apply Fin.ext
  match a with
  | ⟨0, _⟩ => show win5_6.index t (0 : Fin 2) * 5000 + 1 * p.val = t.val * 5000 + p.val; rw [e0]; omega
  | ⟨1, _⟩ => show win5_6.index t (1 : Fin 2) * 128 + 1 * q.val = q.val; rw [e1]; omega

theorem emb7_5 (t : Fin cfg5.N) (p : Fin 5000) (q : Fin 128) :
    ∃ r : Fin 100000, (((cfg5.win 7).blk t).view.emb (ix2 p q) : S100000x128.Idx) = ix2 r q := by
  obtain ⟨-, -, -, -, -, -, -, -, -, -, -, -, -, -, e0, e1⟩ := idx_facts5 t
  have hN : grid5.N = 20 := N_5
  have ht : t.val < 20 := Nat.lt_of_lt_of_eq (show t.val < grid5.N from t.isLt) hN
  refine ⟨⟨t.val * 5000 + p.val, by have := p.isLt; omega⟩, ?_⟩
  funext a
  apply Fin.ext
  match a with
  | ⟨0, _⟩ => show win5_7.index t (0 : Fin 2) * 5000 + 1 * p.val = t.val * 5000 + p.val; rw [e0]; omega
  | ⟨1, _⟩ => show win5_7.index t (1 : Fin 2) * 128 + 1 * q.val = q.val; rw [e1]; omega

/-! ## The input blocks, read off the arrays -/

/-- The block of the affine layer's output at point t is that array read where either result's block sits. -/
theorem blk0_6_5 (c : Dev nD) (t : Fin cfg5.N) (y : S5000x128.Idx) :
    iblk5 V c 0 t y = V c (Pipeline.arrRef spec5 0) (((cfg5.win 6).blk t).view.emb y) := by
  obtain ⟨a0, a1, -, -, -, -, -, -, -, -, -, -, e0, e1, -, -⟩ := idx_facts5 t
  unfold iblk5
  rw [View.read_apply]
  refine congrArg (V c (Pipeline.arrRef spec5 0)) (funext fun a => Fin.ext ?_)
  match a with
  | ⟨0, _⟩ => show win5_0.index t (0 : Fin 2) * 5000 + 1 * (y 0).val = win5_6.index t (0 : Fin 2) * 5000 + 1 * (y 0).val; rw [a0, e0]
  | ⟨1, _⟩ => show win5_0.index t (1 : Fin 2) * 128 + 1 * (y 1).val = win5_6.index t (1 : Fin 2) * 128 + 1 * (y 1).val; rw [a1, e1]

theorem blk0_7_5 (c : Dev nD) (t : Fin cfg5.N) (y : S5000x128.Idx) :
    iblk5 V c 0 t y = V c (Pipeline.arrRef spec5 0) (((cfg5.win 7).blk t).view.emb y) := by
  obtain ⟨a0, a1, -, -, -, -, -, -, -, -, -, -, -, -, e0, e1⟩ := idx_facts5 t
  unfold iblk5
  rw [View.read_apply]
  refine congrArg (V c (Pipeline.arrRef spec5 0)) (funext fun a => Fin.ext ?_)
  match a with
  | ⟨0, _⟩ => show win5_0.index t (0 : Fin 2) * 5000 + 1 * (y 0).val = win5_7.index t (0 : Fin 2) * 5000 + 1 * (y 0).val; rw [a0, e0]
  | ⟨1, _⟩ => show win5_0.index t (1 : Fin 2) * 128 + 1 * (y 1).val = win5_7.index t (1 : Fin 2) * 128 + 1 * (y 1).val; rw [a1, e1]

/-- The block of the running total at point t is that array read where the second result's block sits. -/
theorem blk5_7_5 (c : Dev nD) (t : Fin cfg5.N) (y : S5000x128.Idx) :
    iblk5 V c 5 t y = V c (Pipeline.arrRef spec5 5) (((cfg5.win 7).blk t).view.emb y) := by
  obtain ⟨-, -, -, -, -, -, -, -, -, -, a0, a1, -, -, e0, e1⟩ := idx_facts5 t
  unfold iblk5
  rw [View.read_apply]
  refine congrArg (V c (Pipeline.arrRef spec5 5)) (funext fun a => Fin.ext ?_)
  match a with
  | ⟨0, _⟩ => show win5_5.index t (0 : Fin 2) * 5000 + 1 * (y 0).val = win5_7.index t (0 : Fin 2) * 5000 + 1 * (y 0).val; rw [a0, e0]
  | ⟨1, _⟩ => show win5_5.index t (1 : Fin 2) * 128 + 1 * (y 1).val = win5_7.index t (1 : Fin 2) * 128 + 1 * (y 1).val; rw [a1, e1]

/-- Each statistic's block at any point is the whole one-row array. -/
theorem blk1_5 (c : Dev nD) (t : Fin cfg5.N) (z : S1x128.Idx) :
    iblk5 V c 1 t z = V c (Pipeline.arrRef spec5 1) z := by
  obtain ⟨-, -, a0, a1, -, -, -, -, -, -, -, -, -, -, -, -⟩ := idx_facts5 t
  unfold iblk5
  rw [View.read_apply]
  refine congrArg (V c (Pipeline.arrRef spec5 1)) (funext fun a => Fin.ext ?_)
  match a with
  | ⟨0, _⟩ => show win5_1.index t (0 : Fin 2) * 1 + 1 * (z 0).val = (z 0).val; rw [a0]; omega
  | ⟨1, _⟩ => show win5_1.index t (1 : Fin 2) * 128 + 1 * (z 1).val = (z 1).val; rw [a1]; omega

theorem blk2_5 (c : Dev nD) (t : Fin cfg5.N) (z : S1x128.Idx) :
    iblk5 V c 2 t z = V c (Pipeline.arrRef spec5 2) z := by
  obtain ⟨-, -, -, -, a0, a1, -, -, -, -, -, -, -, -, -, -⟩ := idx_facts5 t
  unfold iblk5
  rw [View.read_apply]
  refine congrArg (V c (Pipeline.arrRef spec5 2)) (funext fun a => Fin.ext ?_)
  match a with
  | ⟨0, _⟩ => show win5_2.index t (0 : Fin 2) * 1 + 1 * (z 0).val = (z 0).val; rw [a0]; omega
  | ⟨1, _⟩ => show win5_2.index t (1 : Fin 2) * 128 + 1 * (z 1).val = (z 1).val; rw [a1]; omega

theorem blk3_5 (c : Dev nD) (t : Fin cfg5.N) (z : S1x128.Idx) :
    iblk5 V c 3 t z = V c (Pipeline.arrRef spec5 3) z := by
  obtain ⟨-, -, -, -, -, -, a0, a1, -, -, -, -, -, -, -, -⟩ := idx_facts5 t
  unfold iblk5
  rw [View.read_apply]
  refine congrArg (V c (Pipeline.arrRef spec5 3)) (funext fun a => Fin.ext ?_)
  match a with
  | ⟨0, _⟩ => show win5_3.index t (0 : Fin 2) * 1 + 1 * (z 0).val = (z 0).val; rw [a0]; omega
  | ⟨1, _⟩ => show win5_3.index t (1 : Fin 2) * 128 + 1 * (z 1).val = (z 1).val; rw [a1]; omega

theorem blk4_5 (c : Dev nD) (t : Fin cfg5.N) (z : S1x128.Idx) :
    iblk5 V c 4 t z = V c (Pipeline.arrRef spec5 4) z := by
  obtain ⟨-, -, -, -, -, -, -, -, a0, a1, -, -, -, -, -, -⟩ := idx_facts5 t
  unfold iblk5
  rw [View.read_apply]
  refine congrArg (V c (Pipeline.arrRef spec5 4)) (funext fun a => Fin.ext ?_)
  match a with
  | ⟨0, _⟩ => show win5_4.index t (0 : Fin 2) * 1 + 1 * (z 0).val = (z 0).val; rw [a0]; omega
  | ⟨1, _⟩ => show win5_4.index t (1 : Fin 2) * 128 + 1 * (z 1).val = (z 1).val; rw [a1]; omega

/-! ## What each point writes back -/

/-- A result's staging buffer is written back whole (no block overhangs the array), and a block of an array is the
    array read where the block sits. -/
theorem cut6_5 (t : Fin cfg5.N) (X : Vec Ideal S5000x128 .f32) (y : S5000x128.Idx) :
    (cfg5.win 6).cut (grid5.coords t) X y = X y := rfl
theorem read6_5 (t : Fin cfg5.N) (G : Cert.Spec.Node) (y : S5000x128.Idx) :
    ((cfg5.win 6).blk t).view.read (Elt Ideal) G y = G (((cfg5.win 6).blk t).view.emb y) := rfl
theorem cut7_5 (t : Fin cfg5.N) (X : Vec Ideal S5000x128 .f32) (y : S5000x128.Idx) :
    (cfg5.win 7).cut (grid5.coords t) X y = X y := rfl
theorem read7_5 (t : Fin cfg5.N) (G : Cert.Spec.Node) (y : S5000x128.Idx) :
    ((cfg5.win 7).blk t).view.read (Elt Ideal) G y = G (((cfg5.win 7).blk t).view.emb y) := rfl

/-- Point t writes back, to the first result, block t of the specification of the arrays at entry. -/
theorem flushed6_5 (c : Dev nD) (t : Fin cfg5.N) :
    (dat5 (F := Ideal) V c).flushed 6 t = ((cfg5.win 6).blk t).view.read (Elt Ideal)
      (Cert.Spec.bnR (V c (Pipeline.arrRef spec5 0)) (V c (Pipeline.arrRef spec5 1)) (V c (Pipeline.arrRef spec5 2))
        (V c (Pipeline.arrRef spec5 3)) (V c (Pipeline.arrRef spec5 4))) := by
  show (cfg5.win 6).cut (grid5.coords t) ((dat5 (F := Ideal) V c).after 6 t) = _
  rw [after5_6]
  unfold out5_6
  rw [pay1_5]
  rw [View.canon_unit_zero hz]
  simp only [View.ld_unit_zero (S := S5000x128) hz, View.ld_unit_zero (S := S1x128) hz]
  funext y
  rw [cut6_5, read6_5]
  exact pay1_block _ _ _ _ _ _ _ _ _ _ _ (emb6_5 t) (blk0_6_5 V c t) (blk1_5 V c t) (blk2_5 V c t) (blk3_5 V c t) (blk4_5 V c t) y

/-- Point t writes back, to the second result, block t of the total plus the specification. -/
theorem flushed7_5 (c : Dev nD) (t : Fin cfg5.N) :
    (dat5 (F := Ideal) V c).flushed 7 t = ((cfg5.win 7).blk t).view.read (Elt Ideal)
      (addf (V c (Pipeline.arrRef spec5 5) : Cert.Spec.Node)
        (Cert.Spec.bnR (V c (Pipeline.arrRef spec5 0)) (V c (Pipeline.arrRef spec5 1)) (V c (Pipeline.arrRef spec5 2))
          (V c (Pipeline.arrRef spec5 3)) (V c (Pipeline.arrRef spec5 4)))) := by
  show (cfg5.win 7).cut (grid5.coords t) ((dat5 (F := Ideal) V c).after 7 t) = _
  rw [after5_7]
  unfold out5_7
  rw [pay2_5]
  rw [View.canon_unit_zero hz]
  simp only [View.ld_unit_zero (S := S5000x128) hz, View.ld_unit_zero (S := S1x128) hz]
  funext y
  rw [cut7_5, read7_5]
  exact pay2_block _ _ _ _ _ _ _ _ _ _ _ _ _ (emb7_5 t) (blk0_7_5 V c t) (blk1_5 V c t) (blk2_5 V c t) (blk3_5 V c t) (blk4_5 V c t) (blk5_7_5 V c t) y

/-! ## The blocks cover the arrays -/

/-- An entry is in point t's block of a result iff its row and column are in the block's ranges. -/
theorem mem_blk6_5 (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v84_0).slice (win5_6.rect t)).set ↔ _
  rw [View.set_slice_whole, Rect.mem_set_unit]
  exact Iff.rfl

theorem mem_blk7_5 (t : Fin cfg5.N) (i : S100000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v84_1).slice (win5_7.rect t)).set ↔ _
  rw [View.set_slice_whole, Rect.mem_set_unit]
  exact Iff.rfl

/-- Row r lies in the block of point r / 5000. -/
theorem cover6_5 (i : S100000x128.Idx) :
    ∃ t : Fin cfg5.N, (cfg5.win 6).flush t = true ∧ i ∈ ((cfg5.win 6).blk t).view.set := by
  have hN : grid5.N = 20 := N_5
  have hi0 : (i 0).val < 100000 := (i 0).isLt
  have hi1 : (i 1).val < 128 := (i 1).isLt
  have ht : (i 0).val / 5000 < cfg5.N := by show _ < grid5.N; rw [hN]; omega
  obtain ⟨-, -, -, -, -, -, -, -, -, -, -, -, e0, e1, -, -⟩ := idx_facts5 ⟨(i 0).val / 5000, ht⟩
  refine ⟨⟨(i 0).val / 5000, ht⟩, flush5_6 _, ?_⟩
  rw [mem_blk6_5]
  intro a
  match a with
  | ⟨0, _⟩ => show win5_6.index ⟨(i 0).val / 5000, ht⟩ (0 : Fin 2) * 5000 ≤ (i 0).val ∧ (i 0).val < win5_6.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win5_6.index ⟨(i 0).val / 5000, ht⟩ (1 : Fin 2) * 128 ≤ (i 1).val ∧ (i 1).val < win5_6.index ⟨(i 0).val / 5000, ht⟩ (1 : Fin 2) * 128 + 128; rw [e1]; omega

theorem cover7_5 (i : S100000x128.Idx) :
    ∃ t : Fin cfg5.N, (cfg5.win 7).flush t = true ∧ i ∈ ((cfg5.win 7).blk t).view.set := by
  have hN : grid5.N = 20 := N_5
  have hi0 : (i 0).val < 100000 := (i 0).isLt
  have hi1 : (i 1).val < 128 := (i 1).isLt
  have ht : (i 0).val / 5000 < cfg5.N := by show _ < grid5.N; rw [hN]; omega
  obtain ⟨-, -, -, -, -, -, -, -, -, -, -, -, -, -, e0, e1⟩ := idx_facts5 ⟨(i 0).val / 5000, ht⟩
  refine ⟨⟨(i 0).val / 5000, ht⟩, flush5_7 _, ?_⟩
  rw [mem_blk7_5]
  intro a
  match a with
  | ⟨0, _⟩ => show win5_7.index ⟨(i 0).val / 5000, ht⟩ (0 : Fin 2) * 5000 ≤ (i 0).val ∧ (i 0).val < win5_7.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win5_7.index ⟨(i 0).val / 5000, ht⟩ (1 : Fin 2) * 128 ≤ (i 1).val ∧ (i 1).val < win5_7.index ⟨(i 0).val / 5000, ht⟩ (1 : Fin 2) * 128 + 128; rw [e1]; omega

/-! ## The arrays the region leaves -/

/-- The first result: the normalised, scaled, shifted and rectified array. -/
theorem final5_h (c : Dev nD) :
    ((dat5 (F := Ideal) V c).arrAt 6 cfg5.N : Cert.Spec.Node) =
      Cert.Spec.bnR (V c (Pipeline.arrRef spec5 0)) (V c (Pipeline.arrRef spec5 1)) (V c (Pipeline.arrRef spec5 2))
        (V c (Pipeline.arrRef spec5 3)) (V c (Pipeline.arrRef spec5 4)) :=
  (dat5 (F := Ideal) V c).arrAt_eq_of_cover 6 _ (fun t _ => flushed6_5 V c t) cover6_5

/-- The second result: the running total plus the first. -/
theorem final5_tot (c : Dev nD) :
    ((dat5 (F := Ideal) V c).arrAt 7 cfg5.N : Cert.Spec.Node) =
      addf (V c (Pipeline.arrRef spec5 5) : Cert.Spec.Node)
        (Cert.Spec.bnR (V c (Pipeline.arrRef spec5 0)) (V c (Pipeline.arrRef spec5 1)) (V c (Pipeline.arrRef spec5 2))
          (V c (Pipeline.arrRef spec5 3)) (V c (Pipeline.arrRef spec5 4))) :=
  (dat5 (F := Ideal) V c).arrAt_eq_of_cover 7 _ (fun t _ => flushed7_5 V c t) cover7_5

end Cert.KernelIdeal.BnValue

end
-- ==== Proof.KLayer2.lean ====
/-
  Layer 3 of the kernel's program, boundary by boundary: what the buffers hold when the layer's second region
  has finished, as functions of what they held when the layer was entered. The parameter slices, the neighbour
  sum of the previous output and the bias row come from the host operations before the layer's first region; that
  region's output array is the affine part; the statistics and the scale and shift rows come from the host
  operations after it; the second region's two output arrays are the layer's output and the running total plus it.
-/
import proofs.«145014_j19963007992111_1_alg».proof.Proof.Gen.KernelIdeal.Frame
import proofs.«145014_j19963007992111_1_alg».proof.Proof.KHost2
import proofs.«145014_j19963007992111_1_alg».proof.Proof.LinFinal4
import proofs.«145014_j19963007992111_1_alg».proof.Proof.BnFinal5

set_option maxRecDepth 16384

noncomputable section

namespace Cert.KernelIdeal.KChain

open Idealize.ShloMosaic Idealize.ShloMosaic.TcCoe Idealize.ShloMosaic.StableHlo Idealize.SL.Sem
open Cert.KernelIdeal Cert.KernelIdeal.Gen Cert.Spec Cert.KernelIdeal.KHost

variable (m : (ℓ : Loc nD τ sig) → Buf (Elt Ideal) ℓ) (ρ : Dev nD → PrngReg) (c : Dev nD)

set_option maxHeartbeats 2000000 in
/-- The affine part: the layer's first region's output array. -/
theorem L2_y : (W14 m ρ c (Proc.devRef .tc main_v76) : Node)
    = lin (agg (W12 m ρ c (Proc.devRef .tc main_v54_0)) (W12 m ρ c (Proc.devRef .tc main_v1)) (W12 m ρ c (Proc.devRef .tc main_v3))) (W12 m ρ c (Proc.devRef .tc main_v54_0)) (mat3 ![1, 0, 0] (by decide) (W12 m ρ c (Proc.devRef .tc main_arg7))) (mat3 ![1, 0, 0] (by decide) (W12 m ρ c (Proc.devRef .tc main_arg8))) (rs (vec3 ![1, 0] (by decide) (W12 m ρ c (Proc.devRef .tc main_arg9)))) := by
  have h := (W14_arr m ρ c 5).trans (LinValue.final4 (V13 m ρ) c)
  rw [show (V13 m ρ c (Pipeline.arrRef spec4 0) : Node) = _ from A2_agg (W12 m ρ c),
      show (V13 m ρ c (Pipeline.arrRef spec4 1) : Node) = _ from A2_keep_main_v54_0 (W12 m ρ c),
      show (V13 m ρ c (Pipeline.arrRef spec4 2) : Mat) = _ from A2_wrel (W12 m ρ c),
      show (V13 m ρ c (Pipeline.arrRef spec4 3) : Mat) = _ from A2_wroot (W12 m ρ c),
      show (V13 m ρ c (Pipeline.arrRef spec4 4) : Row) = _ from A2_bias (W12 m ρ c)] at h
  exact h

set_option maxHeartbeats 2000000 in
/-- The layer's output: the second region's first output array. -/
theorem L2_h : (W18 m ρ c (Proc.devRef .tc main_v84_0) : Node) = klayer (W12 m ρ c (Proc.devRef .tc main_v54_0)) (W12 m ρ c (Proc.devRef .tc main_v1)) (W12 m ρ c (Proc.devRef .tc main_v3)) (mat3 ![1, 0, 0] (by decide) (W12 m ρ c (Proc.devRef .tc main_arg7))) (mat3 ![1, 0, 0] (by decide) (W12 m ρ c (Proc.devRef .tc main_arg8))) (vec3 ![1, 0] (by decide) (W12 m ρ c (Proc.devRef .tc main_arg9))) (vec3 ![1, 0] (by decide) (W12 m ρ c (Proc.devRef .tc main_arg10))) (vec3 ![1, 0] (by decide) (W12 m ρ c (Proc.devRef .tc main_arg11))) := by
  have h := (W18_arr m ρ c 6).trans (BnValue.final5_h (V17 m ρ) c)
  rw [show (V17 m ρ c (Pipeline.arrRef spec5 0) : Node) = _ from B2_keep_main_v76 (W14 m ρ c),
      show (V17 m ρ c (Pipeline.arrRef spec5 1) : Row) = _ from B2_mean (W14 m ρ c),
      show (V17 m ρ c (Pipeline.arrRef spec5 2) : Row) = _ from B2_var (W14 m ρ c),
      show (V17 m ρ c (Pipeline.arrRef spec5 3) : Row) = _ from B2_gamma (W14 m ρ c),
      show (V17 m ρ c (Pipeline.arrRef spec5 4) : Row) = _ from B2_beta (W14 m ρ c)] at h
  rw [L2_y m ρ c,
      show (W14 m ρ c (Proc.devRef .tc main_v62) : Lane) = _ from (W14_of_ne m ρ c main_v62 (by decide)).trans (A2_gamma (W12 m ρ c)),
      show (W14 m ρ c (Proc.devRef .tc main_v64) : Lane) = _ from (W14_of_ne m ρ c main_v64 (by decide)).trans (A2_beta (W12 m ρ c))] at h
  exact h

set_option maxHeartbeats 2000000 in
/-- The running total after the layer: the second region's second output array, the total so far plus the output. -/
theorem L2_tot : (W18 m ρ c (Proc.devRef .tc main_v84_1) : Node) = addf (W12 m ρ c (Proc.devRef .tc main_v54_1)) (klayer (W12 m ρ c (Proc.devRef .tc main_v54_0)) (W12 m ρ c (Proc.devRef .tc main_v1)) (W12 m ρ c (Proc.devRef .tc main_v3)) (mat3 ![1, 0, 0] (by decide) (W12 m ρ c (Proc.devRef .tc main_arg7))) (mat3 ![1, 0, 0] (by decide) (W12 m ρ c (Proc.devRef .tc main_arg8))) (vec3 ![1, 0] (by decide) (W12 m ρ c (Proc.devRef .tc main_arg9))) (vec3 ![1, 0] (by decide) (W12 m ρ c (Proc.devRef .tc main_arg10))) (vec3 ![1, 0] (by decide) (W12 m ρ c (Proc.devRef .tc main_arg11)))) := by
  have h := (W18_arr m ρ c 7).trans (BnValue.final5_tot (V17 m ρ) c)
  rw [show (V17 m ρ c (Pipeline.arrRef spec5 5) : Node) = _ from (B2_keep_main_v54_1 (W14 m ρ c)).trans ((W14_of_ne m ρ c main_v54_1 (by decide)).trans (A2_keep_main_v54_1 (W12 m ρ c)))] at h
  rw [show (V17 m ρ c (Pipeline.arrRef spec5 0) : Node) = _ from B2_keep_main_v76 (W14 m ρ c),
      show (V17 m ρ c (Pipeline.arrRef spec5 1) : Row) = _ from B2_mean (W14 m ρ c),
      show (V17 m ρ c (Pipeline.arrRef spec5 2) : Row) = _ from B2_var (W14 m ρ c),
      show (V17 m ρ c (Pipeline.arrRef spec5 3) : Row) = _ from B2_gamma (W14 m ρ c),
      show (V17 m ρ c (Pipeline.arrRef spec5 4) : Row) = _ from B2_beta (W14 m ρ c)] at h
  rw [L2_y m ρ c,
      show (W14 m ρ c (Proc.devRef .tc main_v62) : Lane) = _ from (W14_of_ne m ρ c main_v62 (by decide)).trans (A2_gamma (W12 m ρ c)),
      show (W14 m ρ c (Proc.devRef .tc main_v64) : Lane) = _ from (W14_of_ne m ρ c main_v64 (by decide)).trans (A2_beta (W12 m ρ c))] at h
  exact h

/-- What is carried past the layer: the edge list's two rows and the stacked parameters. -/
theorem L2_src : W18 m ρ c (Proc.devRef .tc main_v1) = W12 m ρ c (Proc.devRef .tc main_v1) :=
  (W18_of_ne m ρ c main_v1 (by decide)).trans ((B2_keep_main_v1 (W14 m ρ c)).trans ((W14_of_ne m ρ c main_v1 (by decide)).trans (A2_keep_main_v1 (W12 m ρ c))))
theorem L2_dst : W18 m ρ c (Proc.devRef .tc main_v3) = W12 m ρ c (Proc.devRef .tc main_v3) :=
  (W18_of_ne m ρ c main_v3 (by decide)).trans ((B2_keep_main_v3 (W14 m ρ c)).trans ((W14_of_ne m ρ c main_v3 (by decide)).trans (A2_keep_main_v3 (W12 m ρ c))))
theorem L2_arg7 : W18 m ρ c (Proc.devRef .tc main_arg7) = W12 m ρ c (Proc.devRef .tc main_arg7) :=
  (W18_of_ne m ρ c main_arg7 (by decide)).trans ((B2_keep_main_arg7 (W14 m ρ c)).trans ((W14_of_ne m ρ c main_arg7 (by decide)).trans (A2_keep_main_arg7 (W12 m ρ c))))
theorem L2_arg8 : W18 m ρ c (Proc.devRef .tc main_arg8) = W12 m ρ c (Proc.devRef .tc main_arg8) :=
  (W18_of_ne m ρ c main_arg8 (by decide)).trans ((B2_keep_main_arg8 (W14 m ρ c)).trans ((W14_of_ne m ρ c main_arg8 (by decide)).trans (A2_keep_main_arg8 (W12 m ρ c))))
theorem L2_arg9 : W18 m ρ c (Proc.devRef .tc main_arg9) = W12 m ρ c (Proc.devRef .tc main_arg9) :=
  (W18_of_ne m ρ c main_arg9 (by decide)).trans ((B2_keep_main_arg9 (W14 m ρ c)).trans ((W14_of_ne m ρ c main_arg9 (by decide)).trans (A2_keep_main_arg9 (W12 m ρ c))))
theorem L2_arg10 : W18 m ρ c (Proc.devRef .tc main_arg10) = W12 m ρ c (Proc.devRef .tc main_arg10) :=
  (W18_of_ne m ρ c main_arg10 (by decide)).trans ((B2_keep_main_arg10 (W14 m ρ c)).trans ((W14_of_ne m ρ c main_arg10 (by decide)).trans (A2_keep_main_arg10 (W12 m ρ c))))
theorem L2_arg11 : W18 m ρ c (Proc.devRef .tc main_arg11) = W12 m ρ c (Proc.devRef .tc main_arg11) :=
  (W18_of_ne m ρ c main_arg11 (by decide)).trans ((B2_keep_main_arg11 (W14 m ρ c)).trans ((W14_of_ne m ρ c main_arg11 (by decide)).trans (A2_keep_main_arg11 (W12 m ρ c))))

end Cert.KernelIdeal.KChain

end
-- ==== Proof.KHost3.lean ====
/-
  The kernel program's host operations of layer 4, read as values. Before the layer's first region: slice 2
  of each stacked parameter, the neighbour sum of the previous layer's output, the bias as a row. Between its two
  regions: the column statistics of the affine part kept as one-row matrices, and scale and shift recast as rows.
  Each is stated for an arbitrary starting valuation.
-/
import proofs.«145014_j19963007992111_1_alg».proof.Proof.Gen.KernelIdeal.Launch
import proofs.«145014_j19963007992111_1_alg».proof.Proof.Spec
import Idealize.ShloMosaic.Lib.StableHlo.Run
import Idealize.ShloMosaic.Lib.Pipeline.Frame

set_option maxRecDepth 16384

noncomputable section

namespace Cert.KernelIdeal.KHost

open Idealize.ShloMosaic Idealize.ShloMosaic.TcCoe Idealize.ShloMosaic.StableHlo Idealize.SL.Sem
open Cert.KernelIdeal Cert.KernelIdeal.Gen Cert.Spec

/-- A buffer that no operation of a literal list writes keeps its contents: the list's written buffers are read off
    the operations one by one and each is a different reference. -/
macro "host_keep3" : tactic => `(tactic|
  exact StableHlo.after_of_forall_not_mem _ _ (List.forall_iff_forall_mem.mp (by
    simp only [hostOps0, hostOps1, hostOps1_1, hostOps1_2, hostOps2, hostOps3, hostOps3_1, hostOps3_2, hostOps4, hostOps5,
      hostOps5_1, hostOps5_2, hostOps6, hostOps7, hostOps7_1, hostOps7_2, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))))

attribute [local irreducible] Host.gather Host.scatterAdd Host.reduceAdd

variable (V : Valuation τ sig (Elt Ideal))

set_option maxHeartbeats 2000000 in
theorem A3_agg : (after (hostOps6 (F := Ideal)) V (Proc.devRef .tc main_v104) : Node)
    = agg (V (Proc.devRef .tc main_v84_0)) (V (Proc.devRef .tc main_v1)) (V (Proc.devRef .tc main_v3)) := by
  after_results_simp; rfl
set_option maxHeartbeats 2000000 in
theorem A3_wrel : (after (hostOps6 (F := Ideal)) V (Proc.devRef .tc main_v86) : Mat)
    = mat3 ![2, 0, 0] (by decide) (V (Proc.devRef .tc main_arg7)) := by
  after_results_simp; rfl
set_option maxHeartbeats 2000000 in
theorem A3_wroot : (after (hostOps6 (F := Ideal)) V (Proc.devRef .tc main_v88) : Mat)
    = mat3 ![2, 0, 0] (by decide) (V (Proc.devRef .tc main_arg8)) := by
  after_results_simp; rfl
set_option maxHeartbeats 2000000 in
theorem A3_bias : (after (hostOps6 (F := Ideal)) V (Proc.devRef .tc main_v105) : Row)
    = rs (vec3 ![2, 0] (by decide) (V (Proc.devRef .tc main_arg9))) := by
  after_results_simp; rfl
set_option maxHeartbeats 2000000 in
theorem A3_gamma : (after (hostOps6 (F := Ideal)) V (Proc.devRef .tc main_v92) : Lane)
    = vec3 ![2, 0] (by decide) (V (Proc.devRef .tc main_arg10)) := by
  after_results_simp; rfl
set_option maxHeartbeats 2000000 in
theorem A3_beta : (after (hostOps6 (F := Ideal)) V (Proc.devRef .tc main_v94) : Lane)
    = vec3 ![2, 0] (by decide) (V (Proc.devRef .tc main_arg11)) := by
  after_results_simp; rfl
theorem A3_keep_main_v84_0 : after (hostOps6 (F := Ideal)) V (Proc.devRef .tc main_v84_0) = V (Proc.devRef .tc main_v84_0) := by host_keep3
theorem A3_keep_main_v84_1 : after (hostOps6 (F := Ideal)) V (Proc.devRef .tc main_v84_1) = V (Proc.devRef .tc main_v84_1) := by host_keep3
theorem A3_keep_main_v1 : after (hostOps6 (F := Ideal)) V (Proc.devRef .tc main_v1) = V (Proc.devRef .tc main_v1) := by host_keep3
theorem A3_keep_main_v3 : after (hostOps6 (F := Ideal)) V (Proc.devRef .tc main_v3) = V (Proc.devRef .tc main_v3) := by host_keep3
theorem A3_keep_main_arg7 : after (hostOps6 (F := Ideal)) V (Proc.devRef .tc main_arg7) = V (Proc.devRef .tc main_arg7) := by host_keep3
theorem A3_keep_main_arg8 : after (hostOps6 (F := Ideal)) V (Proc.devRef .tc main_arg8) = V (Proc.devRef .tc main_arg8) := by host_keep3
theorem A3_keep_main_arg9 : after (hostOps6 (F := Ideal)) V (Proc.devRef .tc main_arg9) = V (Proc.devRef .tc main_arg9) := by host_keep3
theorem A3_keep_main_arg10 : after (hostOps6 (F := Ideal)) V (Proc.devRef .tc main_arg10) = V (Proc.devRef .tc main_arg10) := by host_keep3
theorem A3_keep_main_arg11 : after (hostOps6 (F := Ideal)) V (Proc.devRef .tc main_arg11) = V (Proc.devRef .tc main_arg11) := by host_keep3

set_option maxHeartbeats 2000000 in
theorem B3_mean : (after (hostOps7_2 (F := Ideal)) (after (hostOps7_1 (F := Ideal)) (after (hostOps7 (F := Ideal)) V)) (Proc.devRef .tc main_v110) : Row)
    = mean2 (V (Proc.devRef .tc main_v106)) := by
  after_results_simp; rfl
set_option maxHeartbeats 2000000 in
theorem B3_var : (after (hostOps7_2 (F := Ideal)) (after (hostOps7_1 (F := Ideal)) (after (hostOps7 (F := Ideal)) V)) (Proc.devRef .tc main_v111) : Row)
    = var2 (V (Proc.devRef .tc main_v106)) := by
  after_results_simp; rfl
set_option maxHeartbeats 2000000 in
theorem B3_gamma : (after (hostOps7_2 (F := Ideal)) (after (hostOps7_1 (F := Ideal)) (after (hostOps7 (F := Ideal)) V)) (Proc.devRef .tc main_v112) : Row)
    = rs (V (Proc.devRef .tc main_v92)) := by
  after_results_simp; rfl
set_option maxHeartbeats 2000000 in
theorem B3_beta : (after (hostOps7_2 (F := Ideal)) (after (hostOps7_1 (F := Ideal)) (after (hostOps7 (F := Ideal)) V)) (Proc.devRef .tc main_v113) : Row)
    = rs (V (Proc.devRef .tc main_v94)) := by
  after_results_simp; rfl
theorem B3_keep_main_v106 : after (hostOps7_2 (F := Ideal)) (after (hostOps7_1 (F := Ideal)) (after (hostOps7 (F := Ideal)) V)) (Proc.devRef .tc main_v106) = V (Proc.devRef .tc main_v106) :=
  (by host_keep3 : after (hostOps7_2 (F := Ideal)) (after (hostOps7_1 (F := Ideal)) (after (hostOps7 (F := Ideal)) V)) (Proc.devRef .tc main_v106) = after (hostOps7_1 (F := Ideal)) (after (hostOps7 (F := Ideal)) V) (Proc.devRef .tc main_v106)).trans
    ((by host_keep3 : after (hostOps7_1 (F := Ideal)) (after (hostOps7 (F := Ideal)) V) (Proc.devRef .tc main_v106) = after (hostOps7 (F := Ideal)) V (Proc.devRef .tc main_v106)).trans (by host_keep3))
theorem B3_keep_main_v84_1 : after (hostOps7_2 (F := Ideal)) (after (hostOps7_1 (F := Ideal)) (after (hostOps7 (F := Ideal)) V)) (Proc.devRef .tc main_v84_1) = V (Proc.devRef .tc main_v84_1) :=
  (by host_keep3 : after (hostOps7_2 (F := Ideal)) (after (hostOps7_1 (F := Ideal)) (after (hostOps7 (F := Ideal)) V)) (Proc.devRef .tc main_v84_1) = after (hostOps7_1 (F := Ideal)) (after (hostOps7 (F := Ideal)) V) (Proc.devRef .tc main_v84_1)).trans
    ((by host_keep3 : after (hostOps7_1 (F := Ideal)) (after (hostOps7 (F := Ideal)) V) (Proc.devRef .tc main_v84_1) = after (hostOps7 (F := Ideal)) V (Proc.devRef .tc main_v84_1)).trans (by host_keep3))
theorem B3_keep_main_v1 : after (hostOps7_2 (F := Ideal)) (after (hostOps7_1 (F := Ideal)) (after (hostOps7 (F := Ideal)) V)) (Proc.devRef .tc main_v1) = V (Proc.devRef .tc main_v1) :=
  (by host_keep3 : after (hostOps7_2 (F := Ideal)) (after (hostOps7_1 (F := Ideal)) (after (hostOps7 (F := Ideal)) V)) (Proc.devRef .tc main_v1) = after (hostOps7_1 (F := Ideal)) (after (hostOps7 (F := Ideal)) V) (Proc.devRef .tc main_v1)).trans
    ((by host_keep3 : after (hostOps7_1 (F := Ideal)) (after (hostOps7 (F := Ideal)) V) (Proc.devRef .tc main_v1) = after (hostOps7 (F := Ideal)) V (Proc.devRef .tc main_v1)).trans (by host_keep3))
theorem B3_keep_main_v3 : after (hostOps7_2 (F := Ideal)) (after (hostOps7_1 (F := Ideal)) (after (hostOps7 (F := Ideal)) V)) (Proc.devRef .tc main_v3) = V (Proc.devRef .tc main_v3) :=
  (by host_keep3 : after (hostOps7_2 (F := Ideal)) (after (hostOps7_1 (F := Ideal)) (after (hostOps7 (F := Ideal)) V)) (Proc.devRef .tc main_v3) = after (hostOps7_1 (F := Ideal)) (after (hostOps7 (F := Ideal)) V) (Proc.devRef .tc main_v3)).trans
    ((by host_keep3 : after (hostOps7_1 (F := Ideal)) (after (hostOps7 (F := Ideal)) V) (Proc.devRef .tc main_v3) = after (hostOps7 (F := Ideal)) V (Proc.devRef .tc main_v3)).trans (by host_keep3))
theorem B3_keep_main_arg7 : after (hostOps7_2 (F := Ideal)) (after (hostOps7_1 (F := Ideal)) (after (hostOps7 (F := Ideal)) V)) (Proc.devRef .tc main_arg7) = V (Proc.devRef .tc main_arg7) :=
  (by host_keep3 : after (hostOps7_2 (F := Ideal)) (after (hostOps7_1 (F := Ideal)) (after (hostOps7 (F := Ideal)) V)) (Proc.devRef .tc main_arg7) = after (hostOps7_1 (F := Ideal)) (after (hostOps7 (F := Ideal)) V) (Proc.devRef .tc main_arg7)).trans
    ((by host_keep3 : after (hostOps7_1 (F := Ideal)) (after (hostOps7 (F := Ideal)) V) (Proc.devRef .tc main_arg7) = after (hostOps7 (F := Ideal)) V (Proc.devRef .tc main_arg7)).trans (by host_keep3))
theorem B3_keep_main_arg8 : after (hostOps7_2 (F := Ideal)) (after (hostOps7_1 (F := Ideal)) (after (hostOps7 (F := Ideal)) V)) (Proc.devRef .tc main_arg8) = V (Proc.devRef .tc main_arg8) :=
  (by host_keep3 : after (hostOps7_2 (F := Ideal)) (after (hostOps7_1 (F := Ideal)) (after (hostOps7 (F := Ideal)) V)) (Proc.devRef .tc main_arg8) = after (hostOps7_1 (F := Ideal)) (after (hostOps7 (F := Ideal)) V) (Proc.devRef .tc main_arg8)).trans
    ((by host_keep3 : after (hostOps7_1 (F := Ideal)) (after (hostOps7 (F := Ideal)) V) (Proc.devRef .tc main_arg8) = after (hostOps7 (F := Ideal)) V (Proc.devRef .tc main_arg8)).trans (by host_keep3))
theorem B3_keep_main_arg9 : after (hostOps7_2 (F := Ideal)) (after (hostOps7_1 (F := Ideal)) (after (hostOps7 (F := Ideal)) V)) (Proc.devRef .tc main_arg9) = V (Proc.devRef .tc main_arg9) :=
  (by host_keep3 : after (hostOps7_2 (F := Ideal)) (after (hostOps7_1 (F := Ideal)) (after (hostOps7 (F := Ideal)) V)) (Proc.devRef .tc main_arg9) = after (hostOps7_1 (F := Ideal)) (after (hostOps7 (F := Ideal)) V) (Proc.devRef .tc main_arg9)).trans
    ((by host_keep3 : after (hostOps7_1 (F := Ideal)) (after (hostOps7 (F := Ideal)) V) (Proc.devRef .tc main_arg9) = after (hostOps7 (F := Ideal)) V (Proc.devRef .tc main_arg9)).trans (by host_keep3))
theorem B3_keep_main_arg10 : after (hostOps7_2 (F := Ideal)) (after (hostOps7_1 (F := Ideal)) (after (hostOps7 (F := Ideal)) V)) (Proc.devRef .tc main_arg10) = V (Proc.devRef .tc main_arg10) :=
  (by host_keep3 : after (hostOps7_2 (F := Ideal)) (after (hostOps7_1 (F := Ideal)) (after (hostOps7 (F := Ideal)) V)) (Proc.devRef .tc main_arg10) = after (hostOps7_1 (F := Ideal)) (after (hostOps7 (F := Ideal)) V) (Proc.devRef .tc main_arg10)).trans
    ((by host_keep3 : after (hostOps7_1 (F := Ideal)) (after (hostOps7 (F := Ideal)) V) (Proc.devRef .tc main_arg10) = after (hostOps7 (F := Ideal)) V (Proc.devRef .tc main_arg10)).trans (by host_keep3))
theorem B3_keep_main_arg11 : after (hostOps7_2 (F := Ideal)) (after (hostOps7_1 (F := Ideal)) (after (hostOps7 (F := Ideal)) V)) (Proc.devRef .tc main_arg11) = V (Proc.devRef .tc main_arg11) :=
  (by host_keep3 : after (hostOps7_2 (F := Ideal)) (after (hostOps7_1 (F := Ideal)) (after (hostOps7 (F := Ideal)) V)) (Proc.devRef .tc main_arg11) = after (hostOps7_1 (F := Ideal)) (after (hostOps7 (F := Ideal)) V) (Proc.devRef .tc main_arg11)).trans
    ((by host_keep3 : after (hostOps7_1 (F := Ideal)) (after (hostOps7 (F := Ideal)) V) (Proc.devRef .tc main_arg11) = after (hostOps7 (F := Ideal)) V (Proc.devRef .tc main_arg11)).trans (by host_keep3))

end Cert.KernelIdeal.KHost

end
-- ==== Proof.LinFinal6.lean ====
/-
  The fourth layer's affine part as the whole array the region leaves.

  The region's grid has 20 points; point t holds rows 5000·t … 5000·t + 4999 of the two node arrays and of the
  output, and the whole of both weight matrices and of the bias row. What point t writes back is therefore
  rows 5000·t … of the specification's lin of the five arrays as the region finds them, entry by entry; the 20
  row blocks tile the array (row r lies in block r / 5000), so the array ends holding lin of the five arrays.
-/
import proofs.«145014_j19963007992111_1_alg».proof.Proof.LinAt
import proofs.«145014_j19963007992111_1_alg».proof.Proof.Gen.KernelIdeal.Frame
import Idealize.ShloMosaic.Lib.Pipeline.Value
import Idealize.ShloMosaic.Lib.Tactic

noncomputable section

namespace Cert.KernelIdeal.LinValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The block each window holds at point t: row block t of the node arrays and of the output, block (0, 0) of the rest. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row p of the first node array's block at point t is row 5000·t + p of the array. -/
theorem rd6_0 (c : Dev nD) (t : Fin cfg6.N) (p : Fin 5000) (k : Fin 128) (r : Fin 100000) (hr : r.val = t.val * 5000 + p.val) :
    (iblk6 V c 0 t : Vec Ideal S5000x128 .f32) (ix2 p k) = (V c (Pipeline.arrRef spec6 0) : S100000x128.Idx → EReal) (ix2 r k) := by
  obtain ⟨e0, e1, -⟩ := idx6 t
  unfold iblk6
  rw [View.read_apply]
  have h : ((cfg6.win 0).blk t).view.emb (ix2 p k) = ix2 r k := by
    funext a; apply Fin.ext
    match a with
    | ⟨0, _⟩ => show win6_0.index t (0 : Fin 2) * 5000 + 1 * p.val = r.val; omega
    | ⟨1, _⟩ => show win6_0.index t (1 : Fin 2) * 128 + 1 * k.val = k.val; omega
  rw [h]
  rfl

/-- Row p of the second node array's block at point t is row 5000·t + p of the array. -/
theorem rd6_1 (c : Dev nD) (t : Fin cfg6.N) (p : Fin 5000) (k : Fin 128) (r : Fin 100000) (hr : r.val = t.val * 5000 + p.val) :
    (iblk6 V c 1 t : Vec Ideal S5000x128 .f32) (ix2 p k) = (V c (Pipeline.arrRef spec6 1) : S100000x128.Idx → EReal) (ix2 r k) := by
  obtain ⟨-, -, e0, e1, -⟩ := idx6 t
  unfold iblk6
  rw [View.read_apply]
  have h : ((cfg6.win 1).blk t).view.emb (ix2 p k) = ix2 r k := by
    funext a; apply Fin.ext
    match a with
    | ⟨0, _⟩ => show win6_1.index t (0 : Fin 2) * 5000 + 1 * p.val = r.val; omega
    | ⟨1, _⟩ => show win6_1.index t (1 : Fin 2) * 128 + 1 * k.val = k.val; omega
  rw [h]
  rfl

/-- The first weight matrix's block at every point is the matrix. -/
theorem rd6_2 (c : Dev nD) (t : Fin cfg6.N) (k q : Fin 128) :
    (iblk6 V c 2 t : Vec Ideal S128x128 .f32) (ix2 k q) = (V c (Pipeline.arrRef spec6 2) : S128x128.Idx → EReal) (ix2 k q) := by
  obtain ⟨-, -, -, -, e0, e1, -⟩ := idx6 t
  unfold iblk6
  rw [View.read_apply]
  have h : ((cfg6.win 2).blk t).view.emb (ix2 k q) = ix2 k q := by
    funext a; apply Fin.ext
    match a with
    | ⟨0, _⟩ => show win6_2.index t (0 : Fin 2) * 128 + 1 * k.val = k.val; omega
    | ⟨1, _⟩ => show win6_2.index t (1 : Fin 2) * 128 + 1 * q.val = q.val; omega
  rw [h]
  rfl

/-- The second weight matrix's block at every point is the matrix. -/
theorem rd6_3 (c : Dev nD) (t : Fin cfg6.N) (k q : Fin 128) :
    (iblk6 V c 3 t : Vec Ideal S128x128 .f32) (ix2 k q) = (V c (Pipeline.arrRef spec6 3) : S128x128.Idx → EReal) (ix2 k q) := by
  obtain ⟨-, -, -, -, -, -, e0, e1, -⟩ := idx6 t
  unfold iblk6
  rw [View.read_apply]
  have h : ((cfg6.win 3).blk t).view.emb (ix2 k q) = ix2 k q := by
    funext a; apply Fin.ext
    match a with
    | ⟨0, _⟩ => show win6_3.index t (0 : Fin 2) * 128 + 1 * k.val = k.val; omega
    | ⟨1, _⟩ => show win6_3.index t (1 : Fin 2) * 128 + 1 * q.val = q.val; omega
  rw [h]
  rfl

/-- The bias row's block at every point is the row. -/
theorem rd6_4 (c : Dev nD) (t : Fin cfg6.N) (q : Fin 128) :
    (iblk6 V c 4 t : Vec Ideal S1x128 .f32) (ix2 (0 : Fin 1) q) = (V c (Pipeline.arrRef spec6 4) : S1x128.Idx → EReal) (ix2 (0 : Fin 1) q) := by
  obtain ⟨-, -, -, -, -, -, -, -, e0, e1, -⟩ := idx6 t
  unfold iblk6
  rw [View.read_apply]
  have h : ((cfg6.win 4).blk t).view.emb (ix2 (0 : Fin 1) q) = ix2 (0 : Fin 1) q := by
    funext a; apply Fin.ext
    match a with
    | ⟨0, _⟩ => show win6_4.index t (0 : Fin 2) * 1 + 1 * (0 : Fin 1).val = (0 : Fin 1).val; omega
    | ⟨1, _⟩ => show win6_4.index t (1 : Fin 2) * 128 + 1 * q.val = q.val; omega
  rw [h]
  rfl

/-- Entry (p, q) of the output's block at point t is entry (5000·t + p, q) of the output array. -/
theorem emb6 (t : Fin cfg6.N) (p : Fin 5000) (q : Fin 128) (r : Fin 100000) (hr : r.val = t.val * 5000 + p.val) :
    ((cfg6.win 5).blk t).view.emb (ix2 p q) = ix2 r q := by
  obtain ⟨-, -, -, -, -, -, -, -, -, -, e0, e1⟩ := idx6 t
  funext a; apply Fin.ext
  match a with
  | ⟨0, _⟩ => show win6_5.index t (0 : Fin 2) * 5000 + 1 * p.val = r.val; omega
  | ⟨1, _⟩ => show win6_5.index t (1 : Fin 2) * 128 + 1 * q.val = q.val; omega

/-- Entry (p, q) of what point t's body stores is entry (5000·t + p, q) of lin of the five arrays as the region finds them. -/
theorem entry6 (c : Dev nD) (t : Fin cfg6.N) (p : Fin 5000) (q : Fin 128) (r : Fin 100000) (hr : r.val = t.val * 5000 + p.val) :
    k6_pay1 (F := Ideal) (iblk6 V c 0 t) (iblk6 V c 1 t) (iblk6 V c 2 t) (iblk6 V c 3 t) (iblk6 V c 4 t) (ix2 p q)
      = Cert.Spec.lin (V c (Pipeline.arrRef spec6 0)) (V c (Pipeline.arrRef spec6 1)) (V c (Pipeline.arrRef spec6 2))
          (V c (Pipeline.arrRef spec6 3)) (V c (Pipeline.arrRef spec6 4)) (ix2 r q) :=
  (pay6_at (iblk6 V c 0 t) (iblk6 V c 1 t) (iblk6 V c 2 t) (iblk6 V c 3 t) (iblk6 V c 4 t) p q).trans
    (sums_eq_lin (iblk6 V c 0 t) (iblk6 V c 1 t) (iblk6 V c 2 t) (iblk6 V c 3 t) (iblk6 V c 4 t)
      (V c (Pipeline.arrRef spec6 0)) (V c (Pipeline.arrRef spec6 1)) (V c (Pipeline.arrRef spec6 2))
      (V c (Pipeline.arrRef spec6 3)) (V c (Pipeline.arrRef spec6 4)) p q r
      (fun k => rd6_0 V c t p k r hr) (fun k => rd6_1 V c t p k r hr) (fun k => rd6_2 V c t k q) (fun k => rd6_3 V c t k q)
      (rd6_4 V c t q))

/-- What point t writes back is row block t of lin of the five arrays as the region finds them. -/
theorem flushed6 (c : Dev nD) (t : Fin cfg6.N) :
    (dat6 V c).flushed 5 t = ((cfg6.win 5).blk t).view.read (Elt Ideal)
      (Cert.Spec.lin (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero zeroOff]
  simp only [View.ld_unit_zero (S := S5000x128) zeroOff, View.ld_unit_zero (S := S128x128) zeroOff, View.ld_unit_zero (S := S1x128) zeroOff]
  have hN : cfg6.N = 20 := N_6
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  rw [View.read_apply, emb6 t p q ⟨t.val * 5000 + p.val, by omega⟩ rfl]
  exact entry6 V c t p q ⟨t.val * 5000 + p.val, by omega⟩ rfl

/-- An index of the output array is in point t's block iff each coordinate is in the block's range on its axis. -/
theorem mem_blk6 (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v106).slice (win6_5.rect t)).set ↔ _
  rw [View.set_slice_whole, Rect.mem_set_unit]
  exact Iff.rfl

/-- Row r of the output lies in the block of point r / 5000. -/
theorem cover6 (i : S100000x128.Idx) : ∃ t : Fin cfg6.N, (cfg6.win 5).flush t = true ∧ i ∈ ((cfg6.win 5).blk t).view.set := by
  have hN : cfg6.N = 20 := N_6
  have hi0 : (i 0).val < 100000 := (i 0).isLt
  have hi1 : (i 1).val < 128 := (i 1).isLt
  have hlt : (i 0).val / 5000 < cfg6.N := by rw [hN]; omega
  obtain ⟨-, -, -, -, -, -, -, -, -, -, e0, e1⟩ := idx6 ⟨(i 0).val / 5000, hlt⟩
  refine ⟨⟨(i 0).val / 5000, hlt⟩, flush6_5 _, ?_⟩
  rw [mem_blk6]
  intro a
  match a with
  | ⟨0, _⟩ =>
    show win6_5.index ⟨(i 0).val / 5000, hlt⟩ (0 : Fin 2) * 5000 ≤ (i 0).val ∧ (i 0).val < win6_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win6_5.index ⟨(i 0).val / 5000, hlt⟩ (1 : Fin 2) * 128 ≤ (i 1).val ∧ (i 1).val < win6_5.index ⟨(i 0).val / 5000, hlt⟩ (1 : Fin 2) * 128 + 128
    rw [e1]; omega

/-- THE ARRAY the region leaves: lin of the five arrays as the region finds them. -/
theorem final6 (c : Dev nD) :
    ((dat6 (F := Ideal) V c).arrAt 5 cfg6.N : Cert.Spec.Node) =
      Cert.Spec.lin (V c (Pipeline.arrRef spec6 0)) (V c (Pipeline.arrRef spec6 1)) (V c (Pipeline.arrRef spec6 2))
        (V c (Pipeline.arrRef spec6 3)) (V c (Pipeline.arrRef spec6 4)) :=
  (dat6 V c).arrAt_eq_of_cover 5 _ (fun t _ => flushed6 V c t) (cover6 ·)

end Cert.KernelIdeal.LinValue

end
-- ==== Proof.BnFinal7.lean ====
/-
  The batch-normalisation region 7, as whole arrays.

  The grid has 20 points; point t handles rows 5000·t … 5000·t + 4999 of the three row-blocked arrays (the affine
  layer's output, the running total, and the two results) and reads the four one-row statistics whole. So what
  point t writes back to each result is block t of one function of the arrays as the region finds them — the
  specification's `bnR`, and the total plus it — and the 20 blocks cover all 100000 rows.
-/
import proofs.«145014_j19963007992111_1_alg».proof.Proof.BnAt

noncomputable section

namespace Cert.KernelIdeal.BnValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index maps over the grid: the three row-blocked inputs and outputs sit at block (t, 0), the four
    statistics at block (0, 0). -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0
    ∧ win7_7.index t (0 : Fin 2) = t.val ∧ win7_7.index t (1 : Fin 2) = 0 :=
  (by decide +kernel : ∀ t : Fin grid7.N, _)

/-- Where point t's block of a row-blocked window places entry (p, q): row 5000·t + p, column q. -/
theorem emb6_7 (t : Fin cfg7.N) (p : Fin 5000) (q : Fin 128) :
    ∃ r : Fin 100000, (((cfg7.win 6).blk t).view.emb (ix2 p q) : S100000x128.Idx) = ix2 r q := by
  obtain ⟨-, -, -, -, -, -, -, -, -, -, -, -, e0, e1, -, -⟩ := idx_facts7 t
  have hN : grid7.N = 20 := N_7
  have ht : t.val < 20 := Nat.lt_of_lt_of_eq (show t.val < grid7.N from t.isLt) hN
  refine ⟨⟨t.val * 5000 + p.val, by have := p.isLt; omega⟩, ?_⟩
  funext a
  apply Fin.ext
  match a with
  | ⟨0, _⟩ => show win7_6.index t (0 : Fin 2) * 5000 + 1 * p.val = t.val * 5000 + p.val; rw [e0]; omega
  | ⟨1, _⟩ => show win7_6.index t (1 : Fin 2) * 128 + 1 * q.val = q.val; rw [e1]; omega

theorem emb7_7 (t : Fin cfg7.N) (p : Fin 5000) (q : Fin 128) :
    ∃ r : Fin 100000, (((cfg7.win 7).blk t).view.emb (ix2 p q) : S100000x128.Idx) = ix2 r q := by
  obtain ⟨-, -, -, -, -, -, -, -, -, -, -, -, -, -, e0, e1⟩ := idx_facts7 t
  have hN : grid7.N = 20 := N_7
  have ht : t.val < 20 := Nat.lt_of_lt_of_eq (show t.val < grid7.N from t.isLt) hN
  refine ⟨⟨t.val * 5000 + p.val, by have := p.isLt; omega⟩, ?_⟩
  funext a
  apply Fin.ext
  match a with
  | ⟨0, _⟩ => show win7_7.index t (0 : Fin 2) * 5000 + 1 * p.val = t.val * 5000 + p.val; rw [e0]; omega
  | ⟨1, _⟩ => show win7_7.index t (1 : Fin 2) * 128 + 1 * q.val = q.val; rw [e1]; omega

/-! ## The input blocks, read off the arrays -/

/-- The block of the affine layer's output at point t is that array read where either result's block sits. -/
theorem blk0_6_7 (c : Dev nD) (t : Fin cfg7.N) (y : S5000x128.Idx) :
    iblk7 V c 0 t y = V c (Pipeline.arrRef spec7 0) (((cfg7.win 6).blk t).view.emb y) := by
  obtain ⟨a0, a1, -, -, -, -, -, -, -, -, -, -, e0, e1, -, -⟩ := idx_facts7 t
  unfold iblk7
  rw [View.read_apply]
  refine congrArg (V c (Pipeline.arrRef spec7 0)) (funext fun a => Fin.ext ?_)
  match a with
  | ⟨0, _⟩ => show win7_0.index t (0 : Fin 2) * 5000 + 1 * (y 0).val = win7_6.index t (0 : Fin 2) * 5000 + 1 * (y 0).val; rw [a0, e0]
  | ⟨1, _⟩ => show win7_0.index t (1 : Fin 2) * 128 + 1 * (y 1).val = win7_6.index t (1 : Fin 2) * 128 + 1 * (y 1).val; rw [a1, e1]

theorem blk0_7_7 (c : Dev nD) (t : Fin cfg7.N) (y : S5000x128.Idx) :
    iblk7 V c 0 t y = V c (Pipeline.arrRef spec7 0) (((cfg7.win 7).blk t).view.emb y) := by
  obtain ⟨a0, a1, -, -, -, -, -, -, -, -, -, -, -, -, e0, e1⟩ := idx_facts7 t
  unfold iblk7
  rw [View.read_apply]
  refine congrArg (V c (Pipeline.arrRef spec7 0)) (funext fun a => Fin.ext ?_)
  match a with
  | ⟨0, _⟩ => show win7_0.index t (0 : Fin 2) * 5000 + 1 * (y 0).val = win7_7.index t (0 : Fin 2) * 5000 + 1 * (y 0).val; rw [a0, e0]
  | ⟨1, _⟩ => show win7_0.index t (1 : Fin 2) * 128 + 1 * (y 1).val = win7_7.index t (1 : Fin 2) * 128 + 1 * (y 1).val; rw [a1, e1]

/-- The block of the running total at point t is that array read where the second result's block sits. -/
theorem blk5_7_7 (c : Dev nD) (t : Fin cfg7.N) (y : S5000x128.Idx) :
    iblk7 V c 5 t y = V c (Pipeline.arrRef spec7 5) (((cfg7.win 7).blk t).view.emb y) := by
  obtain ⟨-, -, -, -, -, -, -, -, -, -, a0, a1, -, -, e0, e1⟩ := idx_facts7 t
  unfold iblk7
  rw [View.read_apply]
  refine congrArg (V c (Pipeline.arrRef spec7 5)) (funext fun a => Fin.ext ?_)
  match a with
  | ⟨0, _⟩ => show win7_5.index t (0 : Fin 2) * 5000 + 1 * (y 0).val = win7_7.index t (0 : Fin 2) * 5000 + 1 * (y 0).val; rw [a0, e0]
  | ⟨1, _⟩ => show win7_5.index t (1 : Fin 2) * 128 + 1 * (y 1).val = win7_7.index t (1 : Fin 2) * 128 + 1 * (y 1).val; rw [a1, e1]

/-- Each statistic's block at any point is the whole one-row array. -/
theorem blk1_7 (c : Dev nD) (t : Fin cfg7.N) (z : S1x128.Idx) :
    iblk7 V c 1 t z = V c (Pipeline.arrRef spec7 1) z := by
  obtain ⟨-, -, a0, a1, -, -, -, -, -, -, -, -, -, -, -, -⟩ := idx_facts7 t
  unfold iblk7
  rw [View.read_apply]
  refine congrArg (V c (Pipeline.arrRef spec7 1)) (funext fun a => Fin.ext ?_)
  match a with
  | ⟨0, _⟩ => show win7_1.index t (0 : Fin 2) * 1 + 1 * (z 0).val = (z 0).val; rw [a0]; omega
  | ⟨1, _⟩ => show win7_1.index t (1 : Fin 2) * 128 + 1 * (z 1).val = (z 1).val; rw [a1]; omega

theorem blk2_7 (c : Dev nD) (t : Fin cfg7.N) (z : S1x128.Idx) :
    iblk7 V c 2 t z = V c (Pipeline.arrRef spec7 2) z := by
  obtain ⟨-, -, -, -, a0, a1, -, -, -, -, -, -, -, -, -, -⟩ := idx_facts7 t
  unfold iblk7
  rw [View.read_apply]
  refine congrArg (V c (Pipeline.arrRef spec7 2)) (funext fun a => Fin.ext ?_)
  match a with
  | ⟨0, _⟩ => show win7_2.index t (0 : Fin 2) * 1 + 1 * (z 0).val = (z 0).val; rw [a0]; omega
  | ⟨1, _⟩ => show win7_2.index t (1 : Fin 2) * 128 + 1 * (z 1).val = (z 1).val; rw [a1]; omega

theorem blk3_7 (c : Dev nD) (t : Fin cfg7.N) (z : S1x128.Idx) :
    iblk7 V c 3 t z = V c (Pipeline.arrRef spec7 3) z := by
  obtain ⟨-, -, -, -, -, -, a0, a1, -, -, -, -, -, -, -, -⟩ := idx_facts7 t
  unfold iblk7
  rw [View.read_apply]
  refine congrArg (V c (Pipeline.arrRef spec7 3)) (funext fun a => Fin.ext ?_)
  match a with
  | ⟨0, _⟩ => show win7_3.index t (0 : Fin 2) * 1 + 1 * (z 0).val = (z 0).val; rw [a0]; omega
  | ⟨1, _⟩ => show win7_3.index t (1 : Fin 2) * 128 + 1 * (z 1).val = (z 1).val; rw [a1]; omega

theorem blk4_7 (c : Dev nD) (t : Fin cfg7.N) (z : S1x128.Idx) :
    iblk7 V c 4 t z = V c (Pipeline.arrRef spec7 4) z := by
  obtain ⟨-, -, -, -, -, -, -, -, a0, a1, -, -, -, -, -, -⟩ := idx_facts7 t
  unfold iblk7
  rw [View.read_apply]
  refine congrArg (V c (Pipeline.arrRef spec7 4)) (funext fun a => Fin.ext ?_)
  match a with
  | ⟨0, _⟩ => show win7_4.index t (0 : Fin 2) * 1 + 1 * (z 0).val = (z 0).val; rw [a0]; omega
  | ⟨1, _⟩ => show win7_4.index t (1 : Fin 2) * 128 + 1 * (z 1).val = (z 1).val; rw [a1]; omega

/-! ## What each point writes back -/

/-- A result's staging buffer is written back whole (no block overhangs the array), and a block of an array is the
    array read where the block sits. -/
theorem cut6_7 (t : Fin cfg7.N) (X : Vec Ideal S5000x128 .f32) (y : S5000x128.Idx) :
    (cfg7.win 6).cut (grid7.coords t) X y = X y := rfl
theorem read6_7 (t : Fin cfg7.N) (G : Cert.Spec.Node) (y : S5000x128.Idx) :
    ((cfg7.win 6).blk t).view.read (Elt Ideal) G y = G (((cfg7.win 6).blk t).view.emb y) := rfl
theorem cut7_7 (t : Fin cfg7.N) (X : Vec Ideal S5000x128 .f32) (y : S5000x128.Idx) :
    (cfg7.win 7).cut (grid7.coords t) X y = X y := rfl
theorem read7_7 (t : Fin cfg7.N) (G : Cert.Spec.Node) (y : S5000x128.Idx) :
    ((cfg7.win 7).blk t).view.read (Elt Ideal) G y = G (((cfg7.win 7).blk t).view.emb y) := rfl

/-- Point t writes back, to the first result, block t of the specification of the arrays at entry. -/
theorem flushed6_7 (c : Dev nD) (t : Fin cfg7.N) :
    (dat7 (F := Ideal) V c).flushed 6 t = ((cfg7.win 6).blk t).view.read (Elt Ideal)
      (Cert.Spec.bnR (V c (Pipeline.arrRef spec7 0)) (V c (Pipeline.arrRef spec7 1)) (V c (Pipeline.arrRef spec7 2))
        (V c (Pipeline.arrRef spec7 3)) (V c (Pipeline.arrRef spec7 4))) := by
  show (cfg7.win 6).cut (grid7.coords t) ((dat7 (F := Ideal) V c).after 6 t) = _
  rw [after7_6]
  unfold out7_6
  rw [pay1_7]
  rw [View.canon_unit_zero hz]
  simp only [View.ld_unit_zero (S := S5000x128) hz, View.ld_unit_zero (S := S1x128) hz]
  funext y
  rw [cut6_7, read6_7]
  exact pay1_block _ _ _ _ _ _ _ _ _ _ _ (emb6_7 t) (blk0_6_7 V c t) (blk1_7 V c t) (blk2_7 V c t) (blk3_7 V c t) (blk4_7 V c t) y

/-- Point t writes back, to the second result, block t of the total plus the specification. -/
theorem flushed7_7 (c : Dev nD) (t : Fin cfg7.N) :
    (dat7 (F := Ideal) V c).flushed 7 t = ((cfg7.win 7).blk t).view.read (Elt Ideal)
      (addf (V c (Pipeline.arrRef spec7 5) : Cert.Spec.Node)
        (Cert.Spec.bnR (V c (Pipeline.arrRef spec7 0)) (V c (Pipeline.arrRef spec7 1)) (V c (Pipeline.arrRef spec7 2))
          (V c (Pipeline.arrRef spec7 3)) (V c (Pipeline.arrRef spec7 4)))) := by
  show (cfg7.win 7).cut (grid7.coords t) ((dat7 (F := Ideal) V c).after 7 t) = _
  rw [after7_7]
  unfold out7_7
  rw [pay2_7]
  rw [View.canon_unit_zero hz]
  simp only [View.ld_unit_zero (S := S5000x128) hz, View.ld_unit_zero (S := S1x128) hz]
  funext y
  rw [cut7_7, read7_7]
  exact pay2_block _ _ _ _ _ _ _ _ _ _ _ _ _ (emb7_7 t) (blk0_7_7 V c t) (blk1_7 V c t) (blk2_7 V c t) (blk3_7 V c t) (blk4_7 V c t) (blk5_7_7 V c t) y

/-! ## The blocks cover the arrays -/

/-- An entry is in point t's block of a result iff its row and column are in the block's ranges. -/
theorem mem_blk6_7 (t : Fin cfg7.N) (i : S100000x128.Idx) :
    i ∈ ((cfg7.win 6).blk t).view.set ↔ ∀ a : Fin 2, win7_6.index t a * S5000x128.size a ≤ (i a).val ∧ (i a).val < win7_6.index t a * S5000x128.size a + S5000x128.size a := by
  show i ∈ ((View.whole main_v114_0).slice (win7_6.rect t)).set ↔ _
  rw [View.set_slice_whole, Rect.mem_set_unit]
  exact Iff.rfl

theorem mem_blk7_7 (t : Fin cfg7.N) (i : S100000x128.Idx) :
    i ∈ ((cfg7.win 7).blk t).view.set ↔ ∀ a : Fin 2, win7_7.index t a * S5000x128.size a ≤ (i a).val ∧ (i a).val < win7_7.index t a * S5000x128.size a + S5000x128.size a := by
  show i ∈ ((View.whole main_v114_1).slice (win7_7.rect t)).set ↔ _
  rw [View.set_slice_whole, Rect.mem_set_unit]
  exact Iff.rfl

/-- Row r lies in the block of point r / 5000. -/
theorem cover6_7 (i : S100000x128.Idx) :
    ∃ t : Fin cfg7.N, (cfg7.win 6).flush t = true ∧ i ∈ ((cfg7.win 6).blk t).view.set := by
  have hN : grid7.N = 20 := N_7
  have hi0 : (i 0).val < 100000 := (i 0).isLt
  have hi1 : (i 1).val < 128 := (i 1).isLt
  have ht : (i 0).val / 5000 < cfg7.N := by show _ < grid7.N; rw [hN]; omega
  obtain ⟨-, -, -, -, -, -, -, -, -, -, -, -, e0, e1, -, -⟩ := idx_facts7 ⟨(i 0).val / 5000, ht⟩
  refine ⟨⟨(i 0).val / 5000, ht⟩, flush7_6 _, ?_⟩
  rw [mem_blk6_7]
  intro a
  match a with
  | ⟨0, _⟩ => show win7_6.index ⟨(i 0).val / 5000, ht⟩ (0 : Fin 2) * 5000 ≤ (i 0).val ∧ (i 0).val < win7_6.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win7_6.index ⟨(i 0).val / 5000, ht⟩ (1 : Fin 2) * 128 ≤ (i 1).val ∧ (i 1).val < win7_6.index ⟨(i 0).val / 5000, ht⟩ (1 : Fin 2) * 128 + 128; rw [e1]; omega

theorem cover7_7 (i : S100000x128.Idx) :
    ∃ t : Fin cfg7.N, (cfg7.win 7).flush t = true ∧ i ∈ ((cfg7.win 7).blk t).view.set := by
  have hN : grid7.N = 20 := N_7
  have hi0 : (i 0).val < 100000 := (i 0).isLt
  have hi1 : (i 1).val < 128 := (i 1).isLt
  have ht : (i 0).val / 5000 < cfg7.N := by show _ < grid7.N; rw [hN]; omega
  obtain ⟨-, -, -, -, -, -, -, -, -, -, -, -, -, -, e0, e1⟩ := idx_facts7 ⟨(i 0).val / 5000, ht⟩
  refine ⟨⟨(i 0).val / 5000, ht⟩, flush7_7 _, ?_⟩
  rw [mem_blk7_7]
  intro a
  match a with
  | ⟨0, _⟩ => show win7_7.index ⟨(i 0).val / 5000, ht⟩ (0 : Fin 2) * 5000 ≤ (i 0).val ∧ (i 0).val < win7_7.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win7_7.index ⟨(i 0).val / 5000, ht⟩ (1 : Fin 2) * 128 ≤ (i 1).val ∧ (i 1).val < win7_7.index ⟨(i 0).val / 5000, ht⟩ (1 : Fin 2) * 128 + 128; rw [e1]; omega

/-! ## The arrays the region leaves -/

/-- The first result: the normalised, scaled, shifted and rectified array. -/
theorem final7_h (c : Dev nD) :
    ((dat7 (F := Ideal) V c).arrAt 6 cfg7.N : Cert.Spec.Node) =
      Cert.Spec.bnR (V c (Pipeline.arrRef spec7 0)) (V c (Pipeline.arrRef spec7 1)) (V c (Pipeline.arrRef spec7 2))
        (V c (Pipeline.arrRef spec7 3)) (V c (Pipeline.arrRef spec7 4)) :=
  (dat7 (F := Ideal) V c).arrAt_eq_of_cover 6 _ (fun t _ => flushed6_7 V c t) cover6_7

/-- The second result: the running total plus the first. -/
theorem final7_tot (c : Dev nD) :
    ((dat7 (F := Ideal) V c).arrAt 7 cfg7.N : Cert.Spec.Node) =
      addf (V c (Pipeline.arrRef spec7 5) : Cert.Spec.Node)
        (Cert.Spec.bnR (V c (Pipeline.arrRef spec7 0)) (V c (Pipeline.arrRef spec7 1)) (V c (Pipeline.arrRef spec7 2))
          (V c (Pipeline.arrRef spec7 3)) (V c (Pipeline.arrRef spec7 4))) :=
  (dat7 (F := Ideal) V c).arrAt_eq_of_cover 7 _ (fun t _ => flushed7_7 V c t) cover7_7

end Cert.KernelIdeal.BnValue

end
-- ==== Proof.KLayer3.lean ====
/-
  Layer 4 of the kernel's program, boundary by boundary: what the buffers hold when the layer's second region
  has finished, as functions of what they held when the layer was entered. The parameter slices, the neighbour
  sum of the previous output and the bias row come from the host operations before the layer's first region; that
  region's output array is the affine part; the statistics and the scale and shift rows come from the host
  operations after it; the second region's two output arrays are the layer's output and the running total plus it.
-/
import proofs.«145014_j19963007992111_1_alg».proof.Proof.Gen.KernelIdeal.Frame
import proofs.«145014_j19963007992111_1_alg».proof.Proof.KHost3
import proofs.«145014_j19963007992111_1_alg».proof.Proof.LinFinal6
import proofs.«145014_j19963007992111_1_alg».proof.Proof.BnFinal7

set_option maxRecDepth 16384

noncomputable section

namespace Cert.KernelIdeal.KChain

open Idealize.ShloMosaic Idealize.ShloMosaic.TcCoe Idealize.ShloMosaic.StableHlo Idealize.SL.Sem
open Cert.KernelIdeal Cert.KernelIdeal.Gen Cert.Spec Cert.KernelIdeal.KHost

variable (m : (ℓ : Loc nD τ sig) → Buf (Elt Ideal) ℓ) (ρ : Dev nD → PrngReg) (c : Dev nD)

set_option maxHeartbeats 2000000 in
/-- The affine part: the layer's first region's output array. -/
theorem L3_y : (W20 m ρ c (Proc.devRef .tc main_v106) : Node)
    = lin (agg (W18 m ρ c (Proc.devRef .tc main_v84_0)) (W18 m ρ c (Proc.devRef .tc main_v1)) (W18 m ρ c (Proc.devRef .tc main_v3))) (W18 m ρ c (Proc.devRef .tc main_v84_0)) (mat3 ![2, 0, 0] (by decide) (W18 m ρ c (Proc.devRef .tc main_arg7))) (mat3 ![2, 0, 0] (by decide) (W18 m ρ c (Proc.devRef .tc main_arg8))) (rs (vec3 ![2, 0] (by decide) (W18 m ρ c (Proc.devRef .tc main_arg9)))) := by
  have h := (W20_arr m ρ c 5).trans (LinValue.final6 (V19 m ρ) c)
  rw [show (V19 m ρ c (Pipeline.arrRef spec6 0) : Node) = _ from A3_agg (W18 m ρ c),
      show (V19 m ρ c (Pipeline.arrRef spec6 1) : Node) = _ from A3_keep_main_v84_0 (W18 m ρ c),
      show (V19 m ρ c (Pipeline.arrRef spec6 2) : Mat) = _ from A3_wrel (W18 m ρ c),
      show (V19 m ρ c (Pipeline.arrRef spec6 3) : Mat) = _ from A3_wroot (W18 m ρ c),
      show (V19 m ρ c (Pipeline.arrRef spec6 4) : Row) = _ from A3_bias (W18 m ρ c)] at h
  exact h

set_option maxHeartbeats 2000000 in
/-- The layer's output: the second region's first output array. -/
theorem L3_h : (W24 m ρ c (Proc.devRef .tc main_v114_0) : Node) = klayer (W18 m ρ c (Proc.devRef .tc main_v84_0)) (W18 m ρ c (Proc.devRef .tc main_v1)) (W18 m ρ c (Proc.devRef .tc main_v3)) (mat3 ![2, 0, 0] (by decide) (W18 m ρ c (Proc.devRef .tc main_arg7))) (mat3 ![2, 0, 0] (by decide) (W18 m ρ c (Proc.devRef .tc main_arg8))) (vec3 ![2, 0] (by decide) (W18 m ρ c (Proc.devRef .tc main_arg9))) (vec3 ![2, 0] (by decide) (W18 m ρ c (Proc.devRef .tc main_arg10))) (vec3 ![2, 0] (by decide) (W18 m ρ c (Proc.devRef .tc main_arg11))) := by
  have h := (W24_arr m ρ c 6).trans (BnValue.final7_h (V23 m ρ) c)
  rw [show (V23 m ρ c (Pipeline.arrRef spec7 0) : Node) = _ from B3_keep_main_v106 (W20 m ρ c),
      show (V23 m ρ c (Pipeline.arrRef spec7 1) : Row) = _ from B3_mean (W20 m ρ c),
      show (V23 m ρ c (Pipeline.arrRef spec7 2) : Row) = _ from B3_var (W20 m ρ c),
      show (V23 m ρ c (Pipeline.arrRef spec7 3) : Row) = _ from B3_gamma (W20 m ρ c),
      show (V23 m ρ c (Pipeline.arrRef spec7 4) : Row) = _ from B3_beta (W20 m ρ c)] at h
  rw [L3_y m ρ c,
      show (W20 m ρ c (Proc.devRef .tc main_v92) : Lane) = _ from (W20_of_ne m ρ c main_v92 (by decide)).trans (A3_gamma (W18 m ρ c)),
      show (W20 m ρ c (Proc.devRef .tc main_v94) : Lane) = _ from (W20_of_ne m ρ c main_v94 (by decide)).trans (A3_beta (W18 m ρ c))] at h
  exact h

set_option maxHeartbeats 2000000 in
/-- The running total after the layer: the second region's second output array, the total so far plus the output. -/
theorem L3_tot : (W24 m ρ c (Proc.devRef .tc main_v114_1) : Node) = addf (W18 m ρ c (Proc.devRef .tc main_v84_1)) (klayer (W18 m ρ c (Proc.devRef .tc main_v84_0)) (W18 m ρ c (Proc.devRef .tc main_v1)) (W18 m ρ c (Proc.devRef .tc main_v3)) (mat3 ![2, 0, 0] (by decide) (W18 m ρ c (Proc.devRef .tc main_arg7))) (mat3 ![2, 0, 0] (by decide) (W18 m ρ c (Proc.devRef .tc main_arg8))) (vec3 ![2, 0] (by decide) (W18 m ρ c (Proc.devRef .tc main_arg9))) (vec3 ![2, 0] (by decide) (W18 m ρ c (Proc.devRef .tc main_arg10))) (vec3 ![2, 0] (by decide) (W18 m ρ c (Proc.devRef .tc main_arg11)))) := by
  have h := (W24_arr m ρ c 7).trans (BnValue.final7_tot (V23 m ρ) c)
  rw [show (V23 m ρ c (Pipeline.arrRef spec7 5) : Node) = _ from (B3_keep_main_v84_1 (W20 m ρ c)).trans ((W20_of_ne m ρ c main_v84_1 (by decide)).trans (A3_keep_main_v84_1 (W18 m ρ c)))] at h
  rw [show (V23 m ρ c (Pipeline.arrRef spec7 0) : Node) = _ from B3_keep_main_v106 (W20 m ρ c),
      show (V23 m ρ c (Pipeline.arrRef spec7 1) : Row) = _ from B3_mean (W20 m ρ c),
      show (V23 m ρ c (Pipeline.arrRef spec7 2) : Row) = _ from B3_var (W20 m ρ c),
      show (V23 m ρ c (Pipeline.arrRef spec7 3) : Row) = _ from B3_gamma (W20 m ρ c),
      show (V23 m ρ c (Pipeline.arrRef spec7 4) : Row) = _ from B3_beta (W20 m ρ c)] at h
  rw [L3_y m ρ c,
      show (W20 m ρ c (Proc.devRef .tc main_v92) : Lane) = _ from (W20_of_ne m ρ c main_v92 (by decide)).trans (A3_gamma (W18 m ρ c)),
      show (W20 m ρ c (Proc.devRef .tc main_v94) : Lane) = _ from (W20_of_ne m ρ c main_v94 (by decide)).trans (A3_beta (W18 m ρ c))] at h
  exact h

/-- What is carried past the layer: the edge list's two rows and the stacked parameters. -/
theorem L3_src : W24 m ρ c (Proc.devRef .tc main_v1) = W18 m ρ c (Proc.devRef .tc main_v1) :=
  (W24_of_ne m ρ c main_v1 (by decide)).trans ((B3_keep_main_v1 (W20 m ρ c)).trans ((W20_of_ne m ρ c main_v1 (by decide)).trans (A3_keep_main_v1 (W18 m ρ c))))
theorem L3_dst : W24 m ρ c (Proc.devRef .tc main_v3) = W18 m ρ c (Proc.devRef .tc main_v3) :=
  (W24_of_ne m ρ c main_v3 (by decide)).trans ((B3_keep_main_v3 (W20 m ρ c)).trans ((W20_of_ne m ρ c main_v3 (by decide)).trans (A3_keep_main_v3 (W18 m ρ c))))
theorem L3_arg7 : W24 m ρ c (Proc.devRef .tc main_arg7) = W18 m ρ c (Proc.devRef .tc main_arg7) :=
  (W24_of_ne m ρ c main_arg7 (by decide)).trans ((B3_keep_main_arg7 (W20 m ρ c)).trans ((W20_of_ne m ρ c main_arg7 (by decide)).trans (A3_keep_main_arg7 (W18 m ρ c))))
theorem L3_arg8 : W24 m ρ c (Proc.devRef .tc main_arg8) = W18 m ρ c (Proc.devRef .tc main_arg8) :=
  (W24_of_ne m ρ c main_arg8 (by decide)).trans ((B3_keep_main_arg8 (W20 m ρ c)).trans ((W20_of_ne m ρ c main_arg8 (by decide)).trans (A3_keep_main_arg8 (W18 m ρ c))))
theorem L3_arg9 : W24 m ρ c (Proc.devRef .tc main_arg9) = W18 m ρ c (Proc.devRef .tc main_arg9) :=
  (W24_of_ne m ρ c main_arg9 (by decide)).trans ((B3_keep_main_arg9 (W20 m ρ c)).trans ((W20_of_ne m ρ c main_arg9 (by decide)).trans (A3_keep_main_arg9 (W18 m ρ c))))
theorem L3_arg10 : W24 m ρ c (Proc.devRef .tc main_arg10) = W18 m ρ c (Proc.devRef .tc main_arg10) :=
  (W24_of_ne m ρ c main_arg10 (by decide)).trans ((B3_keep_main_arg10 (W20 m ρ c)).trans ((W20_of_ne m ρ c main_arg10 (by decide)).trans (A3_keep_main_arg10 (W18 m ρ c))))
theorem L3_arg11 : W24 m ρ c (Proc.devRef .tc main_arg11) = W18 m ρ c (Proc.devRef .tc main_arg11) :=
  (W24_of_ne m ρ c main_arg11 (by decide)).trans ((B3_keep_main_arg11 (W20 m ρ c)).trans ((W20_of_ne m ρ c main_arg11 (by decide)).trans (A3_keep_main_arg11 (W18 m ρ c))))

end Cert.KernelIdeal.KChain

end
-- ==== Proof.Bridge.lean ====
/-
  The layer as the kernel's program computes it is the layer as the reference spells it.
  The two differ only in where a feature vector becomes a one-row matrix: the kernel's host side keeps the column
  statistics as [1, D] matrices from the start (mean2, var2) and recasts bias, scale and shift ([D] → [1, D]),
  the reference computes everything on [D] vectors and turns each into a row at the last moment. Every operation
  involved (division by a constant, adding ε, the reciprocal square root, the guard's selection) acts entry by
  entry, and entry (0, j) of a vector taken as a row is its entry j, so the two agree entry by entry.
  Also: adding an array to the all-zero array returns it (0 + x = x holds for every extended real).
-/
import proofs.«145014_j19963007992111_1_alg».proof.Proof.Spec
import Idealize.ShloMosaic.Lib.ValueIdx
import Idealize.ShloMosaic.Lib.ValueLayout
import Idealize.ShloMosaic.PureOps.Ideal.Laws

noncomputable section

namespace Cert.Spec

open Idealize.ShloMosaic Idealize.ShloMosaic.ValueIdx Cert.ReferenceIdeal Cert.ReferenceIdeal.Facts₀

/-- A scalar broadcast reads the scalar's one entry, whatever the index (at the three shapes used). -/
theorem bc128 {α : Type} (y : S_.Idx → α) (k : S128.Idx) : broadcastInDim S128 ![] bcast_S_S128 y k = y ix0 :=
  congrArg y (funext fun a => a.elim0)
theorem bc1x128 {α : Type} (y : S_.Idx → α) (j : S1x128.Idx) : broadcastInDim S1x128 ![] bcast_S_S1x128 y j = y ix0 :=
  congrArg y (funext fun a => a.elim0)
theorem bcNode {α : Type} (y : S_.Idx → α) (i : S100000x128.Idx) :
    broadcastInDim S100000x128 ![] bcast_S_S100000x128 y i = y ix0 :=
  congrArg y (funext fun a => a.elim0)

/-- Entry (p, q) of a vector taken as a row is its entry q. -/
theorem row_apply (v : Lane) (p : Fin 1) (q : Fin 128) : row v (ix2 p q) = v (ix1 q) := by
  unfold row broadcastInDim
  refine congrArg v (funext fun a => ?_)
  match a with
  | ⟨0, _⟩ => rfl

/-- Entry (p, q) of a vector recast as a one-row matrix is its entry q. -/
theorem rs_apply (v : Lane) (p : Fin 1) (q : Fin 128) : rs v (ix2 p q) = v (ix1 q) :=
  shapeCast_a_1a_apply v _ p q

/-- Recasting a vector as a one-row matrix and taking it as a row are the same matrix. -/
theorem rs_eq_row (v : Lane) : rs v = row v := by
  funext j
  obtain ⟨p, q, rfl⟩ : ∃ (p : Fin 1) (q : Fin 128), j = ix2 p q := ⟨j 0, j 1, eq_ix2 j⟩
  exact (rs_apply v p q).trans (row_apply v p q).symm

/-- The column means as a row are the row of column means. -/
theorem row_mean (x : Node) : row (mean x) = mean2 x := by
  funext j
  obtain ⟨p, q, rfl⟩ : ∃ (p : Fin 1) (q : Fin 128), j = ix2 p q := ⟨j 0, j 1, eq_ix2 j⟩
  rw [row_apply]
  simp only [mean, mean2, Host.divf, row_apply]
  rfl

/-- The guarded column variances, entry by entry. -/
theorem var_apply (x : Node) (p : Fin 1) (q : Fin 128) : var x (ix1 q) = var2 x (ix2 p q) := by
  simp only [var, var2, select_apply, Host.divf, row_apply]
  rfl

/-- The reciprocal standard deviations as a row are the reciprocal standard deviations of the row of variances. -/
theorem row_rstd (x : Node) :
    row (Host.rsqrt (addf (var x) (broadcastInDim S128 ![] bcast_S_S128 (constant (F := Ideal) S_ .f32 0x3727C5AC#32))))
      = Host.rsqrt (addf (var2 x) (broadcastInDim S1x128 ![] bcast_S_S1x128 (constant (F := Ideal) S_ .f32 0x3727C5AC#32))) := by
  funext j
  obtain ⟨p, q, rfl⟩ : ∃ (p : Fin 1) (q : Fin 128), j = ix2 p q := ⟨j 0, j 1, eq_ix2 j⟩
  rw [row_apply]
  simp only [Host.rsqrt, addf, var_apply x p q]
  rfl

/-- The layer as the kernel's program computes it is the layer as the reference spells it. -/
theorem klayer_eq (h : Node) (s d : Edge) (wr wo : Mat) (b g be : Lane) :
    klayer h s d wr wo b g be = layer h s d wr wo b g be := by
  unfold klayer layer bnR bnRef
  beta_reduce
  rw [rs_eq_row b, rs_eq_row g, rs_eq_row be, ← row_mean, ← row_rstd]

/-- Adding an array to the all-zero array returns it. -/
theorem zeros_add (x : Node) : addf zeros x = x := by
  funext i
  show (Ideal.ofBits .f32 0x00000000#32 : EReal) + x i = x i
  rw [Ideal.ofBits_zero_f32, zero_add]

end Cert.Spec

end
-- ==== Proof.SpecOut.lean ====
/-
  The whole network: four layers in sequence over one edge list, the first with its own parameters, the next three
  with slices 0, 1, 2 of the stacked parameters; the result is the sum of the four layers' outputs, added in order.
-/
import proofs.«145014_j19963007992111_1_alg».proof.Proof.Spec

noncomputable section

namespace Cert.Spec

open Idealize.ShloMosaic Cert.ReferenceIdeal Cert.ReferenceIdeal.Facts₀

/-- The stacked parameters' types. -/
abbrev Mat3 := FVec Ideal S3x128x128 .f32
abbrev Lane3 := FVec Ideal S3x128 .f32
abbrev Edges := IVec S2x1600000 32

/-- Layer k + 1 (k = 0, 1, 2) from the previous layer's output: slice k of each stacked parameter. -/
def mid0 (h : Node) (s d : Edge) (w7 w8 : Mat3) (b9 g10 be11 : Lane3) : Node :=
  layer h s d (mat3 ![0, 0, 0] slices_S3x128x128_S1x128x128_0_0_0 w7) (mat3 ![0, 0, 0] slices_S3x128x128_S1x128x128_0_0_0 w8)
    (vec3 ![0, 0] slices_S3x128_S1x128_0_0 b9) (vec3 ![0, 0] slices_S3x128_S1x128_0_0 g10) (vec3 ![0, 0] slices_S3x128_S1x128_0_0 be11)
def mid1 (h : Node) (s d : Edge) (w7 w8 : Mat3) (b9 g10 be11 : Lane3) : Node :=
  layer h s d (mat3 ![1, 0, 0] slices_S3x128x128_S1x128x128_1_0_0 w7) (mat3 ![1, 0, 0] slices_S3x128x128_S1x128x128_1_0_0 w8)
    (vec3 ![1, 0] slices_S3x128_S1x128_1_0 b9) (vec3 ![1, 0] slices_S3x128_S1x128_1_0 g10) (vec3 ![1, 0] slices_S3x128_S1x128_1_0 be11)
def mid2 (h : Node) (s d : Edge) (w7 w8 : Mat3) (b9 g10 be11 : Lane3) : Node :=
  layer h s d (mat3 ![2, 0, 0] slices_S3x128x128_S1x128x128_2_0_0 w7) (mat3 ![2, 0, 0] slices_S3x128x128_S1x128x128_2_0_0 w8)
    (vec3 ![2, 0] slices_S3x128_S1x128_2_0 b9) (vec3 ![2, 0] slices_S3x128_S1x128_2_0 g10) (vec3 ![2, 0] slices_S3x128_S1x128_2_0 be11)

/-- The four layers' outputs. -/
def h0 (x : Node) (e : Edges) (w2 w3 : Mat) (b4 g5 be6 : Lane) : Node :=
  layer x (src e) (dst e) w2 w3 b4 g5 be6
def h1 (x : Node) (e : Edges) (w2 w3 : Mat) (b4 g5 be6 : Lane) (w7 w8 : Mat3) (b9 g10 be11 : Lane3) : Node :=
  mid0 (h0 x e w2 w3 b4 g5 be6) (src e) (dst e) w7 w8 b9 g10 be11
def h2 (x : Node) (e : Edges) (w2 w3 : Mat) (b4 g5 be6 : Lane) (w7 w8 : Mat3) (b9 g10 be11 : Lane3) : Node :=
  mid1 (h1 x e w2 w3 b4 g5 be6 w7 w8 b9 g10 be11) (src e) (dst e) w7 w8 b9 g10 be11
def h3 (x : Node) (e : Edges) (w2 w3 : Mat) (b4 g5 be6 : Lane) (w7 w8 : Mat3) (b9 g10 be11 : Lane3) : Node :=
  mid2 (h2 x e w2 w3 b4 g5 be6 w7 w8 b9 g10 be11) (src e) (dst e) w7 w8 b9 g10 be11

/-- The network's result: the four outputs summed, in order. -/
def out (x : Node) (e : Edges) (w2 w3 : Mat) (b4 g5 be6 : Lane) (w7 w8 : Mat3) (b9 g10 be11 : Lane3) : Node :=
  addf (addf (addf (h0 x e w2 w3 b4 g5 be6) (h1 x e w2 w3 b4 g5 be6 w7 w8 b9 g10 be11))
             (h2 x e w2 w3 b4 g5 be6 w7 w8 b9 g10 be11))
       (h3 x e w2 w3 b4 g5 be6 w7 w8 b9 g10 be11)

end Cert.Spec

end
-- ==== Proof.KFinal.lean ====
/-
  The kernel's program computes the network: its result buffer, at the last boundary, holds the sum of the four
  layers' outputs as functions of the launch contents. Layer by layer: the layer as the kernel's program computes
  it is the layer as specified (the one-row statistics against the vector statistics), each layer's inputs are
  the previous layer's output and the carried edge rows and parameters, and the running total starts at 0 + the
  first output, which is that output.
-/
import proofs.«145014_j19963007992111_1_alg».proof.Proof.KLayer0
import proofs.«145014_j19963007992111_1_alg».proof.Proof.KLayer1
import proofs.«145014_j19963007992111_1_alg».proof.Proof.KLayer2
import proofs.«145014_j19963007992111_1_alg».proof.Proof.KLayer3
import proofs.«145014_j19963007992111_1_alg».proof.Proof.Bridge
import proofs.«145014_j19963007992111_1_alg».proof.Proof.SpecOut

set_option maxRecDepth 16384

noncomputable section

namespace Cert.KernelIdeal.KChain

open Idealize.ShloMosaic Idealize.ShloMosaic.TcCoe Idealize.ShloMosaic.StableHlo Idealize.SL.Sem
open Cert.KernelIdeal Cert.KernelIdeal.Gen Cert.Spec Cert.KernelIdeal.KHost

variable (m : (ℓ : Loc nD τ sig) → Buf (Elt Ideal) ℓ) (ρ : Dev nD → PrngReg) (c : Dev nD)

/-- The carried buffers at each layer's entry. -/
theorem C6_src : (W6 m ρ c (Proc.devRef .tc main_v1) : Edge) = src (W0 m ρ c (Proc.devRef .tc main_arg1)) := L0_src m ρ c
theorem C12_src : (W12 m ρ c (Proc.devRef .tc main_v1) : Edge) = src (W0 m ρ c (Proc.devRef .tc main_arg1)) := (L1_src m ρ c).trans (C6_src m ρ c)
theorem C18_src : (W18 m ρ c (Proc.devRef .tc main_v1) : Edge) = src (W0 m ρ c (Proc.devRef .tc main_arg1)) := (L2_src m ρ c).trans (C12_src m ρ c)
theorem C6_dst : (W6 m ρ c (Proc.devRef .tc main_v3) : Edge) = dst (W0 m ρ c (Proc.devRef .tc main_arg1)) := L0_dst m ρ c
theorem C12_dst : (W12 m ρ c (Proc.devRef .tc main_v3) : Edge) = dst (W0 m ρ c (Proc.devRef .tc main_arg1)) := (L1_dst m ρ c).trans (C6_dst m ρ c)
theorem C18_dst : (W18 m ρ c (Proc.devRef .tc main_v3) : Edge) = dst (W0 m ρ c (Proc.devRef .tc main_arg1)) := (L2_dst m ρ c).trans (C12_dst m ρ c)
theorem C6_arg7 : (W6 m ρ c (Proc.devRef .tc main_arg7) : Mat3) = (W0 m ρ c (Proc.devRef .tc main_arg7)) := L0_arg7 m ρ c
theorem C12_arg7 : (W12 m ρ c (Proc.devRef .tc main_arg7) : Mat3) = (W0 m ρ c (Proc.devRef .tc main_arg7)) := (L1_arg7 m ρ c).trans (C6_arg7 m ρ c)
theorem C18_arg7 : (W18 m ρ c (Proc.devRef .tc main_arg7) : Mat3) = (W0 m ρ c (Proc.devRef .tc main_arg7)) := (L2_arg7 m ρ c).trans (C12_arg7 m ρ c)
theorem C6_arg8 : (W6 m ρ c (Proc.devRef .tc main_arg8) : Mat3) = (W0 m ρ c (Proc.devRef .tc main_arg8)) := L0_arg8 m ρ c
theorem C12_arg8 : (W12 m ρ c (Proc.devRef .tc main_arg8) : Mat3) = (W0 m ρ c (Proc.devRef .tc main_arg8)) := (L1_arg8 m ρ c).trans (C6_arg8 m ρ c)
theorem C18_arg8 : (W18 m ρ c (Proc.devRef .tc main_arg8) : Mat3) = (W0 m ρ c (Proc.devRef .tc main_arg8)) := (L2_arg8 m ρ c).trans (C12_arg8 m ρ c)
theorem C6_arg9 : (W6 m ρ c (Proc.devRef .tc main_arg9) : Lane3) = (W0 m ρ c (Proc.devRef .tc main_arg9)) := L0_arg9 m ρ c
theorem C12_arg9 : (W12 m ρ c (Proc.devRef .tc main_arg9) : Lane3) = (W0 m ρ c (Proc.devRef .tc main_arg9)) := (L1_arg9 m ρ c).trans (C6_arg9 m ρ c)
theorem C18_arg9 : (W18 m ρ c (Proc.devRef .tc main_arg9) : Lane3) = (W0 m ρ c (Proc.devRef .tc main_arg9)) := (L2_arg9 m ρ c).trans (C12_arg9 m ρ c)
theorem C6_arg10 : (W6 m ρ c (Proc.devRef .tc main_arg10) : Lane3) = (W0 m ρ c (Proc.devRef .tc main_arg10)) := L0_arg10 m ρ c
theorem C12_arg10 : (W12 m ρ c (Proc.devRef .tc main_arg10) : Lane3) = (W0 m ρ c (Proc.devRef .tc main_arg10)) := (L1_arg10 m ρ c).trans (C6_arg10 m ρ c)
theorem C18_arg10 : (W18 m ρ c (Proc.devRef .tc main_arg10) : Lane3) = (W0 m ρ c (Proc.devRef .tc main_arg10)) := (L2_arg10 m ρ c).trans (C12_arg10 m ρ c)
theorem C6_arg11 : (W6 m ρ c (Proc.devRef .tc main_arg11) : Lane3) = (W0 m ρ c (Proc.devRef .tc main_arg11)) := L0_arg11 m ρ c
theorem C12_arg11 : (W12 m ρ c (Proc.devRef .tc main_arg11) : Lane3) = (W0 m ρ c (Proc.devRef .tc main_arg11)) := (L1_arg11 m ρ c).trans (C6_arg11 m ρ c)
theorem C18_arg11 : (W18 m ρ c (Proc.devRef .tc main_arg11) : Lane3) = (W0 m ρ c (Proc.devRef .tc main_arg11)) := (L2_arg11 m ρ c).trans (C12_arg11 m ρ c)

/-- The first layer's output and the total after it. -/
theorem H0 : (W6 m ρ c (Proc.devRef .tc main_v24_0) : Node) = h0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) :=
  (L0_h m ρ c).trans (klayer_eq _ _ _ _ _ _ _ _)
theorem T0 : (W6 m ρ c (Proc.devRef .tc main_v24_1) : Node) = h0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) := by
  rw [L0_tot m ρ c, klayer_eq]; exact zeros_add _

/-- The second layer's output and the total after it. -/
theorem H1 : (W12 m ρ c (Proc.devRef .tc main_v54_0) : Node) = h1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) := by
  rw [L1_h m ρ c, H0 m ρ c, C6_src m ρ c, C6_dst m ρ c, C6_arg7 m ρ c, C6_arg8 m ρ c, C6_arg9 m ρ c, C6_arg10 m ρ c, C6_arg11 m ρ c, klayer_eq]; rfl
theorem T1 : (W12 m ρ c (Proc.devRef .tc main_v54_1) : Node) = addf (h0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6))) (h1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))) := by
  rw [L1_tot m ρ c, T0 m ρ c, H0 m ρ c, C6_src m ρ c, C6_dst m ρ c, C6_arg7 m ρ c, C6_arg8 m ρ c, C6_arg9 m ρ c, C6_arg10 m ρ c, C6_arg11 m ρ c, klayer_eq]; rfl

/-- The third layer's output and the total after it. -/
theorem H2 : (W18 m ρ c (Proc.devRef .tc main_v84_0) : Node) = h2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) := by
  rw [L2_h m ρ c, H1 m ρ c, C12_src m ρ c, C12_dst m ρ c, C12_arg7 m ρ c, C12_arg8 m ρ c, C12_arg9 m ρ c, C12_arg10 m ρ c, C12_arg11 m ρ c, klayer_eq]; rfl
theorem T2 : (W18 m ρ c (Proc.devRef .tc main_v84_1) : Node) = addf (addf (h0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6))) (h1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)))) (h2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))) := by
  rw [L2_tot m ρ c, T1 m ρ c, H1 m ρ c, C12_src m ρ c, C12_dst m ρ c, C12_arg7 m ρ c, C12_arg8 m ρ c, C12_arg9 m ρ c, C12_arg10 m ρ c, C12_arg11 m ρ c, klayer_eq]; rfl

/-- The result buffer at the last boundary: the sum of the four outputs. -/
theorem result : (W24 m ρ c (Proc.devRef .tc main_v114_1) : Node) = out (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) := by
  rw [L3_tot m ρ c, T2 m ρ c, H2 m ρ c, C18_src m ρ c, C18_dst m ρ c, C18_arg7 m ρ c, C18_arg8 m ρ c, C18_arg9 m ρ c, C18_arg10 m ρ c, C18_arg11 m ρ c, klayer_eq]; rfl

end Cert.KernelIdeal.KChain

end
-- ==== Proof.RefOps.lean ====
/-
  The reference program's @main read as a straight line, and its run.

  @main is 209 statements and a return, printed in four windows; eight of the statements call a module-local
  function (the variance routine, which itself calls the guarded select, four times; the rectifier four times).
  A call executes the callee's body on the operands, each value of the body in a buffer of its own, so @main is
  one list of 301 host operations: every call replaced by the callee's operations over the call's operands and
  the call's own buffers. The list is cut where the network's layers end — after the first rectifier's result
  and after each residual sum — into `ops0 … ops3`.

  `main_eq`: @main is `seq` of that list (window by window, the windows joined by `seq_append`).
  `run`: every weakly fair execution of @main terminates with each TensorCore buffer at the fold of the
  operations' results over the launch contents (`StableHlo.run_seq`).
-/
import proofs.«145014_j19963007992111_1_alg».proof.Proof.Gen.ReferenceIdeal
import Idealize.ShloMosaic.Lib.StableHlo.Run
import Idealize.ShloMosaic.Lib.Pipeline.Frame

-- a list of eighty operations is eighty nested applications of `List.cons`, and the windows' chains of binds unfold
-- one level per statement
set_option maxRecDepth 8192

noncomputable section

namespace Cert.ReferenceIdeal.RefRun

open Cert.ReferenceIdeal Cert.ReferenceIdeal.Facts₀
open Idealize.ShloMosaic Idealize.ShloMosaic.TcCoe Idealize.SL.Sem

variable {F : FTy → Type} [FloatOps F]

/-- The input layer's operations, in order (70): the two edge lists, the gather along the sources and the scatter-add along the destinations, the two products and the bias, the batch mean and variance, the normalization and the rectifier, ending with the write of `main_v39`. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v13 main_arg2 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_arg0 main_arg3 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v14 main_v15 main_v16 (addf : (⟨S100000x128, .f32⟩ : BufTy).Contents (Elt F) → (⟨S100000x128, .f32⟩ : BufTy).Contents (Elt F) → (⟨S100000x128, .f32⟩ : BufTy).Contents (Elt F)),
    StableHlo.unary main_arg4 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v18 main_v19 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v19 main_cst_1 main_v20 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v21 (broadcastInDim S128 ![] bcast_S_S128 : (⟨S_, .f32⟩ : BufTy).Contents (Elt F) → (⟨S128, .f32⟩ : BufTy).Contents (Elt F)),
    StableHlo.binary main_v20 main_v21 main_v22 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary (.of main_call0_cst : StableHlo.TRef sig ⟨S_, .f32⟩) (constant S_ .f32 0x00000000#32),
    StableHlo.TRef.binary (.of main_v19 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v19 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c_3 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v23 : StableHlo.TRef sig ⟨S128, .f32⟩) (fun p a b => select (broadcastInDim S128 ![] bcast_S_S128 p) a b),
    StableHlo.unary main_v22 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v25 main_v26 (subf : (⟨S100000x128, .f32⟩ : BufTy).Contents (Elt F) → (⟨S100000x128, .f32⟩ : BufTy).Contents (Elt F) → (⟨S100000x128, .f32⟩ : BufTy).Contents (Elt F)),
    StableHlo.unary main_arg5 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v26 main_v29 (mulf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v30 (broadcastInDim S128 ![] bcast_S_S128 : (⟨S_, .f32⟩ : BufTy).Contents (Elt F) → (⟨S128, .f32⟩ : BufTy).Contents (Elt F)),
    StableHlo.binary main_v23 main_v30 main_v31 (addf : (⟨S128, .f32⟩ : BufTy).Contents (Elt F) → (⟨S128, .f32⟩ : BufTy).Contents (Elt F) → (⟨S128, .f32⟩ : BufTy).Contents (Elt F)),
    StableHlo.unary main_v31 main_v32 (Host.rsqrt : (⟨S128, .f32⟩ : BufTy).Contents (Elt F) → (⟨S128, .f32⟩ : BufTy).Contents (Elt F)),
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v34 main_v35 (mulf : (⟨S100000x128, .f32⟩ : BufTy).Contents (Elt F) → (⟨S100000x128, .f32⟩ : BufTy).Contents (Elt F) → (⟨S100000x128, .f32⟩ : BufTy).Contents (Elt F)),
    StableHlo.unary main_arg6 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v37 main_v38 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v38 : StableHlo.TRef sig ⟨S100000x128, .f32⟩) (.of main_call1_v0 : StableHlo.TRef sig ⟨S100000x128, .f32⟩) (.of main_v39 : StableHlo.TRef sig ⟨S100000x128, .f32⟩) maximumf ]

/-- Each operation of `ops0` touches TensorCore references only. -/
theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.unary_bufs_sub .., StableHlo.ternary_bufs_sub .., StableHlo.binary_bufs_sub ..,
    StableHlo.binary_bufs_sub .., StableHlo.binary_bufs_sub .., StableHlo.unary_bufs_sub .., StableHlo.unary_bufs_sub .., StableHlo.binary_bufs_sub .., StableHlo.nullary_bufs_sub ..,
    StableHlo.binary_bufs_sub .., StableHlo.nullary_bufs_sub .., StableHlo.unary_bufs_sub .., StableHlo.binary_bufs_sub .., StableHlo.nullary_bufs_sub .., StableHlo.nullary_bufs_sub ..,
    StableHlo.binary_bufs_sub .., StableHlo.unary_bufs_sub .., StableHlo.nullary_bufs_sub .., StableHlo.unary_bufs_sub .., StableHlo.binary_bufs_sub .., StableHlo.unary_bufs_sub ..,
    StableHlo.binary_bufs_sub .., StableHlo.binary_bufs_sub .., StableHlo.unary_bufs_sub .., StableHlo.nullary_bufs_sub .., StableHlo.binary_bufs_sub .., StableHlo.nullary_bufs_sub ..,
    StableHlo.binary_bufs_sub .., StableHlo.unary_bufs_sub .., StableHlo.binary_bufs_sub .., StableHlo.nullary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub .., StableHlo.binary_bufs_sub ..,
    StableHlo.unary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.unary_bufs_sub ..,
    StableHlo.binary_bufs_sub .., StableHlo.nullary_bufs_sub .., StableHlo.unary_bufs_sub .., StableHlo.binary_bufs_sub ..⟩

/-- The first residual layer's operations, in order (77): the same chain over the layer's slices of the stacked weights, ending with the residual sum `main_v86`. -/
abbrev ops1 : List (HloOp τ sig (Elt F)) :=
  [ StableHlo.unary main_arg7 main_v40 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v40 main_v41 rfl shapeCasts_S1x128x128_S128x128,
    StableHlo.unary main_arg8 main_v42 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v42 main_v43 rfl shapeCasts_S1x128x128_S128x128,
    StableHlo.unary main_arg9 main_v44 ((extractStridedSlice S1x128 ![0, 0] · slices_S3x128_S1x128_0_0) : (⟨S3x128, .f32⟩ : BufTy).Contents (Elt F) → (⟨S1x128, .f32⟩ : BufTy).Contents (Elt F)),
    StableHlo.reshape main_v44 main_v45 rfl shapeCasts_S1x128_S128,
    StableHlo.nullary main_c_5 (constantI S_ 32 0#32),
    StableHlo.unary main_c_5 main_v46 (broadcastInDim S1600000 ![] bcast_S_S1600000 : (⟨S_, .i32⟩ : BufTy).Contents (Elt F) → (⟨S1600000, .i32⟩ : BufTy).Contents (Elt F)),
    StableHlo.binary main_v1 main_v46 main_v47 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v48 (broadcastInDim S1600000 ![] bcast_S_S1600000 : (⟨S_, .i32⟩ : BufTy).Contents (Elt F) → (⟨S1600000, .i32⟩ : BufTy).Contents (Elt F)),
    StableHlo.binary main_v1 main_v48 main_v49 (addi : (⟨S1600000, .i32⟩ : BufTy).Contents (Elt F) → (⟨S1600000, .i32⟩ : BufTy).Contents (Elt F) → (⟨S1600000, .i32⟩ : BufTy).Contents (Elt F)),
    StableHlo.ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v50 main_v51 (broadcastInDim S1600000x1 ![0] bcast_S1600000_S1600000x1_0 : (⟨S1600000, .i32⟩ : BufTy).Contents (Elt F) → (⟨S1600000x1, .i32⟩ : BufTy).Contents (Elt F)),
    StableHlo.binary main_v39 main_v51 main_v52 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v53 (broadcastInDim S100000x128 ![] bcast_S_S100000x128 : (⟨S_, .f32⟩ : BufTy).Contents (Elt F) → (⟨S100000x128, .f32⟩ : BufTy).Contents (Elt F)),
    StableHlo.unary main_v3 main_v54 (broadcastInDim S1600000x1 ![0] bcast_S1600000_S1600000x1_0 : (⟨S1600000, .i32⟩ : BufTy).Contents (Elt F) → (⟨S1600000x1, .i32⟩ : BufTy).Contents (Elt F)),
    StableHlo.ternary main_v53 main_v54 main_v52 main_v55 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v55 main_v41 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v39 main_v43 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v56 main_v57 main_v58 (addf : (⟨S100000x128, .f32⟩ : BufTy).Contents (Elt F) → (⟨S100000x128, .f32⟩ : BufTy).Contents (Elt F) → (⟨S100000x128, .f32⟩ : BufTy).Contents (Elt F)),
    StableHlo.unary main_v45 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v60 main_v61 (addf : (⟨S100000x128, .f32⟩ : BufTy).Contents (Elt F) → (⟨S100000x128, .f32⟩ : BufTy).Contents (Elt F) → (⟨S100000x128, .f32⟩ : BufTy).Contents (Elt F)),
    StableHlo.unary main_arg10 main_v62 ((extractStridedSlice S1x128 ![0, 0] · slices_S3x128_S1x128_0_0) : (⟨S3x128, .f32⟩ : BufTy).Contents (Elt F) → (⟨S1x128, .f32⟩ : BufTy).Contents (Elt F)),
    StableHlo.reshape main_v62 main_v63 rfl shapeCasts_S1x128_S128,
    StableHlo.unary main_arg11 main_v64 ((extractStridedSlice S1x128 ![0, 0] · slices_S3x128_S1x128_0_0) : (⟨S3x128, .f32⟩ : BufTy).Contents (Elt F) → (⟨S1x128, .f32⟩ : BufTy).Contents (Elt F)),
    StableHlo.reshape main_v64 main_v65 rfl shapeCasts_S1x128_S128,
    StableHlo.nullary main_cst_8 (constant S_ .f32 0x00000000#32),
    StableHlo.binary main_v61 main_cst_8 main_v66 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v67 (broadcastInDim S128 ![] bcast_S_S128 : (⟨S_, .f32⟩ : BufTy).Contents (Elt F) → (⟨S128, .f32⟩ : BufTy).Contents (Elt F)),
    StableHlo.binary main_v66 main_v67 main_v68 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary (.of main_call2_cst : StableHlo.TRef sig ⟨S_, .f32⟩) (constant S_ .f32 0x00000000#32),
    StableHlo.TRef.binary (.of main_v61 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v61 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_10 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v69 : StableHlo.TRef sig ⟨S128, .f32⟩) (fun p a b => select (broadcastInDim S128 ![] bcast_S_S128 p) a b),
    StableHlo.unary main_v68 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v71 main_v72 (subf : (⟨S100000x128, .f32⟩ : BufTy).Contents (Elt F) → (⟨S100000x128, .f32⟩ : BufTy).Contents (Elt F) → (⟨S100000x128, .f32⟩ : BufTy).Contents (Elt F)),
    StableHlo.unary main_v63 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v72 main_v75 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v76 (broadcastInDim S128 ![] bcast_S_S128 : (⟨S_, .f32⟩ : BufTy).Contents (Elt F) → (⟨S128, .f32⟩ : BufTy).Contents (Elt F)),
    StableHlo.binary main_v69 main_v76 main_v77 (addf : (⟨S128, .f32⟩ : BufTy).Contents (Elt F) → (⟨S128, .f32⟩ : BufTy).Contents (Elt F) → (⟨S128, .f32⟩ : BufTy).Contents (Elt F)),
    StableHlo.unary main_v77 main_v78 (Host.rsqrt : (⟨S128, .f32⟩ : BufTy).Contents (Elt F) → (⟨S128, .f32⟩ : BufTy).Contents (Elt F)),
    StableHlo.unary main_v78 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v80 main_v81 (mulf : (⟨S100000x128, .f32⟩ : BufTy).Contents (Elt F) → (⟨S100000x128, .f32⟩ : BufTy).Contents (Elt F) → (⟨S100000x128, .f32⟩ : BufTy).Contents (Elt F)),
    StableHlo.unary main_v65 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v81 main_v83 main_v84 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v84 : StableHlo.TRef sig ⟨S100000x128, .f32⟩) (.of main_call3_v0 : StableHlo.TRef sig ⟨S100000x128, .f32⟩) (.of main_v85 : StableHlo.TRef sig ⟨S100000x128, .f32⟩) maximumf,
    StableHlo.binary main_v39 main_v85 main_v86 (addf : (⟨S100000x128, .f32⟩ : BufTy).Contents (Elt F) → (⟨S100000x128, .f32⟩ : BufTy).Contents (Elt F) → (⟨S100000x128, .f32⟩ : BufTy).Contents (Elt F)) ]

/-- Each operation of `ops1` touches TensorCore references only. -/
theorem ops1_sub : (ops1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.unary_bufs_sub ..,
    StableHlo.ternary_bufs_sub .., StableHlo.binary_bufs_sub .., StableHlo.binary_bufs_sub .., StableHlo.binary_bufs_sub .., StableHlo.unary_bufs_sub .., StableHlo.unary_bufs_sub ..,
    StableHlo.binary_bufs_sub .., StableHlo.unary_bufs_sub .., StableHlo.reshape_bufs_sub .., StableHlo.unary_bufs_sub .., StableHlo.reshape_bufs_sub .., StableHlo.nullary_bufs_sub ..,
    StableHlo.binary_bufs_sub .., StableHlo.nullary_bufs_sub .., StableHlo.unary_bufs_sub .., StableHlo.binary_bufs_sub .., StableHlo.nullary_bufs_sub .., StableHlo.nullary_bufs_sub ..,
    StableHlo.binary_bufs_sub .., StableHlo.unary_bufs_sub .., StableHlo.nullary_bufs_sub .., StableHlo.unary_bufs_sub .., StableHlo.binary_bufs_sub .., StableHlo.unary_bufs_sub ..,
    StableHlo.binary_bufs_sub .., StableHlo.binary_bufs_sub .., StableHlo.unary_bufs_sub .., StableHlo.nullary_bufs_sub .., StableHlo.binary_bufs_sub .., StableHlo.nullary_bufs_sub ..,
    StableHlo.binary_bufs_sub .., StableHlo.unary_bufs_sub .., StableHlo.binary_bufs_sub .., StableHlo.nullary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub .., StableHlo.binary_bufs_sub ..,
    StableHlo.unary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.unary_bufs_sub ..,
    StableHlo.binary_bufs_sub .., StableHlo.nullary_bufs_sub .., StableHlo.unary_bufs_sub .., StableHlo.binary_bufs_sub .., StableHlo.binary_bufs_sub ..⟩

/-- The second residual layer's operations, in order (77), ending with the residual sum `main_v133`. -/
abbrev ops2 : List (HloOp τ sig (Elt F)) :=
  [ StableHlo.unary main_arg7 main_v87 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v87 main_v88 rfl shapeCasts_S1x128x128_S128x128,
    StableHlo.unary main_arg8 main_v89 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v89 main_v90 rfl shapeCasts_S1x128x128_S128x128,
    StableHlo.unary main_arg9 main_v91 ((extractStridedSlice S1x128 ![1, 0] · slices_S3x128_S1x128_1_0) : (⟨S3x128, .f32⟩ : BufTy).Contents (Elt F) → (⟨S1x128, .f32⟩ : BufTy).Contents (Elt F)),
    StableHlo.reshape main_v91 main_v92 rfl shapeCasts_S1x128_S128,
    StableHlo.nullary main_c_12 (constantI S_ 32 0#32),
    StableHlo.unary main_c_12 main_v93 (broadcastInDim S1600000 ![] bcast_S_S1600000 : (⟨S_, .i32⟩ : BufTy).Contents (Elt F) → (⟨S1600000, .i32⟩ : BufTy).Contents (Elt F)),
    StableHlo.binary main_v1 main_v93 main_v94 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v95 (broadcastInDim S1600000 ![] bcast_S_S1600000 : (⟨S_, .i32⟩ : BufTy).Contents (Elt F) → (⟨S1600000, .i32⟩ : BufTy).Contents (Elt F)),
    StableHlo.binary main_v1 main_v95 main_v96 (addi : (⟨S1600000, .i32⟩ : BufTy).Contents (Elt F) → (⟨S1600000, .i32⟩ : BufTy).Contents (Elt F) → (⟨S1600000, .i32⟩ : BufTy).Contents (Elt F)),
    StableHlo.ternary main_v94 main_v96 main_v1 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v97 main_v98 (broadcastInDim S1600000x1 ![0] bcast_S1600000_S1600000x1_0 : (⟨S1600000, .i32⟩ : BufTy).Contents (Elt F) → (⟨S1600000x1, .i32⟩ : BufTy).Contents (Elt F)),
    StableHlo.binary main_v85 main_v98 main_v99 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v100 (broadcastInDim S100000x128 ![] bcast_S_S100000x128 : (⟨S_, .f32⟩ : BufTy).Contents (Elt F) → (⟨S100000x128, .f32⟩ : BufTy).Contents (Elt F)),
    StableHlo.unary main_v3 main_v101 (broadcastInDim S1600000x1 ![0] bcast_S1600000_S1600000x1_0 : (⟨S1600000, .i32⟩ : BufTy).Contents (Elt F) → (⟨S1600000x1, .i32⟩ : BufTy).Contents (Elt F)),
    StableHlo.ternary main_v100 main_v101 main_v99 main_v102 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v102 main_v88 main_v103 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v85 main_v90 main_v104 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v103 main_v104 main_v105 (addf : (⟨S100000x128, .f32⟩ : BufTy).Contents (Elt F) → (⟨S100000x128, .f32⟩ : BufTy).Contents (Elt F) → (⟨S100000x128, .f32⟩ : BufTy).Contents (Elt F)),
    StableHlo.unary main_v92 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v107 main_v108 (addf : (⟨S100000x128, .f32⟩ : BufTy).Contents (Elt F) → (⟨S100000x128, .f32⟩ : BufTy).Contents (Elt F) → (⟨S100000x128, .f32⟩ : BufTy).Contents (Elt F)),
    StableHlo.unary main_arg10 main_v109 ((extractStridedSlice S1x128 ![1, 0] · slices_S3x128_S1x128_1_0) : (⟨S3x128, .f32⟩ : BufTy).Contents (Elt F) → (⟨S1x128, .f32⟩ : BufTy).Contents (Elt F)),
    StableHlo.reshape main_v109 main_v110 rfl shapeCasts_S1x128_S128,
    StableHlo.unary main_arg11 main_v111 ((extractStridedSlice S1x128 ![1, 0] · slices_S3x128_S1x128_1_0) : (⟨S3x128, .f32⟩ : BufTy).Contents (Elt F) → (⟨S1x128, .f32⟩ : BufTy).Contents (Elt F)),
    StableHlo.reshape main_v111 main_v112 rfl shapeCasts_S1x128_S128,
    StableHlo.nullary main_cst_15 (constant S_ .f32 0x00000000#32),
    StableHlo.binary main_v108 main_cst_15 main_v113 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v114 (broadcastInDim S128 ![] bcast_S_S128 : (⟨S_, .f32⟩ : BufTy).Contents (Elt F) → (⟨S128, .f32⟩ : BufTy).Contents (Elt F)),
    StableHlo.binary main_v113 main_v114 main_v115 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary (.of main_call4_cst : StableHlo.TRef sig ⟨S_, .f32⟩) (constant S_ .f32 0x00000000#32),
    StableHlo.TRef.binary (.of main_v108 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v108 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_17 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v116 : StableHlo.TRef sig ⟨S128, .f32⟩) (fun p a b => select (broadcastInDim S128 ![] bcast_S_S128 p) a b),
    StableHlo.unary main_v115 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v108 main_v118 main_v119 (subf : (⟨S100000x128, .f32⟩ : BufTy).Contents (Elt F) → (⟨S100000x128, .f32⟩ : BufTy).Contents (Elt F) → (⟨S100000x128, .f32⟩ : BufTy).Contents (Elt F)),
    StableHlo.unary main_v110 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v119 main_v122 (mulf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v123 (broadcastInDim S128 ![] bcast_S_S128 : (⟨S_, .f32⟩ : BufTy).Contents (Elt F) → (⟨S128, .f32⟩ : BufTy).Contents (Elt F)),
    StableHlo.binary main_v116 main_v123 main_v124 (addf : (⟨S128, .f32⟩ : BufTy).Contents (Elt F) → (⟨S128, .f32⟩ : BufTy).Contents (Elt F) → (⟨S128, .f32⟩ : BufTy).Contents (Elt F)),
    StableHlo.unary main_v124 main_v125 (Host.rsqrt : (⟨S128, .f32⟩ : BufTy).Contents (Elt F) → (⟨S128, .f32⟩ : BufTy).Contents (Elt F)),
    StableHlo.unary main_v125 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S100000x128 ![0, 1] bcast_S1x128_S100000x128_0_1 : (⟨S1x128, .f32⟩ : BufTy).Contents (Elt F) → (⟨S100000x128, .f32⟩ : BufTy).Contents (Elt F)),
    StableHlo.binary main_v122 main_v127 main_v128 (mulf : (⟨S100000x128, .f32⟩ : BufTy).Contents (Elt F) → (⟨S100000x128, .f32⟩ : BufTy).Contents (Elt F) → (⟨S100000x128, .f32⟩ : BufTy).Contents (Elt F)),
    StableHlo.unary main_v112 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v128 main_v130 main_v131 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x128, .f32⟩) (broadcastInDim S100000x128 ![] bcast_S_S100000x128),
    StableHlo.TRef.binary (.of main_v131 : StableHlo.TRef sig ⟨S100000x128, .f32⟩) (.of main_call5_v0 : StableHlo.TRef sig ⟨S100000x128, .f32⟩) (.of main_v132 : StableHlo.TRef sig ⟨S100000x128, .f32⟩) maximumf,
    StableHlo.binary main_v86 main_v132 main_v133 (addf : (⟨S100000x128, .f32⟩ : BufTy).Contents (Elt F) → (⟨S100000x128, .f32⟩ : BufTy).Contents (Elt F) → (⟨S100000x128, .f32⟩ : BufTy).Contents (Elt F)) ]

/-- Each operation of `ops2` touches TensorCore references only. -/
theorem ops2_sub : (ops2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.unary_bufs_sub ..,
    StableHlo.ternary_bufs_sub .., StableHlo.binary_bufs_sub .., StableHlo.binary_bufs_sub .., StableHlo.binary_bufs_sub .., StableHlo.unary_bufs_sub .., StableHlo.unary_bufs_sub ..,
    StableHlo.binary_bufs_sub .., StableHlo.unary_bufs_sub .., StableHlo.reshape_bufs_sub .., StableHlo.unary_bufs_sub .., StableHlo.reshape_bufs_sub .., StableHlo.nullary_bufs_sub ..,
    StableHlo.binary_bufs_sub .., StableHlo.nullary_bufs_sub .., StableHlo.unary_bufs_sub .., StableHlo.binary_bufs_sub .., StableHlo.nullary_bufs_sub .., StableHlo.nullary_bufs_sub ..,
    StableHlo.binary_bufs_sub .., StableHlo.unary_bufs_sub .., StableHlo.nullary_bufs_sub .., StableHlo.unary_bufs_sub .., StableHlo.binary_bufs_sub .., StableHlo.unary_bufs_sub ..,
    StableHlo.binary_bufs_sub .., StableHlo.binary_bufs_sub .., StableHlo.unary_bufs_sub .., StableHlo.nullary_bufs_sub .., StableHlo.binary_bufs_sub .., StableHlo.nullary_bufs_sub ..,
    StableHlo.binary_bufs_sub .., StableHlo.unary_bufs_sub .., StableHlo.binary_bufs_sub .., StableHlo.nullary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub .., StableHlo.binary_bufs_sub ..,
    StableHlo.unary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.unary_bufs_sub ..,
    StableHlo.binary_bufs_sub .., StableHlo.nullary_bufs_sub .., StableHlo.unary_bufs_sub .., StableHlo.binary_bufs_sub .., StableHlo.binary_bufs_sub ..⟩

/-- The third residual layer's operations, in order (77), ending with the residual sum `main_v180`. -/
abbrev ops3 : List (HloOp τ sig (Elt F)) :=
  [ StableHlo.unary main_arg7 main_v134 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v134 main_v135 rfl shapeCasts_S1x128x128_S128x128,
    StableHlo.unary main_arg8 main_v136 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v136 main_v137 rfl shapeCasts_S1x128x128_S128x128,
    StableHlo.unary main_arg9 main_v138 ((extractStridedSlice S1x128 ![2, 0] · slices_S3x128_S1x128_2_0) : (⟨S3x128, .f32⟩ : BufTy).Contents (Elt F) → (⟨S1x128, .f32⟩ : BufTy).Contents (Elt F)),
    StableHlo.reshape main_v138 main_v139 rfl shapeCasts_S1x128_S128,
    StableHlo.nullary main_c_19 (constantI S_ 32 0#32),
    StableHlo.unary main_c_19 main_v140 (broadcastInDim S1600000 ![] bcast_S_S1600000 : (⟨S_, .i32⟩ : BufTy).Contents (Elt F) → (⟨S1600000, .i32⟩ : BufTy).Contents (Elt F)),
    StableHlo.binary main_v1 main_v140 main_v141 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v142 (broadcastInDim S1600000 ![] bcast_S_S1600000 : (⟨S_, .i32⟩ : BufTy).Contents (Elt F) → (⟨S1600000, .i32⟩ : BufTy).Contents (Elt F)),
    StableHlo.binary main_v1 main_v142 main_v143 (addi : (⟨S1600000, .i32⟩ : BufTy).Contents (Elt F) → (⟨S1600000, .i32⟩ : BufTy).Contents (Elt F) → (⟨S1600000, .i32⟩ : BufTy).Contents (Elt F)),
    StableHlo.ternary main_v141 main_v143 main_v1 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v144 main_v145 (broadcastInDim S1600000x1 ![0] bcast_S1600000_S1600000x1_0 : (⟨S1600000, .i32⟩ : BufTy).Contents (Elt F) → (⟨S1600000x1, .i32⟩ : BufTy).Contents (Elt F)),
    StableHlo.binary main_v132 main_v145 main_v146 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_21 (constant S_ .f32 0x00000000#32),
    StableHlo.unary main_cst_21 main_v147 (broadcastInDim S100000x128 ![] bcast_S_S100000x128 : (⟨S_, .f32⟩ : BufTy).Contents (Elt F) → (⟨S100000x128, .f32⟩ : BufTy).Contents (Elt F)),
    StableHlo.unary main_v3 main_v148 (broadcastInDim S1600000x1 ![0] bcast_S1600000_S1600000x1_0 : (⟨S1600000, .i32⟩ : BufTy).Contents (Elt F) → (⟨S1600000x1, .i32⟩ : BufTy).Contents (Elt F)),
    StableHlo.ternary main_v147 main_v148 main_v146 main_v149 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v149 main_v135 main_v150 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v132 main_v137 main_v151 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v150 main_v151 main_v152 (addf : (⟨S100000x128, .f32⟩ : BufTy).Contents (Elt F) → (⟨S100000x128, .f32⟩ : BufTy).Contents (Elt F) → (⟨S100000x128, .f32⟩ : BufTy).Contents (Elt F)),
    StableHlo.unary main_v139 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)),
    StableHlo.binary main_v152 main_v154 main_v155 (addf : (⟨S100000x128, .f32⟩ : BufTy).Contents (Elt F) → (⟨S100000x128, .f32⟩ : BufTy).Contents (Elt F) → (⟨S100000x128, .f32⟩ : BufTy).Contents (Elt F)),
    StableHlo.unary main_arg10 main_v156 ((extractStridedSlice S1x128 ![2, 0] · slices_S3x128_S1x128_2_0) : (⟨S3x128, .f32⟩ : BufTy).Contents (Elt F) → (⟨S1x128, .f32⟩ : BufTy).Contents (Elt F)),
    StableHlo.reshape main_v156 main_v157 rfl shapeCasts_S1x128_S128,
    StableHlo.unary main_arg11 main_v158 ((extractStridedSlice S1x128 ![2, 0] · slices_S3x128_S1x128_2_0) : (⟨S3x128, .f32⟩ : BufTy).Contents (Elt F) → (⟨S1x128, .f32⟩ : BufTy).Contents (Elt F)),
    StableHlo.reshape main_v158 main_v159 rfl shapeCasts_S1x128_S128,
    StableHlo.nullary main_cst_22 (constant S_ .f32 0x00000000#32),
    StableHlo.binary main_v155 main_cst_22 main_v160 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v161 (broadcastInDim S128 ![] bcast_S_S128 : (⟨S_, .f32⟩ : BufTy).Contents (Elt F) → (⟨S128, .f32⟩ : BufTy).Contents (Elt F)),
    StableHlo.binary main_v160 main_v161 main_v162 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary (.of main_call6_cst : StableHlo.TRef sig ⟨S_, .f32⟩) (constant S_ .f32 0x00000000#32),
    StableHlo.TRef.binary (.of main_v155 : StableHlo.TRef sig ⟨S100000x128, .f32⟩) (.of main_call6_cst : StableHlo.TRef sig ⟨S_, .f32⟩) (.of main_call6_v0 : StableHlo.TRef sig ⟨S128, .f32⟩) (fun x v => Host.reduceAdd x v reducesTo_S100000x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S100000x128, .f32⟩) (broadcastInDim S100000x128 ![0, 1] bcast_S1x128_S100000x128_0_1),
    StableHlo.TRef.binary (.of main_v155 : StableHlo.TRef sig ⟨S100000x128, .f32⟩) (.of main_call6_v4 : StableHlo.TRef sig ⟨S100000x128, .f32⟩) (.of main_call6_v5 : StableHlo.TRef sig ⟨S100000x128, .f32⟩) subf,
    StableHlo.TRef.binary (.of main_call6_v5 : StableHlo.TRef sig ⟨S100000x128, .f32⟩) (.of main_call6_v5 : StableHlo.TRef sig ⟨S100000x128, .f32⟩) (.of main_call6_v6 : StableHlo.TRef sig ⟨S100000x128, .f32⟩) mulf,
    StableHlo.TRef.unary (.of main_c_24 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x128, .f32⟩) (.of main_call6_cst_2 : StableHlo.TRef sig ⟨S_, .f32⟩) (.of main_call6_v9 : StableHlo.TRef sig ⟨S128, .f32⟩) (fun x v => Host.reduceAdd x v reducesTo_S100000x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v163 : StableHlo.TRef sig ⟨S128, .f32⟩) (fun p a b => select (broadcastInDim S128 ![] bcast_S_S128 p) a b),
    StableHlo.unary main_v162 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S100000x128 ![0, 1] bcast_S1x128_S100000x128_0_1 : (⟨S1x128, .f32⟩ : BufTy).Contents (Elt F) → (⟨S100000x128, .f32⟩ : BufTy).Contents (Elt F)),
    StableHlo.binary main_v155 main_v165 main_v166 (subf : (⟨S100000x128, .f32⟩ : BufTy).Contents (Elt F) → (⟨S100000x128, .f32⟩ : BufTy).Contents (Elt F) → (⟨S100000x128, .f32⟩ : BufTy).Contents (Elt F)),
    StableHlo.unary main_v157 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v166 main_v169 (mulf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v170 (broadcastInDim S128 ![] bcast_S_S128 : (⟨S_, .f32⟩ : BufTy).Contents (Elt F) → (⟨S128, .f32⟩ : BufTy).Contents (Elt F)),
    StableHlo.binary main_v163 main_v170 main_v171 (addf : (⟨S128, .f32⟩ : BufTy).Contents (Elt F) → (⟨S128, .f32⟩ : BufTy).Contents (Elt F) → (⟨S128, .f32⟩ : BufTy).Contents (Elt F)),
    StableHlo.unary main_v171 main_v172 (Host.rsqrt : (⟨S128, .f32⟩ : BufTy).Contents (Elt F) → (⟨S128, .f32⟩ : BufTy).Contents (Elt F)),
    StableHlo.unary main_v172 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v174 main_v175 (mulf : (⟨S100000x128, .f32⟩ : BufTy).Contents (Elt F) → (⟨S100000x128, .f32⟩ : BufTy).Contents (Elt F) → (⟨S100000x128, .f32⟩ : BufTy).Contents (Elt F)),
    StableHlo.unary main_v159 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v175 main_v177 main_v178 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x128, .f32⟩) (broadcastInDim S100000x128 ![] bcast_S_S100000x128),
    StableHlo.TRef.binary (.of main_v178 : StableHlo.TRef sig ⟨S100000x128, .f32⟩) (.of main_call7_v0 : StableHlo.TRef sig ⟨S100000x128, .f32⟩) (.of main_v179 : StableHlo.TRef sig ⟨S100000x128, .f32⟩) maximumf,
    StableHlo.binary main_v133 main_v179 main_v180 (addf : (⟨S100000x128, .f32⟩ : BufTy).Contents (Elt F) → (⟨S100000x128, .f32⟩ : BufTy).Contents (Elt F) → (⟨S100000x128, .f32⟩ : BufTy).Contents (Elt F)) ]

/-- Each operation of `ops3` touches TensorCore references only. -/
theorem ops3_sub : (ops3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.unary_bufs_sub ..,
    StableHlo.ternary_bufs_sub .., StableHlo.binary_bufs_sub .., StableHlo.binary_bufs_sub .., StableHlo.binary_bufs_sub .., StableHlo.unary_bufs_sub .., StableHlo.unary_bufs_sub ..,
    StableHlo.binary_bufs_sub .., StableHlo.unary_bufs_sub .., StableHlo.reshape_bufs_sub .., StableHlo.unary_bufs_sub .., StableHlo.reshape_bufs_sub .., StableHlo.nullary_bufs_sub ..,
    StableHlo.binary_bufs_sub .., StableHlo.nullary_bufs_sub .., StableHlo.unary_bufs_sub .., StableHlo.binary_bufs_sub .., StableHlo.nullary_bufs_sub .., StableHlo.nullary_bufs_sub ..,
    StableHlo.binary_bufs_sub .., StableHlo.unary_bufs_sub .., StableHlo.nullary_bufs_sub .., StableHlo.unary_bufs_sub .., StableHlo.binary_bufs_sub .., StableHlo.unary_bufs_sub ..,
    StableHlo.binary_bufs_sub .., StableHlo.binary_bufs_sub .., StableHlo.unary_bufs_sub .., StableHlo.nullary_bufs_sub .., StableHlo.binary_bufs_sub .., StableHlo.nullary_bufs_sub ..,
    StableHlo.binary_bufs_sub .., StableHlo.unary_bufs_sub .., StableHlo.binary_bufs_sub .., StableHlo.nullary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub .., StableHlo.binary_bufs_sub ..,
    StableHlo.unary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.unary_bufs_sub ..,
    StableHlo.binary_bufs_sub .., StableHlo.nullary_bufs_sub .., StableHlo.unary_bufs_sub .., StableHlo.binary_bufs_sub .., StableHlo.binary_bufs_sub ..⟩

/-! ## @main is the list -/

/-- A list cut at `n` and continued: the two pieces and the continuation are the list and the continuation. -/
theorem take_append_drop_append {α : Type} (n : Nat) (l r : List α) : l.take n ++ (l.drop n ++ r) = l ++ r := by
  rw [← List.append_assoc, List.take_append_drop]

/-- The four layers' lists re-cut at the printed windows' ends (statements 60, 120 and 180 fall 13, 19 and 25
    operations into the second, third and fourth layer). -/
theorem layers_eq_windows :
    (ops0 ++ ops1 ++ ops2 ++ ops3 : List (HloOp τ sig (Elt F)))
      = (ops0 ++ ops1.take 13) ++ ((ops1.drop 13 ++ ops2.take 19) ++ ((ops2.drop 19 ++ ops3.take 25) ++ ops3.drop 25)) := by
  simp only [List.append_assoc, take_append_drop_append, List.take_append_drop]

/-- The first window (statements 1 … 60) is its 83 operations: the two calls unfold to their bodies, and the binds
    reassociate into one chain. -/
theorem main_part0_eq (c : Dev nD) : main_part0 (F := F) c = StableHlo.seq (ops0 ++ ops1.take 13) := by
  simp only [main_part0, fn_var.body, fn_where.body, fn_relu.body, bind_assoc, pure_bind]
  rfl

/-- The second window (statements 61 … 120). -/
theorem main_part1_eq (c : Dev nD) : main_part1 (F := F) c = StableHlo.seq (ops1.drop 13 ++ ops2.take 19) := by
  simp only [main_part1, fn_var.body, fn_where.body, fn_relu.body, bind_assoc, pure_bind]
  rfl

/-- The third window (statements 121 … 180). -/
theorem main_part2_eq (c : Dev nD) : main_part2 (F := F) c = StableHlo.seq (ops2.drop 19 ++ ops3.take 25) := by
  simp only [main_part2, fn_var.body, fn_where.body, fn_relu.body, bind_assoc, pure_bind]
  rfl

/-- The fourth window (statements 181 … 210). -/
theorem main_part3_eq (c : Dev nD) : main_part3 (F := F) c = StableHlo.seq (ops3.drop 25) := by
  simp only [main_part3, fn_var.body, fn_where.body, fn_relu.body, bind_assoc, pure_bind]
  rfl

/-- @main runs its four windows in order: it is the whole list run as one line. -/
theorem main_eq (c : Dev nD) : main (F := F) c = StableHlo.seq (ops0 ++ ops1 ++ ops2 ++ ops3) := by
  simp only [layers_eq_windows, StableHlo.seq_append, ← main_part0_eq c, ← main_part1_eq c, ← main_part2_eq c, ← main_part3_eq c]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-- A property of every operation of each of four lists holds of every operation of their concatenation. -/
theorem forall_append4 {α : Type} {p : α → Prop} {a b c d : List α}
    (ha : a.Forall p) (hb : b.Forall p) (hc : c.Forall p) (hd : d.Forall p) : (a ++ b ++ c ++ d).Forall p :=
  List.forall_iff_forall_mem.mpr fun x h => by
    simp only [List.mem_append] at h
    rcases h with ((h | h) | h) | h
    exacts [List.forall_iff_forall_mem.mp ha x h, List.forall_iff_forall_mem.mp hb x h,
      List.forall_iff_forall_mem.mp hc x h, List.forall_iff_forall_mem.mp hd x h]

/-- Every operation touches TensorCore references only. -/
theorem ops_sub : (ops0 ++ ops1 ++ ops2 ++ ops3 : List (HloOp τ sig (Elt F))).Forall fun op => op.bufs ⊆ StableHlo.tcRefs τ sig :=
  forall_append4 ops0_sub ops1_sub ops2_sub ops3_sub

/-- No operation allocates a buffer: each determines its results. -/
theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops_fresh : ∀ op ∈ (ops0 ++ ops1 ++ ops2 ++ ops3 : List (HloOp τ sig (Elt F))), op.fresh = ∅ :=
  List.forall_iff_forall_mem.mp (forall_append4 ops0_fresh ops1_fresh ops2_fresh ops3_fresh)

/-- On every device, for any float values, from any memory with zero counters: every weakly fair execution of
    @main terminates, and every final state has each TensorCore buffer at the fold of the 301 operations'
    results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (ops0 ++ ops1 ++ ops2 ++ ops3) (StableHlo.launchContents m c) (Proc.devRef .tc b) :=
  StableHlo.run_seq scopedRefs_eq scopedSems_eq defs main (fun _ => ops0 ++ ops1 ++ ops2 ++ ops3) main_eq
    (fun _ => ops_sub) m ρ (fun _ => ops_fresh)

end Cert.ReferenceIdeal.RefRun

end
-- ==== Proof.RefPieces.lean ====
/-
  Each layer's stretch of the reference's operations cut into three consecutive pieces — up to the affine part's
  result, the batch statistics (the mean, and the variance routine with its guarded select), and the
  normalization with the rectifier and the running sum — so that what a piece leaves in a buffer is a small term
  of what it finds in a few buffers. With each piece, the list of the buffers it writes: a buffer not on the
  list keeps its contents through the piece.
-/
import proofs.«145014_j19963007992111_1_alg».proof.Proof.RefOps

set_option maxRecDepth 8192

noncomputable section

namespace Cert.ReferenceIdeal.RefPieces

open Cert.ReferenceIdeal Cert.ReferenceIdeal.Facts₀ Cert.ReferenceIdeal.RefRun
open Idealize.ShloMosaic Idealize.ShloMosaic.TcCoe Idealize.SL.Sem

variable {F : FTy → Type} [FloatOps F]

/-- Layer 0's operations, up to the affine part's result (23). -/
abbrev p0a : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v13 main_arg2 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_arg0 main_arg3 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v14 main_v15 main_v16 (addf : (⟨S100000x128, .f32⟩ : BufTy).Contents (Elt F) → (⟨S100000x128, .f32⟩ : BufTy).Contents (Elt F) → (⟨S100000x128, .f32⟩ : BufTy).Contents (Elt F)),
    StableHlo.unary main_arg4 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v18 main_v19 (addf : (⟨S100000x128, .f32⟩ : BufTy).Contents (Elt F) → (⟨S100000x128, .f32⟩ : BufTy).Contents (Elt F) → (⟨S100000x128, .f32⟩ : BufTy).Contents (Elt F)) ]

/-- The buffers `p0a` writes, in order. -/
abbrev p0a_W : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19]

/-- Layer 0's operations, the batch statistics: the mean and the variance routine (28). -/
abbrev p0b : List (HloOp τ sig (Elt F)) :=
  [ StableHlo.nullary main_cst_1 (constant S_ .f32 0x00000000#32),
    StableHlo.binary main_v19 main_cst_1 main_v20 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v21 (broadcastInDim S128 ![] bcast_S_S128 : (⟨S_, .f32⟩ : BufTy).Contents (Elt F) → (⟨S128, .f32⟩ : BufTy).Contents (Elt F)),
    StableHlo.binary main_v20 main_v21 main_v22 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary (.of main_call0_cst : StableHlo.TRef sig ⟨S_, .f32⟩) (constant S_ .f32 0x00000000#32),
    StableHlo.TRef.binary (.of main_v19 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v19 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c_3 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v23 : StableHlo.TRef sig ⟨S128, .f32⟩) (fun p a b => select (broadcastInDim S128 ![] bcast_S_S128 p) a b) ]

/-- The buffers `p0b` writes, in order. -/
abbrev p0b_W : List (Ref sig .tc) :=
  [main_cst_1, main_v20, main_cst_2, main_v21, main_v22, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v23]

/-- Layer 0's operations, the normalization, the rectifier and the running sum (19). -/
abbrev p0c : List (HloOp τ sig (Elt F)) :=
  [ StableHlo.unary main_v22 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v25 main_v26 (subf : (⟨S100000x128, .f32⟩ : BufTy).Contents (Elt F) → (⟨S100000x128, .f32⟩ : BufTy).Contents (Elt F) → (⟨S100000x128, .f32⟩ : BufTy).Contents (Elt F)),
    StableHlo.unary main_arg5 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v26 main_v29 (mulf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v30 (broadcastInDim S128 ![] bcast_S_S128 : (⟨S_, .f32⟩ : BufTy).Contents (Elt F) → (⟨S128, .f32⟩ : BufTy).Contents (Elt F)),
    StableHlo.binary main_v23 main_v30 main_v31 (addf : (⟨S128, .f32⟩ : BufTy).Contents (Elt F) → (⟨S128, .f32⟩ : BufTy).Contents (Elt F) → (⟨S128, .f32⟩ : BufTy).Contents (Elt F)),
    StableHlo.unary main_v31 main_v32 (Host.rsqrt : (⟨S128, .f32⟩ : BufTy).Contents (Elt F) → (⟨S128, .f32⟩ : BufTy).Contents (Elt F)),
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v34 main_v35 (mulf : (⟨S100000x128, .f32⟩ : BufTy).Contents (Elt F) → (⟨S100000x128, .f32⟩ : BufTy).Contents (Elt F) → (⟨S100000x128, .f32⟩ : BufTy).Contents (Elt F)),
    StableHlo.unary main_arg6 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v37 main_v38 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v38 : StableHlo.TRef sig ⟨S100000x128, .f32⟩) (.of main_call1_v0 : StableHlo.TRef sig ⟨S100000x128, .f32⟩) (.of main_v39 : StableHlo.TRef sig ⟨S100000x128, .f32⟩) maximumf ]

/-- The buffers `p0c` writes, in order. -/
abbrev p0c_W : List (Ref sig .tc) :=
  [main_v24, main_v25, main_v26, main_v27, main_v28, main_v29, main_cst_4, main_v30, main_v31, main_v32, main_v33, main_v34, main_v35, main_v36, main_v37, main_v38, main_call1_cst, main_call1_v0, main_v39]

/-- Layer 1's operations, up to the affine part's result (25). -/
abbrev p1a : List (HloOp τ sig (Elt F)) :=
  [ StableHlo.unary main_arg7 main_v40 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v40 main_v41 rfl shapeCasts_S1x128x128_S128x128,
    StableHlo.unary main_arg8 main_v42 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v42 main_v43 rfl shapeCasts_S1x128x128_S128x128,
    StableHlo.unary main_arg9 main_v44 ((extractStridedSlice S1x128 ![0, 0] · slices_S3x128_S1x128_0_0) : (⟨S3x128, .f32⟩ : BufTy).Contents (Elt F) → (⟨S1x128, .f32⟩ : BufTy).Contents (Elt F)),
    StableHlo.reshape main_v44 main_v45 rfl shapeCasts_S1x128_S128,
    StableHlo.nullary main_c_5 (constantI S_ 32 0#32),
    StableHlo.unary main_c_5 main_v46 (broadcastInDim S1600000 ![] bcast_S_S1600000 : (⟨S_, .i32⟩ : BufTy).Contents (Elt F) → (⟨S1600000, .i32⟩ : BufTy).Contents (Elt F)),
    StableHlo.binary main_v1 main_v46 main_v47 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v48 (broadcastInDim S1600000 ![] bcast_S_S1600000 : (⟨S_, .i32⟩ : BufTy).Contents (Elt F) → (⟨S1600000, .i32⟩ : BufTy).Contents (Elt F)),
    StableHlo.binary main_v1 main_v48 main_v49 (addi : (⟨S1600000, .i32⟩ : BufTy).Contents (Elt F) → (⟨S1600000, .i32⟩ : BufTy).Contents (Elt F) → (⟨S1600000, .i32⟩ : BufTy).Contents (Elt F)),
    StableHlo.ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v50 main_v51 (broadcastInDim S1600000x1 ![0] bcast_S1600000_S1600000x1_0 : (⟨S1600000, .i32⟩ : BufTy).Contents (Elt F) → (⟨S1600000x1, .i32⟩ : BufTy).Contents (Elt F)),
    StableHlo.binary main_v39 main_v51 main_v52 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v53 (broadcastInDim S100000x128 ![] bcast_S_S100000x128 : (⟨S_, .f32⟩ : BufTy).Contents (Elt F) → (⟨S100000x128, .f32⟩ : BufTy).Contents (Elt F)),
    StableHlo.unary main_v3 main_v54 (broadcastInDim S1600000x1 ![0] bcast_S1600000_S1600000x1_0 : (⟨S1600000, .i32⟩ : BufTy).Contents (Elt F) → (⟨S1600000x1, .i32⟩ : BufTy).Contents (Elt F)),
    StableHlo.ternary main_v53 main_v54 main_v52 main_v55 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v55 main_v41 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v39 main_v43 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v56 main_v57 main_v58 (addf : (⟨S100000x128, .f32⟩ : BufTy).Contents (Elt F) → (⟨S100000x128, .f32⟩ : BufTy).Contents (Elt F) → (⟨S100000x128, .f32⟩ : BufTy).Contents (Elt F)),
    StableHlo.unary main_v45 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v60 main_v61 (addf : (⟨S100000x128, .f32⟩ : BufTy).Contents (Elt F) → (⟨S100000x128, .f32⟩ : BufTy).Contents (Elt F) → (⟨S100000x128, .f32⟩ : BufTy).Contents (Elt F)) ]

/-- The buffers `p1a` writes, in order. -/
abbrev p1a_W : List (Ref sig .tc) :=
  [main_v40, main_v41, main_v42, main_v43, main_v44, main_v45, main_c_5, main_v46, main_v47, main_c_6, main_v48, main_v49, main_v50, main_v51, main_v52, main_cst_7, main_v53, main_v54, main_v55, main_v56, main_v57, main_v58, main_v59, main_v60, main_v61]

/-- Layer 1's operations, the batch statistics: the mean and the variance routine (32). -/
abbrev p1b : List (HloOp τ sig (Elt F)) :=
  [ StableHlo.unary main_arg10 main_v62 ((extractStridedSlice S1x128 ![0, 0] · slices_S3x128_S1x128_0_0) : (⟨S3x128, .f32⟩ : BufTy).Contents (Elt F) → (⟨S1x128, .f32⟩ : BufTy).Contents (Elt F)),
    StableHlo.reshape main_v62 main_v63 rfl shapeCasts_S1x128_S128,
    StableHlo.unary main_arg11 main_v64 ((extractStridedSlice S1x128 ![0, 0] · slices_S3x128_S1x128_0_0) : (⟨S3x128, .f32⟩ : BufTy).Contents (Elt F) → (⟨S1x128, .f32⟩ : BufTy).Contents (Elt F)),
    StableHlo.reshape main_v64 main_v65 rfl shapeCasts_S1x128_S128,
    StableHlo.nullary main_cst_8 (constant S_ .f32 0x00000000#32),
    StableHlo.binary main_v61 main_cst_8 main_v66 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v67 (broadcastInDim S128 ![] bcast_S_S128 : (⟨S_, .f32⟩ : BufTy).Contents (Elt F) → (⟨S128, .f32⟩ : BufTy).Contents (Elt F)),
    StableHlo.binary main_v66 main_v67 main_v68 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary (.of main_call2_cst : StableHlo.TRef sig ⟨S_, .f32⟩) (constant S_ .f32 0x00000000#32),
    StableHlo.TRef.binary (.of main_v61 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v61 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_10 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v69 : StableHlo.TRef sig ⟨S128, .f32⟩) (fun p a b => select (broadcastInDim S128 ![] bcast_S_S128 p) a b) ]

/-- The buffers `p1b` writes, in order. -/
abbrev p1b_W : List (Ref sig .tc) :=
  [main_v62, main_v63, main_v64, main_v65, main_cst_8, main_v66, main_cst_9, main_v67, main_v68, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v69]

/-- Layer 1's operations, the normalization, the rectifier and the running sum (20). -/
abbrev p1c : List (HloOp τ sig (Elt F)) :=
  [ StableHlo.unary main_v68 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v71 main_v72 (subf : (⟨S100000x128, .f32⟩ : BufTy).Contents (Elt F) → (⟨S100000x128, .f32⟩ : BufTy).Contents (Elt F) → (⟨S100000x128, .f32⟩ : BufTy).Contents (Elt F)),
    StableHlo.unary main_v63 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v72 main_v75 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v76 (broadcastInDim S128 ![] bcast_S_S128 : (⟨S_, .f32⟩ : BufTy).Contents (Elt F) → (⟨S128, .f32⟩ : BufTy).Contents (Elt F)),
    StableHlo.binary main_v69 main_v76 main_v77 (addf : (⟨S128, .f32⟩ : BufTy).Contents (Elt F) → (⟨S128, .f32⟩ : BufTy).Contents (Elt F) → (⟨S128, .f32⟩ : BufTy).Contents (Elt F)),
    StableHlo.unary main_v77 main_v78 (Host.rsqrt : (⟨S128, .f32⟩ : BufTy).Contents (Elt F) → (⟨S128, .f32⟩ : BufTy).Contents (Elt F)),
    StableHlo.unary main_v78 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v80 main_v81 (mulf : (⟨S100000x128, .f32⟩ : BufTy).Contents (Elt F) → (⟨S100000x128, .f32⟩ : BufTy).Contents (Elt F) → (⟨S100000x128, .f32⟩ : BufTy).Contents (Elt F)),
    StableHlo.unary main_v65 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v81 main_v83 main_v84 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v84 : StableHlo.TRef sig ⟨S100000x128, .f32⟩) (.of main_call3_v0 : StableHlo.TRef sig ⟨S100000x128, .f32⟩) (.of main_v85 : StableHlo.TRef sig ⟨S100000x128, .f32⟩) maximumf,
    StableHlo.binary main_v39 main_v85 main_v86 (addf : (⟨S100000x128, .f32⟩ : BufTy).Contents (Elt F) → (⟨S100000x128, .f32⟩ : BufTy).Contents (Elt F) → (⟨S100000x128, .f32⟩ : BufTy).Contents (Elt F)) ]

/-- The buffers `p1c` writes, in order. -/
abbrev p1c_W : List (Ref sig .tc) :=
  [main_v70, main_v71, main_v72, main_v73, main_v74, main_v75, main_cst_11, main_v76, main_v77, main_v78, main_v79, main_v80, main_v81, main_v82, main_v83, main_v84, main_call3_cst, main_call3_v0, main_v85, main_v86]

/-- Layer 2's operations, up to the affine part's result (25). -/
abbrev p2a : List (HloOp τ sig (Elt F)) :=
  [ StableHlo.unary main_arg7 main_v87 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v87 main_v88 rfl shapeCasts_S1x128x128_S128x128,
    StableHlo.unary main_arg8 main_v89 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v89 main_v90 rfl shapeCasts_S1x128x128_S128x128,
    StableHlo.unary main_arg9 main_v91 ((extractStridedSlice S1x128 ![1, 0] · slices_S3x128_S1x128_1_0) : (⟨S3x128, .f32⟩ : BufTy).Contents (Elt F) → (⟨S1x128, .f32⟩ : BufTy).Contents (Elt F)),
    StableHlo.reshape main_v91 main_v92 rfl shapeCasts_S1x128_S128,
    StableHlo.nullary main_c_12 (constantI S_ 32 0#32),
    StableHlo.unary main_c_12 main_v93 (broadcastInDim S1600000 ![] bcast_S_S1600000 : (⟨S_, .i32⟩ : BufTy).Contents (Elt F) → (⟨S1600000, .i32⟩ : BufTy).Contents (Elt F)),
    StableHlo.binary main_v1 main_v93 main_v94 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v95 (broadcastInDim S1600000 ![] bcast_S_S1600000 : (⟨S_, .i32⟩ : BufTy).Contents (Elt F) → (⟨S1600000, .i32⟩ : BufTy).Contents (Elt F)),
    StableHlo.binary main_v1 main_v95 main_v96 (addi : (⟨S1600000, .i32⟩ : BufTy).Contents (Elt F) → (⟨S1600000, .i32⟩ : BufTy).Contents (Elt F) → (⟨S1600000, .i32⟩ : BufTy).Contents (Elt F)),
    StableHlo.ternary main_v94 main_v96 main_v1 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v97 main_v98 (broadcastInDim S1600000x1 ![0] bcast_S1600000_S1600000x1_0 : (⟨S1600000, .i32⟩ : BufTy).Contents (Elt F) → (⟨S1600000x1, .i32⟩ : BufTy).Contents (Elt F)),
    StableHlo.binary main_v85 main_v98 main_v99 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v100 (broadcastInDim S100000x128 ![] bcast_S_S100000x128 : (⟨S_, .f32⟩ : BufTy).Contents (Elt F) → (⟨S100000x128, .f32⟩ : BufTy).Contents (Elt F)),
    StableHlo.unary main_v3 main_v101 (broadcastInDim S1600000x1 ![0] bcast_S1600000_S1600000x1_0 : (⟨S1600000, .i32⟩ : BufTy).Contents (Elt F) → (⟨S1600000x1, .i32⟩ : BufTy).Contents (Elt F)),
    StableHlo.ternary main_v100 main_v101 main_v99 main_v102 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v102 main_v88 main_v103 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v85 main_v90 main_v104 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v103 main_v104 main_v105 (addf : (⟨S100000x128, .f32⟩ : BufTy).Contents (Elt F) → (⟨S100000x128, .f32⟩ : BufTy).Contents (Elt F) → (⟨S100000x128, .f32⟩ : BufTy).Contents (Elt F)),
    StableHlo.unary main_v92 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v107 main_v108 (addf : (⟨S100000x128, .f32⟩ : BufTy).Contents (Elt F) → (⟨S100000x128, .f32⟩ : BufTy).Contents (Elt F) → (⟨S100000x128, .f32⟩ : BufTy).Contents (Elt F)) ]

/-- The buffers `p2a` writes, in order. -/
abbrev p2a_W : List (Ref sig .tc) :=
  [main_v87, main_v88, main_v89, main_v90, main_v91, main_v92, main_c_12, main_v93, main_v94, main_c_13, main_v95, main_v96, main_v97, main_v98, main_v99, main_cst_14, main_v100, main_v101, main_v102, main_v103, main_v104, main_v105, main_v106, main_v107, main_v108]

/-- Layer 2's operations, the batch statistics: the mean and the variance routine (32). -/
abbrev p2b : List (HloOp τ sig (Elt F)) :=
  [ StableHlo.unary main_arg10 main_v109 ((extractStridedSlice S1x128 ![1, 0] · slices_S3x128_S1x128_1_0) : (⟨S3x128, .f32⟩ : BufTy).Contents (Elt F) → (⟨S1x128, .f32⟩ : BufTy).Contents (Elt F)),
    StableHlo.reshape main_v109 main_v110 rfl shapeCasts_S1x128_S128,
    StableHlo.unary main_arg11 main_v111 ((extractStridedSlice S1x128 ![1, 0] · slices_S3x128_S1x128_1_0) : (⟨S3x128, .f32⟩ : BufTy).Contents (Elt F) → (⟨S1x128, .f32⟩ : BufTy).Contents (Elt F)),
    StableHlo.reshape main_v111 main_v112 rfl shapeCasts_S1x128_S128,
    StableHlo.nullary main_cst_15 (constant S_ .f32 0x00000000#32),
    StableHlo.binary main_v108 main_cst_15 main_v113 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v114 (broadcastInDim S128 ![] bcast_S_S128 : (⟨S_, .f32⟩ : BufTy).Contents (Elt F) → (⟨S128, .f32⟩ : BufTy).Contents (Elt F)),
    StableHlo.binary main_v113 main_v114 main_v115 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary (.of main_call4_cst : StableHlo.TRef sig ⟨S_, .f32⟩) (constant S_ .f32 0x00000000#32),
    StableHlo.TRef.binary (.of main_v108 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v108 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_17 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v116 : StableHlo.TRef sig ⟨S128, .f32⟩) (fun p a b => select (broadcastInDim S128 ![] bcast_S_S128 p) a b) ]

/-- The buffers `p2b` writes, in order. -/
abbrev p2b_W : List (Ref sig .tc) :=
  [main_v109, main_v110, main_v111, main_v112, main_cst_15, main_v113, main_cst_16, main_v114, main_v115, main_c_17, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v116]

/-- Layer 2's operations, the normalization, the rectifier and the running sum (20). -/
abbrev p2c : List (HloOp τ sig (Elt F)) :=
  [ StableHlo.unary main_v115 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v108 main_v118 main_v119 (subf : (⟨S100000x128, .f32⟩ : BufTy).Contents (Elt F) → (⟨S100000x128, .f32⟩ : BufTy).Contents (Elt F) → (⟨S100000x128, .f32⟩ : BufTy).Contents (Elt F)),
    StableHlo.unary main_v110 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v119 main_v122 (mulf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v123 (broadcastInDim S128 ![] bcast_S_S128 : (⟨S_, .f32⟩ : BufTy).Contents (Elt F) → (⟨S128, .f32⟩ : BufTy).Contents (Elt F)),
    StableHlo.binary main_v116 main_v123 main_v124 (addf : (⟨S128, .f32⟩ : BufTy).Contents (Elt F) → (⟨S128, .f32⟩ : BufTy).Contents (Elt F) → (⟨S128, .f32⟩ : BufTy).Contents (Elt F)),
    StableHlo.unary main_v124 main_v125 (Host.rsqrt : (⟨S128, .f32⟩ : BufTy).Contents (Elt F) → (⟨S128, .f32⟩ : BufTy).Contents (Elt F)),
    StableHlo.unary main_v125 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S100000x128 ![0, 1] bcast_S1x128_S100000x128_0_1 : (⟨S1x128, .f32⟩ : BufTy).Contents (Elt F) → (⟨S100000x128, .f32⟩ : BufTy).Contents (Elt F)),
    StableHlo.binary main_v122 main_v127 main_v128 (mulf : (⟨S100000x128, .f32⟩ : BufTy).Contents (Elt F) → (⟨S100000x128, .f32⟩ : BufTy).Contents (Elt F) → (⟨S100000x128, .f32⟩ : BufTy).Contents (Elt F)),
    StableHlo.unary main_v112 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v128 main_v130 main_v131 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x128, .f32⟩) (broadcastInDim S100000x128 ![] bcast_S_S100000x128),
    StableHlo.TRef.binary (.of main_v131 : StableHlo.TRef sig ⟨S100000x128, .f32⟩) (.of main_call5_v0 : StableHlo.TRef sig ⟨S100000x128, .f32⟩) (.of main_v132 : StableHlo.TRef sig ⟨S100000x128, .f32⟩) maximumf,
    StableHlo.binary main_v86 main_v132 main_v133 (addf : (⟨S100000x128, .f32⟩ : BufTy).Contents (Elt F) → (⟨S100000x128, .f32⟩ : BufTy).Contents (Elt F) → (⟨S100000x128, .f32⟩ : BufTy).Contents (Elt F)) ]

/-- The buffers `p2c` writes, in order. -/
abbrev p2c_W : List (Ref sig .tc) :=
  [main_v117, main_v118, main_v119, main_v120, main_v121, main_v122, main_cst_18, main_v123, main_v124, main_v125, main_v126, main_v127, main_v128, main_v129, main_v130, main_v131, main_call5_cst, main_call5_v0, main_v132, main_v133]

/-- Layer 3's operations, up to the affine part's result (25). -/
abbrev p3a : List (HloOp τ sig (Elt F)) :=
  [ StableHlo.unary main_arg7 main_v134 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v134 main_v135 rfl shapeCasts_S1x128x128_S128x128,
    StableHlo.unary main_arg8 main_v136 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v136 main_v137 rfl shapeCasts_S1x128x128_S128x128,
    StableHlo.unary main_arg9 main_v138 ((extractStridedSlice S1x128 ![2, 0] · slices_S3x128_S1x128_2_0) : (⟨S3x128, .f32⟩ : BufTy).Contents (Elt F) → (⟨S1x128, .f32⟩ : BufTy).Contents (Elt F)),
    StableHlo.reshape main_v138 main_v139 rfl shapeCasts_S1x128_S128,
    StableHlo.nullary main_c_19 (constantI S_ 32 0#32),
    StableHlo.unary main_c_19 main_v140 (broadcastInDim S1600000 ![] bcast_S_S1600000 : (⟨S_, .i32⟩ : BufTy).Contents (Elt F) → (⟨S1600000, .i32⟩ : BufTy).Contents (Elt F)),
    StableHlo.binary main_v1 main_v140 main_v141 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v142 (broadcastInDim S1600000 ![] bcast_S_S1600000 : (⟨S_, .i32⟩ : BufTy).Contents (Elt F) → (⟨S1600000, .i32⟩ : BufTy).Contents (Elt F)),
    StableHlo.binary main_v1 main_v142 main_v143 (addi : (⟨S1600000, .i32⟩ : BufTy).Contents (Elt F) → (⟨S1600000, .i32⟩ : BufTy).Contents (Elt F) → (⟨S1600000, .i32⟩ : BufTy).Contents (Elt F)),
    StableHlo.ternary main_v141 main_v143 main_v1 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v144 main_v145 (broadcastInDim S1600000x1 ![0] bcast_S1600000_S1600000x1_0 : (⟨S1600000, .i32⟩ : BufTy).Contents (Elt F) → (⟨S1600000x1, .i32⟩ : BufTy).Contents (Elt F)),
    StableHlo.binary main_v132 main_v145 main_v146 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_21 (constant S_ .f32 0x00000000#32),
    StableHlo.unary main_cst_21 main_v147 (broadcastInDim S100000x128 ![] bcast_S_S100000x128 : (⟨S_, .f32⟩ : BufTy).Contents (Elt F) → (⟨S100000x128, .f32⟩ : BufTy).Contents (Elt F)),
    StableHlo.unary main_v3 main_v148 (broadcastInDim S1600000x1 ![0] bcast_S1600000_S1600000x1_0 : (⟨S1600000, .i32⟩ : BufTy).Contents (Elt F) → (⟨S1600000x1, .i32⟩ : BufTy).Contents (Elt F)),
    StableHlo.ternary main_v147 main_v148 main_v146 main_v149 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v149 main_v135 main_v150 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v132 main_v137 main_v151 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v150 main_v151 main_v152 (addf : (⟨S100000x128, .f32⟩ : BufTy).Contents (Elt F) → (⟨S100000x128, .f32⟩ : BufTy).Contents (Elt F) → (⟨S100000x128, .f32⟩ : BufTy).Contents (Elt F)),
    StableHlo.unary main_v139 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)),
    StableHlo.binary main_v152 main_v154 main_v155 (addf : (⟨S100000x128, .f32⟩ : BufTy).Contents (Elt F) → (⟨S100000x128, .f32⟩ : BufTy).Contents (Elt F) → (⟨S100000x128, .f32⟩ : BufTy).Contents (Elt F)) ]

/-- The buffers `p3a` writes, in order. -/
abbrev p3a_W : List (Ref sig .tc) :=
  [main_v134, main_v135, main_v136, main_v137, main_v138, main_v139, main_c_19, main_v140, main_v141, main_c_20, main_v142, main_v143, main_v144, main_v145, main_v146, main_cst_21, main_v147, main_v148, main_v149, main_v150, main_v151, main_v152, main_v153, main_v154, main_v155]

/-- Layer 3's operations, the batch statistics: the mean and the variance routine (32). -/
abbrev p3b : List (HloOp τ sig (Elt F)) :=
  [ StableHlo.unary main_arg10 main_v156 ((extractStridedSlice S1x128 ![2, 0] · slices_S3x128_S1x128_2_0) : (⟨S3x128, .f32⟩ : BufTy).Contents (Elt F) → (⟨S1x128, .f32⟩ : BufTy).Contents (Elt F)),
    StableHlo.reshape main_v156 main_v157 rfl shapeCasts_S1x128_S128,
    StableHlo.unary main_arg11 main_v158 ((extractStridedSlice S1x128 ![2, 0] · slices_S3x128_S1x128_2_0) : (⟨S3x128, .f32⟩ : BufTy).Contents (Elt F) → (⟨S1x128, .f32⟩ : BufTy).Contents (Elt F)),
    StableHlo.reshape main_v158 main_v159 rfl shapeCasts_S1x128_S128,
    StableHlo.nullary main_cst_22 (constant S_ .f32 0x00000000#32),
    StableHlo.binary main_v155 main_cst_22 main_v160 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v161 (broadcastInDim S128 ![] bcast_S_S128 : (⟨S_, .f32⟩ : BufTy).Contents (Elt F) → (⟨S128, .f32⟩ : BufTy).Contents (Elt F)),
    StableHlo.binary main_v160 main_v161 main_v162 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary (.of main_call6_cst : StableHlo.TRef sig ⟨S_, .f32⟩) (constant S_ .f32 0x00000000#32),
    StableHlo.TRef.binary (.of main_v155 : StableHlo.TRef sig ⟨S100000x128, .f32⟩) (.of main_call6_cst : StableHlo.TRef sig ⟨S_, .f32⟩) (.of main_call6_v0 : StableHlo.TRef sig ⟨S128, .f32⟩) (fun x v => Host.reduceAdd x v reducesTo_S100000x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S100000x128, .f32⟩) (broadcastInDim S100000x128 ![0, 1] bcast_S1x128_S100000x128_0_1),
    StableHlo.TRef.binary (.of main_v155 : StableHlo.TRef sig ⟨S100000x128, .f32⟩) (.of main_call6_v4 : StableHlo.TRef sig ⟨S100000x128, .f32⟩) (.of main_call6_v5 : StableHlo.TRef sig ⟨S100000x128, .f32⟩) subf,
    StableHlo.TRef.binary (.of main_call6_v5 : StableHlo.TRef sig ⟨S100000x128, .f32⟩) (.of main_call6_v5 : StableHlo.TRef sig ⟨S100000x128, .f32⟩) (.of main_call6_v6 : StableHlo.TRef sig ⟨S100000x128, .f32⟩) mulf,
    StableHlo.TRef.unary (.of main_c_24 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x128, .f32⟩) (.of main_call6_cst_2 : StableHlo.TRef sig ⟨S_, .f32⟩) (.of main_call6_v9 : StableHlo.TRef sig ⟨S128, .f32⟩) (fun x v => Host.reduceAdd x v reducesTo_S100000x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v163 : StableHlo.TRef sig ⟨S128, .f32⟩) (fun p a b => select (broadcastInDim S128 ![] bcast_S_S128 p) a b) ]

/-- The buffers `p3b` writes, in order. -/
abbrev p3b_W : List (Ref sig .tc) :=
  [main_v156, main_v157, main_v158, main_v159, main_cst_22, main_v160, main_cst_23, main_v161, main_v162, main_c_24, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v163]

/-- Layer 3's operations, the normalization, the rectifier and the running sum (20). -/
abbrev p3c : List (HloOp τ sig (Elt F)) :=
  [ StableHlo.unary main_v162 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S100000x128 ![0, 1] bcast_S1x128_S100000x128_0_1 : (⟨S1x128, .f32⟩ : BufTy).Contents (Elt F) → (⟨S100000x128, .f32⟩ : BufTy).Contents (Elt F)),
    StableHlo.binary main_v155 main_v165 main_v166 (subf : (⟨S100000x128, .f32⟩ : BufTy).Contents (Elt F) → (⟨S100000x128, .f32⟩ : BufTy).Contents (Elt F) → (⟨S100000x128, .f32⟩ : BufTy).Contents (Elt F)),
    StableHlo.unary main_v157 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v166 main_v169 (mulf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v170 (broadcastInDim S128 ![] bcast_S_S128 : (⟨S_, .f32⟩ : BufTy).Contents (Elt F) → (⟨S128, .f32⟩ : BufTy).Contents (Elt F)),
    StableHlo.binary main_v163 main_v170 main_v171 (addf : (⟨S128, .f32⟩ : BufTy).Contents (Elt F) → (⟨S128, .f32⟩ : BufTy).Contents (Elt F) → (⟨S128, .f32⟩ : BufTy).Contents (Elt F)),
    StableHlo.unary main_v171 main_v172 (Host.rsqrt : (⟨S128, .f32⟩ : BufTy).Contents (Elt F) → (⟨S128, .f32⟩ : BufTy).Contents (Elt F)),
    StableHlo.unary main_v172 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v174 main_v175 (mulf : (⟨S100000x128, .f32⟩ : BufTy).Contents (Elt F) → (⟨S100000x128, .f32⟩ : BufTy).Contents (Elt F) → (⟨S100000x128, .f32⟩ : BufTy).Contents (Elt F)),
    StableHlo.unary main_v159 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v175 main_v177 main_v178 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x128, .f32⟩) (broadcastInDim S100000x128 ![] bcast_S_S100000x128),
    StableHlo.TRef.binary (.of main_v178 : StableHlo.TRef sig ⟨S100000x128, .f32⟩) (.of main_call7_v0 : StableHlo.TRef sig ⟨S100000x128, .f32⟩) (.of main_v179 : StableHlo.TRef sig ⟨S100000x128, .f32⟩) maximumf,
    StableHlo.binary main_v133 main_v179 main_v180 (addf : (⟨S100000x128, .f32⟩ : BufTy).Contents (Elt F) → (⟨S100000x128, .f32⟩ : BufTy).Contents (Elt F) → (⟨S100000x128, .f32⟩ : BufTy).Contents (Elt F)) ]

/-- The buffers `p3c` writes, in order. -/
abbrev p3c_W : List (Ref sig .tc) :=
  [main_v164, main_v165, main_v166, main_v167, main_v168, main_v169, main_cst_25, main_v170, main_v171, main_v172, main_v173, main_v174, main_v175, main_v176, main_v177, main_v178, main_call7_cst, main_call7_v0, main_v179, main_v180]

/-! ## Each layer's list is its three pieces in a row -/

theorem ops0_eq : (ops0 : List (HloOp τ sig (Elt F))) = p0a ++ p0b ++ p0c := rfl
theorem ops1_eq : (ops1 : List (HloOp τ sig (Elt F))) = p1a ++ p1b ++ p1c := rfl
theorem ops2_eq : (ops2 : List (HloOp τ sig (Elt F))) = p2a ++ p2b ++ p2c := rfl
theorem ops3_eq : (ops3 : List (HloOp τ sig (Elt F))) = p3a ++ p3b ++ p3c := rfl

/-! ## What a piece does not write, it keeps

Every operation here writes exactly one buffer, its result's; a piece's list `_W` names them all, so a buffer
not on the list is written by no operation of the piece and holds after the piece what it held before. -/

/-- Each operation of a literal list writes one buffer, and that buffer is on the list of the written ones. -/
local macro "writes_listed" : tactic =>
  `(tactic| (simp only [List.Forall]
             repeat' apply And.intro
             all_goals
               (simp only [StableHlo.nullary_writes, StableHlo.unary_writes, StableHlo.binary_writes,
                  StableHlo.ternary_writes, StableHlo.reshape_writes, Finset.singleton_subset_iff, List.mem_toFinset]
                exact List.mem_map_of_mem (by decide))))

theorem p0a_writes : (p0a : List (HloOp τ sig (Elt F))).Forall fun op =>
    op.writes ⊆ (p0a_W.map (Proc.devRef (τ := τ) .tc)).toFinset := by writes_listed
theorem p0a_keep (V : Valuation τ sig (Elt F)) (r : Ref sig .tc) (h : r ∉ p0a_W) :
    StableHlo.after p0a V (Proc.devRef .tc r) = V (Proc.devRef .tc r) :=
  StableHlo.after_of_writes_sub p0a V p0a_writes h

theorem p0b_writes : (p0b : List (HloOp τ sig (Elt F))).Forall fun op =>
    op.writes ⊆ (p0b_W.map (Proc.devRef (τ := τ) .tc)).toFinset := by writes_listed
theorem p0b_keep (V : Valuation τ sig (Elt F)) (r : Ref sig .tc) (h : r ∉ p0b_W) :
    StableHlo.after p0b V (Proc.devRef .tc r) = V (Proc.devRef .tc r) :=
  StableHlo.after_of_writes_sub p0b V p0b_writes h

theorem p0c_writes : (p0c : List (HloOp τ sig (Elt F))).Forall fun op =>
    op.writes ⊆ (p0c_W.map (Proc.devRef (τ := τ) .tc)).toFinset := by writes_listed
theorem p0c_keep (V : Valuation τ sig (Elt F)) (r : Ref sig .tc) (h : r ∉ p0c_W) :
    StableHlo.after p0c V (Proc.devRef .tc r) = V (Proc.devRef .tc r) :=
  StableHlo.after_of_writes_sub p0c V p0c_writes h

theorem p1a_writes : (p1a : List (HloOp τ sig (Elt F))).Forall fun op =>
    op.writes ⊆ (p1a_W.map (Proc.devRef (τ := τ) .tc)).toFinset := by writes_listed
theorem p1a_keep (V : Valuation τ sig (Elt F)) (r : Ref sig .tc) (h : r ∉ p1a_W) :
    StableHlo.after p1a V (Proc.devRef .tc r) = V (Proc.devRef .tc r) :=
  StableHlo.after_of_writes_sub p1a V p1a_writes h

theorem p1b_writes : (p1b : List (HloOp τ sig (Elt F))).Forall fun op =>
    op.writes ⊆ (p1b_W.map (Proc.devRef (τ := τ) .tc)).toFinset := by writes_listed
theorem p1b_keep (V : Valuation τ sig (Elt F)) (r : Ref sig .tc) (h : r ∉ p1b_W) :
    StableHlo.after p1b V (Proc.devRef .tc r) = V (Proc.devRef .tc r) :=
  StableHlo.after_of_writes_sub p1b V p1b_writes h

theorem p1c_writes : (p1c : List (HloOp τ sig (Elt F))).Forall fun op =>
    op.writes ⊆ (p1c_W.map (Proc.devRef (τ := τ) .tc)).toFinset := by writes_listed
theorem p1c_keep (V : Valuation τ sig (Elt F)) (r : Ref sig .tc) (h : r ∉ p1c_W) :
    StableHlo.after p1c V (Proc.devRef .tc r) = V (Proc.devRef .tc r) :=
  StableHlo.after_of_writes_sub p1c V p1c_writes h

theorem p2a_writes : (p2a : List (HloOp τ sig (Elt F))).Forall fun op =>
    op.writes ⊆ (p2a_W.map (Proc.devRef (τ := τ) .tc)).toFinset := by writes_listed
theorem p2a_keep (V : Valuation τ sig (Elt F)) (r : Ref sig .tc) (h : r ∉ p2a_W) :
    StableHlo.after p2a V (Proc.devRef .tc r) = V (Proc.devRef .tc r) :=
  StableHlo.after_of_writes_sub p2a V p2a_writes h

theorem p2b_writes : (p2b : List (HloOp τ sig (Elt F))).Forall fun op =>
    op.writes ⊆ (p2b_W.map (Proc.devRef (τ := τ) .tc)).toFinset := by writes_listed
theorem p2b_keep (V : Valuation τ sig (Elt F)) (r : Ref sig .tc) (h : r ∉ p2b_W) :
    StableHlo.after p2b V (Proc.devRef .tc r) = V (Proc.devRef .tc r) :=
  StableHlo.after_of_writes_sub p2b V p2b_writes h

theorem p2c_writes : (p2c : List (HloOp τ sig (Elt F))).Forall fun op =>
    op.writes ⊆ (p2c_W.map (Proc.devRef (τ := τ) .tc)).toFinset := by writes_listed
theorem p2c_keep (V : Valuation τ sig (Elt F)) (r : Ref sig .tc) (h : r ∉ p2c_W) :
    StableHlo.after p2c V (Proc.devRef .tc r) = V (Proc.devRef .tc r) :=
  StableHlo.after_of_writes_sub p2c V p2c_writes h

theorem p3a_writes : (p3a : List (HloOp τ sig (Elt F))).Forall fun op =>
    op.writes ⊆ (p3a_W.map (Proc.devRef (τ := τ) .tc)).toFinset := by writes_listed
theorem p3a_keep (V : Valuation τ sig (Elt F)) (r : Ref sig .tc) (h : r ∉ p3a_W) :
    StableHlo.after p3a V (Proc.devRef .tc r) = V (Proc.devRef .tc r) :=
  StableHlo.after_of_writes_sub p3a V p3a_writes h

theorem p3b_writes : (p3b : List (HloOp τ sig (Elt F))).Forall fun op =>
    op.writes ⊆ (p3b_W.map (Proc.devRef (τ := τ) .tc)).toFinset := by writes_listed
theorem p3b_keep (V : Valuation τ sig (Elt F)) (r : Ref sig .tc) (h : r ∉ p3b_W) :
    StableHlo.after p3b V (Proc.devRef .tc r) = V (Proc.devRef .tc r) :=
  StableHlo.after_of_writes_sub p3b V p3b_writes h

theorem p3c_writes : (p3c : List (HloOp τ sig (Elt F))).Forall fun op =>
    op.writes ⊆ (p3c_W.map (Proc.devRef (τ := τ) .tc)).toFinset := by writes_listed
theorem p3c_keep (V : Valuation τ sig (Elt F)) (r : Ref sig .tc) (h : r ∉ p3c_W) :
    StableHlo.after p3c V (Proc.devRef .tc r) = V (Proc.devRef .tc r) :=
  StableHlo.after_of_writes_sub p3c V p3c_writes h

/-! ## The same for a layer's whole list, and for the four in a row -/

theorem ops0_keep (V : Valuation τ sig (Elt F)) (r : Ref sig .tc) (ha : r ∉ p0a_W) (hb : r ∉ p0b_W) (hc : r ∉ p0c_W) :
    StableHlo.after ops0 V (Proc.devRef .tc r) = V (Proc.devRef .tc r) := by
  rw [ops0_eq, StableHlo.after_append, StableHlo.after_append, p0c_keep _ r hc, p0b_keep _ r hb, p0a_keep _ r ha]

theorem ops1_keep (V : Valuation τ sig (Elt F)) (r : Ref sig .tc) (ha : r ∉ p1a_W) (hb : r ∉ p1b_W) (hc : r ∉ p1c_W) :
    StableHlo.after ops1 V (Proc.devRef .tc r) = V (Proc.devRef .tc r) := by
  rw [ops1_eq, StableHlo.after_append, StableHlo.after_append, p1c_keep _ r hc, p1b_keep _ r hb, p1a_keep _ r ha]

theorem ops2_keep (V : Valuation τ sig (Elt F)) (r : Ref sig .tc) (ha : r ∉ p2a_W) (hb : r ∉ p2b_W) (hc : r ∉ p2c_W) :
    StableHlo.after ops2 V (Proc.devRef .tc r) = V (Proc.devRef .tc r) := by
  rw [ops2_eq, StableHlo.after_append, StableHlo.after_append, p2c_keep _ r hc, p2b_keep _ r hb, p2a_keep _ r ha]

theorem ops3_keep (V : Valuation τ sig (Elt F)) (r : Ref sig .tc) (ha : r ∉ p3a_W) (hb : r ∉ p3b_W) (hc : r ∉ p3c_W) :
    StableHlo.after ops3 V (Proc.devRef .tc r) = V (Proc.devRef .tc r) := by
  rw [ops3_eq, StableHlo.after_append, StableHlo.after_append, p3c_keep _ r hc, p3b_keep _ r hb, p3a_keep _ r ha]

/-- The four layers' lists run in a row are the last run on what the first three leave. -/
theorem after_layers (V : Valuation τ sig (Elt F)) :
    StableHlo.after (ops0 ++ ops1 ++ ops2 ++ ops3) V
      = StableHlo.after ops3 (StableHlo.after ops2 (StableHlo.after ops1 (StableHlo.after ops0 V))) := by
  rw [StableHlo.after_append, StableHlo.after_append, StableHlo.after_append]

/-- A buffer none of the 301 operations writes holds at the end what it held at the start. -/
theorem all_keep (V : Valuation τ sig (Elt F)) (r : Ref sig .tc)
    (h : r ∉ p0a_W ++ p0b_W ++ p0c_W ++ (p1a_W ++ p1b_W ++ p1c_W) ++ (p2a_W ++ p2b_W ++ p2c_W) ++ (p3a_W ++ p3b_W ++ p3c_W)) :
    StableHlo.after (ops0 ++ ops1 ++ ops2 ++ ops3) V (Proc.devRef .tc r) = V (Proc.devRef .tc r) := by
  simp only [List.mem_append, not_or] at h
  obtain ⟨⟨⟨⟨⟨h0a, h0b⟩, h0c⟩, ⟨h1a, h1b⟩, h1c⟩, ⟨h2a, h2b⟩, h2c⟩, ⟨h3a, h3b⟩, h3c⟩ := h
  rw [after_layers, ops3_keep _ r h3a h3b h3c, ops2_keep _ r h2a h2b h2c, ops1_keep _ r h1a h1b h1c, ops0_keep _ r h0a h0b h0c]

end Cert.ReferenceIdeal.RefPieces

end
-- ==== Proof.RefValue.lean ====
/-
  What the reference's operations leave in the buffers, as the specification's functions of what they find.

  Piece by piece first (each piece of a layer's list is short, and what it leaves in a buffer is a small term of
  the contents of a few buffers it finds): the affine part `lin (agg h s d) h W_rel W_root b`; the column mean
  and the column variance of that; the normalization, rectified, and the running sum. Then layer by layer: a
  layer's list leaves its output at `Spec.layer` of its input, of the two edge-index vectors and of its
  parameters, its running sum at the previous sum plus that, and the edge vectors and the arguments where they
  were. Then the whole line: the last buffer holds `Spec.out` of the twelve arguments, and every argument is
  kept.
-/
import proofs.«145014_j19963007992111_1_alg».proof.Proof.RefPieces
import proofs.«145014_j19963007992111_1_alg».proof.Proof.SpecOut

set_option maxRecDepth 8192

noncomputable section

namespace Cert.ReferenceIdeal.RefValue

open Cert.ReferenceIdeal Cert.ReferenceIdeal.Facts₀ Cert.ReferenceIdeal.RefRun Cert.ReferenceIdeal.RefPieces Cert.Spec
open Idealize.ShloMosaic Idealize.ShloMosaic.TcCoe Idealize.SL.Sem

/-- The normalization with the statistics given: relu (g · (x − m) · (v + ε)^(-1/2) + b), every parameter a
    feature vector. -/
def bnWith (x : Node) (m v g be : Lane) : Node :=
  maximumf
    (addf (mulf (mulf (rep (row g)) (subf x (rep (row m))))
                (rep (row (Host.rsqrt (addf v (broadcastInDim S128 ![] bcast_S_S128 (constant (F := Ideal) S_ .f32 0x3727C5AC#32)))))))
          (rep (row be)))
    zeros

/-- The specification's normalization is that one at the array's own column mean and variance. -/
theorem bnRef_eq (x : Node) (g be : Lane) : bnRef x g be = bnWith x (mean x) (var x) g be := rfl

-- the gather, the scatter-add, the column sum and the matrix product are kept folded: no equation below looks
-- inside them, and their bodies are sums and searches over a hundred thousand rows
attribute [local irreducible] Host.gather Host.scatterAdd Host.reduceAdd Ideal.matmul

/-! ## The pieces, from any contents `W` -/

section Pieces
variable (W : Valuation τ sig (Elt Ideal))

/-! ### The input layer -/

theorem p0a_src : StableHlo.after (p0a (F := Ideal)) W (Proc.devRef .tc main_v1) = src (W (Proc.devRef .tc main_arg1)) := by
  after_results_simp
  rfl
theorem p0a_dst : StableHlo.after (p0a (F := Ideal)) W (Proc.devRef .tc main_v3) = dst (W (Proc.devRef .tc main_arg1)) := by
  after_results_simp
  rfl
theorem p0a_lin : StableHlo.after (p0a (F := Ideal)) W (Proc.devRef .tc main_v19)
    = lin (agg (W (Proc.devRef .tc main_arg0)) (src (W (Proc.devRef .tc main_arg1))) (dst (W (Proc.devRef .tc main_arg1)))) (W (Proc.devRef .tc main_arg0))
        (W (Proc.devRef .tc main_arg2)) (W (Proc.devRef .tc main_arg3)) (row (W (Proc.devRef .tc main_arg4))) := by
  after_results_simp
  rfl
theorem p0b_mean : StableHlo.after (p0b (F := Ideal)) W (Proc.devRef .tc main_v22) = mean (W (Proc.devRef .tc main_v19)) := by
  after_results_simp
  rfl
theorem p0b_var : StableHlo.after (p0b (F := Ideal)) W (Proc.devRef .tc main_v23) = var (W (Proc.devRef .tc main_v19)) := by
  after_results_simp
  rfl
theorem p0c_out : StableHlo.after (p0c (F := Ideal)) W (Proc.devRef .tc main_v39)
    = bnWith (W (Proc.devRef .tc main_v19)) (W (Proc.devRef .tc main_v22)) (W (Proc.devRef .tc main_v23)) (W (Proc.devRef .tc main_arg5)) (W (Proc.devRef .tc main_arg6)) := by
  after_results_simp
  rfl

/-! ### The first residual layer -/

theorem p1a_lin : StableHlo.after (p1a (F := Ideal)) W (Proc.devRef .tc main_v61)
    = lin (agg (W (Proc.devRef .tc main_v39)) (W (Proc.devRef .tc main_v1)) (W (Proc.devRef .tc main_v3))) (W (Proc.devRef .tc main_v39))
        (mat3 ![0, 0, 0] slices_S3x128x128_S1x128x128_0_0_0 (W (Proc.devRef .tc main_arg7))) (mat3 ![0, 0, 0] slices_S3x128x128_S1x128x128_0_0_0 (W (Proc.devRef .tc main_arg8)))
        (row (vec3 ![0, 0] slices_S3x128_S1x128_0_0 (W (Proc.devRef .tc main_arg9)))) := by
  after_results_simp
  rfl
theorem p1b_g : StableHlo.after (p1b (F := Ideal)) W (Proc.devRef .tc main_v63) = vec3 ![0, 0] slices_S3x128_S1x128_0_0 (W (Proc.devRef .tc main_arg10)) := by
  after_results_simp
  rfl
theorem p1b_be : StableHlo.after (p1b (F := Ideal)) W (Proc.devRef .tc main_v65) = vec3 ![0, 0] slices_S3x128_S1x128_0_0 (W (Proc.devRef .tc main_arg11)) := by
  after_results_simp
  rfl
theorem p1b_mean : StableHlo.after (p1b (F := Ideal)) W (Proc.devRef .tc main_v68) = mean (W (Proc.devRef .tc main_v61)) := by
  after_results_simp
  rfl
theorem p1b_var : StableHlo.after (p1b (F := Ideal)) W (Proc.devRef .tc main_v69) = var (W (Proc.devRef .tc main_v61)) := by
  after_results_simp
  rfl
theorem p1c_out : StableHlo.after (p1c (F := Ideal)) W (Proc.devRef .tc main_v85)
    = bnWith (W (Proc.devRef .tc main_v61)) (W (Proc.devRef .tc main_v68)) (W (Proc.devRef .tc main_v69)) (W (Proc.devRef .tc main_v63)) (W (Proc.devRef .tc main_v65)) := by
  after_results_simp
  rfl
theorem p1c_sum : StableHlo.after (p1c (F := Ideal)) W (Proc.devRef .tc main_v86)
    = addf (W (Proc.devRef .tc main_v39)) (bnWith (W (Proc.devRef .tc main_v61)) (W (Proc.devRef .tc main_v68)) (W (Proc.devRef .tc main_v69)) (W (Proc.devRef .tc main_v63)) (W (Proc.devRef .tc main_v65))) := by
  after_results_simp
  rfl

/-! ### The second residual layer -/

theorem p2a_lin : StableHlo.after (p2a (F := Ideal)) W (Proc.devRef .tc main_v108)
    = lin (agg (W (Proc.devRef .tc main_v85)) (W (Proc.devRef .tc main_v1)) (W (Proc.devRef .tc main_v3))) (W (Proc.devRef .tc main_v85))
        (mat3 ![1, 0, 0] slices_S3x128x128_S1x128x128_1_0_0 (W (Proc.devRef .tc main_arg7))) (mat3 ![1, 0, 0] slices_S3x128x128_S1x128x128_1_0_0 (W (Proc.devRef .tc main_arg8)))
        (row (vec3 ![1, 0] slices_S3x128_S1x128_1_0 (W (Proc.devRef .tc main_arg9)))) := by
  after_results_simp
  rfl
theorem p2b_g : StableHlo.after (p2b (F := Ideal)) W (Proc.devRef .tc main_v110) = vec3 ![1, 0] slices_S3x128_S1x128_1_0 (W (Proc.devRef .tc main_arg10)) := by
  after_results_simp
  rfl
theorem p2b_be : StableHlo.after (p2b (F := Ideal)) W (Proc.devRef .tc main_v112) = vec3 ![1, 0] slices_S3x128_S1x128_1_0 (W (Proc.devRef .tc main_arg11)) := by
  after_results_simp
  rfl
theorem p2b_mean : StableHlo.after (p2b (F := Ideal)) W (Proc.devRef .tc main_v115) = mean (W (Proc.devRef .tc main_v108)) := by
  after_results_simp
  rfl
theorem p2b_var : StableHlo.after (p2b (F := Ideal)) W (Proc.devRef .tc main_v116) = var (W (Proc.devRef .tc main_v108)) := by
  after_results_simp
  rfl
theorem p2c_out : StableHlo.after (p2c (F := Ideal)) W (Proc.devRef .tc main_v132)
    = bnWith (W (Proc.devRef .tc main_v108)) (W (Proc.devRef .tc main_v115)) (W (Proc.devRef .tc main_v116)) (W (Proc.devRef .tc main_v110)) (W (Proc.devRef .tc main_v112)) := by
  after_results_simp
  rfl
theorem p2c_sum : StableHlo.after (p2c (F := Ideal)) W (Proc.devRef .tc main_v133)
    = addf (W (Proc.devRef .tc main_v86)) (bnWith (W (Proc.devRef .tc main_v108)) (W (Proc.devRef .tc main_v115)) (W (Proc.devRef .tc main_v116)) (W (Proc.devRef .tc main_v110)) (W (Proc.devRef .tc main_v112))) := by
  after_results_simp
  rfl

/-! ### The third residual layer -/

theorem p3a_lin : StableHlo.after (p3a (F := Ideal)) W (Proc.devRef .tc main_v155)
    = lin (agg (W (Proc.devRef .tc main_v132)) (W (Proc.devRef .tc main_v1)) (W (Proc.devRef .tc main_v3))) (W (Proc.devRef .tc main_v132))
        (mat3 ![2, 0, 0] slices_S3x128x128_S1x128x128_2_0_0 (W (Proc.devRef .tc main_arg7))) (mat3 ![2, 0, 0] slices_S3x128x128_S1x128x128_2_0_0 (W (Proc.devRef .tc main_arg8)))
        (row (vec3 ![2, 0] slices_S3x128_S1x128_2_0 (W (Proc.devRef .tc main_arg9)))) := by
  after_results_simp
  rfl
theorem p3b_g : StableHlo.after (p3b (F := Ideal)) W (Proc.devRef .tc main_v157) = vec3 ![2, 0] slices_S3x128_S1x128_2_0 (W (Proc.devRef .tc main_arg10)) := by
  after_results_simp
  rfl
theorem p3b_be : StableHlo.after (p3b (F := Ideal)) W (Proc.devRef .tc main_v159) = vec3 ![2, 0] slices_S3x128_S1x128_2_0 (W (Proc.devRef .tc main_arg11)) := by
  after_results_simp
  rfl
theorem p3b_mean : StableHlo.after (p3b (F := Ideal)) W (Proc.devRef .tc main_v162) = mean (W (Proc.devRef .tc main_v155)) := by
  after_results_simp
  rfl
theorem p3b_var : StableHlo.after (p3b (F := Ideal)) W (Proc.devRef .tc main_v163) = var (W (Proc.devRef .tc main_v155)) := by
  after_results_simp
  rfl
theorem p3c_out : StableHlo.after (p3c (F := Ideal)) W (Proc.devRef .tc main_v179)
    = bnWith (W (Proc.devRef .tc main_v155)) (W (Proc.devRef .tc main_v162)) (W (Proc.devRef .tc main_v163)) (W (Proc.devRef .tc main_v157)) (W (Proc.devRef .tc main_v159)) := by
  after_results_simp
  rfl
theorem p3c_sum : StableHlo.after (p3c (F := Ideal)) W (Proc.devRef .tc main_v180)
    = addf (W (Proc.devRef .tc main_v133)) (bnWith (W (Proc.devRef .tc main_v155)) (W (Proc.devRef .tc main_v162)) (W (Proc.devRef .tc main_v163)) (W (Proc.devRef .tc main_v157)) (W (Proc.devRef .tc main_v159))) := by
  after_results_simp
  rfl

end Pieces

/-! ## The layers, from any contents `V` -/

section Layers
variable (V : Valuation τ sig (Elt Ideal))

/-! ### The input layer: its output, the two edge-index vectors it leaves for the next three, the stacked parameters kept -/

theorem chunk0_v39 : StableHlo.after (ops0 (F := Ideal)) V (Proc.devRef .tc main_v39)
    = layer (V (Proc.devRef .tc main_arg0)) (src (V (Proc.devRef .tc main_arg1))) (dst (V (Proc.devRef .tc main_arg1))) (V (Proc.devRef .tc main_arg2)) (V (Proc.devRef .tc main_arg3))
        (V (Proc.devRef .tc main_arg4)) (V (Proc.devRef .tc main_arg5)) (V (Proc.devRef .tc main_arg6)) := by
  rw [ops0_eq, StableHlo.after_append, StableHlo.after_append, p0c_out, p0b_keep _ main_v19 (by decide), p0b_mean, p0b_var,
    p0b_keep _ main_arg5 (by decide), p0b_keep _ main_arg6 (by decide), p0a_lin, p0a_keep _ main_arg5 (by decide),
    p0a_keep _ main_arg6 (by decide)]
  rfl
theorem chunk0_v1 : StableHlo.after (ops0 (F := Ideal)) V (Proc.devRef .tc main_v1) = src (V (Proc.devRef .tc main_arg1)) := by
  rw [ops0_eq, StableHlo.after_append, StableHlo.after_append, p0c_keep _ main_v1 (by decide), p0b_keep _ main_v1 (by decide), p0a_src]
theorem chunk0_v3 : StableHlo.after (ops0 (F := Ideal)) V (Proc.devRef .tc main_v3) = dst (V (Proc.devRef .tc main_arg1)) := by
  rw [ops0_eq, StableHlo.after_append, StableHlo.after_append, p0c_keep _ main_v3 (by decide), p0b_keep _ main_v3 (by decide), p0a_dst]
theorem chunk0_arg7 : StableHlo.after (ops0 (F := Ideal)) V (Proc.devRef .tc main_arg7) = V (Proc.devRef .tc main_arg7) :=
  ops0_keep V main_arg7 (by decide) (by decide) (by decide)
theorem chunk0_arg8 : StableHlo.after (ops0 (F := Ideal)) V (Proc.devRef .tc main_arg8) = V (Proc.devRef .tc main_arg8) :=
  ops0_keep V main_arg8 (by decide) (by decide) (by decide)
theorem chunk0_arg9 : StableHlo.after (ops0 (F := Ideal)) V (Proc.devRef .tc main_arg9) = V (Proc.devRef .tc main_arg9) :=
  ops0_keep V main_arg9 (by decide) (by decide) (by decide)
theorem chunk0_arg10 : StableHlo.after (ops0 (F := Ideal)) V (Proc.devRef .tc main_arg10) = V (Proc.devRef .tc main_arg10) :=
  ops0_keep V main_arg10 (by decide) (by decide) (by decide)
theorem chunk0_arg11 : StableHlo.after (ops0 (F := Ideal)) V (Proc.devRef .tc main_arg11) = V (Proc.devRef .tc main_arg11) :=
  ops0_keep V main_arg11 (by decide) (by decide) (by decide)

/-! ### The first residual layer: its output, the running sum, the edge vectors and the stacked parameters kept -/

theorem chunk1_out : StableHlo.after (ops1 (F := Ideal)) V (Proc.devRef .tc main_v85)
    = mid0 (V (Proc.devRef .tc main_v39)) (V (Proc.devRef .tc main_v1)) (V (Proc.devRef .tc main_v3))
        (V (Proc.devRef .tc main_arg7)) (V (Proc.devRef .tc main_arg8)) (V (Proc.devRef .tc main_arg9)) (V (Proc.devRef .tc main_arg10)) (V (Proc.devRef .tc main_arg11)) := by
  rw [ops1_eq, StableHlo.after_append, StableHlo.after_append, p1c_out, p1b_keep _ main_v61 (by decide), p1b_mean, p1b_var,
    p1b_g, p1b_be, p1a_lin, p1a_keep _ main_arg10 (by decide), p1a_keep _ main_arg11 (by decide)]
  rfl
theorem chunk1_sum : StableHlo.after (ops1 (F := Ideal)) V (Proc.devRef .tc main_v86)
    = addf (V (Proc.devRef .tc main_v39)) (mid0 (V (Proc.devRef .tc main_v39)) (V (Proc.devRef .tc main_v1)) (V (Proc.devRef .tc main_v3))
        (V (Proc.devRef .tc main_arg7)) (V (Proc.devRef .tc main_arg8)) (V (Proc.devRef .tc main_arg9)) (V (Proc.devRef .tc main_arg10)) (V (Proc.devRef .tc main_arg11))) := by
  rw [ops1_eq, StableHlo.after_append, StableHlo.after_append, p1c_sum, p1b_keep _ main_v61 (by decide), p1b_mean, p1b_var,
    p1b_g, p1b_be, p1a_lin, p1a_keep _ main_arg10 (by decide), p1a_keep _ main_arg11 (by decide),
    p1b_keep _ main_v39 (by decide), p1a_keep _ main_v39 (by decide)]
  rfl
theorem chunk1_v1 : StableHlo.after (ops1 (F := Ideal)) V (Proc.devRef .tc main_v1) = V (Proc.devRef .tc main_v1) :=
  ops1_keep V main_v1 (by decide) (by decide) (by decide)
theorem chunk1_v3 : StableHlo.after (ops1 (F := Ideal)) V (Proc.devRef .tc main_v3) = V (Proc.devRef .tc main_v3) :=
  ops1_keep V main_v3 (by decide) (by decide) (by decide)
theorem chunk1_arg7 : StableHlo.after (ops1 (F := Ideal)) V (Proc.devRef .tc main_arg7) = V (Proc.devRef .tc main_arg7) :=
  ops1_keep V main_arg7 (by decide) (by decide) (by decide)
theorem chunk1_arg8 : StableHlo.after (ops1 (F := Ideal)) V (Proc.devRef .tc main_arg8) = V (Proc.devRef .tc main_arg8) :=
  ops1_keep V main_arg8 (by decide) (by decide) (by decide)
theorem chunk1_arg9 : StableHlo.after (ops1 (F := Ideal)) V (Proc.devRef .tc main_arg9) = V (Proc.devRef .tc main_arg9) :=
  ops1_keep V main_arg9 (by decide) (by decide) (by decide)
theorem chunk1_arg10 : StableHlo.after (ops1 (F := Ideal)) V (Proc.devRef .tc main_arg10) = V (Proc.devRef .tc main_arg10) :=
  ops1_keep V main_arg10 (by decide) (by decide) (by decide)
theorem chunk1_arg11 : StableHlo.after (ops1 (F := Ideal)) V (Proc.devRef .tc main_arg11) = V (Proc.devRef .tc main_arg11) :=
  ops1_keep V main_arg11 (by decide) (by decide) (by decide)

/-! ### The second residual layer: its output, the running sum, the edge vectors and the stacked parameters kept -/

theorem chunk2_out : StableHlo.after (ops2 (F := Ideal)) V (Proc.devRef .tc main_v132)
    = mid1 (V (Proc.devRef .tc main_v85)) (V (Proc.devRef .tc main_v1)) (V (Proc.devRef .tc main_v3))
        (V (Proc.devRef .tc main_arg7)) (V (Proc.devRef .tc main_arg8)) (V (Proc.devRef .tc main_arg9)) (V (Proc.devRef .tc main_arg10)) (V (Proc.devRef .tc main_arg11)) := by
  rw [ops2_eq, StableHlo.after_append, StableHlo.after_append, p2c_out, p2b_keep _ main_v108 (by decide), p2b_mean, p2b_var,
    p2b_g, p2b_be, p2a_lin, p2a_keep _ main_arg10 (by decide), p2a_keep _ main_arg11 (by decide)]
  rfl
theorem chunk2_sum : StableHlo.after (ops2 (F := Ideal)) V (Proc.devRef .tc main_v133)
    = addf (V (Proc.devRef .tc main_v86)) (mid1 (V (Proc.devRef .tc main_v85)) (V (Proc.devRef .tc main_v1)) (V (Proc.devRef .tc main_v3))
        (V (Proc.devRef .tc main_arg7)) (V (Proc.devRef .tc main_arg8)) (V (Proc.devRef .tc main_arg9)) (V (Proc.devRef .tc main_arg10)) (V (Proc.devRef .tc main_arg11))) := by
  rw [ops2_eq, StableHlo.after_append, StableHlo.after_append, p2c_sum, p2b_keep _ main_v108 (by decide), p2b_mean, p2b_var,
    p2b_g, p2b_be, p2a_lin, p2a_keep _ main_arg10 (by decide), p2a_keep _ main_arg11 (by decide),
    p2b_keep _ main_v86 (by decide), p2a_keep _ main_v86 (by decide)]
  rfl
theorem chunk2_v1 : StableHlo.after (ops2 (F := Ideal)) V (Proc.devRef .tc main_v1) = V (Proc.devRef .tc main_v1) :=
  ops2_keep V main_v1 (by decide) (by decide) (by decide)
theorem chunk2_v3 : StableHlo.after (ops2 (F := Ideal)) V (Proc.devRef .tc main_v3) = V (Proc.devRef .tc main_v3) :=
  ops2_keep V main_v3 (by decide) (by decide) (by decide)
theorem chunk2_arg7 : StableHlo.after (ops2 (F := Ideal)) V (Proc.devRef .tc main_arg7) = V (Proc.devRef .tc main_arg7) :=
  ops2_keep V main_arg7 (by decide) (by decide) (by decide)
theorem chunk2_arg8 : StableHlo.after (ops2 (F := Ideal)) V (Proc.devRef .tc main_arg8) = V (Proc.devRef .tc main_arg8) :=
  ops2_keep V main_arg8 (by decide) (by decide) (by decide)
theorem chunk2_arg9 : StableHlo.after (ops2 (F := Ideal)) V (Proc.devRef .tc main_arg9) = V (Proc.devRef .tc main_arg9) :=
  ops2_keep V main_arg9 (by decide) (by decide) (by decide)
theorem chunk2_arg10 : StableHlo.after (ops2 (F := Ideal)) V (Proc.devRef .tc main_arg10) = V (Proc.devRef .tc main_arg10) :=
  ops2_keep V main_arg10 (by decide) (by decide) (by decide)
theorem chunk2_arg11 : StableHlo.after (ops2 (F := Ideal)) V (Proc.devRef .tc main_arg11) = V (Proc.devRef .tc main_arg11) :=
  ops2_keep V main_arg11 (by decide) (by decide) (by decide)

/-! ### The third residual layer: its output, the running sum, the edge vectors and the stacked parameters kept -/

theorem chunk3_out : StableHlo.after (ops3 (F := Ideal)) V (Proc.devRef .tc main_v179)
    = mid2 (V (Proc.devRef .tc main_v132)) (V (Proc.devRef .tc main_v1)) (V (Proc.devRef .tc main_v3))
        (V (Proc.devRef .tc main_arg7)) (V (Proc.devRef .tc main_arg8)) (V (Proc.devRef .tc main_arg9)) (V (Proc.devRef .tc main_arg10)) (V (Proc.devRef .tc main_arg11)) := by
  rw [ops3_eq, StableHlo.after_append, StableHlo.after_append, p3c_out, p3b_keep _ main_v155 (by decide), p3b_mean, p3b_var,
    p3b_g, p3b_be, p3a_lin, p3a_keep _ main_arg10 (by decide), p3a_keep _ main_arg11 (by decide)]
  rfl
theorem chunk3_sum : StableHlo.after (ops3 (F := Ideal)) V (Proc.devRef .tc main_v180)
    = addf (V (Proc.devRef .tc main_v133)) (mid2 (V (Proc.devRef .tc main_v132)) (V (Proc.devRef .tc main_v1)) (V (Proc.devRef .tc main_v3))
        (V (Proc.devRef .tc main_arg7)) (V (Proc.devRef .tc main_arg8)) (V (Proc.devRef .tc main_arg9)) (V (Proc.devRef .tc main_arg10)) (V (Proc.devRef .tc main_arg11))) := by
  rw [ops3_eq, StableHlo.after_append, StableHlo.after_append, p3c_sum, p3b_keep _ main_v155 (by decide), p3b_mean, p3b_var,
    p3b_g, p3b_be, p3a_lin, p3a_keep _ main_arg10 (by decide), p3a_keep _ main_arg11 (by decide),
    p3b_keep _ main_v133 (by decide), p3a_keep _ main_v133 (by decide)]
  rfl
theorem chunk3_v1 : StableHlo.after (ops3 (F := Ideal)) V (Proc.devRef .tc main_v1) = V (Proc.devRef .tc main_v1) :=
  ops3_keep V main_v1 (by decide) (by decide) (by decide)
theorem chunk3_v3 : StableHlo.after (ops3 (F := Ideal)) V (Proc.devRef .tc main_v3) = V (Proc.devRef .tc main_v3) :=
  ops3_keep V main_v3 (by decide) (by decide) (by decide)
theorem chunk3_arg7 : StableHlo.after (ops3 (F := Ideal)) V (Proc.devRef .tc main_arg7) = V (Proc.devRef .tc main_arg7) :=
  ops3_keep V main_arg7 (by decide) (by decide) (by decide)
theorem chunk3_arg8 : StableHlo.after (ops3 (F := Ideal)) V (Proc.devRef .tc main_arg8) = V (Proc.devRef .tc main_arg8) :=
  ops3_keep V main_arg8 (by decide) (by decide) (by decide)
theorem chunk3_arg9 : StableHlo.after (ops3 (F := Ideal)) V (Proc.devRef .tc main_arg9) = V (Proc.devRef .tc main_arg9) :=
  ops3_keep V main_arg9 (by decide) (by decide) (by decide)
theorem chunk3_arg10 : StableHlo.after (ops3 (F := Ideal)) V (Proc.devRef .tc main_arg10) = V (Proc.devRef .tc main_arg10) :=
  ops3_keep V main_arg10 (by decide) (by decide) (by decide)
theorem chunk3_arg11 : StableHlo.after (ops3 (F := Ideal)) V (Proc.devRef .tc main_arg11) = V (Proc.devRef .tc main_arg11) :=
  ops3_keep V main_arg11 (by decide) (by decide) (by decide)

end Layers

/-! ## The whole line -/

section Whole
variable (V : Valuation τ sig (Elt Ideal))

theorem arg0_kept : StableHlo.after (ops0 ++ ops1 ++ ops2 ++ ops3 : List (HloOp τ sig (Elt Ideal))) V (Proc.devRef .tc main_arg0)
    = V (Proc.devRef .tc main_arg0) := all_keep V main_arg0 (by decide)
theorem arg1_kept : StableHlo.after (ops0 ++ ops1 ++ ops2 ++ ops3 : List (HloOp τ sig (Elt Ideal))) V (Proc.devRef .tc main_arg1)
    = V (Proc.devRef .tc main_arg1) := all_keep V main_arg1 (by decide)
theorem arg2_kept : StableHlo.after (ops0 ++ ops1 ++ ops2 ++ ops3 : List (HloOp τ sig (Elt Ideal))) V (Proc.devRef .tc main_arg2)
    = V (Proc.devRef .tc main_arg2) := all_keep V main_arg2 (by decide)
theorem arg3_kept : StableHlo.after (ops0 ++ ops1 ++ ops2 ++ ops3 : List (HloOp τ sig (Elt Ideal))) V (Proc.devRef .tc main_arg3)
    = V (Proc.devRef .tc main_arg3) := all_keep V main_arg3 (by decide)
theorem arg4_kept : StableHlo.after (ops0 ++ ops1 ++ ops2 ++ ops3 : List (HloOp τ sig (Elt Ideal))) V (Proc.devRef .tc main_arg4)
    = V (Proc.devRef .tc main_arg4) := all_keep V main_arg4 (by decide)
theorem arg5_kept : StableHlo.after (ops0 ++ ops1 ++ ops2 ++ ops3 : List (HloOp τ sig (Elt Ideal))) V (Proc.devRef .tc main_arg5)
    = V (Proc.devRef .tc main_arg5) := all_keep V main_arg5 (by decide)
theorem arg6_kept : StableHlo.after (ops0 ++ ops1 ++ ops2 ++ ops3 : List (HloOp τ sig (Elt Ideal))) V (Proc.devRef .tc main_arg6)
    = V (Proc.devRef .tc main_arg6) := all_keep V main_arg6 (by decide)
theorem arg7_kept : StableHlo.after (ops0 ++ ops1 ++ ops2 ++ ops3 : List (HloOp τ sig (Elt Ideal))) V (Proc.devRef .tc main_arg7)
    = V (Proc.devRef .tc main_arg7) := all_keep V main_arg7 (by decide)
theorem arg8_kept : StableHlo.after (ops0 ++ ops1 ++ ops2 ++ ops3 : List (HloOp τ sig (Elt Ideal))) V (Proc.devRef .tc main_arg8)
    = V (Proc.devRef .tc main_arg8) := all_keep V main_arg8 (by decide)
theorem arg9_kept : StableHlo.after (ops0 ++ ops1 ++ ops2 ++ ops3 : List (HloOp τ sig (Elt Ideal))) V (Proc.devRef .tc main_arg9)
    = V (Proc.devRef .tc main_arg9) := all_keep V main_arg9 (by decide)
theorem arg10_kept : StableHlo.after (ops0 ++ ops1 ++ ops2 ++ ops3 : List (HloOp τ sig (Elt Ideal))) V (Proc.devRef .tc main_arg10)
    = V (Proc.devRef .tc main_arg10) := all_keep V main_arg10 (by decide)
theorem arg11_kept : StableHlo.after (ops0 ++ ops1 ++ ops2 ++ ops3 : List (HloOp τ sig (Elt Ideal))) V (Proc.devRef .tc main_arg11)
    = V (Proc.devRef .tc main_arg11) := all_keep V main_arg11 (by decide)

/-- The last buffer of the line holds the network's result at the twelve arguments: each layer's list is read on
    what the lists before it leave, the fourth's running sum is the third's plus the fourth layer's output, and so
    on down to the input layer's output. -/
theorem result : (StableHlo.after (ops0 ++ ops1 ++ ops2 ++ ops3 : List (HloOp τ sig (Elt Ideal))) V (Proc.devRef .tc main_v180) : Node)
    = Cert.Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_layers, chunk3_sum,
    chunk2_sum, chunk2_out, chunk2_v1, chunk2_v3, chunk2_arg7, chunk2_arg8, chunk2_arg9, chunk2_arg10, chunk2_arg11,
    chunk1_sum, chunk1_out, chunk1_v1, chunk1_v3, chunk1_arg7, chunk1_arg8, chunk1_arg9, chunk1_arg10, chunk1_arg11,
    chunk0_v39, chunk0_v1, chunk0_v3, chunk0_arg7, chunk0_arg8, chunk0_arg9, chunk0_arg10, chunk0_arg11]
  rfl

end Whole

end Cert.ReferenceIdeal.RefValue

end
-- ==== Proof.lean ====
/-
  The certificate: the kernel's program and its idealization run and leave their arguments as launched (the
  generated frames); the reference runs and leaves its arguments as launched (its run, read at the argument
  buffers); nothing was rewritten by the idealization; and the idealized kernel and the idealized reference, run
  from memories that agree on the arguments, both end with the network's value Spec.out of the arguments in their
  result buffers: the kernel's by following its eight regions and the host operations between them from the
  launch contents, the reference's by following its operations layer by layer.
-/
import proofs.«145014_j19963007992111_1_alg».proof.Defs
import proofs.«145014_j19963007992111_1_alg».proof.Proof.Gen.Kernel
import proofs.«145014_j19963007992111_1_alg».proof.Proof.Gen.Kernel.Frame
import proofs.«145014_j19963007992111_1_alg».proof.Proof.Gen.KernelIdeal
import proofs.«145014_j19963007992111_1_alg».proof.Proof.Gen.KernelIdeal.Frame
import proofs.«145014_j19963007992111_1_alg».proof.Proof.Gen.ReferenceIdeal
import proofs.«145014_j19963007992111_1_alg».proof.Proof.Gen.Pre_finite_inputs
import proofs.«145014_j19963007992111_1_alg».proof.Proof.KRun
import proofs.«145014_j19963007992111_1_alg».proof.Proof.KFinal
import proofs.«145014_j19963007992111_1_alg».proof.Proof.RefOps
import proofs.«145014_j19963007992111_1_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

/-- The reference's run leaves every argument buffer at its launch contents: no operation writes one. -/
theorem frame_ri : Cert.frame_ReferenceIdeal := fun m ρ _ =>
  (θ_run Cert.ReferenceIdeal.defs _ _).mono
    (fun r h c => ⟨(h c Cert.ReferenceIdeal.main_arg0).trans (Cert.ReferenceIdeal.RefValue.arg0_kept _),
      (h c Cert.ReferenceIdeal.main_arg1).trans (Cert.ReferenceIdeal.RefValue.arg1_kept _),
      (h c Cert.ReferenceIdeal.main_arg2).trans (Cert.ReferenceIdeal.RefValue.arg2_kept _),
      (h c Cert.ReferenceIdeal.main_arg3).trans (Cert.ReferenceIdeal.RefValue.arg3_kept _),
      (h c Cert.ReferenceIdeal.main_arg4).trans (Cert.ReferenceIdeal.RefValue.arg4_kept _),
      (h c Cert.ReferenceIdeal.main_arg5).trans (Cert.ReferenceIdeal.RefValue.arg5_kept _),
      (h c Cert.ReferenceIdeal.main_arg6).trans (Cert.ReferenceIdeal.RefValue.arg6_kept _),
      (h c Cert.ReferenceIdeal.main_arg7).trans (Cert.ReferenceIdeal.RefValue.arg7_kept _),
      (h c Cert.ReferenceIdeal.main_arg8).trans (Cert.ReferenceIdeal.RefValue.arg8_kept _),
      (h c Cert.ReferenceIdeal.main_arg9).trans (Cert.ReferenceIdeal.RefValue.arg9_kept _),
      (h c Cert.ReferenceIdeal.main_arg10).trans (Cert.ReferenceIdeal.RefValue.arg10_kept _),
      (h c Cert.ReferenceIdeal.main_arg11).trans (Cert.ReferenceIdeal.RefValue.arg11_kept _)⟩)
    (Cert.ReferenceIdeal.RefRun.run (F := Ideal) m ρ)

theorem preserves : Cert.preserves_Kernel_KernelIdeal := trivial

/-- Both idealized programs end with the network's value of the (agreeing) arguments in their result buffers. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KChain.result m ρ c), (h c).2⟩)
      (Cert.KernelIdeal.KRun.run_named (F := Ideal) m ρ)
  · refine (θ_run Cert.ReferenceIdeal.defs _ _).mono (fun r h c => ⟨?_, (h c Cert.ReferenceIdeal.main_arg0).trans (Cert.ReferenceIdeal.RefValue.arg0_kept _),
      (h c Cert.ReferenceIdeal.main_arg1).trans (Cert.ReferenceIdeal.RefValue.arg1_kept _),
      (h c Cert.ReferenceIdeal.main_arg2).trans (Cert.ReferenceIdeal.RefValue.arg2_kept _),
      (h c Cert.ReferenceIdeal.main_arg3).trans (Cert.ReferenceIdeal.RefValue.arg3_kept _),
      (h c Cert.ReferenceIdeal.main_arg4).trans (Cert.ReferenceIdeal.RefValue.arg4_kept _),
      (h c Cert.ReferenceIdeal.main_arg5).trans (Cert.ReferenceIdeal.RefValue.arg5_kept _),
      (h c Cert.ReferenceIdeal.main_arg6).trans (Cert.ReferenceIdeal.RefValue.arg6_kept _),
      (h c Cert.ReferenceIdeal.main_arg7).trans (Cert.ReferenceIdeal.RefValue.arg7_kept _),
      (h c Cert.ReferenceIdeal.main_arg8).trans (Cert.ReferenceIdeal.RefValue.arg8_kept _),
      (h c Cert.ReferenceIdeal.main_arg9).trans (Cert.ReferenceIdeal.RefValue.arg9_kept _),
      (h c Cert.ReferenceIdeal.main_arg10).trans (Cert.ReferenceIdeal.RefValue.arg10_kept _),
      (h c Cert.ReferenceIdeal.main_arg11).trans (Cert.ReferenceIdeal.RefValue.arg11_kept _)⟩)
      (Cert.ReferenceIdeal.RefRun.run (F := Ideal) m' ρ')
    refine (h c Cert.ReferenceIdeal.main_v180).trans ((Cert.ReferenceIdeal.RefValue.result (StableHlo.launchContents m' c)).trans ?_)
    obtain ⟨e0, e1, e2, e3, e4, e5, e6, e7, e8, e9, e10, e11⟩ := hagree c
    show Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
